-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048x8 : Shape := ⟨4, ![1, 2048, 2048, 8]⟩
abbrev S8x8x1x1 : Shape := ⟨4, ![8, 8, 1, 1]⟩
abbrev S_ : Shape := ⟨0, ![]⟩

class Facts : Prop where
  bcast_S_S1x2048x2048x8 : S_.BroadcastsInDim S1x2048x2048x8 (![] : Fin 0 → Fin S1x2048x2048x8.rank)
  reducesTo_S1x2048x2048x8_S_d0_1_2_3 : S1x2048x2048x8.ReducesTo [0, 1, 2, 3] S_
  h_S_ : 0 < S_.numel
  bcast_S_S8x8x1x1 : S_.BroadcastsInDim S8x8x1x1 (![] : Fin 0 → Fin S8x8x1x1.rank)
  reducesTo_S8x8x1x1_S_d0_1_2_3 : S8x8x1x1.ReducesTo [0, 1, 2, 3] S_

variable [Facts]

def fn_part1 {F : FTy → Type} [FloatOps F] (main_arg4 : FVec F S8x8x1x1 .f32) (main_v13 : IVec S_ 1) (main_v16 : IVec S8x8x1x1 1) : IVec S_ 1 :=
  let main_c_5 : IVec S_ 1 := constantI S_ 1 1#1
  let main_v17 : IVec S_ 1 := (fun x v => Host.reduce IntOp.andi x v reducesTo_S8x8x1x1_S_d0_1_2_3 h_S_) main_v16 main_c_5
  let main_v18 : IVec S_ 1 := andi main_v13 main_v17
  let main_v19 : FVec F S8x8x1x1 .f32 := Host.absf main_arg4
  let main_cst_6 : FVec F S_ .f32 := constant S_ .f32 0x7F800000#32
  let main_v20 : FVec F S8x8x1x1 .f32 := broadcastInDim S8x8x1x1 ![] bcast_S_S8x8x1x1 main_cst_6
  let main_v21 : IVec S8x8x1x1 1 := cmpf .olt main_v19 main_v20
  let main_c_7 : IVec S_ 1 := constantI S_ 1 1#1
  let main_v22 : IVec S_ 1 := (fun x v => Host.reduce IntOp.andi x v reducesTo_S8x8x1x1_S_d0_1_2_3 h_S_) main_v21 main_c_7
  let main_v23 : IVec S_ 1 := andi main_v18 main_v22
  main_v23

def fn {F : FTy → Type} [FloatOps F] (main_arg0 : FVec F S1x2048x2048x8 .f32) (main_arg1 : FVec F S8x8x1x1 .f32) (main_arg2 : FVec F S8x8x1x1 .f32) (main_arg3 : FVec F S8x8x1x1 .f32) (main_arg4 : FVec F S8x8x1x1 .f32) : IVec S_ 1 :=
  let main_v0 : FVec F S1x2048x2048x8 .f32 := Host.absf main_arg0
  let main_cst : FVec F S_ .f32 := constant S_ .f32 0x7F800000#32
  let main_v1 : FVec F S1x2048x2048x8 .f32 := broadcastInDim S1x2048x2048x8 ![] bcast_S_S1x2048x2048x8 main_cst
  let main_v2 : IVec S1x2048x2048x8 1 := cmpf .olt main_v0 main_v1
  let main_c : IVec S_ 1 := constantI S_ 1 1#1
  let main_v3 : IVec S_ 1 := (fun x v => Host.reduce IntOp.andi x v reducesTo_S1x2048x2048x8_S_d0_1_2_3 h_S_) main_v2 main_c
  let main_v4 : FVec F S8x8x1x1 .f32 := Host.absf main_arg1
  let main_cst_0 : FVec F S_ .f32 := constant S_ .f32 0x7F800000#32
  let main_v5 : FVec F S8x8x1x1 .f32 := broadcastInDim S8x8x1x1 ![] bcast_S_S8x8x1x1 main_cst_0
  let main_v6 : IVec S8x8x1x1 1 := cmpf .olt main_v4 main_v5
  let main_c_1 : IVec S_ 1 := constantI S_ 1 1#1
  let main_v7 : IVec S_ 1 := (fun x v => Host.reduce IntOp.andi x v reducesTo_S8x8x1x1_S_d0_1_2_3 h_S_) main_v6 main_c_1
  let main_v8 : IVec S_ 1 := andi main_v3 main_v7
  let main_v9 : FVec F S8x8x1x1 .f32 := Host.absf main_arg2
  let main_cst_2 : FVec F S_ .f32 := constant S_ .f32 0x7F800000#32
  let main_v10 : FVec F S8x8x1x1 .f32 := broadcastInDim S8x8x1x1 ![] bcast_S_S8x8x1x1 main_cst_2
  let main_v11 : IVec S8x8x1x1 1 := cmpf .olt main_v9 main_v10
  let main_c_3 : IVec S_ 1 := constantI S_ 1 1#1
  let main_v12 : IVec S_ 1 := (fun x v => Host.reduce IntOp.andi x v reducesTo_S8x8x1x1_S_d0_1_2_3 h_S_) main_v11 main_c_3
  let main_v13 : IVec S_ 1 := andi main_v8 main_v12
  let main_v14 : FVec F S8x8x1x1 .f32 := Host.absf main_arg3
  let main_cst_4 : FVec F S_ .f32 := constant S_ .f32 0x7F800000#32
  let main_v15 : FVec F S8x8x1x1 .f32 := broadcastInDim S8x8x1x1 ![] bcast_S_S8x8x1x1 main_cst_4
  let main_v16 : IVec S8x8x1x1 1 := cmpf .olt main_v14 main_v15
  fn_part1 (F := F) main_arg4 main_v13 main_v16
-- ==== Kernel.lean ====
abbrev S1x2048x2048x8 : Shape := ⟨4, ![1, 2048, 2048, 8]⟩
abbrev S8x8x1x1 : Shape := ⟨4, ![8, 8, 1, 1]⟩
abbrev S8x8 : Shape := ⟨2, ![8, 8]⟩
abbrev S_ : Shape := ⟨0, ![]⟩
abbrev S8 : Shape := ⟨1, ![8]⟩
abbrev S8x1 : Shape := ⟨2, ![8, 1]⟩
abbrev S2048x2048x8 : Shape := ⟨3, ![2048, 2048, 8]⟩
abbrev S8x2048x2048 : Shape := ⟨3, ![8, 2048, 2048]⟩
abbrev S8x256x512 : Shape := ⟨3, ![8, 256, 512]⟩
abbrev S1x8 : Shape := ⟨2, ![1, 8]⟩
abbrev S8x1x1 : Shape := ⟨3, ![8, 1, 1]⟩
abbrev S256x512 : Shape := ⟨2, ![256, 512]⟩
abbrev S1x256x512 : Shape := ⟨3, ![1, 256, 512]⟩
abbrev S1x1024x1024 : Shape := ⟨3, ![1, 1024, 1024]⟩
abbrev S1024x1024 : Shape := ⟨2, ![1024, 1024]⟩
abbrev S8x2048 : Shape := ⟨2, ![8, 2048]⟩
abbrev S8x128x2048 : Shape := ⟨3, ![8, 128, 2048]⟩
abbrev S8x1024 : Shape := ⟨2, ![8, 1024]⟩
abbrev S1x1024 : Shape := ⟨2, ![1, 1024]⟩
abbrev S1024 : Shape := ⟨1, ![1024]⟩
abbrev S2048x2048 : Shape := ⟨2, ![2048, 2048]⟩
abbrev S8x256x1024 : Shape := ⟨3, ![8, 256, 1024]⟩
abbrev S256x1024 : Shape := ⟨2, ![256, 1024]⟩

abbrev nBuf : Space → Nat
  | .hbm => 106
  | .vmem => 49
  | .smem => 0
  | _ => 0

abbrev bufTy : (tb : Table) → Fin (tcTables nBuf tb) → BufTy
  | .hbm, ⟨0, _⟩ => ⟨S1x2048x2048x8, .f32⟩
  | .hbm, ⟨1, _⟩ => ⟨S8x8x1x1, .f32⟩
  | .hbm, ⟨2, _⟩ => ⟨S8x8x1x1, .f32⟩
  | .hbm, ⟨3, _⟩ => ⟨S8x8x1x1, .f32⟩
  | .hbm, ⟨4, _⟩ => ⟨S8x8x1x1, .f32⟩
  | .hbm, ⟨5, _⟩ => ⟨S8x8, .f32⟩
  | .hbm, ⟨6, _⟩ => ⟨S_, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8x1, .f32⟩
  | .hbm, ⟨12, _⟩ => ⟨S8x8, .f32⟩
  | .hbm, ⟨13, _⟩ => ⟨S8x8, .f32⟩
  | .hbm, ⟨14, _⟩ => ⟨S8x8, .f32⟩
  | .hbm, ⟨15, _⟩ => ⟨S_, .f32⟩
  | .hbm, ⟨16, _⟩ => ⟨S8, .f32⟩
  | .hbm, ⟨17, _⟩ => ⟨S8x1, .f32⟩
  | .hbm, ⟨18, _⟩ => ⟨S8x8, .f32⟩
  | .hbm, ⟨19, _⟩ => ⟨S8x8, .f32⟩
  | .hbm, ⟨20, _⟩ => ⟨S8x8, .f32⟩
  | .hbm, ⟨21, _⟩ => ⟨S_, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8x1, .f32⟩
  | .hbm, ⟨27, _⟩ => ⟨S8x8, .f32⟩
  | .hbm, ⟨28, _⟩ => ⟨S8x8, .f32⟩
  | .hbm, ⟨29, _⟩ => ⟨S8x8, .f32⟩
  | .hbm, ⟨30, _⟩ => ⟨S_, .f32⟩
  | .hbm, ⟨31, _⟩ => ⟨S8, .f32⟩
  | .hbm, ⟨32, _⟩ => ⟨S8x1, .f32⟩
  | .hbm, ⟨33, _⟩ => ⟨S8x8, .f32⟩
  | .hbm, ⟨34, _⟩ => ⟨S8x8, .f32⟩
  | .hbm, ⟨35, _⟩ => ⟨S8x8, .f32⟩
  | .hbm, ⟨36, _⟩ => ⟨S_, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S8x1, .f32⟩
  | .hbm, ⟨42, _⟩ => ⟨S8x8, .f32⟩
  | .hbm, ⟨43, _⟩ => ⟨S8x8, .f32⟩
  | .hbm, ⟨44, _⟩ => ⟨S8x8, .f32⟩
  | .hbm, ⟨45, _⟩ => ⟨S_, .f32⟩
  | .hbm, ⟨46, _⟩ => ⟨S8, .f32⟩
  | .hbm, ⟨47, _⟩ => ⟨S8x1, .f32⟩
  | .hbm, ⟨48, _⟩ => ⟨S8x8, .f32⟩
  | .hbm, ⟨49, _⟩ => ⟨S8x8, .f32⟩
  | .hbm, ⟨50, _⟩ => ⟨S8x8, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8x1, .f32⟩
  | .hbm, ⟨57, _⟩ => ⟨S8x8, .f32⟩
  | .hbm, ⟨58, _⟩ => ⟨S8x8, .f32⟩
  | .hbm, ⟨59, _⟩ => ⟨S8x8, .f32⟩
  | .hbm, ⟨60, _⟩ => ⟨S_, .f32⟩
  | .hbm, ⟨61, _⟩ => ⟨S8, .f32⟩
  | .hbm, ⟨62, _⟩ => ⟨S8x1, .f32⟩
  | .hbm, ⟨63, _⟩ => ⟨S8x8, .f32⟩
  | .hbm, ⟨64, _⟩ => ⟨S8x8, .f32⟩
  | .hbm, ⟨65, _⟩ => ⟨S2048x2048x8, .f32⟩
  | .hbm, ⟨66, _⟩ => ⟨S8x2048x2048, .f32⟩
  | .hbm, ⟨67, _⟩ => ⟨S8x2048x2048, .bf16⟩
  | .hbm, ⟨68, _⟩ => ⟨S8x2048x2048, .bf16⟩
  | .hbm, ⟨69, _⟩ => ⟨S8x2048x2048, .bf16⟩
  | .hbm, ⟨70, _⟩ => ⟨S8x2048x2048, .bf16⟩
  | .hbm, ⟨71, _⟩ => ⟨S8x2048x2048, .f32⟩
  | .hbm, ⟨72, _⟩ => ⟨S8x2048, .f32⟩
  | .hbm, ⟨73, _⟩ => ⟨S_, .f32⟩
  | .hbm, ⟨74, _⟩ => ⟨S8x2048, .f32⟩
  | .hbm, ⟨75, _⟩ => ⟨S8x2048, .i1⟩
  | .hbm, ⟨76, _⟩ => ⟨S_, .f32⟩
  | .hbm, ⟨77, _⟩ => ⟨S8x2048, .f32⟩
  | .hbm, ⟨78, _⟩ => ⟨S8x2048, .f32⟩
  | .hbm, ⟨79, _⟩ => ⟨S_, .f32⟩
  | .hbm, ⟨80, _⟩ => ⟨S8x2048, .f32⟩
  | .hbm, ⟨81, _⟩ => ⟨S_, .f32⟩
  | .hbm, ⟨82, _⟩ => ⟨S8x2048, .f32⟩
  | .hbm, ⟨83, _⟩ => ⟨S8x2048, .f32⟩
  | .hbm, ⟨84, _⟩ => ⟨S8x2048, .f32⟩
  | .hbm, ⟨85, _⟩ => ⟨S8x2048x2048, .f32⟩
  | .hbm, ⟨86, _⟩ => ⟨S8x2048, .f32⟩
  | .hbm, ⟨87, _⟩ => ⟨S_, .f32⟩
  | .hbm, ⟨88, _⟩ => ⟨S8x2048, .f32⟩
  | .hbm, ⟨89, _⟩ => ⟨S8x2048, .i1⟩
  | .hbm, ⟨90, _⟩ => ⟨S_, .f32⟩
  | .hbm, ⟨91, _⟩ => ⟨S8x2048, .f32⟩
  | .hbm, ⟨92, _⟩ => ⟨S8x2048, .f32⟩
  | .hbm, ⟨93, _⟩ => ⟨S_, .f32⟩
  | .hbm, ⟨94, _⟩ => ⟨S8x2048, .f32⟩
  | .hbm, ⟨95, _⟩ => ⟨S_, .f32⟩
  | .hbm, ⟨96, _⟩ => ⟨S8x2048, .f32⟩
  | .hbm, ⟨97, _⟩ => ⟨S8x2048, .f32⟩
  | .hbm, ⟨98, _⟩ => ⟨S8x2048, .f32⟩
  | .hbm, ⟨99, _⟩ => ⟨S8x2048x2048, .f32⟩
  | .hbm, ⟨100, _⟩ => ⟨S2048x2048, .f32⟩
  | .hbm, ⟨101, _⟩ => ⟨S2048x2048, .f32⟩
  | .hbm, ⟨102, _⟩ => ⟨S2048x2048, .f32⟩
  | .hbm, ⟨103, _⟩ => ⟨S_, .f32⟩
  | .hbm, ⟨104, _⟩ => ⟨S2048x2048, .f32⟩
  | .hbm, ⟨105, _⟩ => ⟨S2048x2048, .f32⟩
  | .local _ .vmem, ⟨0, _⟩ => ⟨S8x256x512, .f32⟩
  | .local _ .vmem, ⟨1, _⟩ => ⟨S8x256x512, .f32⟩
  | .local _ .vmem, ⟨2, _⟩ => ⟨S8x8, .f32⟩
  | .local _ .vmem, ⟨3, _⟩ => ⟨S8x8, .f32⟩
  | .local _ .vmem, ⟨4, _⟩ => ⟨S8x8, .f32⟩
  | .local _ .vmem, ⟨5, _⟩ => ⟨S8x8, .f32⟩
  | .local _ .vmem, ⟨6, _⟩ => ⟨S8x256x512, .bf16⟩
  | .local _ .vmem, ⟨7, _⟩ => ⟨S8x256x512, .bf16⟩
  | .local _ .vmem, ⟨8, _⟩ => ⟨S8x256x512, .bf16⟩
  | .local _ .vmem, ⟨9, _⟩ => ⟨S8x256x512, .bf16⟩
  | .local _ .vmem, ⟨10, _⟩ => ⟨S8x256x512, .bf16⟩
  | .local _ .vmem, ⟨11, _⟩ => ⟨S8x256x512, .bf16⟩
  | .local _ .vmem, ⟨12, _⟩ => ⟨S8x256x512, .bf16⟩
  | .local _ .vmem, ⟨13, _⟩ => ⟨S8x256x512, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .f32⟩
  | .local _ .vmem, ⟨19, _⟩ => ⟨S1x1024x1024, .f32⟩
  | .local _ .vmem, ⟨20, _⟩ => ⟨S1024x1024, .f32⟩
  | .local _ .vmem, ⟨21, _⟩ => ⟨S8x128x2048, .f32⟩
  | .local _ .vmem, ⟨22, _⟩ => ⟨S8x128x2048, .f32⟩
  | .local _ .vmem, ⟨23, _⟩ => ⟨S8x2048, .f32⟩
  | .local _ .vmem, ⟨24, _⟩ => ⟨S1x1024x1024, .f32⟩
  | .local _ .vmem, ⟨25, _⟩ => ⟨S1x1024x1024, .f32⟩
  | .local _ .vmem, ⟨26, _⟩ => ⟨S8x1024, .f32⟩
  | .local _ .vmem, ⟨27, _⟩ => ⟨S8x1024, .f32⟩
  | .local _ .vmem, ⟨28, _⟩ => ⟨S1x1024x1024, .bf16⟩
  | .local _ .vmem, ⟨29, _⟩ => ⟨S1x1024x1024, .bf16⟩
  | .local _ .vmem, ⟨30, _⟩ => ⟨S1x1024x1024, .f32⟩
  | .local _ .vmem, ⟨31, _⟩ => ⟨S1x1024x1024, .f32⟩
  | .local _ .vmem, ⟨32, _⟩ => ⟨S1024x1024, .f32⟩
  | .local _ .vmem, ⟨33, _⟩ => ⟨S8x128x2048, .f32⟩
  | .local _ .vmem, ⟨34, _⟩ => ⟨S8x128x2048, .f32⟩
  | .local _ .vmem, ⟨35, _⟩ => ⟨S8x2048, .f32⟩
  | .local _ .vmem, ⟨36, _⟩ => ⟨S1x1024x1024, .f32⟩
  | .local _ .vmem, ⟨37, _⟩ => ⟨S1x1024x1024, .f32⟩
  | .local _ .vmem, ⟨38, _⟩ => ⟨S8x1024, .f32⟩
  | .local _ .vmem, ⟨39, _⟩ => ⟨S8x1024, .f32⟩
  | .local _ .vmem, ⟨40, _⟩ => ⟨S1x1024x1024, .bf16⟩
  | .local _ .vmem, ⟨41, _⟩ => ⟨S1x1024x1024, .bf16⟩
  | .local _ .vmem, ⟨42, _⟩ => ⟨S1x1024x1024, .f32⟩
  | .local _ .vmem, ⟨43, _⟩ => ⟨S1x1024x1024, .f32⟩
  | .local _ .vmem, ⟨44, _⟩ => ⟨S1024x1024, .f32⟩
  | .local _ .vmem, ⟨45, _⟩ => ⟨S8x256x1024, .f32⟩
  | .local _ .vmem, ⟨46, _⟩ => ⟨S8x256x1024, .f32⟩
  | .local _ .vmem, ⟨47, _⟩ => ⟨S256x1024, .f32⟩
  | .local _ .vmem, ⟨48, _⟩ => ⟨S256x1024, .f32⟩
  | _, _ => ⟨S1x2048x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v50_3 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_19 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc5_scratch0 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨4, ![8, 2, 2, 2], ![false, false, false, false]⟩

def k1_cond2 (i : grid1.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true, false]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨4, ![8, 2, 2, 2], ![false, false, false, false]⟩

def k3_off1 (i : grid3.Coords) : Fin 2 → Nat :=
  let arg0 : BitVec 32 := BitVec.ofNat 32 (i 0).val
  let v14 : Index := Scalar.indexCast arg0
  let c0_4 : Index := 0#32
  ![v14.toNat, 0]
def k3_cond2 (i : grid3.Coords) : BitVec 1 :=
  let arg3 : BitVec 32 := BitVec.ofNat 32 (i 3).val
  let c1_i32 : BitVec 32 := 1#32
  let v31 : BitVec 1 := Scalar.cmpi .eq arg3 c1_i32
  let v32 : BitVec 32 := Scalar.extui v31
  let c0_i32_13 : BitVec 32 := 0#32
  let v33 : BitVec 1 := Scalar.cmpi .ne v32 c0_i32_13
  v33

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage3_0 : Fin 2 → Memref sig .tc .vmem S1x1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false, true]

abbrev stage3_1 : Fin 2 → Memref sig .tc .vmem S8x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, false, true]

abbrev stage3_2 : Fin 2 → Memref sig .tc .vmem S1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true, true]

abbrev stage3_3 : Fin 2 → Memref sig .tc .vmem S1x1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true, false]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8x128x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev grid5 : Pipeline.Grid := ⟨4, ![8, 2, 2, 2], ![false, false, false, false]⟩

def k5_off1 (i : grid5.Coords) : Fin 2 → Nat :=
  let arg0 : BitVec 32 := BitVec.ofNat 32 (i 0).val
  let v14 : Index := Scalar.indexCast arg0
  let c0_4 : Index := 0#32
  ![v14.toNat, 0]
def k5_cond2 (i : grid5.Coords) : BitVec 1 :=
  let arg3 : BitVec 32 := BitVec.ofNat 32 (i 3).val
  let c1_i32 : BitVec 32 := 1#32
  let v31 : BitVec 1 := Scalar.cmpi .eq arg3 c1_i32
  let v32 : BitVec 32 := Scalar.extui v31
  let c0_i32_13 : BitVec 32 := 0#32
  let v33 : BitVec 1 := Scalar.cmpi .ne v32 c0_i32_13
  v33

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage5_0 : Fin 2 → Memref sig .tc .vmem S1x1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false, true]

abbrev stage5_1 : Fin 2 → Memref sig .tc .vmem S8x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, false, false, true]

abbrev stage5_2 : Fin 2 → Memref sig .tc .vmem S1x1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, true, true]

abbrev stage5_3 : Fin 2 → Memref sig .tc .vmem S1x1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true, false]

abbrev grid6 : Pipeline.Grid := ⟨2, ![8, 2], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S8x256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S256x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

class Facts₀ : Prop where
  shapeCasts_S8x8x1x1_S8x8 : S8x8x1x1.ShapeCasts S8x8
  reducesTo_S8x8_S8_d1 : S8x8.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x8_0_1 : S8x1.BroadcastsInDim S8x8 (![0, 1] : Fin 2 → Fin S8x8.rank)
  shapeCasts_S1x2048x2048x8_S2048x2048x8 : S1x2048x2048x8.ShapeCasts S2048x2048x8
  transposes_S2048x2048x8_S8x2048x2048_2_0_1 : S2048x2048x8.Transposes [2, 0, 1] S8x2048x2048
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  inb_S8x8_S8x8_0_0 : ∀ a, (![0, 0] : Fin 2 → Nat) a + S8x8.size a ≤ S8x8.size a
  h_S8x8 : 0 < S8x8.numel
  shapeCasts_S8x8_S8x8 : S8x8.ShapeCasts S8x8
  slices_S8x8_o0_0_S1x8 : S8x8.Slices ![0, 0] S1x8
  shapeCasts_S1x8_S8 : S1x8.ShapeCasts S8
  shapeCasts_S8_S8x1x1 : S8.ShapeCasts S8x1x1
  broadcasts_S8x1x1_S8x256x512 : S8x1x1.Broadcasts S8x256x512
  reduces_S8x256x512_S256x512 : S8x256x512.Reduces [0] S256x512
  bitsLt_bf16_f32 : FTy.bits .bf16 < FTy.bits .f32
  inb_S8x256x512_S1x256x512_0_0_0 : ∀ a, (![0, 0, 0] : Fin 3 → Nat) a + S1x256x512.size a ≤ S8x256x512.size a
  h_S1x256x512 : 0 < S1x256x512.numel
  shapeCasts_S1x256x512_S256x512 : S1x256x512.ShapeCasts S256x512
  shapeCasts_S256x512_S1x256x512 : S256x512.ShapeCasts S1x256x512
  packedbf16_S8x256x512_S1x256x512_0_0_0 : (Rect.unit (s := S8x256x512) ![0, 0, 0] S1x256x512.size inb_S8x256x512_S1x256x512_0_0_0).PackedRows (EltTy.packing .bf16)
  slices_S8x8_o1_0_S1x8 : S8x8.Slices ![1, 0] S1x8
  inb_S8x256x512_S1x256x512_1_0_0 : ∀ a, (![1, 0, 0] : Fin 3 → Nat) a + S1x256x512.size a ≤ S8x256x512.size a
  packedbf16_S8x256x512_S1x256x512_1_0_0 : (Rect.unit (s := S8x256x512) ![1, 0, 0] S1x256x512.size inb_S8x256x512_S1x256x512_1_0_0).PackedRows (EltTy.packing .bf16)
  slices_S8x8_o2_0_S1x8 : S8x8.Slices ![2, 0] S1x8
  inb_S8x256x512_S1x256x512_2_0_0 : ∀ a, (![2, 0, 0] : Fin 3 → Nat) a + S1x256x512.size a ≤ S8x256x512.size a
  packedbf16_S8x256x512_S1x256x512_2_0_0 : (Rect.unit (s := S8x256x512) ![2, 0, 0] S1x256x512.size inb_S8x256x512_S1x256x512_2_0_0).PackedRows (EltTy.packing .bf16)
  slices_S8x8_o3_0_S1x8 : S8x8.Slices ![3, 0] S1x8
  inb_S8x256x512_S1x256x512_3_0_0 : ∀ a, (![3, 0, 0] : Fin 3 → Nat) a + S1x256x512.size a ≤ S8x256x512.size a
  packedbf16_S8x256x512_S1x256x512_3_0_0 : (Rect.unit (s := S8x256x512) ![3, 0, 0] S1x256x512.size inb_S8x256x512_S1x256x512_3_0_0).PackedRows (EltTy.packing .bf16)
  slices_S8x8_o4_0_S1x8 : S8x8.Slices ![4, 0] S1x8
  inb_S8x256x512_S1x256x512_4_0_0 : ∀ a, (![4, 0, 0] : Fin 3 → Nat) a + S1x256x512.size a ≤ S8x256x512.size a
  packedbf16_S8x256x512_S1x256x512_4_0_0 : (Rect.unit (s := S8x256x512) ![4, 0, 0] S1x256x512.size inb_S8x256x512_S1x256x512_4_0_0).PackedRows (EltTy.packing .bf16)
  slices_S8x8_o5_0_S1x8 : S8x8.Slices ![5, 0] S1x8
  inb_S8x256x512_S1x256x512_5_0_0 : ∀ a, (![5, 0, 0] : Fin 3 → Nat) a + S1x256x512.size a ≤ S8x256x512.size a
  packedbf16_S8x256x512_S1x256x512_5_0_0 : (Rect.unit (s := S8x256x512) ![5, 0, 0] S1x256x512.size inb_S8x256x512_S1x256x512_5_0_0).PackedRows (EltTy.packing .bf16)
  slices_S8x8_o6_0_S1x8 : S8x8.Slices ![6, 0] S1x8
  inb_S8x256x512_S1x256x512_6_0_0 : ∀ a, (![6, 0, 0] : Fin 3 → Nat) a + S1x256x512.size a ≤ S8x256x512.size a
  packedbf16_S8x256x512_S1x256x512_6_0_0 : (Rect.unit (s := S8x256x512) ![6, 0, 0] S1x256x512.size inb_S8x256x512_S1x256x512_6_0_0).PackedRows (EltTy.packing .bf16)
  slices_S8x8_o7_0_S1x8 : S8x8.Slices ![7, 0] S1x8
  inb_S8x256x512_S1x256x512_7_0_0 : ∀ a, (![7, 0, 0] : Fin 3 → Nat) a + S1x256x512.size a ≤ S8x256x512.size a
  packedbf16_S8x256x512_S1x256x512_7_0_0 : (Rect.unit (s := S8x256x512) ![7, 0, 0] S1x256x512.size inb_S8x256x512_S1x256x512_7_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S8x2048_S8x2048_0_0 : ∀ a, (![0, 0] : Fin 2 → Nat) a + S8x2048.size a ≤ S8x2048.size a
  h_S8x2048 : 0 < S8x2048.numel
  inb_S8x128x2048_S8x128x2048_0_0_0 : ∀ a, (![0, 0, 0] : Fin 3 → Nat) a + S8x128x2048.size a ≤ S8x128x2048.size a
  h_S8x128x2048 : 0 < S8x128x2048.numel
  shapeCasts_S8x128x2048_S8x128x2048 : S8x128x2048.ShapeCasts S8x128x2048
  iota_S8x128x2048_d1_w32 : S8x128x2048.Iotas .tc 32 [1]
  iota_S8x128x2048_d2_w32 : S8x128x2048.Iotas .tc 32 [2]
  shapeCasts_S8x2048_S8x2048 : S8x2048.ShapeCasts S8x2048
  reduces_S8x128x2048_S8x2048 : S8x128x2048.Reduces [1] S8x2048
  bcast_S_S8x2048 : S_.BroadcastsInDim S8x2048 (![] : Fin 0 → Fin S8x2048.rank)
  iota_S1024x1024_d0_w32 : S1024x1024.Iotas .tc 32 [0]
  iota_S1024x1024_d1_w32 : S1024x1024.Iotas .tc 32 [1]
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  inb_S8x256x1024_S8x256x1024_0_0_0 : ∀ a, (![0, 0, 0] : Fin 3 → Nat) a + S8x256x1024.size a ≤ S8x256x1024.size a
  h_S8x256x1024 : 0 < S8x256x1024.numel
  shapeCasts_S8x256x1024_S8x256x1024 : S8x256x1024.ShapeCasts S8x256x1024
  reduces_S8x256x1024_S256x1024 : S8x256x1024.Reduces [0] S256x1024
  inb_S256x1024_S256x1024_0_0 : ∀ a, (![0, 0] : Fin 2 → Nat) a + S256x1024.size a ≤ S256x1024.size a
  h_S256x1024 : 0 < S256x1024.numel
  transposes_S2048x2048_S2048x2048_1_0 : S2048x2048.Transposes [1, 0] S2048x2048
  bcast_S_S2048x2048 : S_.BroadcastsInDim S2048x2048 (![] : Fin 0 → Fin S2048x2048.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x2048x2048.size a
  hwx0_0 : ∀ i : grid0.Coords, EltTy.bits .f32 = 32 ∨ (Rect.block (s := S8x2048x2048) S8x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S8x8.size a
  hwx0_1 : ∀ i : grid0.Coords, EltTy.bits .f32 = 32 ∨ (Rect.block (s := S8x8) S8x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8.size a ≤ S8x8.size a
  hwx0_2 : ∀ i : grid0.Coords, EltTy.bits .f32 = 32 ∨ (Rect.block (s := S8x8) S8x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x8.size a ≤ S8x8.size a
  hwx0_4 : ∀ i : grid0.Coords, EltTy.bits .f32 = 32 ∨ (Rect.block (s := S8x8) S8x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256x512.size a ≤ S8x2048x2048.size a
  hwx0_5 : ∀ i : grid0.Coords, EltTy.bits .bf16 = 32 ∨ (Rect.block (s := S8x2048x2048) S8x256x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x512.size a ≤ S8x2048x2048.size a
  hwx0_6 : ∀ i : grid0.Coords, EltTy.bits .bf16 = 32 ∨ (Rect.block (s := S8x2048x2048) S8x256x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256x512.size a ≤ S8x2048x2048.size a
  hwx0_7 : ∀ i : grid0.Coords, EltTy.bits .bf16 = 32 ∨ (Rect.block (s := S8x2048x2048) S8x256x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x256x512.size a ≤ S8x2048x2048.size a
  hwx0_8 : ∀ i : grid0.Coords, EltTy.bits .bf16 = 32 ∨ (Rect.block (s := S8x2048x2048) S8x256x512.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x2048.size a
  hwx1_0 : ∀ i : grid1.Coords, EltTy.bits .bf16 = 32 ∨ (Rect.block (s := S8x2048x2048) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x2048.size a
  hwx1_1 : ∀ i : grid1.Coords, EltTy.bits .bf16 = 32 ∨ (Rect.block (s := S8x2048x2048) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x2048.size a
  hwx1_2 : ∀ i : grid1.Coords, EltTy.bits .f32 = 32 ∨ (Rect.block (s := S8x2048x2048) S1x1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x2048.size a ≤ S8x2048x2048.size a
  hwx2_0 : ∀ i : grid2.Coords, EltTy.bits .f32 = 32 ∨ (Rect.block (s := S8x2048x2048) S8x128x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x2048.size a ≤ S8x2048.size a
  hwx2_1 : ∀ i : grid2.Coords, EltTy.bits .f32 = 32 ∨ (Rect.block (s := S8x2048) S8x2048.size (cc2_transform_1 i) (hinb2_1 i)).WholeWords (EltTy.packing .f32)
  hrank3 : 0 < grid3.rank
  k3_off1_inb : ∀ i : grid3.Coords, ∀ a, (k3_off1 i) a + S1x1024.size a ≤ S8x1024.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024x1024.size a ≤ S8x2048x2048.size a
  hwx3_0 : ∀ i : grid3.Coords, EltTy.bits .f32 = 32 ∨ (Rect.block (s := S8x2048x2048) S1x1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x1024.size a ≤ S8x2048.size a
  hwx3_1 : ∀ i : grid3.Coords, EltTy.bits .f32 = 32 ∨ (Rect.block (s := S8x2048) S8x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x1024.size a ≤ S8x2048x2048.size a
  hwx3_2 : ∀ i : grid3.Coords, EltTy.bits .bf16 = 32 ∨ (Rect.block (s := S8x2048x2048) S1x1024x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024x1024.size a ≤ S8x2048x2048.size a
  hwx3_3 : ∀ i : grid3.Coords, EltTy.bits .f32 = 32 ∨ (Rect.block (s := S8x2048x2048) S1x1024x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x128x2048.size a ≤ S8x2048x2048.size a
  hwx4_0 : ∀ i : grid4.Coords, EltTy.bits .f32 = 32 ∨ (Rect.block (s := S8x2048x2048) S8x128x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x2048.size a ≤ S8x2048.size a
  hwx4_1 : ∀ i : grid4.Coords, EltTy.bits .f32 = 32 ∨ (Rect.block (s := S8x2048) S8x2048.size (cc4_transform_1 i) (hinb4_1 i)).WholeWords (EltTy.packing .f32)
  hrank5 : 0 < grid5.rank
  k5_off1_inb : ∀ i : grid5.Coords, ∀ a, (k5_off1 i) a + S1x1024.size a ≤ S8x1024.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1024x1024.size a ≤ S8x2048x2048.size a
  hwx5_0 : ∀ i : grid5.Coords, EltTy.bits .f32 = 32 ∨ (Rect.block (s := S8x2048x2048) S1x1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8x1024.size a ≤ S8x2048.size a
  hwx5_1 : ∀ i : grid5.Coords, EltTy.bits .f32 = 32 ∨ (Rect.block (s := S8x2048) S8x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024x1024.size a ≤ S8x2048x2048.size a
  hwx5_2 : ∀ i : grid5.Coords, EltTy.bits .bf16 = 32 ∨ (Rect.block (s := S8x2048x2048) S1x1024x1024.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x1024x1024.size a ≤ S8x2048x2048.size a
  hwx5_3 : ∀ i : grid5.Coords, EltTy.bits .f32 = 32 ∨ (Rect.block (s := S8x2048x2048) S1x1024x1024.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8x256x1024.size a ≤ S8x2048x2048.size a
  hwx6_0 : ∀ i : grid6.Coords, EltTy.bits .f32 = 32 ∨ (Rect.block (s := S8x2048x2048) S8x256x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x1024.size a ≤ S2048x2048.size a
  hwx6_1 : ∀ i : grid6.Coords, EltTy.bits .f32 = 32 ∨ (Rect.block (s := S2048x2048) S256x1024.size (cc6_transform_1 i) (hinb6_1 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v49) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S8x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S8x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50_0) S8x256x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v50_1) S8x256x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v50_2) S8x256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v50_3) S8x256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v50_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v51) S8x128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S8x2048.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v51) S1x1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S8x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50_2) S1x1024x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v61) S8x128x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S8x2048.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v61) S1x1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v70) S8x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50_3) S1x1024x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v71) S1x1024x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v71) S8x256x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S256x1024.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S1x2048x2048x8 : Shape := ⟨4, ![1, 2048, 2048, 8]⟩
abbrev S8x8x1x1 : Shape := ⟨4, ![8, 8, 1, 1]⟩
abbrev S1x8x2048x2048 : Shape := ⟨4, ![1, 8, 2048, 2048]⟩
abbrev S_ : Shape := ⟨0, ![]⟩
abbrev S8x1x1 : Shape := ⟨3, ![8, 1, 1]⟩
abbrev S8x1x1x1 : Shape := ⟨4, ![8, 1, 1, 1]⟩
abbrev S8x8x2048x2048 : Shape := ⟨4, ![8, 8, 2048, 2048]⟩
abbrev S8x2048x2048 : Shape := ⟨3, ![8, 2048, 2048]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 161
  | .vmem => 0
  | .smem => 0
  | _ => 0

abbrev hbmTy0_0 (i : Nat) : BufTy := match i % 128 with
  | 0 => ⟨S1x2048x2048x8, .f32⟩
  | 1 => ⟨S8x8x1x1, .f32⟩
  | 2 => ⟨S8x8x1x1, .f32⟩
  | 3 => ⟨S8x8x1x1, .f32⟩
  | 4 => ⟨S8x8x1x1, .f32⟩
  | 5 => ⟨S1x8x2048x2048, .f32⟩
  | 6 => ⟨S_, .f32⟩
  | 7 => ⟨S8x1x1, .f32⟩
  | 8 => ⟨S_, .f32⟩
  | 9 => ⟨S8x1x1, .f32⟩
  | 10 => ⟨S8x1x1, .f32⟩
  | 11 => ⟨S8x1x1x1, .f32⟩
  | 12 => ⟨S8x8x1x1, .f32⟩
  | 13 => ⟨S8x8x1x1, .f32⟩
  | 14 => ⟨S8x8x1x1, .f32⟩
  | 15 => ⟨S_, .f32⟩
  | 16 => ⟨S8x1x1, .f32⟩
  | 17 => ⟨S8x1x1x1, .f32⟩
  | 18 => ⟨S8x8x1x1, .f32⟩
  | 19 => ⟨S8x8x1x1, .f32⟩
  | 20 => ⟨S8x8x2048x2048, .f32⟩
  | 21 => ⟨S8x8x2048x2048, .f32⟩
  | 22 => ⟨S8x8x2048x2048, .f32⟩
  | 23 => ⟨S_, .f32⟩
  | 24 => ⟨S8x2048x2048, .f32⟩
  | 25 => ⟨S_, .f32⟩
  | 26 => ⟨S8x1x1, .f32⟩
  | 27 => ⟨S_, .f32⟩
  | 28 => ⟨S8x1x1, .f32⟩
  | 29 => ⟨S8x1x1, .f32⟩
  | 30 => ⟨S8x1x1x1, .f32⟩
  | 31 => ⟨S8x8x1x1, .f32⟩
  | 32 => ⟨S8x8x1x1, .f32⟩
  | 33 => ⟨S8x8x1x1, .f32⟩
  | 34 => ⟨S_, .f32⟩
  | 35 => ⟨S8x1x1, .f32⟩
  | 36 => ⟨S8x1x1x1, .f32⟩
  | 37 => ⟨S8x8x1x1, .f32⟩
  | 38 => ⟨S8x8x1x1, .f32⟩
  | 39 => ⟨S8x8x2048x2048, .f32⟩
  | 40 => ⟨S8x8x2048x2048, .f32⟩
  | 41 => ⟨S8x8x2048x2048, .f32⟩
  | 42 => ⟨S_, .f32⟩
  | 43 => ⟨S8x2048x2048, .f32⟩
  | 44 => ⟨S8x2048x2048, .f32⟩
  | 45 => ⟨S2048x2048, .i32⟩
  | 46 => ⟨S2048x2048, .i32⟩
  | 47 => ⟨S_, .i32⟩
  | 48 => ⟨S2048x2048, .i32⟩
  | 49 => ⟨S2048x2048, .i32⟩
  | 50 => ⟨S2048x2048, .i1⟩
  | 51 => ⟨S2048x2048, .f32⟩
  | 52 => ⟨S_, .f32⟩
  | 53 => ⟨S2048x2048, .f32⟩
  | 54 => ⟨S2048x2048, .f32⟩
  | 55 => ⟨S1x2048x2048, .f32⟩
  | 56 => ⟨S8x2048x2048, .f32⟩
  | 57 => ⟨S8x2048x2048, .f32⟩
  | 58 => ⟨S_, .f32⟩
  | 59 => ⟨S8x2048, .f32⟩
  | 60 => ⟨S_, .f32⟩
  | 61 => ⟨S8x2048, .f32⟩
  | 62 => ⟨S8x2048, .i1⟩
  | 63 => ⟨S_, .f32⟩
  | 64 => ⟨S8x2048, .f32⟩
  | 65 => ⟨S8x2048, .f32⟩
  | 66 => ⟨S_, .f32⟩
  | 67 => ⟨S8x2048, .f32⟩
  | 68 => ⟨S8x2048, .i1⟩
  | 69 => ⟨S_, .f32⟩
  | 70 => ⟨S8x2048, .f32⟩
  | 71 => ⟨S_, .f32⟩
  | 72 => ⟨S8x2048, .f32⟩
  | 73 => ⟨S8x2048, .f32⟩
  | 74 => ⟨S8x2048, .f32⟩
  | 75 => ⟨S8x1x2048, .f32⟩
  | 76 => ⟨S8x2048x2048, .f32⟩
  | 77 => ⟨S8x2048x2048, .f32⟩
  | 78 => ⟨S_, .f32⟩
  | 79 => ⟨S8x1x1, .f32⟩
  | 80 => ⟨S_, .f32⟩
  | 81 => ⟨S8x1x1, .f32⟩
  | 82 => ⟨S8x1x1, .f32⟩
  | 83 => ⟨S8x1x1x1, .f32⟩
  | 84 => ⟨S8x8x1x1, .f32⟩
  | 85 => ⟨S8x8x1x1, .f32⟩
  | 86 => ⟨S8x8x1x1, .f32⟩
  | 87 => ⟨S_, .f32⟩
  | 88 => ⟨S8x1x1, .f32⟩
  | 89 => ⟨S8x1x1x1, .f32⟩
  | 90 => ⟨S8x8x1x1, .f32⟩
  | 91 => ⟨S8x8x1x1, .f32⟩
  | 92 => ⟨S8x8x2048x2048, .f32⟩
  | 93 => ⟨S8x8x2048x2048, .f32⟩
  | 94 => ⟨S8x8x2048x2048, .f32⟩
  | 95 => ⟨S_, .f32⟩
  | 96 => ⟨S8x2048x2048, .f32⟩
  | 97 => ⟨S8x2048x2048, .f32⟩
  | 98 => ⟨S2048x2048, .i32⟩
  | 99 => ⟨S2048x2048, .i32⟩
  | 100 => ⟨S_, .i32⟩
  | 101 => ⟨S2048x2048, .i32⟩
  | 102 => ⟨S2048x2048, .i32⟩
  | 103 => ⟨S2048x2048, .i1⟩
  | 104 => ⟨S2048x2048, .f32⟩
  | 105 => ⟨S_, .f32⟩
  | 106 => ⟨S2048x2048, .f32⟩
  | 107 => ⟨S2048x2048, .f32⟩
  | 108 => ⟨S1x2048x2048, .f32⟩
  | 109 => ⟨S8x2048x2048, .f32⟩
  | 110 => ⟨S8x2048x2048, .f32⟩
  | 111 => ⟨S_, .f32⟩
  | 112 => ⟨S8x2048, .f32⟩
  | 113 => ⟨S_, .f32⟩
  | 114 => ⟨S8x2048, .f32⟩
  | 115 => ⟨S8x2048, .i1⟩
  | 116 => ⟨S_, .f32⟩
  | 117 => ⟨S8x2048, .f32⟩
  | 118 => ⟨S8x2048, .f32⟩
  | 119 => ⟨S_, .f32⟩
  | 120 => ⟨S8x2048, .f32⟩
  | 121 => ⟨S8x2048, .i1⟩
  | 122 => ⟨S_, .f32⟩
  | 123 => ⟨S8x2048, .f32⟩
  | 124 => ⟨S_, .f32⟩
  | 125 => ⟨S8x2048, .f32⟩
  | 126 => ⟨S8x2048, .f32⟩
  | 127 => ⟨S8x2048, .f32⟩
  | _ => ⟨S1x2048x2048x8, .f32⟩

abbrev hbmTy0_1 (i : Nat) : BufTy := match i % 128 with
  | 0 => ⟨S8x1x2048, .f32⟩
  | 1 => ⟨S8x2048x2048, .f32⟩
  | 2 => ⟨S8x2048x2048, .f32⟩
  | 3 => ⟨S_, .f32⟩
  | 4 => ⟨S8x1x1, .f32⟩
  | 5 => ⟨S_, .f32⟩
  | 6 => ⟨S8x1x1, .f32⟩
  | 7 => ⟨S8x1x1, .f32⟩
  | 8 => ⟨S8x1x1x1, .f32⟩
  | 9 => ⟨S8x8x1x1, .f32⟩
  | 10 => ⟨S8x8x1x1, .f32⟩
  | 11 => ⟨S8x8x1x1, .f32⟩
  | 12 => ⟨S_, .f32⟩
  | 13 => ⟨S8x1x1, .f32⟩
  | 14 => ⟨S8x1x1x1, .f32⟩
  | 15 => ⟨S8x8x1x1, .f32⟩
  | 16 => ⟨S8x8x1x1, .f32⟩
  | 17 => ⟨S8x8x2048x2048, .f32⟩
  | 18 => ⟨S8x8x2048x2048, .f32⟩
  | 19 => ⟨S8x8x2048x2048, .f32⟩
  | 20 => ⟨S_, .f32⟩
  | 21 => ⟨S8x2048x2048, .f32⟩
  | 22 => ⟨S8x2048x2048, .f32⟩
  | 23 => ⟨S_, .f32⟩
  | 24 => ⟨S2048x2048, .f32⟩
  | 25 => ⟨S_, .f32⟩
  | 26 => ⟨S2048x2048, .f32⟩
  | 27 => ⟨S2048x2048, .f32⟩
  | 28 => ⟨S2048x2048, .f32⟩
  | 29 => ⟨S2048x2048, .f32⟩
  | 30 => ⟨S_, .f32⟩
  | 31 => ⟨S2048x2048, .f32⟩
  | 32 => ⟨S2048x2048, .f32⟩
  | _ => ⟨S1x2048x2048x8, .f32⟩

abbrev hbmTy (i : Nat) : BufTy := match i / 128 with
  | 0 => hbmTy0_0 i
  | 1 => hbmTy0_1 i
  | _ => ⟨S1x2048x2048x8, .f32⟩

abbrev bufTy : (tb : Table) → Fin (tcTables nBuf tb) → BufTy
  | .hbm, ⟨i, _⟩ => hbmTy i
  | _, _ => ⟨S1x2048x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_17 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_18 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_19 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_20 : Ref sig .tc := ⟨.hbm, 111, rfl⟩
abbrev main_v84 : Ref sig .tc := ⟨.hbm, 112, rfl⟩
abbrev main_cst_21 : Ref sig .tc := ⟨.hbm, 113, rfl⟩
abbrev main_v85 : Ref sig .tc := ⟨.hbm, 114, rfl⟩
abbrev main_v86 : Ref sig .tc := ⟨.hbm, 115, rfl⟩
abbrev main_cst_22 : Ref sig .tc := ⟨.hbm, 116, rfl⟩
abbrev main_v87 : Ref sig .tc := ⟨.hbm, 117, rfl⟩
abbrev main_v88 : Ref sig .tc := ⟨.hbm, 118, rfl⟩
abbrev main_cst_23 : Ref sig .tc := ⟨.hbm, 119, rfl⟩
abbrev main_v89 : Ref sig .tc := ⟨.hbm, 120, rfl⟩
abbrev main_v90 : Ref sig .tc := ⟨.hbm, 121, rfl⟩
abbrev main_cst_24 : Ref sig .tc := ⟨.hbm, 122, rfl⟩
abbrev main_v91 : Ref sig .tc := ⟨.hbm, 123, rfl⟩
abbrev main_cst_25 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_26 : Ref sig .tc := ⟨.hbm, 131, rfl⟩
abbrev main_v98 : Ref sig .tc := ⟨.hbm, 132, rfl⟩
abbrev main_cst_27 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_28 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_29 : Ref sig .tc := ⟨.hbm, 148, rfl⟩
abbrev main_v112 : Ref sig .tc := ⟨.hbm, 149, rfl⟩
abbrev main_v113 : Ref sig .tc := ⟨.hbm, 150, rfl⟩
abbrev main_cst_30 : Ref sig .tc := ⟨.hbm, 151, rfl⟩
abbrev main_v114 : Ref sig .tc := ⟨.hbm, 152, rfl⟩
abbrev main_cst_31 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_32 : Ref sig .tc := ⟨.hbm, 158, rfl⟩
abbrev main_v119 : Ref sig .tc := ⟨.hbm, 159, rfl⟩
abbrev main_v120 : Ref sig .tc := ⟨.hbm, 160, rfl⟩

abbrev nD : Nat := 1
abbrev τ : Topo := Topo.v7x

variable {F : FTy → Type} [FloatOps F]

class Facts₀ : Prop where
  transposes_S1x2048x2048x8_S1x8x2048x2048_0_3_1_2 : S1x2048x2048x8.Transposes [0, 3, 1, 2] S1x8x2048x2048
  reducesTo_S8x8x1x1_S8x1x1_d1 : S8x8x1x1.ReducesTo [1] S8x1x1
  h_S_ : 0 < S_.numel
  bcast_S_S8x1x1 : S_.BroadcastsInDim S8x1x1 (![] : Fin 0 → Fin S8x1x1.rank)
  bcast_S8x1x1_S8x1x1x1_0_2_3 : S8x1x1.BroadcastsInDim S8x1x1x1 (![0, 2, 3] : Fin 3 → Fin S8x1x1x1.rank)
  bcast_S8x1x1x1_S8x8x1x1_0_1_2_3 : S8x1x1x1.BroadcastsInDim S8x8x1x1 (![0, 1, 2, 3] : Fin 4 → Fin S8x8x1x1.rank)
  bcast_S1x8x2048x2048_S8x8x2048x2048_0_1_2_3 : S1x8x2048x2048.BroadcastsInDim S8x8x2048x2048 (![0, 1, 2, 3] : Fin 4 → Fin S8x8x2048x2048.rank)
  bcast_S8x8x1x1_S8x8x2048x2048_0_1_2_3 : S8x8x1x1.BroadcastsInDim S8x8x2048x2048 (![0, 1, 2, 3] : Fin 4 → Fin S8x8x2048x2048.rank)
  reducesTo_S8x8x2048x2048_S8x2048x2048_d1 : S8x8x2048x2048.ReducesTo [1] S8x2048x2048
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d1 : S8x2048x2048.ReducesTo [1] S8x2048
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S2048x2048_d0 : S8x2048x2048.ReducesTo [0] S2048x2048
  transposes_S2048x2048_S2048x2048_1_0 : S2048x2048.Transposes [1, 0] S2048x2048
  dot_S8x2048x2048_S8x2048x2048_S8x2048x2048_2_1_1_2_0_0_wf : DotDims.WF S8x2048x2048 S8x2048x2048 S8x2048x2048 [2] [1] [1] [2] [0] [0]

variable [Facts₀]

def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.K.Gtconv.lean ====
/-
  The channel-mixing region: from the 8 x 256 x 512 block of the edge-type stack and the four 8 x 8 tables of softmax
  weights it stores, for each of the four tables and each channel c, the 256 x 512 slice  sum over e of A[e] · w[c, e]  into
  slice c of that table's 8 x 256 x 512 result block. The grid has 32 points (8 row bands by 4 column bands); no point reads
  what another wrote. The 32 slice stores of a point tile the four result blocks.
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev VO0_5 : View sig .tc .vmem S8x256x512 .bf16 := (Memref.whole cc0_stg5_0 : Memref sig .tc .vmem S8x256x512 .bf16).view
abbrev VO0_6 : View sig .tc .vmem S8x256x512 .bf16 := (Memref.whole cc0_stg6_0 : Memref sig .tc .vmem S8x256x512 .bf16).view
abbrev VO0_7 : View sig .tc .vmem S8x256x512 .bf16 := (Memref.whole cc0_stg7_0 : Memref sig .tc .vmem S8x256x512 .bf16).view
abbrev VO0_8 : View sig .tc .vmem S8x256x512 .bf16 := (Memref.whole cc0_stg8_0 : Memref sig .tc .vmem S8x256x512 .bf16).view
abbrev ms0_0 (t : Fin cfg0.N) : Memref sig .tc .vmem S8x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x256x512 .bf16 := win0_8.stage (cfg0.slots t 8)
abbrev hs0_8 (t : Fin cfg0.N) : (ms0_8 t).IsWhole := hstage0_8 ((cfg0.slots t 8).cast nbuf0_8)

set_option maxHeartbeats 8000000 in
/-- The body on whole staging memrefs: the five inputs kept, each of the four result buffers (at anything before) left with
    its eight slice stores' pieces written. -/
noncomputable def kernelRun0 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) :
    Σ' (L5 : List (View.Piece (Elt F) S8x256x512 .bf16)) (L6 : List (View.Piece (Elt F) S8x256x512 .bf16)) (L7 : List (View.Piece (Elt F) S8x256x512 .bf16)),
      { L8 : List (View.Piece (Elt F) S8x256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)) -∗ K ⟨⟩))
          ⊢ wp frame (wpE (defs₀ (F := F)) Variants.none c none) E (cc0__gtconv_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__gtconv_kernel_eq_skeleton]; unfold cc0__gtconv_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

theorem cover0_5 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).1 S1x256x512.size (by sl_kernel_rfl) y

/-- What the body leaves in result window 5's staging buffer. -/
def out0_5 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_5.read (Elt F) (VO0_5.writes (Elt F) VO0_5.junk (kernelRun0 c i arg2 harg2 arg3 harg3 arg4 harg4 arg5 harg5 arg6 harg6 arg7 harg7 arg8 harg8 arg9 harg9 arg10 harg10 x0 x1 x2 x3 x4).1)

theorem cover0_6 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).2.1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).2.1 S1x256x512.size (by sl_kernel_rfl) y

/-- What the body leaves in result window 6's staging buffer. -/
def out0_6 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_6.read (Elt F) (VO0_6.writes (Elt F) VO0_6.junk (kernelRun0 c i arg2 harg2 arg3 harg3 arg4 harg4 arg5 harg5 arg6 harg6 arg7 harg7 arg8 harg8 arg9 harg9 arg10 harg10 x0 x1 x2 x3 x4).2.1)

theorem cover0_7 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).2.2.1 S1x256x512.size (by sl_kernel_rfl) y

/-- What the body leaves in result window 7's staging buffer. -/
def out0_7 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_7.read (Elt F) (VO0_7.writes (Elt F) VO0_7.junk (kernelRun0 c i arg2 harg2 arg3 harg3 arg4 harg4 arg5 harg5 arg6 harg6 arg7 harg7 arg8 harg8 arg9 harg9 arg10 harg10 x0 x1 x2 x3 x4).2.2.1)

theorem cover0_8 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).2.2.2.1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).2.2.2.1 S1x256x512.size (by sl_kernel_rfl) y

/-- What the body leaves in result window 8's staging buffer. -/
def out0_8 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_8.read (Elt F) (VO0_8.writes (Elt F) VO0_8.junk (kernelRun0 c i arg2 harg2 arg3 harg3 arg4 harg4 arg5 harg5 arg6 harg6 arg7 harg7 arg8 harg8 arg9 harg9 arg10 harg10 x0 x1 x2 x3 x4).2.2.2.1)

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold out0_5 out0_6 out0_7 out0_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ (iblk0 V c 0 t) (iblk0 V c 1 t) (iblk0 V c 2 t) (iblk0 V c 3 t) (iblk0 V c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _ _ _ )
  isplitl [H6]
  · unfold owns; iexists _; isplitr
    swap; · iexact H6
    ipureintro; exact View.read_writes_of_cover _ _ _ _ _ (cover0_6 c _ _ _ _ _ _ _ _ _ _ _ _ _ _ _ _ _ _ _ _ _ _ _ _ )
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ )
  unfold owns; iexists _; isplitr
  swap; · iexact H8
  ipureintro; exact View.read_writes_of_cover _ _ _ _ _ (cover0_8 c _ _ _ _ _ _ _ _ _ _ _ _ _ _ _ _ _ _ _ _ _ _ _ _ )

/-- The body obligation of the channel-mixing region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Bmm.lean ====
/-
  The first batched product H0[c] = a[c] · b[c], cut into 1024 x 1024 blocks: the grid's 64 points are (channel, row block,
  column block, k) with k ∈ {0, 1} fastest. A 1024 x 1024 accumulator in scratch memory is carried from the point k = 0 to the
  point k = 1 of the same block: at k = 0 the body zeroes it and adds the product of the two input blocks; at k = 1 it adds the
  second product and then copies the accumulator into the result's staging buffer, which is written back after that point
  only (at k = 0 the body stores nothing there).
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "k = 0": the body's first test. -/
abbrev cond1_0 (i : grid1.Coords) : Prop := (Scalar.cmpi .ne (Scalar.extui (Scalar.cmpi .eq (BitVec.ofNat 32 (i 3).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "k = 1", the last: the body's second test. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem liveAt1_2_B : ∀ t : Fin cfg1.N, ¬cond1_0 (grid1.coords t) → cond1_1 (grid1.coords t) → cfg1.idle 2 (grid1.coords t) = false := by decide +kernel

abbrev VO1_2 : View sig .tc .vmem S1x1024x1024 .f32 := (Memref.whole cc1_stg2_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
/-- The accumulator. -/
abbrev scM1 : Memref sig .tc .vmem S1024x1024 .f32 := Memref.whole cc1_scratch0
abbrev VS1 : View sig .tc .vmem S1024x1024 .f32 := scM1.view

/-- The class invariant with the accumulator taken out of the scoped rest. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

set_option maxHeartbeats 2000000 in
/-- The body at k = 0: the inputs kept, the result's buffer handed back untouched, the accumulator (at anything before) left
    with the stores' pieces written. -/
noncomputable def kernelRun1_A (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) :
    Σ' (L2 : List (View.Piece (Elt F) S1x1024x1024 .f32)), { LS : List (View.Piece (Elt F) S1024x1024 .f32) //
      ∀ (xi2 : Vec F S1x1024x1024 .f32) (E : Set ℕ) (K : PUnit → sProp 𝕄),
        iprop(owns (c : Thread nD τ) arg4 fullShare x0 ∗ owns (c : Thread nD τ) arg5 fullShare x1 ∗ owns (c : Thread nD τ) arg6 fullShare xi2
            ∗ (∃ d, owns (c : Thread nD τ) arg7 fullShare d)
            ∗ (iprop(owns (c : Thread nD τ) arg4 fullShare x0 ∗ owns (c : Thread nD τ) arg5 fullShare x1 ∗ owns (c : Thread nD τ) arg6 fullShare xi2
                ∗ (∃ f, arg7.view.loc (c : Thread nD τ) ↦[arg7.view.set]{fullShare} arg7.view.writes (Elt F) f LS)) -∗ K ⟨⟩))
          ⊢ wp frame (wpE (defs₀ (F := F)) Variants.none c none) E (cc1__bmm_kernel i arg4 harg4 arg5 harg5 arg6 harg6 arg7 harg7) K } := by
  refine ⟨[], ?_, fun xi2 E K => ?run⟩
  case run =>
    simp only [cc1__bmm_kernel_eq_skeleton]; unfold cc1__bmm_kernel_skel
    unfold owns
    iintro ⟨⟨%f0, %hf0, H0⟩, ⟨%f1, %hf1, H1⟩, ⟨%f2, %hf2, H2⟩, ⟨%ds, %fs, -, HS⟩, Hk⟩
    obtain rfl := harg4.eq_unread hf0; obtain rfl := harg5.eq_unread hf1; obtain rfl := harg6.eq_unread hf2
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact HS

set_option maxHeartbeats 2000000 in
/-- The body at k = 1: the accumulator, at `xs` before, and the result's buffer, at anything before, both left with the
    stores' pieces written. -/
noncomputable def kernelRun1_B (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) :
    Σ' (L2 : List (View.Piece (Elt F) S1x1024x1024 .f32)), { LS : List (View.Piece (Elt F) S1024x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ owns (c : Thread nD τ) arg7 fullShare xs
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L2)
                ∗ (∃ f, arg7.view.loc (c : Thread nD τ) ↦[arg7.view.set]{fullShare} arg7.view.writes (Elt F) f LS)) -∗ K ⟨⟩))
          ⊢ wp frame (wpE (defs₀ (F := F)) Variants.none c none) E (cc1__bmm_kernel i arg4 harg4 arg5 harg5 arg6 harg6 arg7 harg7) K } := by
  refine ⟨?_, ?_, fun E K => ?run⟩
  case run =>
    simp only [cc1__bmm_kernel_eq_skeleton]; unfold cc1__bmm_kernel_skel
    unfold owns
    iintro ⟨⟨%f0, %hf0, H0⟩, ⟨%f1, %hf1, H1⟩, ⟨%d2, %f2, -, H2⟩, ⟨%fs, %hfs, HS⟩, Hk⟩
    obtain rfl := harg4.eq_unread hf0; obtain rfl := harg5.eq_unread hf1; obtain rfl := harg7.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; iexact H2
    iexists _; iexact HS

/-- At k = 0 the body stores nothing into the result's buffer: a placeholder nothing consults. -/
def out1_A_2 (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) : Vec F S1x1024x1024 .f32 :=
  VO1_2.read (Elt F) (VO1_2.writes (Elt F) VO1_2.junk (kernelRun1_A c i arg4 harg4 arg5 harg5 arg6 harg6 arg7 harg7 hc0 hc1 x0 x1).1)

theorem scover1_A (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) (y : S1024x1024.Idx) :
    ∃ pc ∈ (kernelRun1_A c i arg4 harg4 arg5 harg5 arg6 harg6 arg7 harg7 hc0 hc1 x0 x1).2.1, y ∈ pc.1.set :=
  View.cover_of_tiledL (kernelRun1_A c i arg4 harg4 arg5 harg5 arg6 harg6 arg7 harg7 hc0 hc1 x0 x1).2.1 S1024x1024.size (by sl_kernel_rfl) y

/-- What the point k = 0 leaves in the accumulator. -/
def sout1_A (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) : Vec F S1024x1024 .f32 :=
  VS1.read (Elt F) (VS1.writes (Elt F) VS1.junk (kernelRun1_A c i arg4 harg4 arg5 harg5 arg6 harg6 arg7 harg7 hc0 hc1 x0 x1).2.1)

theorem cover1_B_2 (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) (y : S1x1024x1024.Idx) :
    ∃ pc ∈ (kernelRun1_B c i arg4 harg4 arg5 harg5 arg6 harg6 arg7 harg7 hc0 hc1 x0 x1 xs).1, y ∈ pc.1.set :=
  View.cover_of_tiledL (kernelRun1_B c i arg4 harg4 arg5 harg5 arg6 harg6 arg7 harg7 hc0 hc1 x0 x1 xs).1 S1x1024x1024.size (by sl_kernel_rfl) y

/-- What the point k = 1 leaves in the result's staging buffer. -/
def out1_B_2 (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) : Vec F S1x1024x1024 .f32 :=
  VO1_2.read (Elt F) (VO1_2.writes (Elt F) VO1_2.junk (kernelRun1_B c i arg4 harg4 arg5 harg5 arg6 harg6 arg7 harg7 hc0 hc1 x0 x1 xs).1)

theorem scover1_B (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) (y : S1024x1024.Idx) :
    ∃ pc ∈ (kernelRun1_B c i arg4 harg4 arg5 harg5 arg6 harg6 arg7 harg7 hc0 hc1 x0 x1 xs).2.1, y ∈ pc.1.set :=
  View.cover_of_tiledL (kernelRun1_B c i arg4 harg4 arg5 harg5 arg6 harg6 arg7 harg7 hc0 hc1 x0 x1 xs).2.1 S1024x1024.size (by sl_kernel_rfl) y

/-- What the point k = 1 leaves in the accumulator. -/
def sout1_B (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) : Vec F S1024x1024 .f32 :=
  VS1.read (Elt F) (VS1.writes (Elt F) VS1.junk (kernelRun1_B c i arg4 harg4 arg5 harg5 arg6 harg6 arg7 harg7 hc0 hc1 x0 x1 xs).2.1)

theorem N1_64 : cfg1.N = 64 := N_1

/-- What the result's staging buffer and the accumulator hold after the body at position `n`. -/
def outsAt1 (c : Dev nD) : (n : ℕ) → n < cfg1.N → Vec F S1x1024x1024 .f32 × Vec F S1024x1024 .f32
  | 0, hn =>
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
        ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
        ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩))
  | n + 1, hn =>
    if h0 : (n + 1) % 2 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (outsAt1 c n (Nat.lt_of_succ_lt hn)).2,
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 2 = 0) :
    outsAt1 V c t.val t.isLt =
      (out1_A_2 c (grid1.coords t) (ms1_0 t) (hs1_0 t) (ms1_1 t) (hs1_1 t) (ms1_2 t) (hs1_2 t) scM1 (Memref.isWhole_whole _)
          ((hcond1_0 t).mpr h0) (fun h => by have h' := (hcond1_1 t).mp h; omega) (iblk1 V c 0 t) (iblk1 V c 1 t),
        sout1_A c (grid1.coords t) (ms1_0 t) (hs1_0 t) (ms1_1 t) (hs1_1 t) (ms1_2 t) (hs1_2 t) scM1 (Memref.isWhole_whole _)
          ((hcond1_0 t).mpr h0) (fun h => by have h' := (hcond1_1 t).mp h; omega) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt =
      (out1_B_2 c (grid1.coords t) (ms1_0 t) (hs1_0 t) (ms1_1 t) (hs1_1 t) (ms1_2 t) (hs1_2 t) scM1 (Memref.isWhole_whole _)
          (fun h => h0 ((hcond1_0 t).mp h)) ((hcond1_1 t).mpr (by omega)) (iblk1 V c 0 t) (iblk1 V c 1 t) (outsAt1 V c (t.val - 1) (Nat.lt_of_le_of_lt (Nat.sub_le _ _) t.isLt)).2,
        sout1_B c (grid1.coords t) (ms1_0 t) (hs1_0 t) (ms1_1 t) (hs1_1 t) (ms1_2 t) (hs1_2 t) scM1 (Memref.isWhole_whole _)
          (fun h => h0 ((hcond1_0 t).mp h)) ((hcond1_1 t).mpr (by omega)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's; afterwards the accumulator at what the
    point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt N1_64
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => by have h' := (hcond1_1 t).mp h; omega
    rw [Dat.leavesExact_idle (dat1 V c) 2 t (idleAt1_2_A t hc0 hc1) (noFlush1_2_A t hc0 hc1)]
    rw [outsAt1_A V c t h0]
    unfold sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hrest⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hc1 : cond1_1 (grid1.coords t) := (hcond1_1 t).mpr (by omega)
    rw [show (dat1 V c).leavesExact 2 t = owns (c : Thread nD τ) (ms1_2 t) fullShare ((dat1 V c).after 2 t) from by
      unfold Dat.leavesExact; rw [liveAt1_2_B t hc0 hc1], after1_2]
    rw [outsAt1_B V c t h0]
    unfold out1_B_2 sout1_B; (try dsimp only)
    have hz : t.val ≠ 0 := by omega
    rw [PhiS1_castSucc V c t, PhiS1_pos V c _ _ hz]
    iintro ⟨⟨⟨HS, Hrest⟩, Hg⟩, Ho, ⟨%d0, H0⟩, ⟨%d1, H1⟩, ⟨%d2, H2⟩⟩
    iapply ((kernelRun1_B c (grid1.coords t) _ _ _ _ _ _ _ _ hc0 hc1 (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_B c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The body obligation of the first product's region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hrest⟩, Hg⟩
  isplitl [HS Hrest]
  · isplitl [HS]
    · iexists _; iexact HS
    iexact Hrest
  iexact Hg

end Cert.Kernel.Hand

end
-- ==== Proof.K.Colsum2.lean ====
/-
  A column-degree region: deg[c, j] = the sum over rows i ≠ j of H[c, i, j]. Its grid has 16 points, one per band of
  128 rows. The result's 8 x 2048 block stays in its staging buffer across all points and is written back only after the
  last: the first point stores zeros and then adds its band's masked column sums; every later point adds its band's
  to what the point before left. So what the buffer holds after a point is a running sum over the bands met so far.
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The matrix stack's staging buffer holds the point's band whenever the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- "This is the first band": the body's test on the grid coordinate. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 16 = 0 :=
  (by decide +kernel : ∀ t : Fin grid2.N, cond2_0 (grid2.coords t) ↔ t.val % 16 = 0)

/-- One staging buffer of the result's window, through which its contents are stated. -/
abbrev VO2_1 : View sig .tc .vmem S8x2048 .f32 := (Memref.whole cc2_stg1_0 : Memref sig .tc .vmem S8x2048 .f32).view
abbrev ms2_0 (t : Fin cfg2.N) : Memref sig .tc .vmem S8x128x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x2048 .f32 := win2_1.stage (cfg2.slots t 1)
abbrev hs2_1 (t : Fin cfg2.N) : (ms2_1 t).IsWhole := hstage2_1 ((cfg2.slots t 1).cast nbuf2_1)

set_option maxHeartbeats 1000000 in
/-- The body at the first band, on whole staging memrefs: the band kept, the result's buffer (at anything before) left
    with the stores' pieces written. -/
noncomputable def kernelRun2_A (c : Dev nD) (i : grid2.Coords) (arg1 : Memref sig .tc .vmem S8x128x2048 .f32) (harg1 : arg1.IsWhole)
    (arg2 : Memref sig .tc .vmem S8x2048 .f32) (harg2 : arg2.IsWhole) (hc0 : cond2_0 i) (x0 : Vec F S8x128x2048 .f32) :
    { L1 : List (View.Piece (Elt F) S8x2048 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__colsum_kernel i arg1 harg1 arg2 harg2) K } := by
  refine ⟨?_, fun E K => ?run⟩
  case run =>
    simp only [cc2__colsum_kernel_eq_skeleton]; unfold cc2__colsum_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- The body at a later band: the result's buffer, at the running sum `xo1` before, left with the store's piece written. -/
noncomputable def kernelRun2_B (c : Dev nD) (i : grid2.Coords) (arg1 : Memref sig .tc .vmem S8x128x2048 .f32) (harg1 : arg1.IsWhole)
    (arg2 : Memref sig .tc .vmem S8x2048 .f32) (harg2 : arg2.IsWhole) (hc0 : ¬cond2_0 i) (x0 : Vec F S8x128x2048 .f32) (xo1 : Vec F S8x2048 .f32) :
    { L1 : List (View.Piece (Elt F) S8x2048 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__colsum_kernel i arg1 harg1 arg2 harg2) K } := by
  refine ⟨?_, fun E K => ?run⟩
  case run =>
    simp only [cc2__colsum_kernel_eq_skeleton]; unfold cc2__colsum_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

theorem cover2_A_1 (c : Dev nD) (i : grid2.Coords) (arg1 : Memref sig .tc .vmem S8x128x2048 .f32) (harg1 : arg1.IsWhole)
    (arg2 : Memref sig .tc .vmem S8x2048 .f32) (harg2 : arg2.IsWhole) (hc0 : cond2_0 i) (x0 : Vec F S8x128x2048 .f32) (y : S8x2048.Idx) :
    ∃ pc ∈ (kernelRun2_A c i arg1 harg1 arg2 harg2 hc0 x0).1, y ∈ pc.1.set :=
  View.cover_of_tiledL (kernelRun2_A c i arg1 harg1 arg2 harg2 hc0 x0).1 S8x2048.size (by sl_kernel_rfl) y

/-- What the first band leaves in the result's staging buffer. -/
def out2_A_1 (c : Dev nD) (i : grid2.Coords) (arg1 : Memref sig .tc .vmem S8x128x2048 .f32) (harg1 : arg1.IsWhole)
    (arg2 : Memref sig .tc .vmem S8x2048 .f32) (harg2 : arg2.IsWhole) (hc0 : cond2_0 i) (x0 : Vec F S8x128x2048 .f32) : Vec F S8x2048 .f32 :=
  VO2_1.read (Elt F) (VO2_1.writes (Elt F) VO2_1.junk (kernelRun2_A c i arg1 harg1 arg2 harg2 hc0 x0).1)

theorem cover2_B_1 (c : Dev nD) (i : grid2.Coords) (arg1 : Memref sig .tc .vmem S8x128x2048 .f32) (harg1 : arg1.IsWhole)
    (arg2 : Memref sig .tc .vmem S8x2048 .f32) (harg2 : arg2.IsWhole) (hc0 : ¬cond2_0 i) (x0 : Vec F S8x128x2048 .f32) (xo1 : Vec F S8x2048 .f32) (y : S8x2048.Idx) :
    ∃ pc ∈ (kernelRun2_B c i arg1 harg1 arg2 harg2 hc0 x0 xo1).1, y ∈ pc.1.set :=
  View.cover_of_tiledL (kernelRun2_B c i arg1 harg1 arg2 harg2 hc0 x0 xo1).1 S8x2048.size (by sl_kernel_rfl) y

/-- What a later band leaves there, over the running sum `xo1`. -/
def out2_B_1 (c : Dev nD) (i : grid2.Coords) (arg1 : Memref sig .tc .vmem S8x128x2048 .f32) (harg1 : arg1.IsWhole)
    (arg2 : Memref sig .tc .vmem S8x2048 .f32) (harg2 : arg2.IsWhole) (hc0 : ¬cond2_0 i) (x0 : Vec F S8x128x2048 .f32) (xo1 : Vec F S8x2048 .f32) : Vec F S8x2048 .f32 :=
  VO2_1.read (Elt F) (VO2_1.writes (Elt F) VO2_1.junk (kernelRun2_B c i arg1 harg1 arg2 harg2 hc0 x0 xo1).1)

theorem N2_16 : cfg2.N = 16 := N_2

/-- The running sum: what the result's staging buffer holds after the body at position `n`. -/
def outsAt2 (c : Dev nD) : (n : ℕ) → n < cfg2.N → Vec F S8x2048 .f32
  | 0, hn => out2_A_1 c (grid2.coords ⟨0, hn⟩) (ms2_0 ⟨0, hn⟩) (hs2_0 ⟨0, hn⟩) (ms2_1 ⟨0, hn⟩) (hs2_1 ⟨0, hn⟩)
      ((hcond2_0 ⟨0, hn⟩).mpr (Nat.zero_mod _)) (iblk2 V c 0 ⟨0, hn⟩)
  | n + 1, hn => out2_B_1 c (grid2.coords ⟨n + 1, hn⟩) (ms2_0 ⟨n + 1, hn⟩) (hs2_0 ⟨n + 1, hn⟩) (ms2_1 ⟨n + 1, hn⟩) (hs2_1 ⟨n + 1, hn⟩)
      (fun h => by have h' := (hcond2_0 ⟨n + 1, hn⟩).mp h; have hN : n + 1 < 16 := lt_of_lt_of_eq hn N2_16; (try dsimp only at h'); omega)
      (iblk2 V c 0 ⟨n + 1, hn⟩) (outsAt2 c n (Nat.lt_of_succ_lt hn))

theorem outsAt2_A (c : Dev nD) (t : Fin cfg2.N) (h0 : t.val % 16 = 0) :
    outsAt2 V c t.val t.isLt = out2_A_1 c (grid2.coords t) (ms2_0 t) (hs2_0 t) (ms2_1 t) (hs2_1 t) ((hcond2_0 t).mpr h0) (iblk2 V c 0 t) := by
  obtain ⟨n, hn⟩ := t
  cases n with
  | zero => exact rfl
  | succ n => exact (by exfalso; have hN : n + 1 < 16 := lt_of_lt_of_eq hn N2_16; (try dsimp only at h0); omega)

theorem outsAt2_B (c : Dev nD) (t : Fin cfg2.N) (h0 : ¬t.val % 16 = 0) :
    outsAt2 V c t.val t.isLt = out2_B_1 c (grid2.coords t) (ms2_0 t) (hs2_0 t) (ms2_1 t) (hs2_1 t) (fun h => h0 ((hcond2_0 t).mp h)) (iblk2 V c 0 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- The region's proof data: the arrays as found; after the body at a point the band in place and the result's buffer at the
    running sum; the scoped buffers and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = outsAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
/-- At a later band the result's staging buffer holds what the band before left: it is not written back in between. -/
theorem before2_1_B (c : Dev nD) (t : Fin cfg2.N) (h0 : ¬t.val % 16 = 0) (d) :
    (dat2 V c).before 1 t d = outsAt2 V c (t.val - 1) (Nat.lt_of_le_of_lt (Nat.sub_le _ _) t.isLt) := by
  have hN : t.val < 16 := lt_of_lt_of_eq t.isLt N2_16
  rw [Dat.before_out_kept _ 1 rfl t (by omega) (Bool.eq_false_iff.mpr fun h => by have := (flush2_1 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 16 := lt_of_lt_of_eq t.isLt N2_16
  by_cases h0 : t.val % 16 = 0
  · rw [outsAt2_A V c t h0]
    unfold out2_A_1
    iintro ⟨HΦ, Ho, ⟨%d0, H0⟩, ⟨%d1, H1⟩⟩
    iapply ((kernelRun2_A c (grid2.coords t) _ _ _ _ ((hcond2_0 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A_1 c _ _ _ _ _ _ _)
  · rw [outsAt2_B V c t h0]
    simp only [before2_1_B V c t h0]
    unfold out2_B_1
    iintro ⟨HΦ, Ho, ⟨%d0, H0⟩, ⟨%d1, H1⟩⟩
    iapply ((kernelRun2_B c (grid2.coords t) _ _ _ _ (fun h => h0 ((hcond2_0 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B_1 c _ _ _ _ _ _ _ _)

/-- The body obligation of the column-degree region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.BmmNorm3.lean ====
/-
  A normalised batched product Z[c] = N(H[c]) · g[c], where N zeroes the diagonal and scales column j by the reciprocal
  column degree: the entry (i, j) of the left factor is H[c, i, j] · dinv[c, j] off the diagonal and 0 on it, formed
  on the fly from the loaded block of H and row c of the loaded block of reciprocal degrees. As in the plain product the
  grid's 64 points are (channel, row block, column block, k), k ∈ {0, 1} fastest, and a 1024 x 1024 accumulator in scratch
  memory is carried from k = 0 to k = 1, where it is copied into the result's staging buffer.
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- "k = 0": the body's first test. -/
abbrev cond3_0 (i : grid3.Coords) : Prop := (Scalar.cmpi .ne (Scalar.extui (Scalar.cmpi .eq (BitVec.ofNat 32 (i 3).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- "k = 1", the last: the body's second test. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem liveAt3_3_B : ∀ t : Fin cfg3.N, ¬cond3_0 (grid3.coords t) → cond3_1 (grid3.coords t) → cfg3.idle 3 (grid3.coords t) = false := by decide +kernel

abbrev VO3_3 : View sig .tc .vmem S1x1024x1024 .f32 := (Memref.whole cc3_stg3_0 : Memref sig .tc .vmem S1x1024x1024 .f32).view
abbrev ms3_0 (t : Fin cfg3.N) : Memref sig .tc .vmem S1x1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x1024 .f32 := win3_3.stage (cfg3.slots t 3)
abbrev hs3_3 (t : Fin cfg3.N) : (ms3_3 t).IsWhole := hstage3_3 ((cfg3.slots t 3).cast nbuf3_3)
/-- The accumulator. -/
abbrev scM3 : Memref sig .tc .vmem S1024x1024 .f32 := Memref.whole cc3_scratch0
abbrev VS3 : View sig .tc .vmem S1024x1024 .f32 := scM3.view

/-- The class invariant with the accumulator taken out of the scoped rest. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

set_option maxHeartbeats 2000000 in
/-- The body at k = 0: the inputs kept, the result's buffer handed back untouched, the accumulator (at anything before) left
    with the stores' pieces written. -/
noncomputable def kernelRun3_A (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i)
    (x0 : Vec F S1x1024x1024 .f32) (x1 : Vec F S8x1024 .f32) (x2 : Vec F S1x1024x1024 .bf16) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS)) -∗ K ⟨⟩))
          ⊢ wp frame (wpE (defs₀ (F := F)) Variants.none c none) E (cc3__bmm_norm_kernel i arg4 harg4 arg5 harg5 arg6 harg6 arg7 harg7 arg8 harg8) K } := by
  refine ⟨[], ?_, fun xi3 E K => ?run⟩
  case run =>
    simp only [cc3__bmm_norm_kernel_eq_skeleton]; unfold cc3__bmm_norm_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact HS

set_option maxHeartbeats 2000000 in
/-- The body at k = 1: the accumulator, at `xs` before, and the result's buffer, at anything before, both left with the
    stores' pieces written. -/
noncomputable def kernelRun3_B (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i)
    (x0 : Vec F S1x1024x1024 .f32) (x1 : Vec F S8x1024 .f32) (x2 : Vec F S1x1024x1024 .bf16) (xs : Vec F S1024x1024 .f32) :
    Σ' (L3 : List (View.Piece (Elt F) S1x1024x1024 .f32)), { LS : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ owns (c : Thread nD τ) arg8 fullShare xs
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS)) -∗ K ⟨⟩))
          ⊢ wp frame (wpE (defs₀ (F := F)) Variants.none c none) E (cc3__bmm_norm_kernel i arg4 harg4 arg5 harg5 arg6 harg6 arg7 harg7 arg8 harg8) K } := by
  refine ⟨?_, ?_, fun E K => ?run⟩
  case run =>
    simp only [cc3__bmm_norm_kernel_eq_skeleton]; unfold cc3__bmm_norm_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg4.eq_unread hf0; obtain rfl := harg5.eq_unread hf1; obtain rfl := harg6.eq_unread hf2; obtain rfl := harg8.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact HS

/-- At k = 0 the body stores nothing into the result's buffer: a placeholder nothing consults. -/
def out3_A_3 (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i) (x0 : Vec F S1x1024x1024 .f32) (x1 : Vec F S8x1024 .f32) (x2 : Vec F S1x1024x1024 .bf16) : Vec F S1x1024x1024 .f32 :=
  VO3_3.read (Elt F) (VO3_3.writes (Elt F) VO3_3.junk (kernelRun3_A c i arg4 harg4 arg5 harg5 arg6 harg6 arg7 harg7 arg8 harg8 hc0 hc1 x0 x1 x2).1)

theorem scover3_A (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i) (x0 : Vec F S1x1024x1024 .f32) (x1 : Vec F S8x1024 .f32) (x2 : Vec F S1x1024x1024 .bf16) (y : S1024x1024.Idx) :
    ∃ pc ∈ (kernelRun3_A c i arg4 harg4 arg5 harg5 arg6 harg6 arg7 harg7 arg8 harg8 hc0 hc1 x0 x1 x2).2.1, y ∈ pc.1.set :=
  View.cover_of_tiledL (kernelRun3_A c i arg4 harg4 arg5 harg5 arg6 harg6 arg7 harg7 arg8 harg8 hc0 hc1 x0 x1 x2).2.1 S1024x1024.size (by sl_kernel_rfl) y

/-- What the point k = 0 leaves in the accumulator. -/
def sout3_A (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i) (x0 : Vec F S1x1024x1024 .f32) (x1 : Vec F S8x1024 .f32) (x2 : Vec F S1x1024x1024 .bf16) : Vec F S1024x1024 .f32 :=
  VS3.read (Elt F) (VS3.writes (Elt F) VS3.junk (kernelRun3_A c i arg4 harg4 arg5 harg5 arg6 harg6 arg7 harg7 arg8 harg8 hc0 hc1 x0 x1 x2).2.1)

theorem cover3_B_3 (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) (y : S1x1024x1024.Idx) :
    ∃ pc ∈ (kernelRun3_B c i arg4 harg4 arg5 harg5 arg6 harg6 arg7 harg7 arg8 harg8 hc0 hc1 x0 x1 x2 xs).1, y ∈ pc.1.set :=
  View.cover_of_tiledL (kernelRun3_B c i arg4 harg4 arg5 harg5 arg6 harg6 arg7 harg7 arg8 harg8 hc0 hc1 x0 x1 x2 xs).1 S1x1024x1024.size (by sl_kernel_rfl) y

/-- What the point k = 1 leaves in the result's staging buffer. -/
def out3_B_3 (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) : Vec F S1x1024x1024 .f32 :=
  VO3_3.read (Elt F) (VO3_3.writes (Elt F) VO3_3.junk (kernelRun3_B c i arg4 harg4 arg5 harg5 arg6 harg6 arg7 harg7 arg8 harg8 hc0 hc1 x0 x1 x2 xs).1)

theorem scover3_B (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) (y : S1024x1024.Idx) :
    ∃ pc ∈ (kernelRun3_B c i arg4 harg4 arg5 harg5 arg6 harg6 arg7 harg7 arg8 harg8 hc0 hc1 x0 x1 x2 xs).2.1, y ∈ pc.1.set :=
  View.cover_of_tiledL (kernelRun3_B c i arg4 harg4 arg5 harg5 arg6 harg6 arg7 harg7 arg8 harg8 hc0 hc1 x0 x1 x2 xs).2.1 S1024x1024.size (by sl_kernel_rfl) y

/-- What the point k = 1 leaves in the accumulator. -/
def sout3_B (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) : Vec F S1024x1024 .f32 :=
  VS3.read (Elt F) (VS3.writes (Elt F) VS3.junk (kernelRun3_B c i arg4 harg4 arg5 harg5 arg6 harg6 arg7 harg7 arg8 harg8 hc0 hc1 x0 x1 x2 xs).2.1)

theorem N3_64 : cfg3.N = 64 := N_3

/-- What the result's staging buffer and the accumulator hold after the body at position `n`. -/
def outsAt3 (c : Dev nD) : (n : ℕ) → n < cfg3.N → Vec F S1x1024x1024 .f32 × Vec F S1024x1024 .f32
  | 0, hn =>
    (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
        ((hcond3_0 ⟨0, hn⟩).mpr (Nat.zero_mod _)) (fun h => by have h' := (hcond3_1 ⟨0, hn⟩).mp h; (try dsimp only at h'); omega) (iblk3 V c 0 ⟨0, hn⟩) (iblk3 V c 1 ⟨0, hn⟩) (iblk3 V c 2 ⟨0, hn⟩),
      sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
        ((hcond3_0 ⟨0, hn⟩).mpr (Nat.zero_mod _)) (fun h => by have h' := (hcond3_1 ⟨0, hn⟩).mp h; (try dsimp only at h'); omega) (iblk3 V c 0 ⟨0, hn⟩) (iblk3 V c 1 ⟨0, hn⟩) (iblk3 V c 2 ⟨0, hn⟩))
  | n + 1, hn =>
    if h0 : (n + 1) % 2 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          ((hcond3_0 ⟨n + 1, hn⟩).mpr h0) (fun h => by have h' := (hcond3_1 ⟨n + 1, hn⟩).mp h; (try dsimp only at h'); omega) (iblk3 V c 0 ⟨n + 1, hn⟩) (iblk3 V c 1 ⟨n + 1, hn⟩) (iblk3 V c 2 ⟨n + 1, hn⟩),
        sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          ((hcond3_0 ⟨n + 1, hn⟩).mpr h0) (fun h => by have h' := (hcond3_1 ⟨n + 1, hn⟩).mp h; (try dsimp only at h'); omega) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hcond3_0 ⟨n + 1, hn⟩).mp h)) ((hcond3_1 ⟨n + 1, hn⟩).mpr (show (n + 1) % 2 = 1 by omega)) (iblk3 V c 0 ⟨n + 1, hn⟩) (iblk3 V c 1 ⟨n + 1, hn⟩) (iblk3 V c 2 ⟨n + 1, hn⟩) (outsAt3 c n (Nat.lt_of_succ_lt hn)).2,
        sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hcond3_0 ⟨n + 1, hn⟩).mp h)) ((hcond3_1 ⟨n + 1, hn⟩).mpr (show (n + 1) % 2 = 1 by omega)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 2 = 0) :
    outsAt3 V c t.val t.isLt =
      (out3_A_3 c (grid3.coords t) (ms3_0 t) (hs3_0 t) (ms3_1 t) (hs3_1 t) (ms3_2 t) (hs3_2 t) (ms3_3 t) (hs3_3 t) scM3 (Memref.isWhole_whole _)
          ((hcond3_0 t).mpr h0) (fun h => by have h' := (hcond3_1 t).mp h; omega) (iblk3 V c 0 t) (iblk3 V c 1 t) (iblk3 V c 2 t),
        sout3_A c (grid3.coords t) (ms3_0 t) (hs3_0 t) (ms3_1 t) (hs3_1 t) (ms3_2 t) (hs3_2 t) (ms3_3 t) (hs3_3 t) scM3 (Memref.isWhole_whole _)
          ((hcond3_0 t).mpr h0) (fun h => by have h' := (hcond3_1 t).mp h; omega) (iblk3 V c 0 t) (iblk3 V c 1 t) (iblk3 V c 2 t)) := by
  obtain ⟨n, hn⟩ := t
  cases n with
  | zero => exact rfl
  | succ n => exact (dif_pos h0).trans rfl

theorem outsAt3_B (c : Dev nD) (t : Fin cfg3.N) (h0 : ¬t.val % 2 = 0) :
    outsAt3 V c t.val t.isLt =
      (out3_B_3 c (grid3.coords t) (ms3_0 t) (hs3_0 t) (ms3_1 t) (hs3_1 t) (ms3_2 t) (hs3_2 t) (ms3_3 t) (hs3_3 t) scM3 (Memref.isWhole_whole _)
          (fun h => h0 ((hcond3_0 t).mp h)) ((hcond3_1 t).mpr (by omega)) (iblk3 V c 0 t) (iblk3 V c 1 t) (iblk3 V c 2 t) (outsAt3 V c (t.val - 1) (Nat.lt_of_le_of_lt (Nat.sub_le _ _) t.isLt)).2,
        sout3_B c (grid3.coords t) (ms3_0 t) (hs3_0 t) (ms3_1 t) (hs3_1 t) (ms3_2 t) (hs3_2 t) (ms3_3 t) (hs3_3 t) scM3 (Memref.isWhole_whole _)
          (fun h => h0 ((hcond3_0 t).mp h)) ((hcond3_1 t).mpr (by omega)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The region's proof data. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt N3_64
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have hc0 : cond3_0 (grid3.coords t) := (hcond3_0 t).mpr h0
    have hc1 : ¬cond3_1 (grid3.coords t) := fun h => by have h' := (hcond3_1 t).mp h; omega
    rw [Dat.leavesExact_idle (dat3 V c) 3 t (idleAt3_3_A t hc0 hc1) (noFlush3_3_A t hc0 hc1)]
    rw [outsAt3_A V c t h0]
    unfold sout3_A; (try dsimp only)
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hc0 : ¬cond3_0 (grid3.coords t) := fun h => h0 ((hcond3_0 t).mp h)
    have hc1 : cond3_1 (grid3.coords t) := (hcond3_1 t).mpr (by omega)
    rw [show (dat3 V c).leavesExact 3 t = owns (c : Thread nD τ) (ms3_3 t) fullShare ((dat3 V c).after 3 t) from by
      unfold Dat.leavesExact; rw [liveAt3_3_B t hc0 hc1], after3_3]
    rw [outsAt3_B V c t h0]
    unfold out3_B_3 sout3_B; (try dsimp only)
    have hz : t.val ≠ 0 := by omega
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩⟩
    iapply ((kernelRun3_B c (grid3.coords t) _ _ _ _ _ _ _ _ _ _ hc0 hc1 (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover3_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _)

/-- The body obligation of the normalised product's region, at every point. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hrest⟩, Hg⟩
  isplitl [HS Hrest]
  · isplitl [HS]
    · iexists _; iexact HS
    iexact Hrest
  iexact Hg

end Cert.Kernel.Hand

end
-- ==== Proof.K.Colsum4.lean ====
/-
  A column-degree region: deg[c, j] = the sum over rows i ≠ j of H[c, i, j]. Its grid has 16 points, one per band of
  128 rows. The result's 8 x 2048 block stays in its staging buffer across all points and is written back only after the
  last: the first point stores zeros and then adds its band's masked column sums; every later point adds its band's
  to what the point before left. So what the buffer holds after a point is a running sum over the bands met so far.
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The matrix stack's staging buffer holds the point's band whenever the body runs. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- "This is the first band": the body's test on the grid coordinate. -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val % 16 = 0 :=
  (by decide +kernel : ∀ t : Fin grid4.N, cond4_0 (grid4.coords t) ↔ t.val % 16 = 0)

/-- One staging buffer of the result's window, through which its contents are stated. -/
abbrev VO4_1 : View sig .tc .vmem S8x2048 .f32 := (Memref.whole cc4_stg1_0 : Memref sig .tc .vmem S8x2048 .f32).view
abbrev ms4_0 (t : Fin cfg4.N) : Memref sig .tc .vmem S8x128x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x2048 .f32 := win4_1.stage (cfg4.slots t 1)
abbrev hs4_1 (t : Fin cfg4.N) : (ms4_1 t).IsWhole := hstage4_1 ((cfg4.slots t 1).cast nbuf4_1)

set_option maxHeartbeats 1000000 in
/-- The body at the first band, on whole staging memrefs: the band kept, the result's buffer (at anything before) left
    with the stores' pieces written. -/
noncomputable def kernelRun4_A (c : Dev nD) (i : grid4.Coords) (arg1 : Memref sig .tc .vmem S8x128x2048 .f32) (harg1 : arg1.IsWhole)
    (arg2 : Memref sig .tc .vmem S8x2048 .f32) (harg2 : arg2.IsWhole) (hc0 : cond4_0 i) (x0 : Vec F S8x128x2048 .f32) :
    { L1 : List (View.Piece (Elt F) S8x2048 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__colsum_kernel i arg1 harg1 arg2 harg2) K } := by
  refine ⟨?_, fun E K => ?run⟩
  case run =>
    simp only [cc4__colsum_kernel_eq_skeleton]; unfold cc4__colsum_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- The body at a later band: the result's buffer, at the running sum `xo1` before, left with the store's piece written. -/
noncomputable def kernelRun4_B (c : Dev nD) (i : grid4.Coords) (arg1 : Memref sig .tc .vmem S8x128x2048 .f32) (harg1 : arg1.IsWhole)
    (arg2 : Memref sig .tc .vmem S8x2048 .f32) (harg2 : arg2.IsWhole) (hc0 : ¬cond4_0 i) (x0 : Vec F S8x128x2048 .f32) (xo1 : Vec F S8x2048 .f32) :
    { L1 : List (View.Piece (Elt F) S8x2048 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__colsum_kernel i arg1 harg1 arg2 harg2) K } := by
  refine ⟨?_, fun E K => ?run⟩
  case run =>
    simp only [cc4__colsum_kernel_eq_skeleton]; unfold cc4__colsum_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

theorem cover4_A_1 (c : Dev nD) (i : grid4.Coords) (arg1 : Memref sig .tc .vmem S8x128x2048 .f32) (harg1 : arg1.IsWhole)
    (arg2 : Memref sig .tc .vmem S8x2048 .f32) (harg2 : arg2.IsWhole) (hc0 : cond4_0 i) (x0 : Vec F S8x128x2048 .f32) (y : S8x2048.Idx) :
    ∃ pc ∈ (kernelRun4_A c i arg1 harg1 arg2 harg2 hc0 x0).1, y ∈ pc.1.set :=
  View.cover_of_tiledL (kernelRun4_A c i arg1 harg1 arg2 harg2 hc0 x0).1 S8x2048.size (by sl_kernel_rfl) y

/-- What the first band leaves in the result's staging buffer. -/
def out4_A_1 (c : Dev nD) (i : grid4.Coords) (arg1 : Memref sig .tc .vmem S8x128x2048 .f32) (harg1 : arg1.IsWhole)
    (arg2 : Memref sig .tc .vmem S8x2048 .f32) (harg2 : arg2.IsWhole) (hc0 : cond4_0 i) (x0 : Vec F S8x128x2048 .f32) : Vec F S8x2048 .f32 :=
  VO4_1.read (Elt F) (VO4_1.writes (Elt F) VO4_1.junk (kernelRun4_A c i arg1 harg1 arg2 harg2 hc0 x0).1)

theorem cover4_B_1 (c : Dev nD) (i : grid4.Coords) (arg1 : Memref sig .tc .vmem S8x128x2048 .f32) (harg1 : arg1.IsWhole)
    (arg2 : Memref sig .tc .vmem S8x2048 .f32) (harg2 : arg2.IsWhole) (hc0 : ¬cond4_0 i) (x0 : Vec F S8x128x2048 .f32) (xo1 : Vec F S8x2048 .f32) (y : S8x2048.Idx) :
    ∃ pc ∈ (kernelRun4_B c i arg1 harg1 arg2 harg2 hc0 x0 xo1).1, y ∈ pc.1.set :=
  View.cover_of_tiledL (kernelRun4_B c i arg1 harg1 arg2 harg2 hc0 x0 xo1).1 S8x2048.size (by sl_kernel_rfl) y

/-- What a later band leaves there, over the running sum `xo1`. -/
def out4_B_1 (c : Dev nD) (i : grid4.Coords) (arg1 : Memref sig .tc .vmem S8x128x2048 .f32) (harg1 : arg1.IsWhole)
    (arg2 : Memref sig .tc .vmem S8x2048 .f32) (harg2 : arg2.IsWhole) (hc0 : ¬cond4_0 i) (x0 : Vec F S8x128x2048 .f32) (xo1 : Vec F S8x2048 .f32) : Vec F S8x2048 .f32 :=
  VO4_1.read (Elt F) (VO4_1.writes (Elt F) VO4_1.junk (kernelRun4_B c i arg1 harg1 arg2 harg2 hc0 x0 xo1).1)

theorem N4_16 : cfg4.N = 16 := N_4

/-- The running sum: what the result's staging buffer holds after the body at position `n`. -/
def outsAt4 (c : Dev nD) : (n : ℕ) → n < cfg4.N → Vec F S8x2048 .f32
  | 0, hn => out4_A_1 c (grid4.coords ⟨0, hn⟩) (ms4_0 ⟨0, hn⟩) (hs4_0 ⟨0, hn⟩) (ms4_1 ⟨0, hn⟩) (hs4_1 ⟨0, hn⟩)
      ((hcond4_0 ⟨0, hn⟩).mpr (Nat.zero_mod _)) (iblk4 V c 0 ⟨0, hn⟩)
  | n + 1, hn => out4_B_1 c (grid4.coords ⟨n + 1, hn⟩) (ms4_0 ⟨n + 1, hn⟩) (hs4_0 ⟨n + 1, hn⟩) (ms4_1 ⟨n + 1, hn⟩) (hs4_1 ⟨n + 1, hn⟩)
      (fun h => by have h' := (hcond4_0 ⟨n + 1, hn⟩).mp h; have hN : n + 1 < 16 := lt_of_lt_of_eq hn N4_16; (try dsimp only at h'); omega)
      (iblk4 V c 0 ⟨n + 1, hn⟩) (outsAt4 c n (Nat.lt_of_succ_lt hn))

theorem outsAt4_A (c : Dev nD) (t : Fin cfg4.N) (h0 : t.val % 16 = 0) :
    outsAt4 V c t.val t.isLt = out4_A_1 c (grid4.coords t) (ms4_0 t) (hs4_0 t) (ms4_1 t) (hs4_1 t) ((hcond4_0 t).mpr h0) (iblk4 V c 0 t) := by
  obtain ⟨n, hn⟩ := t
  cases n with
  | zero => exact rfl
  | succ n => exact (by exfalso; have hN : n + 1 < 16 := lt_of_lt_of_eq hn N4_16; (try dsimp only at h0); omega)

theorem outsAt4_B (c : Dev nD) (t : Fin cfg4.N) (h0 : ¬t.val % 16 = 0) :
    outsAt4 V c t.val t.isLt = out4_B_1 c (grid4.coords t) (ms4_0 t) (hs4_0 t) (ms4_1 t) (hs4_1 t) (fun h => h0 ((hcond4_0 t).mp h)) (iblk4 V c 0 t)
      (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- The region's proof data: the arrays as found; after the body at a point the band in place and the result's buffer at the
    running sum; the scoped buffers and the generator register untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => outsAt4 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = outsAt4 V c t.val t.isLt := by dsimp only [dat4]
theorem before4_0 (c : Dev nD) (t : Fin cfg4.N) (d) : (dat4 V c).before 0 t d = iblk4 V c 0 t :=
  before4_0_of V (dat4 V c) (A_eq4 V c 0) (after4_0 V c) t d
/-- At a later band the result's staging buffer holds what the band before left: it is not written back in between. -/
theorem before4_1_B (c : Dev nD) (t : Fin cfg4.N) (h0 : ¬t.val % 16 = 0) (d) :
    (dat4 V c).before 1 t d = outsAt4 V c (t.val - 1) (Nat.lt_of_le_of_lt (Nat.sub_le _ _) t.isLt) := by
  have hN : t.val < 16 := lt_of_lt_of_eq t.isLt N4_16
  rw [Dat.before_out_kept _ 1 rfl t (by omega) (Bool.eq_false_iff.mpr fun h => by have := (flush4_1 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t))

set_option maxHeartbeats 800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  have hN : t.val < 16 := lt_of_lt_of_eq t.isLt N4_16
  by_cases h0 : t.val % 16 = 0
  · rw [outsAt4_A V c t h0]
    unfold out4_A_1
    iintro ⟨HΦ, Ho, ⟨%d0, H0⟩, ⟨%d1, H1⟩⟩
    iapply ((kernelRun4_A c (grid4.coords t) _ _ _ _ ((hcond4_0 t).mpr h0) (iblk4 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_A_1 c _ _ _ _ _ _ _)
  · rw [outsAt4_B V c t h0]
    simp only [before4_1_B V c t h0]
    unfold out4_B_1
    iintro ⟨HΦ, Ho, ⟨%d0, H0⟩, ⟨%d1, H1⟩⟩
    iapply ((kernelRun4_B c (grid4.coords t) _ _ _ _ (fun h => h0 ((hcond4_0 t).mp h)) (iblk4 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_B_1 c _ _ _ _ _ _ _ _)

/-- The body obligation of the column-degree region, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.BmmNorm5.lean ====
/-
  A normalised batched product Z[c] = N(H[c]) · g[c], where N zeroes the diagonal and scales column j by the reciprocal
  column degree: the entry (i, j) of the left factor is H[c, i, j] · dinv[c, j] off the diagonal and 0 on it, formed
  on the fly from the loaded block of H and row c of the loaded block of reciprocal degrees. As in the plain product the
  grid's 64 points are (channel, row block, column block, k), k ∈ {0, 1} fastest, and a 1024 x 1024 accumulator in scratch
  memory is carried from k = 0 to k = 1, where it is copied into the result's staging buffer.
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- "k = 0": the body's first test. -/
abbrev cond5_0 (i : grid5.Coords) : Prop := (Scalar.cmpi .ne (Scalar.extui (Scalar.cmpi .eq (BitVec.ofNat 32 (i 3).val) 0#32)) 0#32) = 1#1
theorem hcond5_0 : ∀ t : Fin cfg5.N, cond5_0 (grid5.coords t) ↔ t.val % 2 = 0 :=
  (by decide +kernel : ∀ t : Fin grid5.N, cond5_0 (grid5.coords t) ↔ t.val % 2 = 0)
/-- "k = 1", the last: the body's second test. -/
abbrev cond5_1 (i : grid5.Coords) : Prop := k5_cond2 i = 1#1
theorem hcond5_1 : ∀ t : Fin cfg5.N, cond5_1 (grid5.coords t) ↔ t.val % 2 = 1 :=
  (by decide +kernel : ∀ t : Fin grid5.N, cond5_1 (grid5.coords t) ↔ t.val % 2 = 1)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem liveAt5_3_B : ∀ t : Fin cfg5.N, ¬cond5_0 (grid5.coords t) → cond5_1 (grid5.coords t) → cfg5.idle 3 (grid5.coords t) = false := by decide +kernel

abbrev VO5_3 : View sig .tc .vmem S1x1024x1024 .f32 := (Memref.whole cc5_stg3_0 : Memref sig .tc .vmem S1x1024x1024 .f32).view
abbrev ms5_0 (t : Fin cfg5.N) : Memref sig .tc .vmem S1x1024x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024x1024 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1024x1024 .f32 := win5_3.stage (cfg5.slots t 3)
abbrev hs5_3 (t : Fin cfg5.N) : (ms5_3 t).IsWhole := hstage5_3 ((cfg5.slots t 3).cast nbuf5_3)
/-- The accumulator. -/
abbrev scM5 : Memref sig .tc .vmem S1024x1024 .f32 := Memref.whole cc5_scratch0
abbrev VS5 : View sig .tc .vmem S1024x1024 .f32 := scM5.view

/-- The class invariant with the accumulator taken out of the scoped rest. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

set_option maxHeartbeats 2000000 in
/-- The body at k = 0: the inputs kept, the result's buffer handed back untouched, the accumulator (at anything before) left
    with the stores' pieces written. -/
noncomputable def kernelRun5_A (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i)
    (x0 : Vec F S1x1024x1024 .f32) (x1 : Vec F S8x1024 .f32) (x2 : Vec F S1x1024x1024 .bf16) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS)) -∗ K ⟨⟩))
          ⊢ wp frame (wpE (defs₀ (F := F)) Variants.none c none) E (cc5__bmm_norm_kernel i arg4 harg4 arg5 harg5 arg6 harg6 arg7 harg7 arg8 harg8) K } := by
  refine ⟨[], ?_, fun xi3 E K => ?run⟩
  case run =>
    simp only [cc5__bmm_norm_kernel_eq_skeleton]; unfold cc5__bmm_norm_kernel_skel
    simp only [k5_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact HS

set_option maxHeartbeats 2000000 in
/-- The body at k = 1: the accumulator, at `xs` before, and the result's buffer, at anything before, both left with the
    stores' pieces written. -/
noncomputable def kernelRun5_B (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i)
    (x0 : Vec F S1x1024x1024 .f32) (x1 : Vec F S8x1024 .f32) (x2 : Vec F S1x1024x1024 .bf16) (xs : Vec F S1024x1024 .f32) :
    Σ' (L3 : List (View.Piece (Elt F) S1x1024x1024 .f32)), { LS : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ owns (c : Thread nD τ) arg8 fullShare xs
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS)) -∗ K ⟨⟩))
          ⊢ wp frame (wpE (defs₀ (F := F)) Variants.none c none) E (cc5__bmm_norm_kernel i arg4 harg4 arg5 harg5 arg6 harg6 arg7 harg7 arg8 harg8) K } := by
  refine ⟨?_, ?_, fun E K => ?run⟩
  case run =>
    simp only [cc5__bmm_norm_kernel_eq_skeleton]; unfold cc5__bmm_norm_kernel_skel
    simp only [k5_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg4.eq_unread hf0; obtain rfl := harg5.eq_unread hf1; obtain rfl := harg6.eq_unread hf2; obtain rfl := harg8.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact HS

/-- At k = 0 the body stores nothing into the result's buffer: a placeholder nothing consults. -/
def out5_A_3 (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i) (x0 : Vec F S1x1024x1024 .f32) (x1 : Vec F S8x1024 .f32) (x2 : Vec F S1x1024x1024 .bf16) : Vec F S1x1024x1024 .f32 :=
  VO5_3.read (Elt F) (VO5_3.writes (Elt F) VO5_3.junk (kernelRun5_A c i arg4 harg4 arg5 harg5 arg6 harg6 arg7 harg7 arg8 harg8 hc0 hc1 x0 x1 x2).1)

theorem scover5_A (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i) (x0 : Vec F S1x1024x1024 .f32) (x1 : Vec F S8x1024 .f32) (x2 : Vec F S1x1024x1024 .bf16) (y : S1024x1024.Idx) :
    ∃ pc ∈ (kernelRun5_A c i arg4 harg4 arg5 harg5 arg6 harg6 arg7 harg7 arg8 harg8 hc0 hc1 x0 x1 x2).2.1, y ∈ pc.1.set :=
  View.cover_of_tiledL (kernelRun5_A c i arg4 harg4 arg5 harg5 arg6 harg6 arg7 harg7 arg8 harg8 hc0 hc1 x0 x1 x2).2.1 S1024x1024.size (by sl_kernel_rfl) y

/-- What the point k = 0 leaves in the accumulator. -/
def sout5_A (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i) (x0 : Vec F S1x1024x1024 .f32) (x1 : Vec F S8x1024 .f32) (x2 : Vec F S1x1024x1024 .bf16) : Vec F S1024x1024 .f32 :=
  VS5.read (Elt F) (VS5.writes (Elt F) VS5.junk (kernelRun5_A c i arg4 harg4 arg5 harg5 arg6 harg6 arg7 harg7 arg8 harg8 hc0 hc1 x0 x1 x2).2.1)

theorem cover5_B_3 (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) (y : S1x1024x1024.Idx) :
    ∃ pc ∈ (kernelRun5_B c i arg4 harg4 arg5 harg5 arg6 harg6 arg7 harg7 arg8 harg8 hc0 hc1 x0 x1 x2 xs).1, y ∈ pc.1.set :=
  View.cover_of_tiledL (kernelRun5_B c i arg4 harg4 arg5 harg5 arg6 harg6 arg7 harg7 arg8 harg8 hc0 hc1 x0 x1 x2 xs).1 S1x1024x1024.size (by sl_kernel_rfl) y

/-- What the point k = 1 leaves in the result's staging buffer. -/
def out5_B_3 (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) : Vec F S1x1024x1024 .f32 :=
  VO5_3.read (Elt F) (VO5_3.writes (Elt F) VO5_3.junk (kernelRun5_B c i arg4 harg4 arg5 harg5 arg6 harg6 arg7 harg7 arg8 harg8 hc0 hc1 x0 x1 x2 xs).1)

theorem scover5_B (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) (y : S1024x1024.Idx) :
    ∃ pc ∈ (kernelRun5_B c i arg4 harg4 arg5 harg5 arg6 harg6 arg7 harg7 arg8 harg8 hc0 hc1 x0 x1 x2 xs).2.1, y ∈ pc.1.set :=
  View.cover_of_tiledL (kernelRun5_B c i arg4 harg4 arg5 harg5 arg6 harg6 arg7 harg7 arg8 harg8 hc0 hc1 x0 x1 x2 xs).2.1 S1024x1024.size (by sl_kernel_rfl) y

/-- What the point k = 1 leaves in the accumulator. -/
def sout5_B (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) : Vec F S1024x1024 .f32 :=
  VS5.read (Elt F) (VS5.writes (Elt F) VS5.junk (kernelRun5_B c i arg4 harg4 arg5 harg5 arg6 harg6 arg7 harg7 arg8 harg8 hc0 hc1 x0 x1 x2 xs).2.1)

theorem N5_64 : cfg5.N = 64 := N_5

/-- What the result's staging buffer and the accumulator hold after the body at position `n`. -/
def outsAt5 (c : Dev nD) : (n : ℕ) → n < cfg5.N → Vec F S1x1024x1024 .f32 × Vec F S1024x1024 .f32
  | 0, hn =>
    (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _)
        ((hcond5_0 ⟨0, hn⟩).mpr (Nat.zero_mod _)) (fun h => by have h' := (hcond5_1 ⟨0, hn⟩).mp h; (try dsimp only at h'); omega) (iblk5 V c 0 ⟨0, hn⟩) (iblk5 V c 1 ⟨0, hn⟩) (iblk5 V c 2 ⟨0, hn⟩),
      sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _)
        ((hcond5_0 ⟨0, hn⟩).mpr (Nat.zero_mod _)) (fun h => by have h' := (hcond5_1 ⟨0, hn⟩).mp h; (try dsimp only at h'); omega) (iblk5 V c 0 ⟨0, hn⟩) (iblk5 V c 1 ⟨0, hn⟩) (iblk5 V c 2 ⟨0, hn⟩))
  | n + 1, hn =>
    if h0 : (n + 1) % 2 = 0 then
      (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          ((hcond5_0 ⟨n + 1, hn⟩).mpr h0) (fun h => by have h' := (hcond5_1 ⟨n + 1, hn⟩).mp h; (try dsimp only at h'); omega) (iblk5 V c 0 ⟨n + 1, hn⟩) (iblk5 V c 1 ⟨n + 1, hn⟩) (iblk5 V c 2 ⟨n + 1, hn⟩),
        sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          ((hcond5_0 ⟨n + 1, hn⟩).mpr h0) (fun h => by have h' := (hcond5_1 ⟨n + 1, hn⟩).mp h; (try dsimp only at h'); omega) (iblk5 V c 0 ⟨n + 1, hn⟩) (iblk5 V c 1 ⟨n + 1, hn⟩) (iblk5 V c 2 ⟨n + 1, hn⟩))
    else
      (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hcond5_0 ⟨n + 1, hn⟩).mp h)) ((hcond5_1 ⟨n + 1, hn⟩).mpr (show (n + 1) % 2 = 1 by omega)) (iblk5 V c 0 ⟨n + 1, hn⟩) (iblk5 V c 1 ⟨n + 1, hn⟩) (iblk5 V c 2 ⟨n + 1, hn⟩) (outsAt5 c n (Nat.lt_of_succ_lt hn)).2,
        sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hcond5_0 ⟨n + 1, hn⟩).mp h)) ((hcond5_1 ⟨n + 1, hn⟩).mpr (show (n + 1) % 2 = 1 by omega)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 2 = 0) :
    outsAt5 V c t.val t.isLt =
      (out5_A_3 c (grid5.coords t) (ms5_0 t) (hs5_0 t) (ms5_1 t) (hs5_1 t) (ms5_2 t) (hs5_2 t) (ms5_3 t) (hs5_3 t) scM5 (Memref.isWhole_whole _)
          ((hcond5_0 t).mpr h0) (fun h => by have h' := (hcond5_1 t).mp h; omega) (iblk5 V c 0 t) (iblk5 V c 1 t) (iblk5 V c 2 t),
        sout5_A c (grid5.coords t) (ms5_0 t) (hs5_0 t) (ms5_1 t) (hs5_1 t) (ms5_2 t) (hs5_2 t) (ms5_3 t) (hs5_3 t) scM5 (Memref.isWhole_whole _)
          ((hcond5_0 t).mpr h0) (fun h => by have h' := (hcond5_1 t).mp h; omega) (iblk5 V c 0 t) (iblk5 V c 1 t) (iblk5 V c 2 t)) := by
  obtain ⟨n, hn⟩ := t
  cases n with
  | zero => exact rfl
  | succ n => exact (dif_pos h0).trans rfl

theorem outsAt5_B (c : Dev nD) (t : Fin cfg5.N) (h0 : ¬t.val % 2 = 0) :
    outsAt5 V c t.val t.isLt =
      (out5_B_3 c (grid5.coords t) (ms5_0 t) (hs5_0 t) (ms5_1 t) (hs5_1 t) (ms5_2 t) (hs5_2 t) (ms5_3 t) (hs5_3 t) scM5 (Memref.isWhole_whole _)
          (fun h => h0 ((hcond5_0 t).mp h)) ((hcond5_1 t).mpr (by omega)) (iblk5 V c 0 t) (iblk5 V c 1 t) (iblk5 V c 2 t) (outsAt5 V c (t.val - 1) (Nat.lt_of_le_of_lt (Nat.sub_le _ _) t.isLt)).2,
        sout5_B c (grid5.coords t) (ms5_0 t) (hs5_0 t) (ms5_1 t) (hs5_1 t) (ms5_2 t) (hs5_2 t) (ms5_3 t) (hs5_3 t) scM5 (Memref.isWhole_whole _)
          (fun h => h0 ((hcond5_0 t).mp h)) ((hcond5_1 t).mpr (by omega)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The region's proof data. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt N5_64
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 2 = 0
  · have hc0 : cond5_0 (grid5.coords t) := (hcond5_0 t).mpr h0
    have hc1 : ¬cond5_1 (grid5.coords t) := fun h => by have h' := (hcond5_1 t).mp h; omega
    rw [Dat.leavesExact_idle (dat5 V c) 3 t (idleAt5_3_A t hc0 hc1) (noFlush5_3_A t hc0 hc1)]
    rw [outsAt5_A V c t h0]
    unfold sout5_A; (try dsimp only)
    by_cases hz : t.val = 0
    · rw [PhiS5_castSucc V c t, PhiS5_zero V c _ _ hz, PhiA5_eq]
      iintro ⟨⟨⟨HS, Hrest⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover5_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover5_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hc0 : ¬cond5_0 (grid5.coords t) := fun h => h0 ((hcond5_0 t).mp h)
    have hc1 : cond5_1 (grid5.coords t) := (hcond5_1 t).mpr (by omega)
    rw [show (dat5 V c).leavesExact 3 t = owns (c : Thread nD τ) (ms5_3 t) fullShare ((dat5 V c).after 3 t) from by
      unfold Dat.leavesExact; rw [liveAt5_3_B t hc0 hc1], after5_3]
    rw [outsAt5_B V c t h0]
    unfold out5_B_3 sout5_B; (try dsimp only)
    have hz : t.val ≠ 0 := by omega
    rw [PhiS5_castSucc V c t, PhiS5_pos V c _ _ hz]
    iintro ⟨⟨⟨HS, Hrest⟩, Hg⟩, Ho, ⟨%d0, H0⟩, ⟨%d1, H1⟩, ⟨%d2, H2⟩, ⟨%d3, H3⟩⟩
    iapply ((kernelRun5_B c (grid5.coords t) _ _ _ _ _ _ _ _ _ _ hc0 hc1 (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover5_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _ _)

/-- The body obligation of the normalised product's region, at every point. -/
theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), PhiA5_eq]
  iintro ⟨⟨HS, Hrest⟩, Hg⟩
  isplitl [HS Hrest]
  · isplitl [HS]
    · iexists _; iexact HS
    iexact Hrest
  iexact Hg

end Cert.Kernel.Hand

end
-- ==== Proof.K.Mean.lean ====
/-
  The last kernel region: the mean over the eight channels. Its grid has 16 points (8 row bands of 256 rows by 2 column
  halves of 1024 columns); at each point the body loads the 8 x 256 x 1024 block of the channel stack, adds the eight
  channel slices entry by entry and divides by 8, and stores the 256 x 1024 block of the result. No point reads what
  another wrote, so what the region leaves in the result array is, block by block, that function of the entry contents.
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The channel stack's staging buffer holds the point's block whenever the body runs. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The whole 8 x 256 x 1024 block, as the rectangle the body loads. -/
abbrev rIn6 : Rect S8x256x1024 := Rect.unit (s := S8x256x1024) ![0, 0, 0] S8x256x1024.size inb_S8x256x1024_S8x256x1024_0_0_0
/-- The whole 256 x 1024 block, as the rectangle the body stores. -/
abbrev rOut6 : Rect S256x1024 := Rect.unit (s := S256x1024) ![0, 0] S256x1024.size inb_S256x1024_S256x1024_0_0

/-- What the body leaves in the result's staging buffer: the channel mean of the loaded block. -/
def out6_1 (x0 : Vec F S8x256x1024 .f32) : Vec F S256x1024 .f32 :=
  View.canon [⟨rOut6, k6_pay1 (View.ld x0 rIn6)⟩]

theorem cover6_1 (p0 : Vec F S256x1024 .f32) (y : S256x1024.Idx) :
    ∃ pc ∈ ([⟨rOut6, p0⟩] : List (View.Piece (Elt F) S256x1024 .f32)), y ∈ pc.1.set :=
  View.cover_of_tiled [⟨rOut6, p0⟩] S256x1024.size (by rfl) y

set_option maxHeartbeats 1000000 in
/-- The body on whole staging memrefs: the input's kept, the output's at the channel mean of the input's. -/
theorem sound_kernel6 (c : Dev nD) (E : Set ℕ) (i : grid6.Coords) (arg2 : Memref sig .tc .vmem S8x256x1024 .f32) (harg2 : arg2.IsWhole)
    (arg3 : Memref sig .tc .vmem S256x1024 .f32) (harg3 : arg3.IsWhole)
    (x0 : Vec F S8x256x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out6_1 x0)) -∗ K ⟨⟩))
      ⊢ wp frame (wpE (defs₀ (F := F)) Variants.none c none) E (cc6__mean_kernel i arg2 harg2 arg3 harg3) K := by
  simp only [cc6__mean_kernel_eq_skeleton]; unfold cc6__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-- The region's proof data on core `c`: the arrays as found; after the body at a point the input's buffer at its block and
    the output's at the channel mean of that block; the scoped buffers and the generator register untouched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]
theorem before6_0 (c : Dev nD) (t : Fin cfg6.N) (d) : (dat6 V c).before 0 t d = iblk6 V c 0 t :=
  before6_0_of V (dat6 V c) (A_eq6 V c 0) (after6_0 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ _ _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the mean region, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Regions.lean ====
/-
  The seven kernel regions in sequence. Between two items of the program every buffer outside the kernels' scratch space is
  held at a known valuation: the launch contents, then each host stretch applied, then after each region its result arrays at
  what that region's write-backs leave (each block of a result array is what the grid point owning it stored last) and every other
  buffer as the region found it. Each region is entered from the valuation the item before left and hands back the next one;
  the argument arrays are never among the buffers an item writes, so each is read back at the end as launched.
-/
import proofs.«140696_j56040733278620_2_alg».proof.Proof.Gen.Kernel.Launch
import proofs.«140696_j56040733278620_2_alg».proof.Proof.Gen.Kernel.Skeleton
import proofs.«140696_j56040733278620_2_alg».proof.Proof.Gen.Kernel.Points
import proofs.«140696_j56040733278620_2_alg».proof.Proof.K.Gtconv
import proofs.«140696_j56040733278620_2_alg».proof.Proof.K.Bmm
import proofs.«140696_j56040733278620_2_alg».proof.Proof.K.Colsum2
import proofs.«140696_j56040733278620_2_alg».proof.Proof.K.BmmNorm3
import proofs.«140696_j56040733278620_2_alg».proof.Proof.K.Colsum4
import proofs.«140696_j56040733278620_2_alg».proof.Proof.K.BmmNorm5
import proofs.«140696_j56040733278620_2_alg».proof.Proof.K.Mean
import proofs.«140696_j56040733278620_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every unscoped buffer at launch. -/
abbrev X0 : Dev nD → Valuation τ sig (Elt F) := fun c b => m ((c : Dev nD), b)
/-- After the host stretch `hostOps0`. -/
abbrev X1 : Dev nD → Valuation τ sig (Elt F) := fun c => StableHlo.after hostOps0 (X0 m c)
/-- The same read at the TensorCore's references: what region 0's proof data take. -/
abbrev x1 : (c : Dev nD) → (b : Ref sig .tc) → Buf (Elt F) ((c : Thread nD τ).loc b) := fun c b => X1 m c b
/-- After region 0: its arrays at what its write-backs fold to, every other buffer as entered. -/
def X2 (c : Dev nD) : Valuation τ sig (Elt F) :=
  Pipeline.withArrays spec0 c (X1 m c) fun w => (dat0 (x1 m) c).arrAt w cfg0.N
theorem X2_arr (c : Dev nD) (w : Fin cfg0.W) :
    X2 m c (Proc.devRef .tc (Pipeline.arrRef spec0 w)) = (dat0 (x1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev x2 : (c : Dev nD) → (b : Ref sig .tc) → Buf (Elt F) ((c : Thread nD τ).loc b) := fun c b => X2 m c b
theorem hF0 (c : Dev nD) (w : Fin cfg0.W) : (dat0 (x1 m) c).arrAt w cfg0.N = x2 m c (Pipeline.arrRef spec0 w) :=
  (X2_arr m c w).symm
theorem hrest0 (c : Dev nD) : ∀ b, b ∉ Finset.univ.image (Pipeline.arrRef spec0) → x2 m c b = x1 m c b :=
  fun b hb => X2_of_ne m c b fun w e => hb (Finset.mem_image.mpr ⟨w, Finset.mem_univ _, e⟩)
/-- After region 1: its arrays at what its write-backs fold to, every other buffer as entered. -/
def X3 (c : Dev nD) : Valuation τ sig (Elt F) :=
  Pipeline.withArrays spec1 c (X2 m c) fun w => (dat1 (x2 m) c).arrAt w cfg1.N
theorem X3_arr (c : Dev nD) (w : Fin cfg1.W) :
    X3 m c (Proc.devRef .tc (Pipeline.arrRef spec1 w)) = (dat1 (x2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
abbrev x3 : (c : Dev nD) → (b : Ref sig .tc) → Buf (Elt F) ((c : Thread nD τ).loc b) := fun c b => X3 m c b
theorem hF1 (c : Dev nD) (w : Fin cfg1.W) : (dat1 (x2 m) c).arrAt w cfg1.N = x3 m c (Pipeline.arrRef spec1 w) :=
  (X3_arr m c w).symm
theorem hrest1 (c : Dev nD) : ∀ b, b ∉ Finset.univ.image (Pipeline.arrRef spec1) → x3 m c b = x2 m c b :=
  fun b hb => X3_of_ne m c b fun w e => hb (Finset.mem_image.mpr ⟨w, Finset.mem_univ _, e⟩)
/-- After region 2: its arrays at what its write-backs fold to, every other buffer as entered. -/
def X4 (c : Dev nD) : Valuation τ sig (Elt F) :=
  Pipeline.withArrays spec2 c (X3 m c) fun w => (dat2 (x3 m) c).arrAt w cfg2.N
theorem X4_arr (c : Dev nD) (w : Fin cfg2.W) :
    X4 m c (Proc.devRef .tc (Pipeline.arrRef spec2 w)) = (dat2 (x3 m) c).arrAt w cfg2.N := by
  unfold X4; exact Pipeline.withArrays_arr spec2 launch2.win.arr_inj c _ _ w
theorem X4_of_ne (c : Dev nD) (b : Ref sig .tc) (hb : ∀ w, Pipeline.arrRef spec2 w ≠ b) :
    X4 m c (Proc.devRef .tc b) = X3 m c (Proc.devRef .tc b) := by
  unfold X4; exact Pipeline.withArrays_of_ne spec2 c _ _ b hb
abbrev x4 : (c : Dev nD) → (b : Ref sig .tc) → Buf (Elt F) ((c : Thread nD τ).loc b) := fun c b => X4 m c b
theorem hF2 (c : Dev nD) (w : Fin cfg2.W) : (dat2 (x3 m) c).arrAt w cfg2.N = x4 m c (Pipeline.arrRef spec2 w) :=
  (X4_arr m c w).symm
theorem hrest2 (c : Dev nD) : ∀ b, b ∉ Finset.univ.image (Pipeline.arrRef spec2) → x4 m c b = x3 m c b :=
  fun b hb => X4_of_ne m c b fun w e => hb (Finset.mem_image.mpr ⟨w, Finset.mem_univ _, e⟩)
/-- After the host stretch `hostOps3`. -/
abbrev X5 : Dev nD → Valuation τ sig (Elt F) := fun c => StableHlo.after hostOps3 (X4 m c)
/-- After the host stretch `hostOps3_1`. -/
abbrev X6 : Dev nD → Valuation τ sig (Elt F) := fun c => StableHlo.after hostOps3_1 (X5 m c)
/-- After the host stretch `hostOps3_2`. -/
abbrev X7 : Dev nD → Valuation τ sig (Elt F) := fun c => StableHlo.after hostOps3_2 (X6 m c)
/-- After the host stretch `hostOps3_3`. -/
abbrev X8 : Dev nD → Valuation τ sig (Elt F) := fun c => StableHlo.after hostOps3_3 (X7 m c)
/-- The same read at the TensorCore's references: what region 3's proof data take. -/
abbrev x8 : (c : Dev nD) → (b : Ref sig .tc) → Buf (Elt F) ((c : Thread nD τ).loc b) := fun c b => X8 m c b
/-- After region 3: its arrays at what its write-backs fold to, every other buffer as entered. -/
def X9 (c : Dev nD) : Valuation τ sig (Elt F) :=
  Pipeline.withArrays spec3 c (X8 m c) fun w => (dat3 (x8 m) c).arrAt w cfg3.N
theorem X9_arr (c : Dev nD) (w : Fin cfg3.W) :
    X9 m c (Proc.devRef .tc (Pipeline.arrRef spec3 w)) = (dat3 (x8 m) c).arrAt w cfg3.N := by
  unfold X9; exact Pipeline.withArrays_arr spec3 launch3.win.arr_inj c _ _ w
theorem X9_of_ne (c : Dev nD) (b : Ref sig .tc) (hb : ∀ w, Pipeline.arrRef spec3 w ≠ b) :
    X9 m c (Proc.devRef .tc b) = X8 m c (Proc.devRef .tc b) := by
  unfold X9; exact Pipeline.withArrays_of_ne spec3 c _ _ b hb
abbrev x9 : (c : Dev nD) → (b : Ref sig .tc) → Buf (Elt F) ((c : Thread nD τ).loc b) := fun c b => X9 m c b
theorem hF3 (c : Dev nD) (w : Fin cfg3.W) : (dat3 (x8 m) c).arrAt w cfg3.N = x9 m c (Pipeline.arrRef spec3 w) :=
  (X9_arr m c w).symm
theorem hrest3 (c : Dev nD) : ∀ b, b ∉ Finset.univ.image (Pipeline.arrRef spec3) → x9 m c b = x8 m c b :=
  fun b hb => X9_of_ne m c b fun w e => hb (Finset.mem_image.mpr ⟨w, Finset.mem_univ _, e⟩)
/-- After region 4: its arrays at what its write-backs fold to, every other buffer as entered. -/
def X10 (c : Dev nD) : Valuation τ sig (Elt F) :=
  Pipeline.withArrays spec4 c (X9 m c) fun w => (dat4 (x9 m) c).arrAt w cfg4.N
theorem X10_arr (c : Dev nD) (w : Fin cfg4.W) :
    X10 m c (Proc.devRef .tc (Pipeline.arrRef spec4 w)) = (dat4 (x9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev x10 : (c : Dev nD) → (b : Ref sig .tc) → Buf (Elt F) ((c : Thread nD τ).loc b) := fun c b => X10 m c b
theorem hF4 (c : Dev nD) (w : Fin cfg4.W) : (dat4 (x9 m) c).arrAt w cfg4.N = x10 m c (Pipeline.arrRef spec4 w) :=
  (X10_arr m c w).symm
theorem hrest4 (c : Dev nD) : ∀ b, b ∉ Finset.univ.image (Pipeline.arrRef spec4) → x10 m c b = x9 m c b :=
  fun b hb => X10_of_ne m c b fun w e => hb (Finset.mem_image.mpr ⟨w, Finset.mem_univ _, e⟩)
/-- After the host stretch `hostOps5`. -/
abbrev X11 : Dev nD → Valuation τ sig (Elt F) := fun c => StableHlo.after hostOps5 (X10 m c)
/-- After the host stretch `hostOps5_1`. -/
abbrev X12 : Dev nD → Valuation τ sig (Elt F) := fun c => StableHlo.after hostOps5_1 (X11 m c)
/-- After the host stretch `hostOps5_2`. -/
abbrev X13 : Dev nD → Valuation τ sig (Elt F) := fun c => StableHlo.after hostOps5_2 (X12 m c)
/-- After the host stretch `hostOps5_3`. -/
abbrev X14 : Dev nD → Valuation τ sig (Elt F) := fun c => StableHlo.after hostOps5_3 (X13 m c)
/-- The same read at the TensorCore's references: what region 5's proof data take. -/
abbrev x14 : (c : Dev nD) → (b : Ref sig .tc) → Buf (Elt F) ((c : Thread nD τ).loc b) := fun c b => X14 m c b
/-- After region 5: its arrays at what its write-backs fold to, every other buffer as entered. -/
def X15 (c : Dev nD) : Valuation τ sig (Elt F) :=
  Pipeline.withArrays spec5 c (X14 m c) fun w => (dat5 (x14 m) c).arrAt w cfg5.N
theorem X15_arr (c : Dev nD) (w : Fin cfg5.W) :
    X15 m c (Proc.devRef .tc (Pipeline.arrRef spec5 w)) = (dat5 (x14 m) c).arrAt w cfg5.N := by
  unfold X15; exact Pipeline.withArrays_arr spec5 launch5.win.arr_inj c _ _ w
theorem X15_of_ne (c : Dev nD) (b : Ref sig .tc) (hb : ∀ w, Pipeline.arrRef spec5 w ≠ b) :
    X15 m c (Proc.devRef .tc b) = X14 m c (Proc.devRef .tc b) := by
  unfold X15; exact Pipeline.withArrays_of_ne spec5 c _ _ b hb
abbrev x15 : (c : Dev nD) → (b : Ref sig .tc) → Buf (Elt F) ((c : Thread nD τ).loc b) := fun c b => X15 m c b
theorem hF5 (c : Dev nD) (w : Fin cfg5.W) : (dat5 (x14 m) c).arrAt w cfg5.N = x15 m c (Pipeline.arrRef spec5 w) :=
  (X15_arr m c w).symm
theorem hrest5 (c : Dev nD) : ∀ b, b ∉ Finset.univ.image (Pipeline.arrRef spec5) → x15 m c b = x14 m c b :=
  fun b hb => X15_of_ne m c b fun w e => hb (Finset.mem_image.mpr ⟨w, Finset.mem_univ _, e⟩)
/-- After region 6: its arrays at what its write-backs fold to, every other buffer as entered. -/
def X16 (c : Dev nD) : Valuation τ sig (Elt F) :=
  Pipeline.withArrays spec6 c (X15 m c) fun w => (dat6 (x15 m) c).arrAt w cfg6.N
theorem X16_arr (c : Dev nD) (w : Fin cfg6.W) :
    X16 m c (Proc.devRef .tc (Pipeline.arrRef spec6 w)) = (dat6 (x15 m) c).arrAt w cfg6.N := by
  unfold X16; exact Pipeline.withArrays_arr spec6 launch6.win.arr_inj c _ _ w
theorem X16_of_ne (c : Dev nD) (b : Ref sig .tc) (hb : ∀ w, Pipeline.arrRef spec6 w ≠ b) :
    X16 m c (Proc.devRef .tc b) = X15 m c (Proc.devRef .tc b) := by
  unfold X16; exact Pipeline.withArrays_of_ne spec6 c _ _ b hb
abbrev x16 : (c : Dev nD) → (b : Ref sig .tc) → Buf (Elt F) ((c : Thread nD τ).loc b) := fun c b => X16 m c b
theorem hF6 (c : Dev nD) (w : Fin cfg6.W) : (dat6 (x15 m) c).arrAt w cfg6.N = x16 m c (Pipeline.arrRef spec6 w) :=
  (X16_arr m c w).symm
theorem hrest6 (c : Dev nD) : ∀ b, b ∉ Finset.univ.image (Pipeline.arrRef spec6) → x16 m c b = x15 m c b :=
  fun b hb => X16_of_ne m c b fun w e => hb (Finset.mem_image.mpr ⟨w, Finset.mem_univ _, e⟩)
/-- After the host stretch `hostOps7`. -/
abbrev X17 : Dev nD → Valuation τ sig (Elt F) := fun c => StableHlo.after hostOps7 (X16 m c)

/-- Argument 0 reaches the end as launched: no host stretch writes it and no region has it among its arrays. -/
theorem X17_main_arg0 (c : Dev nD) : X17 m c (Proc.devRef .tc main_arg0) = m ((c : Thread nD τ).loc main_arg0) :=
  calc X17 m c (Proc.devRef .tc main_arg0)
    _ = X16 m c (Proc.devRef .tc main_arg0) := StableHlo.after_of_writes_sub hostOps7 _ Gen.hostOps7_writes (by decide)
    _ = X15 m c (Proc.devRef .tc main_arg0) := X16_of_ne m c main_arg0 (by decide)
    _ = X14 m c (Proc.devRef .tc main_arg0) := X15_of_ne m c main_arg0 (by decide)
    _ = X13 m c (Proc.devRef .tc main_arg0) := StableHlo.after_of_writes_sub hostOps5_3 _ Gen.hostOps5_3_writes (by decide)
    _ = X12 m c (Proc.devRef .tc main_arg0) := StableHlo.after_of_writes_sub hostOps5_2 _ Gen.hostOps5_2_writes (by decide)
    _ = X11 m c (Proc.devRef .tc main_arg0) := StableHlo.after_of_writes_sub hostOps5_1 _ Gen.hostOps5_1_writes (by decide)
    _ = X10 m c (Proc.devRef .tc main_arg0) := StableHlo.after_of_writes_sub hostOps5 _ Gen.hostOps5_writes (by decide)
    _ = X9 m c (Proc.devRef .tc main_arg0) := X10_of_ne m c main_arg0 (by decide)
    _ = X8 m c (Proc.devRef .tc main_arg0) := X9_of_ne m c main_arg0 (by decide)
    _ = X7 m c (Proc.devRef .tc main_arg0) := StableHlo.after_of_writes_sub hostOps3_3 _ Gen.hostOps3_3_writes (by decide)
    _ = X6 m c (Proc.devRef .tc main_arg0) := StableHlo.after_of_writes_sub hostOps3_2 _ Gen.hostOps3_2_writes (by decide)
    _ = X5 m c (Proc.devRef .tc main_arg0) := StableHlo.after_of_writes_sub hostOps3_1 _ Gen.hostOps3_1_writes (by decide)
    _ = X4 m c (Proc.devRef .tc main_arg0) := StableHlo.after_of_writes_sub hostOps3 _ Gen.hostOps3_writes (by decide)
    _ = X3 m c (Proc.devRef .tc main_arg0) := X4_of_ne m c main_arg0 (by decide)
    _ = X2 m c (Proc.devRef .tc main_arg0) := X3_of_ne m c main_arg0 (by decide)
    _ = X1 m c (Proc.devRef .tc main_arg0) := X2_of_ne m c main_arg0 (by decide)
    _ = X0 m c (Proc.devRef .tc main_arg0) := StableHlo.after_of_writes_sub hostOps0 _ Gen.hostOps0_writes (by decide)
    _ = m ((c : Thread nD τ).loc main_arg0) := rfl

/-- Argument 1 reaches the end as launched: no host stretch writes it and no region has it among its arrays. -/
theorem X17_main_arg1 (c : Dev nD) : X17 m c (Proc.devRef .tc main_arg1) = m ((c : Thread nD τ).loc main_arg1) :=
  calc X17 m c (Proc.devRef .tc main_arg1)
    _ = X16 m c (Proc.devRef .tc main_arg1) := StableHlo.after_of_writes_sub hostOps7 _ Gen.hostOps7_writes (by decide)
    _ = X15 m c (Proc.devRef .tc main_arg1) := X16_of_ne m c main_arg1 (by decide)
    _ = X14 m c (Proc.devRef .tc main_arg1) := X15_of_ne m c main_arg1 (by decide)
    _ = X13 m c (Proc.devRef .tc main_arg1) := StableHlo.after_of_writes_sub hostOps5_3 _ Gen.hostOps5_3_writes (by decide)
    _ = X12 m c (Proc.devRef .tc main_arg1) := StableHlo.after_of_writes_sub hostOps5_2 _ Gen.hostOps5_2_writes (by decide)
    _ = X11 m c (Proc.devRef .tc main_arg1) := StableHlo.after_of_writes_sub hostOps5_1 _ Gen.hostOps5_1_writes (by decide)
    _ = X10 m c (Proc.devRef .tc main_arg1) := StableHlo.after_of_writes_sub hostOps5 _ Gen.hostOps5_writes (by decide)
    _ = X9 m c (Proc.devRef .tc main_arg1) := X10_of_ne m c main_arg1 (by decide)
    _ = X8 m c (Proc.devRef .tc main_arg1) := X9_of_ne m c main_arg1 (by decide)
    _ = X7 m c (Proc.devRef .tc main_arg1) := StableHlo.after_of_writes_sub hostOps3_3 _ Gen.hostOps3_3_writes (by decide)
    _ = X6 m c (Proc.devRef .tc main_arg1) := StableHlo.after_of_writes_sub hostOps3_2 _ Gen.hostOps3_2_writes (by decide)
    _ = X5 m c (Proc.devRef .tc main_arg1) := StableHlo.after_of_writes_sub hostOps3_1 _ Gen.hostOps3_1_writes (by decide)
    _ = X4 m c (Proc.devRef .tc main_arg1) := StableHlo.after_of_writes_sub hostOps3 _ Gen.hostOps3_writes (by decide)
    _ = X3 m c (Proc.devRef .tc main_arg1) := X4_of_ne m c main_arg1 (by decide)
    _ = X2 m c (Proc.devRef .tc main_arg1) := X3_of_ne m c main_arg1 (by decide)
    _ = X1 m c (Proc.devRef .tc main_arg1) := X2_of_ne m c main_arg1 (by decide)
    _ = X0 m c (Proc.devRef .tc main_arg1) := StableHlo.after_of_writes_sub hostOps0 _ Gen.hostOps0_writes (by decide)
    _ = m ((c : Thread nD τ).loc main_arg1) := rfl

/-- Argument 2 reaches the end as launched: no host stretch writes it and no region has it among its arrays. -/
theorem X17_main_arg2 (c : Dev nD) : X17 m c (Proc.devRef .tc main_arg2) = m ((c : Thread nD τ).loc main_arg2) :=
  calc X17 m c (Proc.devRef .tc main_arg2)
    _ = X16 m c (Proc.devRef .tc main_arg2) := StableHlo.after_of_writes_sub hostOps7 _ Gen.hostOps7_writes (by decide)
    _ = X15 m c (Proc.devRef .tc main_arg2) := X16_of_ne m c main_arg2 (by decide)
    _ = X14 m c (Proc.devRef .tc main_arg2) := X15_of_ne m c main_arg2 (by decide)
    _ = X13 m c (Proc.devRef .tc main_arg2) := StableHlo.after_of_writes_sub hostOps5_3 _ Gen.hostOps5_3_writes (by decide)
    _ = X12 m c (Proc.devRef .tc main_arg2) := StableHlo.after_of_writes_sub hostOps5_2 _ Gen.hostOps5_2_writes (by decide)
    _ = X11 m c (Proc.devRef .tc main_arg2) := StableHlo.after_of_writes_sub hostOps5_1 _ Gen.hostOps5_1_writes (by decide)
    _ = X10 m c (Proc.devRef .tc main_arg2) := StableHlo.after_of_writes_sub hostOps5 _ Gen.hostOps5_writes (by decide)
    _ = X9 m c (Proc.devRef .tc main_arg2) := X10_of_ne m c main_arg2 (by decide)
    _ = X8 m c (Proc.devRef .tc main_arg2) := X9_of_ne m c main_arg2 (by decide)
    _ = X7 m c (Proc.devRef .tc main_arg2) := StableHlo.after_of_writes_sub hostOps3_3 _ Gen.hostOps3_3_writes (by decide)
    _ = X6 m c (Proc.devRef .tc main_arg2) := StableHlo.after_of_writes_sub hostOps3_2 _ Gen.hostOps3_2_writes (by decide)
    _ = X5 m c (Proc.devRef .tc main_arg2) := StableHlo.after_of_writes_sub hostOps3_1 _ Gen.hostOps3_1_writes (by decide)
    _ = X4 m c (Proc.devRef .tc main_arg2) := StableHlo.after_of_writes_sub hostOps3 _ Gen.hostOps3_writes (by decide)
    _ = X3 m c (Proc.devRef .tc main_arg2) := X4_of_ne m c main_arg2 (by decide)
    _ = X2 m c (Proc.devRef .tc main_arg2) := X3_of_ne m c main_arg2 (by decide)
    _ = X1 m c (Proc.devRef .tc main_arg2) := X2_of_ne m c main_arg2 (by decide)
    _ = X0 m c (Proc.devRef .tc main_arg2) := StableHlo.after_of_writes_sub hostOps0 _ Gen.hostOps0_writes (by decide)
    _ = m ((c : Thread nD τ).loc main_arg2) := rfl

/-- Argument 3 reaches the end as launched: no host stretch writes it and no region has it among its arrays. -/
theorem X17_main_arg3 (c : Dev nD) : X17 m c (Proc.devRef .tc main_arg3) = m ((c : Thread nD τ).loc main_arg3) :=
  calc X17 m c (Proc.devRef .tc main_arg3)
    _ = X16 m c (Proc.devRef .tc main_arg3) := StableHlo.after_of_writes_sub hostOps7 _ Gen.hostOps7_writes (by decide)
    _ = X15 m c (Proc.devRef .tc main_arg3) := X16_of_ne m c main_arg3 (by decide)
    _ = X14 m c (Proc.devRef .tc main_arg3) := X15_of_ne m c main_arg3 (by decide)
    _ = X13 m c (Proc.devRef .tc main_arg3) := StableHlo.after_of_writes_sub hostOps5_3 _ Gen.hostOps5_3_writes (by decide)
    _ = X12 m c (Proc.devRef .tc main_arg3) := StableHlo.after_of_writes_sub hostOps5_2 _ Gen.hostOps5_2_writes (by decide)
    _ = X11 m c (Proc.devRef .tc main_arg3) := StableHlo.after_of_writes_sub hostOps5_1 _ Gen.hostOps5_1_writes (by decide)
    _ = X10 m c (Proc.devRef .tc main_arg3) := StableHlo.after_of_writes_sub hostOps5 _ Gen.hostOps5_writes (by decide)
    _ = X9 m c (Proc.devRef .tc main_arg3) := X10_of_ne m c main_arg3 (by decide)
    _ = X8 m c (Proc.devRef .tc main_arg3) := X9_of_ne m c main_arg3 (by decide)
    _ = X7 m c (Proc.devRef .tc main_arg3) := StableHlo.after_of_writes_sub hostOps3_3 _ Gen.hostOps3_3_writes (by decide)
    _ = X6 m c (Proc.devRef .tc main_arg3) := StableHlo.after_of_writes_sub hostOps3_2 _ Gen.hostOps3_2_writes (by decide)
    _ = X5 m c (Proc.devRef .tc main_arg3) := StableHlo.after_of_writes_sub hostOps3_1 _ Gen.hostOps3_1_writes (by decide)
    _ = X4 m c (Proc.devRef .tc main_arg3) := StableHlo.after_of_writes_sub hostOps3 _ Gen.hostOps3_writes (by decide)
    _ = X3 m c (Proc.devRef .tc main_arg3) := X4_of_ne m c main_arg3 (by decide)
    _ = X2 m c (Proc.devRef .tc main_arg3) := X3_of_ne m c main_arg3 (by decide)
    _ = X1 m c (Proc.devRef .tc main_arg3) := X2_of_ne m c main_arg3 (by decide)
    _ = X0 m c (Proc.devRef .tc main_arg3) := StableHlo.after_of_writes_sub hostOps0 _ Gen.hostOps0_writes (by decide)
    _ = m ((c : Thread nD τ).loc main_arg3) := rfl

/-- Argument 4 reaches the end as launched: no host stretch writes it and no region has it among its arrays. -/
theorem X17_main_arg4 (c : Dev nD) : X17 m c (Proc.devRef .tc main_arg4) = m ((c : Thread nD τ).loc main_arg4) :=
  calc X17 m c (Proc.devRef .tc main_arg4)
    _ = X16 m c (Proc.devRef .tc main_arg4) := StableHlo.after_of_writes_sub hostOps7 _ Gen.hostOps7_writes (by decide)
    _ = X15 m c (Proc.devRef .tc main_arg4) := X16_of_ne m c main_arg4 (by decide)
    _ = X14 m c (Proc.devRef .tc main_arg4) := X15_of_ne m c main_arg4 (by decide)
    _ = X13 m c (Proc.devRef .tc main_arg4) := StableHlo.after_of_writes_sub hostOps5_3 _ Gen.hostOps5_3_writes (by decide)
    _ = X12 m c (Proc.devRef .tc main_arg4) := StableHlo.after_of_writes_sub hostOps5_2 _ Gen.hostOps5_2_writes (by decide)
    _ = X11 m c (Proc.devRef .tc main_arg4) := StableHlo.after_of_writes_sub hostOps5_1 _ Gen.hostOps5_1_writes (by decide)
    _ = X10 m c (Proc.devRef .tc main_arg4) := StableHlo.after_of_writes_sub hostOps5 _ Gen.hostOps5_writes (by decide)
    _ = X9 m c (Proc.devRef .tc main_arg4) := X10_of_ne m c main_arg4 (by decide)
    _ = X8 m c (Proc.devRef .tc main_arg4) := X9_of_ne m c main_arg4 (by decide)
    _ = X7 m c (Proc.devRef .tc main_arg4) := StableHlo.after_of_writes_sub hostOps3_3 _ Gen.hostOps3_3_writes (by decide)
    _ = X6 m c (Proc.devRef .tc main_arg4) := StableHlo.after_of_writes_sub hostOps3_2 _ Gen.hostOps3_2_writes (by decide)
    _ = X5 m c (Proc.devRef .tc main_arg4) := StableHlo.after_of_writes_sub hostOps3_1 _ Gen.hostOps3_1_writes (by decide)
    _ = X4 m c (Proc.devRef .tc main_arg4) := StableHlo.after_of_writes_sub hostOps3 _ Gen.hostOps3_writes (by decide)
    _ = X3 m c (Proc.devRef .tc main_arg4) := X4_of_ne m c main_arg4 (by decide)
    _ = X2 m c (Proc.devRef .tc main_arg4) := X3_of_ne m c main_arg4 (by decide)
    _ = X1 m c (Proc.devRef .tc main_arg4) := X2_of_ne m c main_arg4 (by decide)
    _ = X0 m c (Proc.devRef .tc main_arg4) := StableHlo.after_of_writes_sub hostOps0 _ Gen.hostOps0_writes (by decide)
    _ = m ((c : Thread nD τ).loc main_arg4) := rfl

/-- Every pipeline's proof data, each at its region's entry contents. -/
def pdats : (p : Fin 7) → (c : Dev nD) → Dat τ (Elt F) Unit ℕ (UR sig nD τ) ℕ (Pipeline.pin (pcfgs (F := F)) Gen.adm p) c
  | ⟨0, _⟩ => fun c => dat0 (x1 m) c
  | ⟨1, _⟩ => fun c => dat1 (x2 m) c
  | ⟨2, _⟩ => fun c => dat2 (x3 m) c
  | ⟨3, _⟩ => fun c => dat3 (x8 m) c
  | ⟨4, _⟩ => fun c => dat4 (x9 m) c
  | ⟨5, _⟩ => fun c => dat5 (x14 m) c
  | ⟨6, _⟩ => fun c => dat6 (x15 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A host stretch as an item: its operations run over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: its arrays split out of the unscoped buffers at entry and put back at the exit contents. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (x1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (x1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (x1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (x1 m c) (x2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit contents. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (x2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (x2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (x2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (x2 m) c)
    unfold Pipeline.ΦA
    iintro ⟨Hp, -, Hr⟩
    isplitl [Hr]; · iexact Hr
    iexact Hp
  hout c := by
    rw [Pipeline.ownSems0_none]
    refine (hout1 (x2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (x2 m c) (x3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit contents. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (x3 m) c).loose
  hwaits := Pipeline.hwaits_of_owed_zero _ _ _ _ L lv 2 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec2 c (x3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (x3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (x3 m c) (x4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers at entry and put back at the exit contents. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (x8 m) c).loose
  hwaits := Pipeline.hwaits_of_owed_zero _ _ _ _ L lv 3 fun _ _ => rfl
  pre c := iprop(StableHlo.held (c : Thread nD τ) (Pipeline.ucRefs τ sig) (X8 m c) ∗ R c)
  post c := iprop(StableHlo.held (c : Thread nD τ) (Pipeline.ucRefs τ sig) (X9 m c) ∗ R c)
  X c := iprop(∃ r, prngReg c r)
  Y c := iprop(∃ r, prngReg c r)
  Z c := Pipeline.unscopedRest (Ix := Unit) (Name := ℕ) (U := UR sig nD τ) (Lvl := ℕ) spec3 c (x8 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (x8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (x8 m) c)
    unfold Pipeline.ΦA
    iintro ⟨Hp, -, Hr⟩
    isplitl [Hr]; · iexact Hr
    iexact Hp
  hout c := by
    rw [Pipeline.ownSems0_none]
    refine (hout3 (x8 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (x8 m c) (x9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers at entry and put back at the exit contents. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (x9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (x9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (x9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (x9 m c) (x10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers at entry and put back at the exit contents. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (x14 m) c).loose
  hwaits := Pipeline.hwaits_of_owed_zero _ _ _ _ L lv 5 fun _ _ => rfl
  pre c := iprop(StableHlo.held (c : Thread nD τ) (Pipeline.ucRefs τ sig) (X14 m c) ∗ R c)
  post c := iprop(StableHlo.held (c : Thread nD τ) (Pipeline.ucRefs τ sig) (X15 m c) ∗ R c)
  X c := iprop(∃ r, prngReg c r)
  Y c := iprop(∃ r, prngReg c r)
  Z c := Pipeline.unscopedRest (Ix := Unit) (Name := ℕ) (U := UR sig nD τ) (Lvl := ℕ) spec5 c (x14 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (x14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (x14 m) c)
    unfold Pipeline.ΦA
    iintro ⟨Hp, -, Hr⟩
    isplitl [Hr]; · iexact Hr
    iexact Hp
  hout c := by
    rw [Pipeline.ownSems0_none]
    refine (hout5 (x14 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (x14 m c) (x15 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: its arrays split out of the unscoped buffers at entry and put back at the exit contents. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (x15 m) c).loose
  hwaits := Pipeline.hwaits_of_owed_zero _ _ _ _ L lv 6 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec6 c (x15 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (x15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (x15 m c) (x16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's 17 items in order. -/
abbrev segs : List (Pipeline.Seg (pcfgs (F := F)) Gen.adm (pdats m) () defs₀ 𝒱₀ L lv) :=
  [
    .host (hseg hostOps0 hostOps0_sub Gen.hostOps0_fresh (X0 m)),
    .region (reg0 m),
    .region (reg1 m),
    .region (reg2 m),
    .host (hseg hostOps3 hostOps3_sub Gen.hostOps3_fresh (X4 m)),
    .host (hseg hostOps3_1 hostOps3_1_sub Gen.hostOps3_1_fresh (X5 m)),
    .host (hseg hostOps3_2 hostOps3_2_sub Gen.hostOps3_2_fresh (X6 m)),
    .host (hseg hostOps3_3 hostOps3_3_sub Gen.hostOps3_3_fresh (X7 m)),
    .region (reg3 m),
    .region (reg4 m),
    .host (hseg hostOps5 hostOps5_sub Gen.hostOps5_fresh (X10 m)),
    .host (hseg hostOps5_1 hostOps5_1_sub Gen.hostOps5_1_fresh (X11 m)),
    .host (hseg hostOps5_2 hostOps5_2_sub Gen.hostOps5_2_fresh (X12 m)),
    .host (hseg hostOps5_3 hostOps5_3_sub Gen.hostOps5_3_fresh (X13 m)),
    .region (reg5 m),
    .region (reg6 m),
    .host (hseg hostOps7 hostOps7_sub Gen.hostOps7_fresh (X16 m)) ]

/-- The program is the run of its items. -/
theorem main_run (c : Dev nD) : main (F := F) c = Pipeline.Seg.run (segs m) := (main_chain c).trans (by chain_rfl)

/-- The last thread state without what is owed: every unscoped buffer at the last valuation, the generator register at some state. -/
abbrev Tₙ (c : Dev nD) : sProp 𝕄 := iprop(StableHlo.held (c : Thread nD τ) (Pipeline.ucRefs τ sig) (X17 m c) ∗ ∃ r, prngReg c r)

set_option backward.isDefEq.respectTransparency.types false in
/-- THE RUN: from any memory with zero counters every weakly fair execution of the program terminates, nothing faulting, and
    every final state holds every unscoped buffer of every core at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = X17 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X17 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X17 m c b)
    (hfin := fun c s' => by
      iintro ⟨⟨Hh, -⟩, HSI⟩
      unfold StableHlo.held
      imodintro
      iapply (pointsTo_read_all (Pipeline.ucRefs τ sig) (fun b => (((c : Thread nD τ)).1, b)) (X17 m c) s')
      isplitl [Hh] <;> iassumption)
    (hQ := fun s h => h)

/-- THE FRAME: the five argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (X17_main_arg0 m c),
      (h c _ (mem_uc main_arg1 (by decide))).trans (X17_main_arg1 m c),
      (h c _ (mem_uc main_arg2 (by decide))).trans (X17_main_arg2 m c),
      (h c _ (mem_uc main_arg3 (by decide))).trans (X17_main_arg3 m c),
      (h c _ (mem_uc main_arg4 (by decide))).trans (X17_main_arg4 m c)⟩) (run_all m ρ)

end Cert.Kernel.Hand

end
-- ==== Proof.KI.Gtconv.lean ====
/-
  The channel-mixing region: from the 8 x 256 x 512 block of the edge-type stack and the four 8 x 8 tables of softmax
  weights it stores, for each of the four tables and each channel c, the 256 x 512 slice  sum over e of A[e] · w[c, e]  into
  slice c of that table's 8 x 256 x 512 result block. The grid has 32 points (8 row bands by 4 column bands); no point reads
  what another wrote. The 32 slice stores of a point tile the four result blocks.
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev VO0_5 : View sig .tc .vmem S8x256x512 .bf16 := (Memref.whole cc0_stg5_0 : Memref sig .tc .vmem S8x256x512 .bf16).view
abbrev VO0_6 : View sig .tc .vmem S8x256x512 .bf16 := (Memref.whole cc0_stg6_0 : Memref sig .tc .vmem S8x256x512 .bf16).view
abbrev VO0_7 : View sig .tc .vmem S8x256x512 .bf16 := (Memref.whole cc0_stg7_0 : Memref sig .tc .vmem S8x256x512 .bf16).view
abbrev VO0_8 : View sig .tc .vmem S8x256x512 .bf16 := (Memref.whole cc0_stg8_0 : Memref sig .tc .vmem S8x256x512 .bf16).view
abbrev ms0_0 (t : Fin cfg0.N) : Memref sig .tc .vmem S8x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x8 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x256x512 .bf16 := win0_8.stage (cfg0.slots t 8)
abbrev hs0_8 (t : Fin cfg0.N) : (ms0_8 t).IsWhole := hstage0_8 ((cfg0.slots t 8).cast nbuf0_8)

set_option maxHeartbeats 8000000 in
/-- The body on whole staging memrefs: the five inputs kept, each of the four result buffers (at anything before) left with
    its eight slice stores' pieces written. -/
noncomputable def kernelRun0 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) :
    Σ' (L5 : List (View.Piece (Elt F) S8x256x512 .bf16)) (L6 : List (View.Piece (Elt F) S8x256x512 .bf16)) (L7 : List (View.Piece (Elt F) S8x256x512 .bf16)),
      { L8 : List (View.Piece (Elt F) S8x256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)) -∗ K ⟨⟩))
          ⊢ wp frame (wpE (defs₀ (F := F)) Variants.none c none) E (cc0__gtconv_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__gtconv_kernel_eq_skeleton]; unfold cc0__gtconv_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    iexists _; iexact H8

theorem cover0_5 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).1 S1x256x512.size (by sl_kernel_rfl) y

/-- What the body leaves in result window 5's staging buffer. -/
def out0_5 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_5.read (Elt F) (VO0_5.writes (Elt F) VO0_5.junk (kernelRun0 c i arg2 harg2 arg3 harg3 arg4 harg4 arg5 harg5 arg6 harg6 arg7 harg7 arg8 harg8 arg9 harg9 arg10 harg10 x0 x1 x2 x3 x4).1)

theorem cover0_6 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).2.1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).2.1 S1x256x512.size (by sl_kernel_rfl) y

/-- What the body leaves in result window 6's staging buffer. -/
def out0_6 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_6.read (Elt F) (VO0_6.writes (Elt F) VO0_6.junk (kernelRun0 c i arg2 harg2 arg3 harg3 arg4 harg4 arg5 harg5 arg6 harg6 arg7 harg7 arg8 harg8 arg9 harg9 arg10 harg10 x0 x1 x2 x3 x4).2.1)

theorem cover0_7 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).2.2.1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).2.2.1 S1x256x512.size (by sl_kernel_rfl) y

/-- What the body leaves in result window 7's staging buffer. -/
def out0_7 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_7.read (Elt F) (VO0_7.writes (Elt F) VO0_7.junk (kernelRun0 c i arg2 harg2 arg3 harg3 arg4 harg4 arg5 harg5 arg6 harg6 arg7 harg7 arg8 harg8 arg9 harg9 arg10 harg10 x0 x1 x2 x3 x4).2.2.1)

theorem cover0_8 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) (y : S8x256x512.Idx) :
    ∃ pc ∈ (kernelRun0 c i arg2 harg2 arg3 harg3 arg4 harg4 arg5 harg5 arg6 harg6 arg7 harg7 arg8 harg8 arg9 harg9 arg10 harg10 x0 x1 x2 x3 x4).2.2.2.1, y ∈ pc.1.set :=
  View.cover_of_tiledL (kernelRun0 c i arg2 harg2 arg3 harg3 arg4 harg4 arg5 harg5 arg6 harg6 arg7 harg7 arg8 harg8 arg9 harg9 arg10 harg10 x0 x1 x2 x3 x4).2.2.2.1 S1x256x512.size (by sl_kernel_rfl) y

/-- What the body leaves in result window 8's staging buffer. -/
def out0_8 (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec F S8x256x512 .f32) (x1 : Vec F S8x8 .f32) (x2 : Vec F S8x8 .f32) (x3 : Vec F S8x8 .f32) (x4 : Vec F S8x8 .f32) : Vec F S8x256x512 .bf16 :=
  VO0_8.read (Elt F) (VO0_8.writes (Elt F) VO0_8.junk (kernelRun0 c i arg2 harg2 arg3 harg3 arg4 harg4 arg5 harg5 arg6 harg6 arg7 harg7 arg8 harg8 arg9 harg9 arg10 harg10 x0 x1 x2 x3 x4).2.2.2.1)

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
    | ⟨6, _⟩ => out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold out0_5 out0_6 out0_7 out0_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ (iblk0 V c 0 t) (iblk0 V c 1 t) (iblk0 V c 2 t) (iblk0 V c 3 t) (iblk0 V c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_5 c _ _ _ _ _ _ _ _ _ _ _ _ _ _ _ _ _ _ _ _ _ _ _ _ )
  isplitl [H6]
  · unfold owns; iexists _; isplitr
    swap; · iexact H6
    ipureintro; exact View.read_writes_of_cover _ _ _ _ _ (cover0_6 c _ _ _ _ _ _ _ _ _ _ _ _ _ _ _ _ _ _ _ _ _ _ _ _ )
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ )
  unfold owns; iexists _; isplitr
  swap; · iexact H8
  ipureintro; exact View.read_writes_of_cover _ _ _ _ _ (cover0_8 c _ _ _ _ _ _ _ _ _ _ _ _ _ _ _ _ _ _ _ _ _ _ _ _ )

/-- The body obligation of the channel-mixing region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Bmm.lean ====
/-
  The first batched product H0[c] = a[c] · b[c], cut into 1024 x 1024 blocks: the grid's 64 points are (channel, row block,
  column block, k) with k ∈ {0, 1} fastest. A 1024 x 1024 accumulator in scratch memory is carried from the point k = 0 to the
  point k = 1 of the same block: at k = 0 the body zeroes it and adds the product of the two input blocks; at k = 1 it adds the
  second product and then copies the accumulator into the result's staging buffer, which is written back after that point
  only (at k = 0 the body stores nothing there).
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- "k = 0": the body's first test. -/
abbrev cond1_0 (i : grid1.Coords) : Prop := (Scalar.cmpi .ne (Scalar.extui (Scalar.cmpi .eq (BitVec.ofNat 32 (i 3).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "k = 1", the last: the body's second test. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem liveAt1_2_B : ∀ t : Fin cfg1.N, ¬cond1_0 (grid1.coords t) → cond1_1 (grid1.coords t) → cfg1.idle 2 (grid1.coords t) = false := by decide +kernel

abbrev VO1_2 : View sig .tc .vmem S1x1024x1024 .f32 := (Memref.whole cc1_stg2_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
/-- The accumulator. -/
abbrev scM1 : Memref sig .tc .vmem S1024x1024 .f32 := Memref.whole cc1_scratch0
abbrev VS1 : View sig .tc .vmem S1024x1024 .f32 := scM1.view

/-- The class invariant with the accumulator taken out of the scoped rest. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

set_option maxHeartbeats 2000000 in
/-- The body at k = 0: the inputs kept, the result's buffer handed back untouched, the accumulator (at anything before) left
    with the stores' pieces written. -/
noncomputable def kernelRun1_A (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) :
    Σ' (L2 : List (View.Piece (Elt F) S1x1024x1024 .f32)), { LS : List (View.Piece (Elt F) S1024x1024 .f32) //
      ∀ (xi2 : Vec F S1x1024x1024 .f32) (E : Set ℕ) (K : PUnit → sProp 𝕄),
        iprop(owns (c : Thread nD τ) arg4 fullShare x0 ∗ owns (c : Thread nD τ) arg5 fullShare x1 ∗ owns (c : Thread nD τ) arg6 fullShare xi2
            ∗ (∃ d, owns (c : Thread nD τ) arg7 fullShare d)
            ∗ (iprop(owns (c : Thread nD τ) arg4 fullShare x0 ∗ owns (c : Thread nD τ) arg5 fullShare x1 ∗ owns (c : Thread nD τ) arg6 fullShare xi2
                ∗ (∃ f, arg7.view.loc (c : Thread nD τ) ↦[arg7.view.set]{fullShare} arg7.view.writes (Elt F) f LS)) -∗ K ⟨⟩))
          ⊢ wp frame (wpE (defs₀ (F := F)) Variants.none c none) E (cc1__bmm_kernel i arg4 harg4 arg5 harg5 arg6 harg6 arg7 harg7) K } := by
  refine ⟨[], ?_, fun xi2 E K => ?run⟩
  case run =>
    simp only [cc1__bmm_kernel_eq_skeleton]; unfold cc1__bmm_kernel_skel
    unfold owns
    iintro ⟨⟨%f0, %hf0, H0⟩, ⟨%f1, %hf1, H1⟩, ⟨%f2, %hf2, H2⟩, ⟨%ds, %fs, -, HS⟩, Hk⟩
    obtain rfl := harg4.eq_unread hf0; obtain rfl := harg5.eq_unread hf1; obtain rfl := harg6.eq_unread hf2
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact HS

set_option maxHeartbeats 2000000 in
/-- The body at k = 1: the accumulator, at `xs` before, and the result's buffer, at anything before, both left with the
    stores' pieces written. -/
noncomputable def kernelRun1_B (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) :
    Σ' (L2 : List (View.Piece (Elt F) S1x1024x1024 .f32)), { LS : List (View.Piece (Elt F) S1024x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ owns (c : Thread nD τ) arg7 fullShare xs
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L2)
                ∗ (∃ f, arg7.view.loc (c : Thread nD τ) ↦[arg7.view.set]{fullShare} arg7.view.writes (Elt F) f LS)) -∗ K ⟨⟩))
          ⊢ wp frame (wpE (defs₀ (F := F)) Variants.none c none) E (cc1__bmm_kernel i arg4 harg4 arg5 harg5 arg6 harg6 arg7 harg7) K } := by
  refine ⟨?_, ?_, fun E K => ?run⟩
  case run =>
    simp only [cc1__bmm_kernel_eq_skeleton]; unfold cc1__bmm_kernel_skel
    unfold owns
    iintro ⟨⟨%f0, %hf0, H0⟩, ⟨%f1, %hf1, H1⟩, ⟨%d2, %f2, -, H2⟩, ⟨%fs, %hfs, HS⟩, Hk⟩
    obtain rfl := harg4.eq_unread hf0; obtain rfl := harg5.eq_unread hf1; obtain rfl := harg7.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; iexact H2
    iexists _; iexact HS

/-- At k = 0 the body stores nothing into the result's buffer: a placeholder nothing consults. -/
def out1_A_2 (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) : Vec F S1x1024x1024 .f32 :=
  VO1_2.read (Elt F) (VO1_2.writes (Elt F) VO1_2.junk (kernelRun1_A c i arg4 harg4 arg5 harg5 arg6 harg6 arg7 harg7 hc0 hc1 x0 x1).1)

theorem scover1_A (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) (y : S1024x1024.Idx) :
    ∃ pc ∈ (kernelRun1_A c i arg4 harg4 arg5 harg5 arg6 harg6 arg7 harg7 hc0 hc1 x0 x1).2.1, y ∈ pc.1.set :=
  View.cover_of_tiledL (kernelRun1_A c i arg4 harg4 arg5 harg5 arg6 harg6 arg7 harg7 hc0 hc1 x0 x1).2.1 S1024x1024.size (by sl_kernel_rfl) y

/-- What the point k = 0 leaves in the accumulator. -/
def sout1_A (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : cond1_0 i) (hc1 : ¬cond1_1 i)
    (x0 : Vec F S1x1024x1024 .bf16) (x1 : Vec F S1x1024x1024 .bf16) : Vec F S1024x1024 .f32 :=
  VS1.read (Elt F) (VS1.writes (Elt F) VS1.junk (kernelRun1_A c i arg4 harg4 arg5 harg5 arg6 harg6 arg7 harg7 hc0 hc1 x0 x1).2.1)

theorem cover1_B_2 (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) (y : S1x1024x1024.Idx) :
    ∃ pc ∈ (kernelRun1_B c i arg4 harg4 arg5 harg5 arg6 harg6 arg7 harg7 hc0 hc1 x0 x1 xs).1, y ∈ pc.1.set :=
  View.cover_of_tiledL (kernelRun1_B c i arg4 harg4 arg5 harg5 arg6 harg6 arg7 harg7 hc0 hc1 x0 x1 xs).1 S1x1024x1024.size (by sl_kernel_rfl) y

/-- What the point k = 1 leaves in the result's staging buffer. -/
def out1_B_2 (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) : Vec F S1x1024x1024 .f32 :=
  VO1_2.read (Elt F) (VO1_2.writes (Elt F) VO1_2.junk (kernelRun1_B c i arg4 harg4 arg5 harg5 arg6 harg6 arg7 harg7 hc0 hc1 x0 x1 xs).1)

theorem scover1_B (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) (y : S1024x1024.Idx) :
    ∃ pc ∈ (kernelRun1_B c i arg4 harg4 arg5 harg5 arg6 harg6 arg7 harg7 hc0 hc1 x0 x1 xs).2.1, y ∈ pc.1.set :=
  View.cover_of_tiledL (kernelRun1_B c i arg4 harg4 arg5 harg5 arg6 harg6 arg7 harg7 hc0 hc1 x0 x1 xs).2.1 S1024x1024.size (by sl_kernel_rfl) y

/-- What the point k = 1 leaves in the accumulator. -/
def sout1_B (c : Dev nD) (i : grid1.Coords) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1024x1024 .f32) (harg7 : arg7.IsWhole) (hc0 : ¬cond1_0 i) (hc1 : cond1_1 i)
    (x0 : Vec F S1x1024x1024 .bf16) (x1 : Vec F S1x1024x1024 .bf16) (xs : Vec F S1024x1024 .f32) : Vec F S1024x1024 .f32 :=
  VS1.read (Elt F) (VS1.writes (Elt F) VS1.junk (kernelRun1_B c i arg4 harg4 arg5 harg5 arg6 harg6 arg7 harg7 hc0 hc1 x0 x1 xs).2.1)

theorem N1_64 : cfg1.N = 64 := N_1

/-- What the result's staging buffer and the accumulator hold after the body at position `n`. -/
def outsAt1 (c : Dev nD) : (n : ℕ) → n < cfg1.N → Vec F S1x1024x1024 .f32 × Vec F S1024x1024 .f32
  | 0, hn =>
    (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
        ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
        ((hcond1_0 ⟨0, hn⟩).mpr (Nat.zero_mod _)) (fun h => by have h' := (hcond1_1 ⟨0, hn⟩).mp h; (try dsimp only at h'); omega) (iblk1 V c 0 ⟨0, hn⟩) (iblk1 V c 1 ⟨0, hn⟩))
  | n + 1, hn =>
    if h0 : (n + 1) % 2 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩),
        sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          ((hcond1_0 ⟨n + 1, hn⟩).mpr h0) (fun h => by have h' := (hcond1_1 ⟨n + 1, hn⟩).mp h; (try dsimp only at h'); omega) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (outsAt1 c n (Nat.lt_of_succ_lt hn)).2,
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
          (fun h => h0 ((hcond1_0 ⟨n + 1, hn⟩).mp h)) ((hcond1_1 ⟨n + 1, hn⟩).mpr (show (n + 1) % 2 = 1 by omega)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 2 = 0) :
    outsAt1 V c t.val t.isLt =
      (out1_A_2 c (grid1.coords t) (ms1_0 t) (hs1_0 t) (ms1_1 t) (hs1_1 t) (ms1_2 t) (hs1_2 t) scM1 (Memref.isWhole_whole _)
          ((hcond1_0 t).mpr h0) (fun h => by have h' := (hcond1_1 t).mp h; omega) (iblk1 V c 0 t) (iblk1 V c 1 t),
        sout1_A c (grid1.coords t) (ms1_0 t) (hs1_0 t) (ms1_1 t) (hs1_1 t) (ms1_2 t) (hs1_2 t) scM1 (Memref.isWhole_whole _)
          ((hcond1_0 t).mpr h0) (fun h => by have h' := (hcond1_1 t).mp h; omega) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 2 = 0) :
    outsAt1 V c t.val t.isLt =
      (out1_B_2 c (grid1.coords t) (ms1_0 t) (hs1_0 t) (ms1_1 t) (hs1_1 t) (ms1_2 t) (hs1_2 t) scM1 (Memref.isWhole_whole _)
          (fun h => h0 ((hcond1_0 t).mp h)) ((hcond1_1 t).mpr (by omega)) (iblk1 V c 0 t) (iblk1 V c 1 t) (outsAt1 V c (t.val - 1) (Nat.lt_of_le_of_lt (Nat.sub_le _ _) t.isLt)).2,
        sout1_B c (grid1.coords t) (ms1_0 t) (hs1_0 t) (ms1_1 t) (hs1_1 t) (ms1_2 t) (hs1_2 t) scM1 (Memref.isWhole_whole _)
          (fun h => h0 ((hcond1_0 t).mp h)) ((hcond1_1 t).mpr (by omega)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's; afterwards the accumulator at what the
    point before left, the other scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt N1_64
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 2 = 0
  · have hc0 : cond1_0 (grid1.coords t) := (hcond1_0 t).mpr h0
    have hc1 : ¬cond1_1 (grid1.coords t) := fun h => by have h' := (hcond1_1 t).mp h; omega
    rw [Dat.leavesExact_idle (dat1 V c) 2 t (idleAt1_2_A t hc0 hc1) (noFlush1_2_A t hc0 hc1)]
    rw [outsAt1_A V c t h0]
    unfold sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hrest⟩, Hg⟩, Ho, ⟨%d0, H0⟩, ⟨%d1, H1⟩, ⟨%d2, H2⟩⟩
      iapply ((kernelRun1_A c (grid1.coords t) _ _ _ _ _ _ _ _ hc0 hc1 (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _)
          iexact Hrest
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hc1 : cond1_1 (grid1.coords t) := (hcond1_1 t).mpr (by omega)
    rw [show (dat1 V c).leavesExact 2 t = owns (c : Thread nD τ) (ms1_2 t) fullShare ((dat1 V c).after 2 t) from by
      unfold Dat.leavesExact; rw [liveAt1_2_B t hc0 hc1], after1_2]
    rw [outsAt1_B V c t h0]
    unfold out1_B_2 sout1_B; (try dsimp only)
    have hz : t.val ≠ 0 := by omega
    rw [PhiS1_castSucc V c t, PhiS1_pos V c _ _ hz]
    iintro ⟨⟨⟨HS, Hrest⟩, Hg⟩, Ho, ⟨%d0, H0⟩, ⟨%d1, H1⟩, ⟨%d2, H2⟩⟩
    iapply ((kernelRun1_B c (grid1.coords t) _ _ _ _ _ _ _ _ hc0 hc1 (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_B c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _ _)

/-- The body obligation of the first product's region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, Hrest⟩, Hg⟩
  isplitl [HS Hrest]
  · isplitl [HS]
    · iexists _; iexact HS
    iexact Hrest
  iexact Hg

end Cert.KernelIdeal.Hand

end
-- ==== Proof.KI.Colsum2.lean ====
/-
  A column-degree region: deg[c, j] = the sum over rows i ≠ j of H[c, i, j]. Its grid has 16 points, one per band of
  128 rows. The result's 8 x 2048 block stays in its staging buffer across all points and is written back only after the
  last: the first point stores zeros and then adds its band's masked column sums; every later point adds its band's
  to what the point before left. So what the buffer holds after a point is a running sum over the bands met so far.
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The matrix stack's staging buffer holds the point's band whenever the body runs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- "This is the first band": the body's test on the grid coordinate. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val % 16 = 0 :=
  (by decide +kernel : ∀ t : Fin grid2.N, cond2_0 (grid2.coords t) ↔ t.val % 16 = 0)

/-- One staging buffer of the result's window, through which its contents are stated. -/
abbrev VO2_1 : View sig .tc .vmem S8x2048 .f32 := (Memref.whole cc2_stg1_0 : Memref sig .tc .vmem S8x2048 .f32).view
abbrev ms2_0 (t : Fin cfg2.N) : Memref sig .tc .vmem S8x128x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x2048 .f32 := win2_1.stage (cfg2.slots t 1)
abbrev hs2_1 (t : Fin cfg2.N) : (ms2_1 t).IsWhole := hstage2_1 ((cfg2.slots t 1).cast nbuf2_1)

set_option maxHeartbeats 1000000 in
/-- The body at the first band, on whole staging memrefs: the band kept, the result's buffer (at anything before) left
    with the stores' pieces written. -/
noncomputable def kernelRun2_A (c : Dev nD) (i : grid2.Coords) (arg1 : Memref sig .tc .vmem S8x128x2048 .f32) (harg1 : arg1.IsWhole)
    (arg2 : Memref sig .tc .vmem S8x2048 .f32) (harg2 : arg2.IsWhole) (hc0 : cond2_0 i) (x0 : Vec F S8x128x2048 .f32) :
    { L1 : List (View.Piece (Elt F) S8x2048 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__colsum_kernel i arg1 harg1 arg2 harg2) K } := by
  refine ⟨?_, fun E K => ?run⟩
  case run =>
    simp only [cc2__colsum_kernel_eq_skeleton]; unfold cc2__colsum_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- The body at a later band: the result's buffer, at the running sum `xo1` before, left with the store's piece written. -/
noncomputable def kernelRun2_B (c : Dev nD) (i : grid2.Coords) (arg1 : Memref sig .tc .vmem S8x128x2048 .f32) (harg1 : arg1.IsWhole)
    (arg2 : Memref sig .tc .vmem S8x2048 .f32) (harg2 : arg2.IsWhole) (hc0 : ¬cond2_0 i) (x0 : Vec F S8x128x2048 .f32) (xo1 : Vec F S8x2048 .f32) :
    { L1 : List (View.Piece (Elt F) S8x2048 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc2__colsum_kernel i arg1 harg1 arg2 harg2) K } := by
  refine ⟨?_, fun E K => ?run⟩
  case run =>
    simp only [cc2__colsum_kernel_eq_skeleton]; unfold cc2__colsum_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

theorem cover2_A_1 (c : Dev nD) (i : grid2.Coords) (arg1 : Memref sig .tc .vmem S8x128x2048 .f32) (harg1 : arg1.IsWhole)
    (arg2 : Memref sig .tc .vmem S8x2048 .f32) (harg2 : arg2.IsWhole) (hc0 : cond2_0 i) (x0 : Vec F S8x128x2048 .f32) (y : S8x2048.Idx) :
    ∃ pc ∈ (kernelRun2_A c i arg1 harg1 arg2 harg2 hc0 x0).1, y ∈ pc.1.set :=
  View.cover_of_tiledL (kernelRun2_A c i arg1 harg1 arg2 harg2 hc0 x0).1 S8x2048.size (by sl_kernel_rfl) y

/-- What the first band leaves in the result's staging buffer. -/
def out2_A_1 (c : Dev nD) (i : grid2.Coords) (arg1 : Memref sig .tc .vmem S8x128x2048 .f32) (harg1 : arg1.IsWhole)
    (arg2 : Memref sig .tc .vmem S8x2048 .f32) (harg2 : arg2.IsWhole) (hc0 : cond2_0 i) (x0 : Vec F S8x128x2048 .f32) : Vec F S8x2048 .f32 :=
  VO2_1.read (Elt F) (VO2_1.writes (Elt F) VO2_1.junk (kernelRun2_A c i arg1 harg1 arg2 harg2 hc0 x0).1)

theorem cover2_B_1 (c : Dev nD) (i : grid2.Coords) (arg1 : Memref sig .tc .vmem S8x128x2048 .f32) (harg1 : arg1.IsWhole)
    (arg2 : Memref sig .tc .vmem S8x2048 .f32) (harg2 : arg2.IsWhole) (hc0 : ¬cond2_0 i) (x0 : Vec F S8x128x2048 .f32) (xo1 : Vec F S8x2048 .f32) (y : S8x2048.Idx) :
    ∃ pc ∈ (kernelRun2_B c i arg1 harg1 arg2 harg2 hc0 x0 xo1).1, y ∈ pc.1.set :=
  View.cover_of_tiledL (kernelRun2_B c i arg1 harg1 arg2 harg2 hc0 x0 xo1).1 S8x2048.size (by sl_kernel_rfl) y

/-- What a later band leaves there, over the running sum `xo1`. -/
def out2_B_1 (c : Dev nD) (i : grid2.Coords) (arg1 : Memref sig .tc .vmem S8x128x2048 .f32) (harg1 : arg1.IsWhole)
    (arg2 : Memref sig .tc .vmem S8x2048 .f32) (harg2 : arg2.IsWhole) (hc0 : ¬cond2_0 i) (x0 : Vec F S8x128x2048 .f32) (xo1 : Vec F S8x2048 .f32) : Vec F S8x2048 .f32 :=
  VO2_1.read (Elt F) (VO2_1.writes (Elt F) VO2_1.junk (kernelRun2_B c i arg1 harg1 arg2 harg2 hc0 x0 xo1).1)

theorem N2_16 : cfg2.N = 16 := N_2

/-- The running sum: what the result's staging buffer holds after the body at position `n`. -/
def outsAt2 (c : Dev nD) : (n : ℕ) → n < cfg2.N → Vec F S8x2048 .f32
  | 0, hn => out2_A_1 c (grid2.coords ⟨0, hn⟩) (ms2_0 ⟨0, hn⟩) (hs2_0 ⟨0, hn⟩) (ms2_1 ⟨0, hn⟩) (hs2_1 ⟨0, hn⟩)
      ((hcond2_0 ⟨0, hn⟩).mpr (Nat.zero_mod _)) (iblk2 V c 0 ⟨0, hn⟩)
  | n + 1, hn => out2_B_1 c (grid2.coords ⟨n + 1, hn⟩) (ms2_0 ⟨n + 1, hn⟩) (hs2_0 ⟨n + 1, hn⟩) (ms2_1 ⟨n + 1, hn⟩) (hs2_1 ⟨n + 1, hn⟩)
      (fun h => by have h' := (hcond2_0 ⟨n + 1, hn⟩).mp h; have hN : n + 1 < 16 := lt_of_lt_of_eq hn N2_16; (try dsimp only at h'); omega)
      (iblk2 V c 0 ⟨n + 1, hn⟩) (outsAt2 c n (Nat.lt_of_succ_lt hn))

theorem outsAt2_A (c : Dev nD) (t : Fin cfg2.N) (h0 : t.val % 16 = 0) :
    outsAt2 V c t.val t.isLt = out2_A_1 c (grid2.coords t) (ms2_0 t) (hs2_0 t) (ms2_1 t) (hs2_1 t) ((hcond2_0 t).mpr h0) (iblk2 V c 0 t) := by
  obtain ⟨n, hn⟩ := t
  cases n with
  | zero => exact rfl
  | succ n => exact (by exfalso; have hN : n + 1 < 16 := lt_of_lt_of_eq hn N2_16; (try dsimp only at h0); omega)

theorem outsAt2_B (c : Dev nD) (t : Fin cfg2.N) (h0 : ¬t.val % 16 = 0) :
    outsAt2 V c t.val t.isLt = out2_B_1 c (grid2.coords t) (ms2_0 t) (hs2_0 t) (ms2_1 t) (hs2_1 t) (fun h => h0 ((hcond2_0 t).mp h)) (iblk2 V c 0 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- The region's proof data: the arrays as found; after the body at a point the band in place and the result's buffer at the
    running sum; the scoped buffers and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = outsAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
/-- At a later band the result's staging buffer holds what the band before left: it is not written back in between. -/
theorem before2_1_B (c : Dev nD) (t : Fin cfg2.N) (h0 : ¬t.val % 16 = 0) (d) :
    (dat2 V c).before 1 t d = outsAt2 V c (t.val - 1) (Nat.lt_of_le_of_lt (Nat.sub_le _ _) t.isLt) := by
  have hN : t.val < 16 := lt_of_lt_of_eq t.isLt N2_16
  rw [Dat.before_out_kept _ 1 rfl t (by omega) (Bool.eq_false_iff.mpr fun h => by have := (flush2_1 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  have hN : t.val < 16 := lt_of_lt_of_eq t.isLt N2_16
  by_cases h0 : t.val % 16 = 0
  · rw [outsAt2_A V c t h0]
    unfold out2_A_1
    iintro ⟨HΦ, Ho, ⟨%d0, H0⟩, ⟨%d1, H1⟩⟩
    iapply ((kernelRun2_A c (grid2.coords t) _ _ _ _ ((hcond2_0 t).mpr h0) (iblk2 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_A_1 c _ _ _ _ _ _ _)
  · rw [outsAt2_B V c t h0]
    simp only [before2_1_B V c t h0]
    unfold out2_B_1
    iintro ⟨HΦ, Ho, ⟨%d0, H0⟩, ⟨%d1, H1⟩⟩
    iapply ((kernelRun2_B c (grid2.coords t) _ _ _ _ (fun h => h0 ((hcond2_0 t).mp h)) (iblk2 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover2_B_1 c _ _ _ _ _ _ _ _)

/-- The body obligation of the column-degree region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.BmmNorm3.lean ====
/-
  A normalised batched product Z[c] = N(H[c]) · g[c], where N zeroes the diagonal and scales column j by the reciprocal
  column degree: the entry (i, j) of the left factor is H[c, i, j] · dinv[c, j] off the diagonal and 0 on it, formed
  on the fly from the loaded block of H and row c of the loaded block of reciprocal degrees. As in the plain product the
  grid's 64 points are (channel, row block, column block, k), k ∈ {0, 1} fastest, and a 1024 x 1024 accumulator in scratch
  memory is carried from k = 0 to k = 1, where it is copied into the result's staging buffer.
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- "k = 0": the body's first test. -/
abbrev cond3_0 (i : grid3.Coords) : Prop := (Scalar.cmpi .ne (Scalar.extui (Scalar.cmpi .eq (BitVec.ofNat 32 (i 3).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- "k = 1", the last: the body's second test. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem liveAt3_3_B : ∀ t : Fin cfg3.N, ¬cond3_0 (grid3.coords t) → cond3_1 (grid3.coords t) → cfg3.idle 3 (grid3.coords t) = false := by decide +kernel

abbrev VO3_3 : View sig .tc .vmem S1x1024x1024 .f32 := (Memref.whole cc3_stg3_0 : Memref sig .tc .vmem S1x1024x1024 .f32).view
abbrev ms3_0 (t : Fin cfg3.N) : Memref sig .tc .vmem S1x1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024x1024 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1024x1024 .f32 := win3_3.stage (cfg3.slots t 3)
abbrev hs3_3 (t : Fin cfg3.N) : (ms3_3 t).IsWhole := hstage3_3 ((cfg3.slots t 3).cast nbuf3_3)
/-- The accumulator. -/
abbrev scM3 : Memref sig .tc .vmem S1024x1024 .f32 := Memref.whole cc3_scratch0
abbrev VS3 : View sig .tc .vmem S1024x1024 .f32 := scM3.view

/-- The class invariant with the accumulator taken out of the scoped rest. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

set_option maxHeartbeats 2000000 in
/-- The body at k = 0: the inputs kept, the result's buffer handed back untouched, the accumulator (at anything before) left
    with the stores' pieces written. -/
noncomputable def kernelRun3_A (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i)
    (x0 : Vec F S1x1024x1024 .f32) (x1 : Vec F S8x1024 .f32) (x2 : Vec F S1x1024x1024 .bf16) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS)) -∗ K ⟨⟩))
          ⊢ wp frame (wpE (defs₀ (F := F)) Variants.none c none) E (cc3__bmm_norm_kernel i arg4 harg4 arg5 harg5 arg6 harg6 arg7 harg7 arg8 harg8) K } := by
  refine ⟨[], ?_, fun xi3 E K => ?run⟩
  case run =>
    simp only [cc3__bmm_norm_kernel_eq_skeleton]; unfold cc3__bmm_norm_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact HS

set_option maxHeartbeats 2000000 in
/-- The body at k = 1: the accumulator, at `xs` before, and the result's buffer, at anything before, both left with the
    stores' pieces written. -/
noncomputable def kernelRun3_B (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i)
    (x0 : Vec F S1x1024x1024 .f32) (x1 : Vec F S8x1024 .f32) (x2 : Vec F S1x1024x1024 .bf16) (xs : Vec F S1024x1024 .f32) :
    Σ' (L3 : List (View.Piece (Elt F) S1x1024x1024 .f32)), { LS : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ owns (c : Thread nD τ) arg8 fullShare xs
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS)) -∗ K ⟨⟩))
          ⊢ wp frame (wpE (defs₀ (F := F)) Variants.none c none) E (cc3__bmm_norm_kernel i arg4 harg4 arg5 harg5 arg6 harg6 arg7 harg7 arg8 harg8) K } := by
  refine ⟨?_, ?_, fun E K => ?run⟩
  case run =>
    simp only [cc3__bmm_norm_kernel_eq_skeleton]; unfold cc3__bmm_norm_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg4.eq_unread hf0; obtain rfl := harg5.eq_unread hf1; obtain rfl := harg6.eq_unread hf2; obtain rfl := harg8.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact HS

/-- At k = 0 the body stores nothing into the result's buffer: a placeholder nothing consults. -/
def out3_A_3 (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i) (x0 : Vec F S1x1024x1024 .f32) (x1 : Vec F S8x1024 .f32) (x2 : Vec F S1x1024x1024 .bf16) : Vec F S1x1024x1024 .f32 :=
  VO3_3.read (Elt F) (VO3_3.writes (Elt F) VO3_3.junk (kernelRun3_A c i arg4 harg4 arg5 harg5 arg6 harg6 arg7 harg7 arg8 harg8 hc0 hc1 x0 x1 x2).1)

theorem scover3_A (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i) (x0 : Vec F S1x1024x1024 .f32) (x1 : Vec F S8x1024 .f32) (x2 : Vec F S1x1024x1024 .bf16) (y : S1024x1024.Idx) :
    ∃ pc ∈ (kernelRun3_A c i arg4 harg4 arg5 harg5 arg6 harg6 arg7 harg7 arg8 harg8 hc0 hc1 x0 x1 x2).2.1, y ∈ pc.1.set :=
  View.cover_of_tiledL (kernelRun3_A c i arg4 harg4 arg5 harg5 arg6 harg6 arg7 harg7 arg8 harg8 hc0 hc1 x0 x1 x2).2.1 S1024x1024.size (by sl_kernel_rfl) y

/-- What the point k = 0 leaves in the accumulator. -/
def sout3_A (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond3_0 i) (hc1 : ¬cond3_1 i) (x0 : Vec F S1x1024x1024 .f32) (x1 : Vec F S8x1024 .f32) (x2 : Vec F S1x1024x1024 .bf16) : Vec F S1024x1024 .f32 :=
  VS3.read (Elt F) (VS3.writes (Elt F) VS3.junk (kernelRun3_A c i arg4 harg4 arg5 harg5 arg6 harg6 arg7 harg7 arg8 harg8 hc0 hc1 x0 x1 x2).2.1)

theorem cover3_B_3 (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) (y : S1x1024x1024.Idx) :
    ∃ pc ∈ (kernelRun3_B c i arg4 harg4 arg5 harg5 arg6 harg6 arg7 harg7 arg8 harg8 hc0 hc1 x0 x1 x2 xs).1, y ∈ pc.1.set :=
  View.cover_of_tiledL (kernelRun3_B c i arg4 harg4 arg5 harg5 arg6 harg6 arg7 harg7 arg8 harg8 hc0 hc1 x0 x1 x2 xs).1 S1x1024x1024.size (by sl_kernel_rfl) y

/-- What the point k = 1 leaves in the result's staging buffer. -/
def out3_B_3 (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) : Vec F S1x1024x1024 .f32 :=
  VO3_3.read (Elt F) (VO3_3.writes (Elt F) VO3_3.junk (kernelRun3_B c i arg4 harg4 arg5 harg5 arg6 harg6 arg7 harg7 arg8 harg8 hc0 hc1 x0 x1 x2 xs).1)

theorem scover3_B (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) (y : S1024x1024.Idx) :
    ∃ pc ∈ (kernelRun3_B c i arg4 harg4 arg5 harg5 arg6 harg6 arg7 harg7 arg8 harg8 hc0 hc1 x0 x1 x2 xs).2.1, y ∈ pc.1.set :=
  View.cover_of_tiledL (kernelRun3_B c i arg4 harg4 arg5 harg5 arg6 harg6 arg7 harg7 arg8 harg8 hc0 hc1 x0 x1 x2 xs).2.1 S1024x1024.size (by sl_kernel_rfl) y

/-- What the point k = 1 leaves in the accumulator. -/
def sout3_B (c : Dev nD) (i : grid3.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond3_0 i) (hc1 : cond3_1 i) (x0 : Vec F S1x1024x1024 .f32) (x1 : Vec F S8x1024 .f32) (x2 : Vec F S1x1024x1024 .bf16) (xs : Vec F S1024x1024 .f32) : Vec F S1024x1024 .f32 :=
  VS3.read (Elt F) (VS3.writes (Elt F) VS3.junk (kernelRun3_B c i arg4 harg4 arg5 harg5 arg6 harg6 arg7 harg7 arg8 harg8 hc0 hc1 x0 x1 x2 xs).2.1)

theorem N3_64 : cfg3.N = 64 := N_3

/-- What the result's staging buffer and the accumulator hold after the body at position `n`. -/
def outsAt3 (c : Dev nD) : (n : ℕ) → n < cfg3.N → Vec F S1x1024x1024 .f32 × Vec F S1024x1024 .f32
  | 0, hn =>
    (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
        ((hcond3_0 ⟨0, hn⟩).mpr (Nat.zero_mod _)) (fun h => by have h' := (hcond3_1 ⟨0, hn⟩).mp h; (try dsimp only at h'); omega) (iblk3 V c 0 ⟨0, hn⟩) (iblk3 V c 1 ⟨0, hn⟩) (iblk3 V c 2 ⟨0, hn⟩),
      sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _)
        ((hcond3_0 ⟨0, hn⟩).mpr (Nat.zero_mod _)) (fun h => by have h' := (hcond3_1 ⟨0, hn⟩).mp h; (try dsimp only at h'); omega) (iblk3 V c 0 ⟨0, hn⟩) (iblk3 V c 1 ⟨0, hn⟩) (iblk3 V c 2 ⟨0, hn⟩))
  | n + 1, hn =>
    if h0 : (n + 1) % 2 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          ((hcond3_0 ⟨n + 1, hn⟩).mpr h0) (fun h => by have h' := (hcond3_1 ⟨n + 1, hn⟩).mp h; (try dsimp only at h'); omega) (iblk3 V c 0 ⟨n + 1, hn⟩) (iblk3 V c 1 ⟨n + 1, hn⟩) (iblk3 V c 2 ⟨n + 1, hn⟩),
        sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          ((hcond3_0 ⟨n + 1, hn⟩).mpr h0) (fun h => by have h' := (hcond3_1 ⟨n + 1, hn⟩).mp h; (try dsimp only at h'); omega) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hcond3_0 ⟨n + 1, hn⟩).mp h)) ((hcond3_1 ⟨n + 1, hn⟩).mpr (show (n + 1) % 2 = 1 by omega)) (iblk3 V c 0 ⟨n + 1, hn⟩) (iblk3 V c 1 ⟨n + 1, hn⟩) (iblk3 V c 2 ⟨n + 1, hn⟩) (outsAt3 c n (Nat.lt_of_succ_lt hn)).2,
        sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _)
          (fun h => h0 ((hcond3_0 ⟨n + 1, hn⟩).mp h)) ((hcond3_1 ⟨n + 1, hn⟩).mpr (show (n + 1) % 2 = 1 by omega)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 2 = 0) :
    outsAt3 V c t.val t.isLt =
      (out3_A_3 c (grid3.coords t) (ms3_0 t) (hs3_0 t) (ms3_1 t) (hs3_1 t) (ms3_2 t) (hs3_2 t) (ms3_3 t) (hs3_3 t) scM3 (Memref.isWhole_whole _)
          ((hcond3_0 t).mpr h0) (fun h => by have h' := (hcond3_1 t).mp h; omega) (iblk3 V c 0 t) (iblk3 V c 1 t) (iblk3 V c 2 t),
        sout3_A c (grid3.coords t) (ms3_0 t) (hs3_0 t) (ms3_1 t) (hs3_1 t) (ms3_2 t) (hs3_2 t) (ms3_3 t) (hs3_3 t) scM3 (Memref.isWhole_whole _)
          ((hcond3_0 t).mpr h0) (fun h => by have h' := (hcond3_1 t).mp h; omega) (iblk3 V c 0 t) (iblk3 V c 1 t) (iblk3 V c 2 t)) := by
  obtain ⟨n, hn⟩ := t
  cases n with
  | zero => exact rfl
  | succ n => exact (dif_pos h0).trans rfl

theorem outsAt3_B (c : Dev nD) (t : Fin cfg3.N) (h0 : ¬t.val % 2 = 0) :
    outsAt3 V c t.val t.isLt =
      (out3_B_3 c (grid3.coords t) (ms3_0 t) (hs3_0 t) (ms3_1 t) (hs3_1 t) (ms3_2 t) (hs3_2 t) (ms3_3 t) (hs3_3 t) scM3 (Memref.isWhole_whole _)
          (fun h => h0 ((hcond3_0 t).mp h)) ((hcond3_1 t).mpr (by omega)) (iblk3 V c 0 t) (iblk3 V c 1 t) (iblk3 V c 2 t) (outsAt3 V c (t.val - 1) (Nat.lt_of_le_of_lt (Nat.sub_le _ _) t.isLt)).2,
        sout3_B c (grid3.coords t) (ms3_0 t) (hs3_0 t) (ms3_1 t) (hs3_1 t) (ms3_2 t) (hs3_2 t) (ms3_3 t) (hs3_3 t) scM3 (Memref.isWhole_whole _)
          (fun h => h0 ((hcond3_0 t).mp h)) ((hcond3_1 t).mpr (by omega)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The region's proof data. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt N3_64
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have hc0 : cond3_0 (grid3.coords t) := (hcond3_0 t).mpr h0
    have hc1 : ¬cond3_1 (grid3.coords t) := fun h => by have h' := (hcond3_1 t).mp h; omega
    rw [Dat.leavesExact_idle (dat3 V c) 3 t (idleAt3_3_A t hc0 hc1) (noFlush3_3_A t hc0 hc1)]
    rw [outsAt3_A V c t h0]
    unfold sout3_A; (try dsimp only)
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_A c (grid3.coords t) _ _ _ _ _ _ _ _ _ _ hc0 hc1 (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hc0 : ¬cond3_0 (grid3.coords t) := fun h => h0 ((hcond3_0 t).mp h)
    have hc1 : cond3_1 (grid3.coords t) := (hcond3_1 t).mpr (by omega)
    rw [show (dat3 V c).leavesExact 3 t = owns (c : Thread nD τ) (ms3_3 t) fullShare ((dat3 V c).after 3 t) from by
      unfold Dat.leavesExact; rw [liveAt3_3_B t hc0 hc1], after3_3]
    rw [outsAt3_B V c t h0]
    unfold out3_B_3 sout3_B; (try dsimp only)
    have hz : t.val ≠ 0 := by omega
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩⟩
    iapply ((kernelRun3_B c (grid3.coords t) _ _ _ _ _ _ _ _ _ _ hc0 hc1 (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover3_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _)

/-- The body obligation of the normalised product's region, at every point. -/
theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS, Hrest⟩, Hg⟩
  isplitl [HS Hrest]
  · isplitl [HS]
    · iexists _; iexact HS
    iexact Hrest
  iexact Hg

end Cert.KernelIdeal.Hand

end
-- ==== Proof.KI.Colsum4.lean ====
/-
  A column-degree region: deg[c, j] = the sum over rows i ≠ j of H[c, i, j]. Its grid has 16 points, one per band of
  128 rows. The result's 8 x 2048 block stays in its staging buffer across all points and is written back only after the
  last: the first point stores zeros and then adds its band's masked column sums; every later point adds its band's
  to what the point before left. So what the buffer holds after a point is a running sum over the bands met so far.
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The matrix stack's staging buffer holds the point's band whenever the body runs. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- "This is the first band": the body's test on the grid coordinate. -/
abbrev cond4_0 (i : grid4.Coords) : Prop := (Scalar.cmpi .ne (Scalar.extui (Scalar.cmpi .eq (BitVec.ofNat 32 (i 0).val) 0#32)) 0#32) = 1#1
/-- It holds at point 0 only. -/
theorem hcond4_0 : ∀ t : Fin cfg4.N, cond4_0 (grid4.coords t) ↔ t.val % 16 = 0 :=
  (by decide +kernel : ∀ t : Fin grid4.N, cond4_0 (grid4.coords t) ↔ t.val % 16 = 0)

/-- One staging buffer of the result's window, through which its contents are stated. -/
abbrev VO4_1 : View sig .tc .vmem S8x2048 .f32 := (Memref.whole cc4_stg1_0 : Memref sig .tc .vmem S8x2048 .f32).view
abbrev ms4_0 (t : Fin cfg4.N) : Memref sig .tc .vmem S8x128x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8x2048 .f32 := win4_1.stage (cfg4.slots t 1)
abbrev hs4_1 (t : Fin cfg4.N) : (ms4_1 t).IsWhole := hstage4_1 ((cfg4.slots t 1).cast nbuf4_1)

set_option maxHeartbeats 1000000 in
/-- The body at the first band, on whole staging memrefs: the band kept, the result's buffer (at anything before) left
    with the stores' pieces written. -/
noncomputable def kernelRun4_A (c : Dev nD) (i : grid4.Coords) (arg1 : Memref sig .tc .vmem S8x128x2048 .f32) (harg1 : arg1.IsWhole)
    (arg2 : Memref sig .tc .vmem S8x2048 .f32) (harg2 : arg2.IsWhole) (hc0 : cond4_0 i) (x0 : Vec F S8x128x2048 .f32) :
    { L1 : List (View.Piece (Elt F) S8x2048 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__colsum_kernel i arg1 harg1 arg2 harg2) K } := by
  refine ⟨?_, fun E K => ?run⟩
  case run =>
    simp only [cc4__colsum_kernel_eq_skeleton]; unfold cc4__colsum_kernel_skel
    unfold owns
    iintro ⟨⟨%f0, %hf0, H0⟩, ⟨%d1, %f1, -, H1⟩, Hk⟩
    obtain rfl := harg1.eq_unread hf0
    sl_exec (disch := first | exact hc0)
    sl_step
    iapply Hk
    isplitl [H0]
    · iexists _; isplitr; · ipureintro; exact harg1.read_unread _
      iexact H0
    iexists _; iexact H1

set_option maxHeartbeats 1000000 in
/-- The body at a later band: the result's buffer, at the running sum `xo1` before, left with the store's piece written. -/
noncomputable def kernelRun4_B (c : Dev nD) (i : grid4.Coords) (arg1 : Memref sig .tc .vmem S8x128x2048 .f32) (harg1 : arg1.IsWhole)
    (arg2 : Memref sig .tc .vmem S8x2048 .f32) (harg2 : arg2.IsWhole) (hc0 : ¬cond4_0 i) (x0 : Vec F S8x128x2048 .f32) (xo1 : Vec F S8x2048 .f32) :
    { L1 : List (View.Piece (Elt F) S8x2048 .f32) //
      ∀ (E : Set ℕ) (K : PUnit → sProp 𝕄),
        iprop(owns (c : Thread nD τ) arg1 fullShare x0 ∗ owns (c : Thread nD τ) arg2 fullShare xo1
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc4__colsum_kernel i arg1 harg1 arg2 harg2) K } := by
  refine ⟨?_, fun E K => ?run⟩
  case run =>
    simp only [cc4__colsum_kernel_eq_skeleton]; unfold cc4__colsum_kernel_skel
    unfold owns
    iintro ⟨⟨%f0, %hf0, H0⟩, ⟨%f1, %hf1, H1⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    iexists _; iexact H1

theorem cover4_A_1 (c : Dev nD) (i : grid4.Coords) (arg1 : Memref sig .tc .vmem S8x128x2048 .f32) (harg1 : arg1.IsWhole)
    (arg2 : Memref sig .tc .vmem S8x2048 .f32) (harg2 : arg2.IsWhole) (hc0 : cond4_0 i) (x0 : Vec F S8x128x2048 .f32) (y : S8x2048.Idx) :
    ∃ pc ∈ (kernelRun4_A c i arg1 harg1 arg2 harg2 hc0 x0).1, y ∈ pc.1.set :=
  View.cover_of_tiledL (kernelRun4_A c i arg1 harg1 arg2 harg2 hc0 x0).1 S8x2048.size (by sl_kernel_rfl) y

/-- What the first band leaves in the result's staging buffer. -/
def out4_A_1 (c : Dev nD) (i : grid4.Coords) (arg1 : Memref sig .tc .vmem S8x128x2048 .f32) (harg1 : arg1.IsWhole)
    (arg2 : Memref sig .tc .vmem S8x2048 .f32) (harg2 : arg2.IsWhole) (hc0 : cond4_0 i) (x0 : Vec F S8x128x2048 .f32) : Vec F S8x2048 .f32 :=
  VO4_1.read (Elt F) (VO4_1.writes (Elt F) VO4_1.junk (kernelRun4_A c i arg1 harg1 arg2 harg2 hc0 x0).1)

theorem cover4_B_1 (c : Dev nD) (i : grid4.Coords) (arg1 : Memref sig .tc .vmem S8x128x2048 .f32) (harg1 : arg1.IsWhole)
    (arg2 : Memref sig .tc .vmem S8x2048 .f32) (harg2 : arg2.IsWhole) (hc0 : ¬cond4_0 i) (x0 : Vec F S8x128x2048 .f32) (xo1 : Vec F S8x2048 .f32) (y : S8x2048.Idx) :
    ∃ pc ∈ (kernelRun4_B c i arg1 harg1 arg2 harg2 hc0 x0 xo1).1, y ∈ pc.1.set :=
  View.cover_of_tiledL (kernelRun4_B c i arg1 harg1 arg2 harg2 hc0 x0 xo1).1 S8x2048.size (by sl_kernel_rfl) y

/-- What a later band leaves there, over the running sum `xo1`. -/
def out4_B_1 (c : Dev nD) (i : grid4.Coords) (arg1 : Memref sig .tc .vmem S8x128x2048 .f32) (harg1 : arg1.IsWhole)
    (arg2 : Memref sig .tc .vmem S8x2048 .f32) (harg2 : arg2.IsWhole) (hc0 : ¬cond4_0 i) (x0 : Vec F S8x128x2048 .f32) (xo1 : Vec F S8x2048 .f32) : Vec F S8x2048 .f32 :=
  VO4_1.read (Elt F) (VO4_1.writes (Elt F) VO4_1.junk (kernelRun4_B c i arg1 harg1 arg2 harg2 hc0 x0 xo1).1)

theorem N4_16 : cfg4.N = 16 := N_4

/-- The running sum: what the result's staging buffer holds after the body at position `n`. -/
def outsAt4 (c : Dev nD) : (n : ℕ) → n < cfg4.N → Vec F S8x2048 .f32
  | 0, hn => out4_A_1 c (grid4.coords ⟨0, hn⟩) (ms4_0 ⟨0, hn⟩) (hs4_0 ⟨0, hn⟩) (ms4_1 ⟨0, hn⟩) (hs4_1 ⟨0, hn⟩)
      ((hcond4_0 ⟨0, hn⟩).mpr (Nat.zero_mod _)) (iblk4 V c 0 ⟨0, hn⟩)
  | n + 1, hn => out4_B_1 c (grid4.coords ⟨n + 1, hn⟩) (ms4_0 ⟨n + 1, hn⟩) (hs4_0 ⟨n + 1, hn⟩) (ms4_1 ⟨n + 1, hn⟩) (hs4_1 ⟨n + 1, hn⟩)
      (fun h => by have h' := (hcond4_0 ⟨n + 1, hn⟩).mp h; have hN : n + 1 < 16 := lt_of_lt_of_eq hn N4_16; (try dsimp only at h'); omega)
      (iblk4 V c 0 ⟨n + 1, hn⟩) (outsAt4 c n (Nat.lt_of_succ_lt hn))

theorem outsAt4_A (c : Dev nD) (t : Fin cfg4.N) (h0 : t.val % 16 = 0) :
    outsAt4 V c t.val t.isLt = out4_A_1 c (grid4.coords t) (ms4_0 t) (hs4_0 t) (ms4_1 t) (hs4_1 t) ((hcond4_0 t).mpr h0) (iblk4 V c 0 t) := by
  obtain ⟨n, hn⟩ := t
  cases n with
  | zero => exact rfl
  | succ n => exact (by exfalso; have hN : n + 1 < 16 := lt_of_lt_of_eq hn N4_16; (try dsimp only at h0); omega)

theorem outsAt4_B (c : Dev nD) (t : Fin cfg4.N) (h0 : ¬t.val % 16 = 0) :
    outsAt4 V c t.val t.isLt = out4_B_1 c (grid4.coords t) (ms4_0 t) (hs4_0 t) (ms4_1 t) (hs4_1 t) (fun h => h0 ((hcond4_0 t).mp h)) (iblk4 V c 0 t)
      (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- The region's proof data: the arrays as found; after the body at a point the band in place and the result's buffer at the
    running sum; the scoped buffers and the generator register untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => outsAt4 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = outsAt4 V c t.val t.isLt := by dsimp only [dat4]
theorem before4_0 (c : Dev nD) (t : Fin cfg4.N) (d) : (dat4 V c).before 0 t d = iblk4 V c 0 t :=
  before4_0_of V (dat4 V c) (A_eq4 V c 0) (after4_0 V c) t d
/-- At a later band the result's staging buffer holds what the band before left: it is not written back in between. -/
theorem before4_1_B (c : Dev nD) (t : Fin cfg4.N) (h0 : ¬t.val % 16 = 0) (d) :
    (dat4 V c).before 1 t d = outsAt4 V c (t.val - 1) (Nat.lt_of_le_of_lt (Nat.sub_le _ _) t.isLt) := by
  have hN : t.val < 16 := lt_of_lt_of_eq t.isLt N4_16
  rw [Dat.before_out_kept _ 1 rfl t (by omega) (Bool.eq_false_iff.mpr fun h => by have := (flush4_1 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t))

set_option maxHeartbeats 800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  have hN : t.val < 16 := lt_of_lt_of_eq t.isLt N4_16
  by_cases h0 : t.val % 16 = 0
  · rw [outsAt4_A V c t h0]
    unfold out4_A_1
    iintro ⟨HΦ, Ho, ⟨%d0, H0⟩, ⟨%d1, H1⟩⟩
    iapply ((kernelRun4_A c (grid4.coords t) _ _ _ _ ((hcond4_0 t).mpr h0) (iblk4 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_A_1 c _ _ _ _ _ _ _)
  · rw [outsAt4_B V c t h0]
    simp only [before4_1_B V c t h0]
    unfold out4_B_1
    iintro ⟨HΦ, Ho, ⟨%d0, H0⟩, ⟨%d1, H1⟩⟩
    iapply ((kernelRun4_B c (grid4.coords t) _ _ _ _ (fun h => h0 ((hcond4_0 t).mp h)) (iblk4 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover4_B_1 c _ _ _ _ _ _ _ _)

/-- The body obligation of the column-degree region, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.BmmNorm5.lean ====
/-
  A normalised batched product Z[c] = N(H[c]) · g[c], where N zeroes the diagonal and scales column j by the reciprocal
  column degree: the entry (i, j) of the left factor is H[c, i, j] · dinv[c, j] off the diagonal and 0 on it, formed
  on the fly from the loaded block of H and row c of the loaded block of reciprocal degrees. As in the plain product the
  grid's 64 points are (channel, row block, column block, k), k ∈ {0, 1} fastest, and a 1024 x 1024 accumulator in scratch
  memory is carried from k = 0 to k = 1, where it is copied into the result's staging buffer.
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- "k = 0": the body's first test. -/
abbrev cond5_0 (i : grid5.Coords) : Prop := (Scalar.cmpi .ne (Scalar.extui (Scalar.cmpi .eq (BitVec.ofNat 32 (i 3).val) 0#32)) 0#32) = 1#1
theorem hcond5_0 : ∀ t : Fin cfg5.N, cond5_0 (grid5.coords t) ↔ t.val % 2 = 0 :=
  (by decide +kernel : ∀ t : Fin grid5.N, cond5_0 (grid5.coords t) ↔ t.val % 2 = 0)
/-- "k = 1", the last: the body's second test. -/
abbrev cond5_1 (i : grid5.Coords) : Prop := k5_cond2 i = 1#1
theorem hcond5_1 : ∀ t : Fin cfg5.N, cond5_1 (grid5.coords t) ↔ t.val % 2 = 1 :=
  (by decide +kernel : ∀ t : Fin grid5.N, cond5_1 (grid5.coords t) ↔ t.val % 2 = 1)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem liveAt5_3_B : ∀ t : Fin cfg5.N, ¬cond5_0 (grid5.coords t) → cond5_1 (grid5.coords t) → cfg5.idle 3 (grid5.coords t) = false := by decide +kernel

abbrev VO5_3 : View sig .tc .vmem S1x1024x1024 .f32 := (Memref.whole cc5_stg3_0 : Memref sig .tc .vmem S1x1024x1024 .f32).view
abbrev ms5_0 (t : Fin cfg5.N) : Memref sig .tc .vmem S1x1024x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S8x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024x1024 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x1024x1024 .f32 := win5_3.stage (cfg5.slots t 3)
abbrev hs5_3 (t : Fin cfg5.N) : (ms5_3 t).IsWhole := hstage5_3 ((cfg5.slots t 3).cast nbuf5_3)
/-- The accumulator. -/
abbrev scM5 : Memref sig .tc .vmem S1024x1024 .f32 := Memref.whole cc5_scratch0
abbrev VS5 : View sig .tc .vmem S1024x1024 .f32 := scM5.view

/-- The class invariant with the accumulator taken out of the scoped rest. -/
theorem PhiA5_eq (c : Dev nD) :
    (Pipeline.ΦA spec5 c : sProp 𝕄)
      = iprop(iprop((∃ d, owns (c : Thread nD τ) scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

set_option maxHeartbeats 2000000 in
/-- The body at k = 0: the inputs kept, the result's buffer handed back untouched, the accumulator (at anything before) left
    with the stores' pieces written. -/
noncomputable def kernelRun5_A (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i)
    (x0 : Vec F S1x1024x1024 .f32) (x1 : Vec F S8x1024 .f32) (x2 : Vec F S1x1024x1024 .bf16) :
    Σ' (L3 : List (View.Piece (Elt F) S1x1024x1024 .f32)), { LS : List (View.Piece (Elt F) S1024x1024 .f32) //
      ∀ (xi3 : Vec F S1x1024x1024 .f32) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare xi3
            ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare xi3
                ∗ (∃ f, arg8.view.loc (c : Thread nD τ) ↦[arg8.view.set]{fullShare} arg8.view.writes (Elt F) f LS)) -∗ K ⟨⟩))
          ⊢ wp frame (wpE (defs₀ (F := F)) Variants.none c none) E (cc5__bmm_norm_kernel i arg4 harg4 arg5 harg5 arg6 harg6 arg7 harg7 arg8 harg8) K } := by
  refine ⟨[], ?_, fun xi3 E K => ?run⟩
  case run =>
    simp only [cc5__bmm_norm_kernel_eq_skeleton]; unfold cc5__bmm_norm_kernel_skel
    simp only [k5_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact HS

set_option maxHeartbeats 2000000 in
/-- The body at k = 1: the accumulator, at `xs` before, and the result's buffer, at anything before, both left with the
    stores' pieces written. -/
noncomputable def kernelRun5_B (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i)
    (x0 : Vec F S1x1024x1024 .f32) (x1 : Vec F S8x1024 .f32) (x2 : Vec F S1x1024x1024 .bf16) (xs : Vec F S1024x1024 .f32) :
    Σ' (L3 : List (View.Piece (Elt F) S1x1024x1024 .f32)), { LS : List (View.Piece (Elt F) S1024x1024 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d)
            ∗ owns (c : Thread nD τ) arg8 fullShare xs
            ∗ (iprop(owns (c : Thread nD τ) arg4 fullShare x0 ∗ owns (c : Thread nD τ) arg5 fullShare x1 ∗ owns (c : Thread nD τ) arg6 fullShare x2
                ∗ (∃ f, arg7.view.loc (c : Thread nD τ) ↦[arg7.view.set]{fullShare} arg7.view.writes (Elt F) f L3)
                ∗ (∃ f, arg8.view.loc (c : Thread nD τ) ↦[arg8.view.set]{fullShare} arg8.view.writes (Elt F) f LS)) -∗ K ⟨⟩))
          ⊢ wp frame (wpE (defs₀ (F := F)) Variants.none c none) E (cc5__bmm_norm_kernel i arg4 harg4 arg5 harg5 arg6 harg6 arg7 harg7 arg8 harg8) K } := by
  refine ⟨?_, ?_, fun E K => ?run⟩
  case run =>
    simp only [cc5__bmm_norm_kernel_eq_skeleton]; unfold cc5__bmm_norm_kernel_skel
    simp only [k5_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg4.eq_unread hf0; obtain rfl := harg5.eq_unread hf1; obtain rfl := harg6.eq_unread hf2; obtain rfl := harg8.eq_unread hfs
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; iexact H3
    iexists _; iexact HS

/-- At k = 0 the body stores nothing into the result's buffer: a placeholder nothing consults. -/
def out5_A_3 (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i) (x0 : Vec F S1x1024x1024 .f32) (x1 : Vec F S8x1024 .f32) (x2 : Vec F S1x1024x1024 .bf16) : Vec F S1x1024x1024 .f32 :=
  VO5_3.read (Elt F) (VO5_3.writes (Elt F) VO5_3.junk (kernelRun5_A c i arg4 harg4 arg5 harg5 arg6 harg6 arg7 harg7 arg8 harg8 hc0 hc1 x0 x1 x2).1)

theorem scover5_A (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i) (x0 : Vec F S1x1024x1024 .f32) (x1 : Vec F S8x1024 .f32) (x2 : Vec F S1x1024x1024 .bf16) (y : S1024x1024.Idx) :
    ∃ pc ∈ (kernelRun5_A c i arg4 harg4 arg5 harg5 arg6 harg6 arg7 harg7 arg8 harg8 hc0 hc1 x0 x1 x2).2.1, y ∈ pc.1.set :=
  View.cover_of_tiledL (kernelRun5_A c i arg4 harg4 arg5 harg5 arg6 harg6 arg7 harg7 arg8 harg8 hc0 hc1 x0 x1 x2).2.1 S1024x1024.size (by sl_kernel_rfl) y

/-- What the point k = 0 leaves in the accumulator. -/
def sout5_A (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond5_0 i) (hc1 : ¬cond5_1 i) (x0 : Vec F S1x1024x1024 .f32) (x1 : Vec F S8x1024 .f32) (x2 : Vec F S1x1024x1024 .bf16) : Vec F S1024x1024 .f32 :=
  VS5.read (Elt F) (VS5.writes (Elt F) VS5.junk (kernelRun5_A c i arg4 harg4 arg5 harg5 arg6 harg6 arg7 harg7 arg8 harg8 hc0 hc1 x0 x1 x2).2.1)

theorem cover5_B_3 (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) (y : S1x1024x1024.Idx) :
    ∃ pc ∈ (kernelRun5_B c i arg4 harg4 arg5 harg5 arg6 harg6 arg7 harg7 arg8 harg8 hc0 hc1 x0 x1 x2 xs).1, y ∈ pc.1.set :=
  View.cover_of_tiledL (kernelRun5_B c i arg4 harg4 arg5 harg5 arg6 harg6 arg7 harg7 arg8 harg8 hc0 hc1 x0 x1 x2 xs).1 S1x1024x1024.size (by sl_kernel_rfl) y

/-- What the point k = 1 leaves in the result's staging buffer. -/
def out5_B_3 (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) : Vec F S1x1024x1024 .f32 :=
  VO5_3.read (Elt F) (VO5_3.writes (Elt F) VO5_3.junk (kernelRun5_B c i arg4 harg4 arg5 harg5 arg6 harg6 arg7 harg7 arg8 harg8 hc0 hc1 x0 x1 x2 xs).1)

theorem scover5_B (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) (y : S1024x1024.Idx) :
    ∃ pc ∈ (kernelRun5_B c i arg4 harg4 arg5 harg5 arg6 harg6 arg7 harg7 arg8 harg8 hc0 hc1 x0 x1 x2 xs).2.1, y ∈ pc.1.set :=
  View.cover_of_tiledL (kernelRun5_B c i arg4 harg4 arg5 harg5 arg6 harg6 arg7 harg7 arg8 harg8 hc0 hc1 x0 x1 x2 xs).2.1 S1024x1024.size (by sl_kernel_rfl) y

/-- What the point k = 1 leaves in the accumulator. -/
def sout5_B (c : Dev nD) (i : grid5.Coords) (arg4 : Memref sig .tc .vmem S1x1024x1024 .f32) (harg4 : arg4.IsWhole) (arg5 : Memref sig .tc .vmem S8x1024 .f32) (harg5 : arg5.IsWhole) (arg6 : Memref sig .tc .vmem S1x1024x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond5_0 i) (hc1 : cond5_1 i) (x0 : Vec F S1x1024x1024 .f32) (x1 : Vec F S8x1024 .f32) (x2 : Vec F S1x1024x1024 .bf16) (xs : Vec F S1024x1024 .f32) : Vec F S1024x1024 .f32 :=
  VS5.read (Elt F) (VS5.writes (Elt F) VS5.junk (kernelRun5_B c i arg4 harg4 arg5 harg5 arg6 harg6 arg7 harg7 arg8 harg8 hc0 hc1 x0 x1 x2 xs).2.1)

theorem N5_64 : cfg5.N = 64 := N_5

/-- What the result's staging buffer and the accumulator hold after the body at position `n`. -/
def outsAt5 (c : Dev nD) : (n : ℕ) → n < cfg5.N → Vec F S1x1024x1024 .f32 × Vec F S1024x1024 .f32
  | 0, hn =>
    (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _)
        ((hcond5_0 ⟨0, hn⟩).mpr (Nat.zero_mod _)) (fun h => by have h' := (hcond5_1 ⟨0, hn⟩).mp h; (try dsimp only at h'); omega) (iblk5 V c 0 ⟨0, hn⟩) (iblk5 V c 1 ⟨0, hn⟩) (iblk5 V c 2 ⟨0, hn⟩),
      sout5_A c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5 (Memref.isWhole_whole _)
        ((hcond5_0 ⟨0, hn⟩).mpr (Nat.zero_mod _)) (fun h => by have h' := (hcond5_1 ⟨0, hn⟩).mp h; (try dsimp only at h'); omega) (iblk5 V c 0 ⟨0, hn⟩) (iblk5 V c 1 ⟨0, hn⟩) (iblk5 V c 2 ⟨0, hn⟩))
  | n + 1, hn =>
    if h0 : (n + 1) % 2 = 0 then
      (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          ((hcond5_0 ⟨n + 1, hn⟩).mpr h0) (fun h => by have h' := (hcond5_1 ⟨n + 1, hn⟩).mp h; (try dsimp only at h'); omega) (iblk5 V c 0 ⟨n + 1, hn⟩) (iblk5 V c 1 ⟨n + 1, hn⟩) (iblk5 V c 2 ⟨n + 1, hn⟩),
        sout5_A c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          ((hcond5_0 ⟨n + 1, hn⟩).mpr h0) (fun h => by have h' := (hcond5_1 ⟨n + 1, hn⟩).mp h; (try dsimp only at h'); omega) (iblk5 V c 0 ⟨n + 1, hn⟩) (iblk5 V c 1 ⟨n + 1, hn⟩) (iblk5 V c 2 ⟨n + 1, hn⟩))
    else
      (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hcond5_0 ⟨n + 1, hn⟩).mp h)) ((hcond5_1 ⟨n + 1, hn⟩).mpr (show (n + 1) % 2 = 1 by omega)) (iblk5 V c 0 ⟨n + 1, hn⟩) (iblk5 V c 1 ⟨n + 1, hn⟩) (iblk5 V c 2 ⟨n + 1, hn⟩) (outsAt5 c n (Nat.lt_of_succ_lt hn)).2,
        sout5_B c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5 (Memref.isWhole_whole _)
          (fun h => h0 ((hcond5_0 ⟨n + 1, hn⟩).mp h)) ((hcond5_1 ⟨n + 1, hn⟩).mpr (show (n + 1) % 2 = 1 by omega)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 2 = 0) :
    outsAt5 V c t.val t.isLt =
      (out5_A_3 c (grid5.coords t) (ms5_0 t) (hs5_0 t) (ms5_1 t) (hs5_1 t) (ms5_2 t) (hs5_2 t) (ms5_3 t) (hs5_3 t) scM5 (Memref.isWhole_whole _)
          ((hcond5_0 t).mpr h0) (fun h => by have h' := (hcond5_1 t).mp h; omega) (iblk5 V c 0 t) (iblk5 V c 1 t) (iblk5 V c 2 t),
        sout5_A c (grid5.coords t) (ms5_0 t) (hs5_0 t) (ms5_1 t) (hs5_1 t) (ms5_2 t) (hs5_2 t) (ms5_3 t) (hs5_3 t) scM5 (Memref.isWhole_whole _)
          ((hcond5_0 t).mpr h0) (fun h => by have h' := (hcond5_1 t).mp h; omega) (iblk5 V c 0 t) (iblk5 V c 1 t) (iblk5 V c 2 t)) := by
  obtain ⟨n, hn⟩ := t
  cases n with
  | zero => exact rfl
  | succ n => exact (dif_pos h0).trans rfl

theorem outsAt5_B (c : Dev nD) (t : Fin cfg5.N) (h0 : ¬t.val % 2 = 0) :
    outsAt5 V c t.val t.isLt =
      (out5_B_3 c (grid5.coords t) (ms5_0 t) (hs5_0 t) (ms5_1 t) (hs5_1 t) (ms5_2 t) (hs5_2 t) (ms5_3 t) (hs5_3 t) scM5 (Memref.isWhole_whole _)
          (fun h => h0 ((hcond5_0 t).mp h)) ((hcond5_1 t).mpr (by omega)) (iblk5 V c 0 t) (iblk5 V c 1 t) (iblk5 V c 2 t) (outsAt5 V c (t.val - 1) (Nat.lt_of_le_of_lt (Nat.sub_le _ _) t.isLt)).2,
        sout5_B c (grid5.coords t) (ms5_0 t) (hs5_0 t) (ms5_1 t) (hs5_1 t) (ms5_2 t) (hs5_2 t) (ms5_3 t) (hs5_3 t) scM5 (Memref.isWhole_whole _)
          (fun h => h0 ((hcond5_0 t).mp h)) ((hcond5_1 t).mpr (by omega)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`. -/
def PhiS5 (c : Dev nD) : (n : ℕ) → n ≤ cfg5.N → sProp 𝕄
  | 0, _ => Pipeline.ΦA spec5 c
  | n + 1, hn => iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The region's proof data. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 64 := lt_of_lt_of_eq t.isLt N5_64
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 2 = 0
  · have hc0 : cond5_0 (grid5.coords t) := (hcond5_0 t).mpr h0
    have hc1 : ¬cond5_1 (grid5.coords t) := fun h => by have h' := (hcond5_1 t).mp h; omega
    rw [Dat.leavesExact_idle (dat5 V c) 3 t (idleAt5_3_A t hc0 hc1) (noFlush5_3_A t hc0 hc1)]
    rw [outsAt5_A V c t h0]
    unfold sout5_A; (try dsimp only)
    by_cases hz : t.val = 0
    · rw [PhiS5_castSucc V c t, PhiS5_zero V c _ _ hz, PhiA5_eq]
      iintro ⟨⟨⟨HS, Hrest⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover5_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS5_castSucc V c t, PhiS5_pos V c _ _ hz]
      iintro ⟨⟨⟨HS, Hrest⟩, Hg⟩, Ho, ⟨%d0, H0⟩, ⟨%d1, H1⟩, ⟨%d2, H2⟩, ⟨%d3, H3⟩⟩
      iapply ((kernelRun5_A c (grid5.coords t) _ _ _ _ _ _ _ _ _ _ hc0 hc1 (iblk5 V c 0 t) (iblk5 V c 1 t) (iblk5 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover5_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hc0 : ¬cond5_0 (grid5.coords t) := fun h => h0 ((hcond5_0 t).mp h)
    have hc1 : cond5_1 (grid5.coords t) := (hcond5_1 t).mpr (by omega)
    rw [show (dat5 V c).leavesExact 3 t = owns (c : Thread nD τ) (ms5_3 t) fullShare ((dat5 V c).after 3 t) from by
      unfold Dat.leavesExact; rw [liveAt5_3_B t hc0 hc1], after5_3]
    rw [outsAt5_B V c t h0]
    unfold out5_B_3 sout5_B; (try dsimp only)
    have hz : t.val ≠ 0 := by omega
    rw [PhiS5_castSucc V c t, PhiS5_pos V c _ _ hz]
    iintro ⟨⟨⟨HS, Hrest⟩, Hg⟩, Ho, ⟨%d0, H0⟩, ⟨%d1, H1⟩, ⟨%d2, H2⟩, ⟨%d3, H3⟩⟩
    iapply ((kernelRun5_B c (grid5.coords t) _ _ _ _ _ _ _ _ _ _ hc0 hc1 (iblk5 V c 0 t) (iblk5 V c 1 t) (iblk5 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover5_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover5_B_3 c _ _ _ _ _ _ _ _ _ _ _ _ _ _ _ _ _)

/-- The body obligation of the normalised product's region, at every point. -/
theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), PhiA5_eq]
  iintro ⟨⟨HS, Hrest⟩, Hg⟩
  isplitl [HS Hrest]
  · isplitl [HS]
    · iexists _; iexact HS
    iexact Hrest
  iexact Hg

end Cert.KernelIdeal.Hand

end
-- ==== Proof.KI.Mean.lean ====
/-
  The last kernel region: the mean over the eight channels. Its grid has 16 points (8 row bands of 256 rows by 2 column
  halves of 1024 columns); at each point the body loads the 8 x 256 x 1024 block of the channel stack, adds the eight
  channel slices entry by entry and divides by 8, and stores the 256 x 1024 block of the result. No point reads what
  another wrote, so what the region leaves in the result array is, block by block, that function of the entry contents.
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The channel stack's staging buffer holds the point's block whenever the body runs. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The whole 8 x 256 x 1024 block, as the rectangle the body loads. -/
abbrev rIn6 : Rect S8x256x1024 := Rect.unit (s := S8x256x1024) ![0, 0, 0] S8x256x1024.size inb_S8x256x1024_S8x256x1024_0_0_0
/-- The whole 256 x 1024 block, as the rectangle the body stores. -/
abbrev rOut6 : Rect S256x1024 := Rect.unit (s := S256x1024) ![0, 0] S256x1024.size inb_S256x1024_S256x1024_0_0

/-- What the body leaves in the result's staging buffer: the channel mean of the loaded block. -/
def out6_1 (x0 : Vec F S8x256x1024 .f32) : Vec F S256x1024 .f32 :=
  View.canon [⟨rOut6, k6_pay1 (View.ld x0 rIn6)⟩]

theorem cover6_1 (p0 : Vec F S256x1024 .f32) (y : S256x1024.Idx) :
    ∃ pc ∈ ([⟨rOut6, p0⟩] : List (View.Piece (Elt F) S256x1024 .f32)), y ∈ pc.1.set :=
  View.cover_of_tiled [⟨rOut6, p0⟩] S256x1024.size (by rfl) y

set_option maxHeartbeats 1000000 in
/-- The body on whole staging memrefs: the input's kept, the output's at the channel mean of the input's. -/
theorem sound_kernel6 (c : Dev nD) (E : Set ℕ) (i : grid6.Coords) (arg2 : Memref sig .tc .vmem S8x256x1024 .f32) (harg2 : arg2.IsWhole)
    (arg3 : Memref sig .tc .vmem S256x1024 .f32) (harg3 : arg3.IsWhole)
    (x0 : Vec F S8x256x1024 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out6_1 x0)) -∗ K ⟨⟩))
      ⊢ wp frame (wpE (defs₀ (F := F)) Variants.none c none) E (cc6__mean_kernel i arg2 harg2 arg3 harg3) K := by
  simp only [cc6__mean_kernel_eq_skeleton]; unfold cc6__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6_1 _)

/-- The region's proof data on core `c`: the arrays as found; after the body at a point the input's buffer at its block and
    the output's at the channel mean of that block; the scoped buffers and the generator register untouched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => out6_1 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = out6_1 (iblk6 V c 0 t) := by dsimp only [dat6]
theorem before6_0 (c : Dev nD) (t : Fin cfg6.N) (d) : (dat6 V c).before 0 t d = iblk6 V c 0 t :=
  before6_0_of V (dat6 V c) (A_eq6 V c 0) (after6_0 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_1]
  iintro ⟨HΦ, Ho, ⟨%d0, H0⟩, ⟨%d1, H1⟩⟩
  iapply (sound_kernel6 c Set.univ _ _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the mean region, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Regions.lean ====
/-
  The seven kernel regions in sequence. Between two items of the program every buffer outside the kernels' scratch space is
  held at a known valuation: the launch contents, then each host stretch applied, then after each region its result arrays at
  what that region's write-backs leave (each block of a result array is what the grid point owning it stored last) and every other
  buffer as the region found it. Each region is entered from the valuation the item before left and hands back the next one;
  the argument arrays are never among the buffers an item writes, so each is read back at the end as launched.
-/
import proofs.«140696_j56040733278620_2_alg».proof.Proof.Gen.KernelIdeal.Launch
import proofs.«140696_j56040733278620_2_alg».proof.Proof.Gen.KernelIdeal.Skeleton
import proofs.«140696_j56040733278620_2_alg».proof.Proof.Gen.KernelIdeal.Points
import proofs.«140696_j56040733278620_2_alg».proof.Proof.KI.Gtconv
import proofs.«140696_j56040733278620_2_alg».proof.Proof.KI.Bmm
import proofs.«140696_j56040733278620_2_alg».proof.Proof.KI.Colsum2
import proofs.«140696_j56040733278620_2_alg».proof.Proof.KI.BmmNorm3
import proofs.«140696_j56040733278620_2_alg».proof.Proof.KI.Colsum4
import proofs.«140696_j56040733278620_2_alg».proof.Proof.KI.BmmNorm5
import proofs.«140696_j56040733278620_2_alg».proof.Proof.KI.Mean
import proofs.«140696_j56040733278620_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every unscoped buffer at launch. -/
abbrev X0 : Dev nD → Valuation τ sig (Elt F) := fun c b => m ((c : Dev nD), b)
/-- After the host stretch `hostOps0`. -/
abbrev X1 : Dev nD → Valuation τ sig (Elt F) := fun c => StableHlo.after hostOps0 (X0 m c)
/-- The same read at the TensorCore's references: what region 0's proof data take. -/
abbrev x1 : (c : Dev nD) → (b : Ref sig .tc) → Buf (Elt F) ((c : Thread nD τ).loc b) := fun c b => X1 m c b
/-- After region 0: its arrays at what its write-backs fold to, every other buffer as entered. -/
def X2 (c : Dev nD) : Valuation τ sig (Elt F) :=
  Pipeline.withArrays spec0 c (X1 m c) fun w => (dat0 (x1 m) c).arrAt w cfg0.N
theorem X2_arr (c : Dev nD) (w : Fin cfg0.W) :
    X2 m c (Proc.devRef .tc (Pipeline.arrRef spec0 w)) = (dat0 (x1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = X1 m c (Proc.devRef .tc b) := by
  unfold X2; exact Pipeline.withArrays_of_ne spec0 c _ _ b hb
abbrev x2 : (c : Dev nD) → (b : Ref sig .tc) → Buf (Elt F) ((c : Thread nD τ).loc b) := fun c b => X2 m c b
theorem hF0 (c : Dev nD) (w : Fin cfg0.W) : (dat0 (x1 m) c).arrAt w cfg0.N = x2 m c (Pipeline.arrRef spec0 w) :=
  (X2_arr m c w).symm
theorem hrest0 (c : Dev nD) : ∀ b, b ∉ Finset.univ.image (Pipeline.arrRef spec0) → x2 m c b = x1 m c b :=
  fun b hb => X2_of_ne m c b fun w e => hb (Finset.mem_image.mpr ⟨w, Finset.mem_univ _, e⟩)
/-- After region 1: its arrays at what its write-backs fold to, every other buffer as entered. -/
def X3 (c : Dev nD) : Valuation τ sig (Elt F) :=
  Pipeline.withArrays spec1 c (X2 m c) fun w => (dat1 (x2 m) c).arrAt w cfg1.N
theorem X3_arr (c : Dev nD) (w : Fin cfg1.W) :
    X3 m c (Proc.devRef .tc (Pipeline.arrRef spec1 w)) = (dat1 (x2 m) c).arrAt w cfg1.N := by
  unfold X3; exact Pipeline.withArrays_arr spec1 launch1.win.arr_inj c _ _ w
theorem X3_of_ne (c : Dev nD) (b : Ref sig .tc) (hb : ∀ w, Pipeline.arrRef spec1 w ≠ b) :
    X3 m c (Proc.devRef .tc b) = X2 m c (Proc.devRef .tc b) := by
  unfold X3; exact Pipeline.withArrays_of_ne spec1 c _ _ b hb
abbrev x3 : (c : Dev nD) → (b : Ref sig .tc) → Buf (Elt F) ((c : Thread nD τ).loc b) := fun c b => X3 m c b
theorem hF1 (c : Dev nD) (w : Fin cfg1.W) : (dat1 (x2 m) c).arrAt w cfg1.N = x3 m c (Pipeline.arrRef spec1 w) :=
  (X3_arr m c w).symm
theorem hrest1 (c : Dev nD) : ∀ b, b ∉ Finset.univ.image (Pipeline.arrRef spec1) → x3 m c b = x2 m c b :=
  fun b hb => X3_of_ne m c b fun w e => hb (Finset.mem_image.mpr ⟨w, Finset.mem_univ _, e⟩)
/-- After region 2: its arrays at what its write-backs fold to, every other buffer as entered. -/
def X4 (c : Dev nD) : Valuation τ sig (Elt F) :=
  Pipeline.withArrays spec2 c (X3 m c) fun w => (dat2 (x3 m) c).arrAt w cfg2.N
theorem X4_arr (c : Dev nD) (w : Fin cfg2.W) :
    X4 m c (Proc.devRef .tc (Pipeline.arrRef spec2 w)) = (dat2 (x3 m) c).arrAt w cfg2.N := by
  unfold X4; exact Pipeline.withArrays_arr spec2 launch2.win.arr_inj c _ _ w
theorem X4_of_ne (c : Dev nD) (b : Ref sig .tc) (hb : ∀ w, Pipeline.arrRef spec2 w ≠ b) :
    X4 m c (Proc.devRef .tc b) = X3 m c (Proc.devRef .tc b) := by
  unfold X4; exact Pipeline.withArrays_of_ne spec2 c _ _ b hb
abbrev x4 : (c : Dev nD) → (b : Ref sig .tc) → Buf (Elt F) ((c : Thread nD τ).loc b) := fun c b => X4 m c b
theorem hF2 (c : Dev nD) (w : Fin cfg2.W) : (dat2 (x3 m) c).arrAt w cfg2.N = x4 m c (Pipeline.arrRef spec2 w) :=
  (X4_arr m c w).symm
theorem hrest2 (c : Dev nD) : ∀ b, b ∉ Finset.univ.image (Pipeline.arrRef spec2) → x4 m c b = x3 m c b :=
  fun b hb => X4_of_ne m c b fun w e => hb (Finset.mem_image.mpr ⟨w, Finset.mem_univ _, e⟩)
/-- After the host stretch `hostOps3`. -/
abbrev X5 : Dev nD → Valuation τ sig (Elt F) := fun c => StableHlo.after hostOps3 (X4 m c)
/-- After the host stretch `hostOps3_1`. -/
abbrev X6 : Dev nD → Valuation τ sig (Elt F) := fun c => StableHlo.after hostOps3_1 (X5 m c)
/-- After the host stretch `hostOps3_2`. -/
abbrev X7 : Dev nD → Valuation τ sig (Elt F) := fun c => StableHlo.after hostOps3_2 (X6 m c)
/-- After the host stretch `hostOps3_3`. -/
abbrev X8 : Dev nD → Valuation τ sig (Elt F) := fun c => StableHlo.after hostOps3_3 (X7 m c)
/-- The same read at the TensorCore's references: what region 3's proof data take. -/
abbrev x8 : (c : Dev nD) → (b : Ref sig .tc) → Buf (Elt F) ((c : Thread nD τ).loc b) := fun c b => X8 m c b
/-- After region 3: its arrays at what its write-backs fold to, every other buffer as entered. -/
def X9 (c : Dev nD) : Valuation τ sig (Elt F) :=
  Pipeline.withArrays spec3 c (X8 m c) fun w => (dat3 (x8 m) c).arrAt w cfg3.N
theorem X9_arr (c : Dev nD) (w : Fin cfg3.W) :
    X9 m c (Proc.devRef .tc (Pipeline.arrRef spec3 w)) = (dat3 (x8 m) c).arrAt w cfg3.N := by
  unfold X9; exact Pipeline.withArrays_arr spec3 launch3.win.arr_inj c _ _ w
theorem X9_of_ne (c : Dev nD) (b : Ref sig .tc) (hb : ∀ w, Pipeline.arrRef spec3 w ≠ b) :
    X9 m c (Proc.devRef .tc b) = X8 m c (Proc.devRef .tc b) := by
  unfold X9; exact Pipeline.withArrays_of_ne spec3 c _ _ b hb
abbrev x9 : (c : Dev nD) → (b : Ref sig .tc) → Buf (Elt F) ((c : Thread nD τ).loc b) := fun c b => X9 m c b
theorem hF3 (c : Dev nD) (w : Fin cfg3.W) : (dat3 (x8 m) c).arrAt w cfg3.N = x9 m c (Pipeline.arrRef spec3 w) :=
  (X9_arr m c w).symm
theorem hrest3 (c : Dev nD) : ∀ b, b ∉ Finset.univ.image (Pipeline.arrRef spec3) → x9 m c b = x8 m c b :=
  fun b hb => X9_of_ne m c b fun w e => hb (Finset.mem_image.mpr ⟨w, Finset.mem_univ _, e⟩)
/-- After region 4: its arrays at what its write-backs fold to, every other buffer as entered. -/
def X10 (c : Dev nD) : Valuation τ sig (Elt F) :=
  Pipeline.withArrays spec4 c (X9 m c) fun w => (dat4 (x9 m) c).arrAt w cfg4.N
theorem X10_arr (c : Dev nD) (w : Fin cfg4.W) :
    X10 m c (Proc.devRef .tc (Pipeline.arrRef spec4 w)) = (dat4 (x9 m) c).arrAt w cfg4.N := by
  unfold X10; exact Pipeline.withArrays_arr spec4 launch4.win.arr_inj c _ _ w
theorem X10_of_ne (c : Dev nD) (b : Ref sig .tc) (hb : ∀ w, Pipeline.arrRef spec4 w ≠ b) :
    X10 m c (Proc.devRef .tc b) = X9 m c (Proc.devRef .tc b) := by
  unfold X10; exact Pipeline.withArrays_of_ne spec4 c _ _ b hb
abbrev x10 : (c : Dev nD) → (b : Ref sig .tc) → Buf (Elt F) ((c : Thread nD τ).loc b) := fun c b => X10 m c b
theorem hF4 (c : Dev nD) (w : Fin cfg4.W) : (dat4 (x9 m) c).arrAt w cfg4.N = x10 m c (Pipeline.arrRef spec4 w) :=
  (X10_arr m c w).symm
theorem hrest4 (c : Dev nD) : ∀ b, b ∉ Finset.univ.image (Pipeline.arrRef spec4) → x10 m c b = x9 m c b :=
  fun b hb => X10_of_ne m c b fun w e => hb (Finset.mem_image.mpr ⟨w, Finset.mem_univ _, e⟩)
/-- After the host stretch `hostOps5`. -/
abbrev X11 : Dev nD → Valuation τ sig (Elt F) := fun c => StableHlo.after hostOps5 (X10 m c)
/-- After the host stretch `hostOps5_1`. -/
abbrev X12 : Dev nD → Valuation τ sig (Elt F) := fun c => StableHlo.after hostOps5_1 (X11 m c)
/-- After the host stretch `hostOps5_2`. -/
abbrev X13 : Dev nD → Valuation τ sig (Elt F) := fun c => StableHlo.after hostOps5_2 (X12 m c)
/-- After the host stretch `hostOps5_3`. -/
abbrev X14 : Dev nD → Valuation τ sig (Elt F) := fun c => StableHlo.after hostOps5_3 (X13 m c)
/-- The same read at the TensorCore's references: what region 5's proof data take. -/
abbrev x14 : (c : Dev nD) → (b : Ref sig .tc) → Buf (Elt F) ((c : Thread nD τ).loc b) := fun c b => X14 m c b
/-- After region 5: its arrays at what its write-backs fold to, every other buffer as entered. -/
def X15 (c : Dev nD) : Valuation τ sig (Elt F) :=
  Pipeline.withArrays spec5 c (X14 m c) fun w => (dat5 (x14 m) c).arrAt w cfg5.N
theorem X15_arr (c : Dev nD) (w : Fin cfg5.W) :
    X15 m c (Proc.devRef .tc (Pipeline.arrRef spec5 w)) = (dat5 (x14 m) c).arrAt w cfg5.N := by
  unfold X15; exact Pipeline.withArrays_arr spec5 launch5.win.arr_inj c _ _ w
theorem X15_of_ne (c : Dev nD) (b : Ref sig .tc) (hb : ∀ w, Pipeline.arrRef spec5 w ≠ b) :
    X15 m c (Proc.devRef .tc b) = X14 m c (Proc.devRef .tc b) := by
  unfold X15; exact Pipeline.withArrays_of_ne spec5 c _ _ b hb
abbrev x15 : (c : Dev nD) → (b : Ref sig .tc) → Buf (Elt F) ((c : Thread nD τ).loc b) := fun c b => X15 m c b
theorem hF5 (c : Dev nD) (w : Fin cfg5.W) : (dat5 (x14 m) c).arrAt w cfg5.N = x15 m c (Pipeline.arrRef spec5 w) :=
  (X15_arr m c w).symm
theorem hrest5 (c : Dev nD) : ∀ b, b ∉ Finset.univ.image (Pipeline.arrRef spec5) → x15 m c b = x14 m c b :=
  fun b hb => X15_of_ne m c b fun w e => hb (Finset.mem_image.mpr ⟨w, Finset.mem_univ _, e⟩)
/-- After region 6: its arrays at what its write-backs fold to, every other buffer as entered. -/
def X16 (c : Dev nD) : Valuation τ sig (Elt F) :=
  Pipeline.withArrays spec6 c (X15 m c) fun w => (dat6 (x15 m) c).arrAt w cfg6.N
theorem X16_arr (c : Dev nD) (w : Fin cfg6.W) :
    X16 m c (Proc.devRef .tc (Pipeline.arrRef spec6 w)) = (dat6 (x15 m) c).arrAt w cfg6.N := by
  unfold X16; exact Pipeline.withArrays_arr spec6 launch6.win.arr_inj c _ _ w
theorem X16_of_ne (c : Dev nD) (b : Ref sig .tc) (hb : ∀ w, Pipeline.arrRef spec6 w ≠ b) :
    X16 m c (Proc.devRef .tc b) = X15 m c (Proc.devRef .tc b) := by
  unfold X16; exact Pipeline.withArrays_of_ne spec6 c _ _ b hb
abbrev x16 : (c : Dev nD) → (b : Ref sig .tc) → Buf (Elt F) ((c : Thread nD τ).loc b) := fun c b => X16 m c b
theorem hF6 (c : Dev nD) (w : Fin cfg6.W) : (dat6 (x15 m) c).arrAt w cfg6.N = x16 m c (Pipeline.arrRef spec6 w) :=
  (X16_arr m c w).symm
theorem hrest6 (c : Dev nD) : ∀ b, b ∉ Finset.univ.image (Pipeline.arrRef spec6) → x16 m c b = x15 m c b :=
  fun b hb => X16_of_ne m c b fun w e => hb (Finset.mem_image.mpr ⟨w, Finset.mem_univ _, e⟩)
/-- After the host stretch `hostOps7`. -/
abbrev X17 : Dev nD → Valuation τ sig (Elt F) := fun c => StableHlo.after hostOps7 (X16 m c)

/-- Argument 0 reaches the end as launched: no host stretch writes it and no region has it among its arrays. -/
theorem X17_main_arg0 (c : Dev nD) : X17 m c (Proc.devRef .tc main_arg0) = m ((c : Thread nD τ).loc main_arg0) :=
  calc X17 m c (Proc.devRef .tc main_arg0)
    _ = X16 m c (Proc.devRef .tc main_arg0) := StableHlo.after_of_writes_sub hostOps7 _ Gen.hostOps7_writes (by decide)
    _ = X15 m c (Proc.devRef .tc main_arg0) := X16_of_ne m c main_arg0 (by decide)
    _ = X14 m c (Proc.devRef .tc main_arg0) := X15_of_ne m c main_arg0 (by decide)
    _ = X13 m c (Proc.devRef .tc main_arg0) := StableHlo.after_of_writes_sub hostOps5_3 _ Gen.hostOps5_3_writes (by decide)
    _ = X12 m c (Proc.devRef .tc main_arg0) := StableHlo.after_of_writes_sub hostOps5_2 _ Gen.hostOps5_2_writes (by decide)
    _ = X11 m c (Proc.devRef .tc main_arg0) := StableHlo.after_of_writes_sub hostOps5_1 _ Gen.hostOps5_1_writes (by decide)
    _ = X10 m c (Proc.devRef .tc main_arg0) := StableHlo.after_of_writes_sub hostOps5 _ Gen.hostOps5_writes (by decide)
    _ = X9 m c (Proc.devRef .tc main_arg0) := X10_of_ne m c main_arg0 (by decide)
    _ = X8 m c (Proc.devRef .tc main_arg0) := X9_of_ne m c main_arg0 (by decide)
    _ = X7 m c (Proc.devRef .tc main_arg0) := StableHlo.after_of_writes_sub hostOps3_3 _ Gen.hostOps3_3_writes (by decide)
    _ = X6 m c (Proc.devRef .tc main_arg0) := StableHlo.after_of_writes_sub hostOps3_2 _ Gen.hostOps3_2_writes (by decide)
    _ = X5 m c (Proc.devRef .tc main_arg0) := StableHlo.after_of_writes_sub hostOps3_1 _ Gen.hostOps3_1_writes (by decide)
    _ = X4 m c (Proc.devRef .tc main_arg0) := StableHlo.after_of_writes_sub hostOps3 _ Gen.hostOps3_writes (by decide)
    _ = X3 m c (Proc.devRef .tc main_arg0) := X4_of_ne m c main_arg0 (by decide)
    _ = X2 m c (Proc.devRef .tc main_arg0) := X3_of_ne m c main_arg0 (by decide)
    _ = X1 m c (Proc.devRef .tc main_arg0) := X2_of_ne m c main_arg0 (by decide)
    _ = X0 m c (Proc.devRef .tc main_arg0) := StableHlo.after_of_writes_sub hostOps0 _ Gen.hostOps0_writes (by decide)
    _ = m ((c : Thread nD τ).loc main_arg0) := rfl

/-- Argument 1 reaches the end as launched: no host stretch writes it and no region has it among its arrays. -/
theorem X17_main_arg1 (c : Dev nD) : X17 m c (Proc.devRef .tc main_arg1) = m ((c : Thread nD τ).loc main_arg1) :=
  calc X17 m c (Proc.devRef .tc main_arg1)
    _ = X16 m c (Proc.devRef .tc main_arg1) := StableHlo.after_of_writes_sub hostOps7 _ Gen.hostOps7_writes (by decide)
    _ = X15 m c (Proc.devRef .tc main_arg1) := X16_of_ne m c main_arg1 (by decide)
    _ = X14 m c (Proc.devRef .tc main_arg1) := X15_of_ne m c main_arg1 (by decide)
    _ = X13 m c (Proc.devRef .tc main_arg1) := StableHlo.after_of_writes_sub hostOps5_3 _ Gen.hostOps5_3_writes (by decide)
    _ = X12 m c (Proc.devRef .tc main_arg1) := StableHlo.after_of_writes_sub hostOps5_2 _ Gen.hostOps5_2_writes (by decide)
    _ = X11 m c (Proc.devRef .tc main_arg1) := StableHlo.after_of_writes_sub hostOps5_1 _ Gen.hostOps5_1_writes (by decide)
    _ = X10 m c (Proc.devRef .tc main_arg1) := StableHlo.after_of_writes_sub hostOps5 _ Gen.hostOps5_writes (by decide)
    _ = X9 m c (Proc.devRef .tc main_arg1) := X10_of_ne m c main_arg1 (by decide)
    _ = X8 m c (Proc.devRef .tc main_arg1) := X9_of_ne m c main_arg1 (by decide)
    _ = X7 m c (Proc.devRef .tc main_arg1) := StableHlo.after_of_writes_sub hostOps3_3 _ Gen.hostOps3_3_writes (by decide)
    _ = X6 m c (Proc.devRef .tc main_arg1) := StableHlo.after_of_writes_sub hostOps3_2 _ Gen.hostOps3_2_writes (by decide)
    _ = X5 m c (Proc.devRef .tc main_arg1) := StableHlo.after_of_writes_sub hostOps3_1 _ Gen.hostOps3_1_writes (by decide)
    _ = X4 m c (Proc.devRef .tc main_arg1) := StableHlo.after_of_writes_sub hostOps3 _ Gen.hostOps3_writes (by decide)
    _ = X3 m c (Proc.devRef .tc main_arg1) := X4_of_ne m c main_arg1 (by decide)
    _ = X2 m c (Proc.devRef .tc main_arg1) := X3_of_ne m c main_arg1 (by decide)
    _ = X1 m c (Proc.devRef .tc main_arg1) := X2_of_ne m c main_arg1 (by decide)
    _ = X0 m c (Proc.devRef .tc main_arg1) := StableHlo.after_of_writes_sub hostOps0 _ Gen.hostOps0_writes (by decide)
    _ = m ((c : Thread nD τ).loc main_arg1) := rfl

/-- Argument 2 reaches the end as launched: no host stretch writes it and no region has it among its arrays. -/
theorem X17_main_arg2 (c : Dev nD) : X17 m c (Proc.devRef .tc main_arg2) = m ((c : Thread nD τ).loc main_arg2) :=
  calc X17 m c (Proc.devRef .tc main_arg2)
    _ = X16 m c (Proc.devRef .tc main_arg2) := StableHlo.after_of_writes_sub hostOps7 _ Gen.hostOps7_writes (by decide)
    _ = X15 m c (Proc.devRef .tc main_arg2) := X16_of_ne m c main_arg2 (by decide)
    _ = X14 m c (Proc.devRef .tc main_arg2) := X15_of_ne m c main_arg2 (by decide)
    _ = X13 m c (Proc.devRef .tc main_arg2) := StableHlo.after_of_writes_sub hostOps5_3 _ Gen.hostOps5_3_writes (by decide)
    _ = X12 m c (Proc.devRef .tc main_arg2) := StableHlo.after_of_writes_sub hostOps5_2 _ Gen.hostOps5_2_writes (by decide)
    _ = X11 m c (Proc.devRef .tc main_arg2) := StableHlo.after_of_writes_sub hostOps5_1 _ Gen.hostOps5_1_writes (by decide)
    _ = X10 m c (Proc.devRef .tc main_arg2) := StableHlo.after_of_writes_sub hostOps5 _ Gen.hostOps5_writes (by decide)
    _ = X9 m c (Proc.devRef .tc main_arg2) := X10_of_ne m c main_arg2 (by decide)
    _ = X8 m c (Proc.devRef .tc main_arg2) := X9_of_ne m c main_arg2 (by decide)
    _ = X7 m c (Proc.devRef .tc main_arg2) := StableHlo.after_of_writes_sub hostOps3_3 _ Gen.hostOps3_3_writes (by decide)
    _ = X6 m c (Proc.devRef .tc main_arg2) := StableHlo.after_of_writes_sub hostOps3_2 _ Gen.hostOps3_2_writes (by decide)
    _ = X5 m c (Proc.devRef .tc main_arg2) := StableHlo.after_of_writes_sub hostOps3_1 _ Gen.hostOps3_1_writes (by decide)
    _ = X4 m c (Proc.devRef .tc main_arg2) := StableHlo.after_of_writes_sub hostOps3 _ Gen.hostOps3_writes (by decide)
    _ = X3 m c (Proc.devRef .tc main_arg2) := X4_of_ne m c main_arg2 (by decide)
    _ = X2 m c (Proc.devRef .tc main_arg2) := X3_of_ne m c main_arg2 (by decide)
    _ = X1 m c (Proc.devRef .tc main_arg2) := X2_of_ne m c main_arg2 (by decide)
    _ = X0 m c (Proc.devRef .tc main_arg2) := StableHlo.after_of_writes_sub hostOps0 _ Gen.hostOps0_writes (by decide)
    _ = m ((c : Thread nD τ).loc main_arg2) := rfl

/-- Argument 3 reaches the end as launched: no host stretch writes it and no region has it among its arrays. -/
theorem X17_main_arg3 (c : Dev nD) : X17 m c (Proc.devRef .tc main_arg3) = m ((c : Thread nD τ).loc main_arg3) :=
  calc X17 m c (Proc.devRef .tc main_arg3)
    _ = X16 m c (Proc.devRef .tc main_arg3) := StableHlo.after_of_writes_sub hostOps7 _ Gen.hostOps7_writes (by decide)
    _ = X15 m c (Proc.devRef .tc main_arg3) := X16_of_ne m c main_arg3 (by decide)
    _ = X14 m c (Proc.devRef .tc main_arg3) := X15_of_ne m c main_arg3 (by decide)
    _ = X13 m c (Proc.devRef .tc main_arg3) := StableHlo.after_of_writes_sub hostOps5_3 _ Gen.hostOps5_3_writes (by decide)
    _ = X12 m c (Proc.devRef .tc main_arg3) := StableHlo.after_of_writes_sub hostOps5_2 _ Gen.hostOps5_2_writes (by decide)
    _ = X11 m c (Proc.devRef .tc main_arg3) := StableHlo.after_of_writes_sub hostOps5_1 _ Gen.hostOps5_1_writes (by decide)
    _ = X10 m c (Proc.devRef .tc main_arg3) := StableHlo.after_of_writes_sub hostOps5 _ Gen.hostOps5_writes (by decide)
    _ = X9 m c (Proc.devRef .tc main_arg3) := X10_of_ne m c main_arg3 (by decide)
    _ = X8 m c (Proc.devRef .tc main_arg3) := X9_of_ne m c main_arg3 (by decide)
    _ = X7 m c (Proc.devRef .tc main_arg3) := StableHlo.after_of_writes_sub hostOps3_3 _ Gen.hostOps3_3_writes (by decide)
    _ = X6 m c (Proc.devRef .tc main_arg3) := StableHlo.after_of_writes_sub hostOps3_2 _ Gen.hostOps3_2_writes (by decide)
    _ = X5 m c (Proc.devRef .tc main_arg3) := StableHlo.after_of_writes_sub hostOps3_1 _ Gen.hostOps3_1_writes (by decide)
    _ = X4 m c (Proc.devRef .tc main_arg3) := StableHlo.after_of_writes_sub hostOps3 _ Gen.hostOps3_writes (by decide)
    _ = X3 m c (Proc.devRef .tc main_arg3) := X4_of_ne m c main_arg3 (by decide)
    _ = X2 m c (Proc.devRef .tc main_arg3) := X3_of_ne m c main_arg3 (by decide)
    _ = X1 m c (Proc.devRef .tc main_arg3) := X2_of_ne m c main_arg3 (by decide)
    _ = X0 m c (Proc.devRef .tc main_arg3) := StableHlo.after_of_writes_sub hostOps0 _ Gen.hostOps0_writes (by decide)
    _ = m ((c : Thread nD τ).loc main_arg3) := rfl

/-- Argument 4 reaches the end as launched: no host stretch writes it and no region has it among its arrays. -/
theorem X17_main_arg4 (c : Dev nD) : X17 m c (Proc.devRef .tc main_arg4) = m ((c : Thread nD τ).loc main_arg4) :=
  calc X17 m c (Proc.devRef .tc main_arg4)
    _ = X16 m c (Proc.devRef .tc main_arg4) := StableHlo.after_of_writes_sub hostOps7 _ Gen.hostOps7_writes (by decide)
    _ = X15 m c (Proc.devRef .tc main_arg4) := X16_of_ne m c main_arg4 (by decide)
    _ = X14 m c (Proc.devRef .tc main_arg4) := X15_of_ne m c main_arg4 (by decide)
    _ = X13 m c (Proc.devRef .tc main_arg4) := StableHlo.after_of_writes_sub hostOps5_3 _ Gen.hostOps5_3_writes (by decide)
    _ = X12 m c (Proc.devRef .tc main_arg4) := StableHlo.after_of_writes_sub hostOps5_2 _ Gen.hostOps5_2_writes (by decide)
    _ = X11 m c (Proc.devRef .tc main_arg4) := StableHlo.after_of_writes_sub hostOps5_1 _ Gen.hostOps5_1_writes (by decide)
    _ = X10 m c (Proc.devRef .tc main_arg4) := StableHlo.after_of_writes_sub hostOps5 _ Gen.hostOps5_writes (by decide)
    _ = X9 m c (Proc.devRef .tc main_arg4) := X10_of_ne m c main_arg4 (by decide)
    _ = X8 m c (Proc.devRef .tc main_arg4) := X9_of_ne m c main_arg4 (by decide)
    _ = X7 m c (Proc.devRef .tc main_arg4) := StableHlo.after_of_writes_sub hostOps3_3 _ Gen.hostOps3_3_writes (by decide)
    _ = X6 m c (Proc.devRef .tc main_arg4) := StableHlo.after_of_writes_sub hostOps3_2 _ Gen.hostOps3_2_writes (by decide)
    _ = X5 m c (Proc.devRef .tc main_arg4) := StableHlo.after_of_writes_sub hostOps3_1 _ Gen.hostOps3_1_writes (by decide)
    _ = X4 m c (Proc.devRef .tc main_arg4) := StableHlo.after_of_writes_sub hostOps3 _ Gen.hostOps3_writes (by decide)
    _ = X3 m c (Proc.devRef .tc main_arg4) := X4_of_ne m c main_arg4 (by decide)
    _ = X2 m c (Proc.devRef .tc main_arg4) := X3_of_ne m c main_arg4 (by decide)
    _ = X1 m c (Proc.devRef .tc main_arg4) := X2_of_ne m c main_arg4 (by decide)
    _ = X0 m c (Proc.devRef .tc main_arg4) := StableHlo.after_of_writes_sub hostOps0 _ Gen.hostOps0_writes (by decide)
    _ = m ((c : Thread nD τ).loc main_arg4) := rfl

/-- Every pipeline's proof data, each at its region's entry contents. -/
def pdats : (p : Fin 7) → (c : Dev nD) → Dat τ (Elt F) Unit ℕ (UR sig nD τ) ℕ (Pipeline.pin (pcfgs (F := F)) Gen.adm p) c
  | ⟨0, _⟩ => fun c => dat0 (x1 m) c
  | ⟨1, _⟩ => fun c => dat1 (x2 m) c
  | ⟨2, _⟩ => fun c => dat2 (x3 m) c
  | ⟨3, _⟩ => fun c => dat3 (x8 m) c
  | ⟨4, _⟩ => fun c => dat4 (x9 m) c
  | ⟨5, _⟩ => fun c => dat5 (x14 m) c
  | ⟨6, _⟩ => fun c => dat6 (x15 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A host stretch as an item: its operations run over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0 over the thread state: its arrays split out of the unscoped buffers at entry and put back at the exit contents. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (x1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (x1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (x1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (x1 m c) (x2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit contents. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (x2 m) c).loose
  hwaits := Pipeline.hwaits_of_owed_zero _ _ _ _ L lv 1 fun _ _ => rfl
  pre c := iprop(StableHlo.held (c : Thread nD τ) (Pipeline.ucRefs τ sig) (X2 m c) ∗ R c)
  post c := iprop(StableHlo.held (c : Thread nD τ) (Pipeline.ucRefs τ sig) (X3 m c) ∗ R c)
  X c := iprop(∃ r, prngReg c r)
  Y c := iprop(∃ r, prngReg c r)
  Z c := Pipeline.unscopedRest (Ix := Unit) (Name := ℕ) (U := UR sig nD τ) (Lvl := ℕ) spec1 c (x2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (x2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (x2 m) c)
    unfold Pipeline.ΦA
    iintro ⟨Hp, -, Hr⟩
    isplitl [Hr]; · iexact Hr
    iexact Hp
  hout c := by
    rw [Pipeline.ownSems0_none]
    refine (hout1 (x2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (x2 m c) (x3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit contents. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (x3 m) c).loose
  hwaits := Pipeline.hwaits_of_owed_zero _ _ _ _ L lv 2 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec2 c (x3 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (x3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (x3 m c) (x4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays split out of the unscoped buffers at entry and put back at the exit contents. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (x8 m) c).loose
  hwaits := Pipeline.hwaits_of_owed_zero _ _ _ _ L lv 3 fun _ _ => rfl
  pre c := iprop(StableHlo.held (c : Thread nD τ) (Pipeline.ucRefs τ sig) (X8 m c) ∗ R c)
  post c := iprop(StableHlo.held (c : Thread nD τ) (Pipeline.ucRefs τ sig) (X9 m c) ∗ R c)
  X c := iprop(∃ r, prngReg c r)
  Y c := iprop(∃ r, prngReg c r)
  Z c := Pipeline.unscopedRest (Ix := Unit) (Name := ℕ) (U := UR sig nD τ) (Lvl := ℕ) spec3 c (x8 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (x8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (x8 m) c)
    unfold Pipeline.ΦA
    iintro ⟨Hp, -, Hr⟩
    isplitl [Hr]; · iexact Hr
    iexact Hp
  hout c := by
    rw [Pipeline.ownSems0_none]
    refine (hout3 (x8 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (x8 m c) (x9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays split out of the unscoped buffers at entry and put back at the exit contents. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (x9 m) c).loose
  hwaits := Pipeline.hwaits_of_owed_zero _ _ _ _ L lv 4 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec4 c (x9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (x9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (x9 m c) (x10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays split out of the unscoped buffers at entry and put back at the exit contents. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (x14 m) c).loose
  hwaits := Pipeline.hwaits_of_owed_zero _ _ _ _ L lv 5 fun _ _ => rfl
  pre c := iprop(StableHlo.held (c : Thread nD τ) (Pipeline.ucRefs τ sig) (X14 m c) ∗ R c)
  post c := iprop(StableHlo.held (c : Thread nD τ) (Pipeline.ucRefs τ sig) (X15 m c) ∗ R c)
  X c := iprop(∃ r, prngReg c r)
  Y c := iprop(∃ r, prngReg c r)
  Z c := Pipeline.unscopedRest (Ix := Unit) (Name := ℕ) (U := UR sig nD τ) (Lvl := ℕ) spec5 c (x14 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (x14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (x14 m) c)
    unfold Pipeline.ΦA
    iintro ⟨Hp, -, Hr⟩
    isplitl [Hr]; · iexact Hr
    iexact Hp
  hout c := by
    rw [Pipeline.ownSems0_none]
    refine (hout5 (x14 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (x14 m c) (x15 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: its arrays split out of the unscoped buffers at entry and put back at the exit contents. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (x15 m) c).loose
  hwaits := Pipeline.hwaits_of_owed_zero _ _ _ _ L lv 6 fun _ _ => rfl
  pre c := iprop(StableHlo.held (c : Thread nD τ) (Pipeline.ucRefs τ sig) (X15 m c) ∗ R c)
  post c := iprop(StableHlo.held (c : Thread nD τ) (Pipeline.ucRefs τ sig) (X16 m c) ∗ R c)
  X c := iprop(∃ r, prngReg c r)
  Y c := iprop(∃ r, prngReg c r)
  Z c := Pipeline.unscopedRest (Ix := Unit) (Name := ℕ) (U := UR sig nD τ) (Lvl := ℕ) spec6 c (x15 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (x15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (x15 m c) (x16 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's 17 items in order. -/
abbrev segs : List (Pipeline.Seg (pcfgs (F := F)) Gen.adm (pdats m) () defs₀ 𝒱₀ L lv) :=
  [
    .host (hseg hostOps0 hostOps0_sub Gen.hostOps0_fresh (X0 m)),
    .region (reg0 m),
    .region (reg1 m),
    .region (reg2 m),
    .host (hseg hostOps3 hostOps3_sub Gen.hostOps3_fresh (X4 m)),
    .host (hseg hostOps3_1 hostOps3_1_sub Gen.hostOps3_1_fresh (X5 m)),
    .host (hseg hostOps3_2 hostOps3_2_sub Gen.hostOps3_2_fresh (X6 m)),
    .host (hseg hostOps3_3 hostOps3_3_sub Gen.hostOps3_3_fresh (X7 m)),
    .region (reg3 m),
    .region (reg4 m),
    .host (hseg hostOps5 hostOps5_sub Gen.hostOps5_fresh (X10 m)),
    .host (hseg hostOps5_1 hostOps5_1_sub Gen.hostOps5_1_fresh (X11 m)),
    .host (hseg hostOps5_2 hostOps5_2_sub Gen.hostOps5_2_fresh (X12 m)),
    .host (hseg hostOps5_3 hostOps5_3_sub Gen.hostOps5_3_fresh (X13 m)),
    .region (reg5 m),
    .region (reg6 m),
    .host (hseg hostOps7 hostOps7_sub Gen.hostOps7_fresh (X16 m)) ]

/-- The program is the run of its items. -/
theorem main_run (c : Dev nD) : main (F := F) c = Pipeline.Seg.run (segs m) := (main_chain c).trans (by chain_rfl)

/-- The last thread state without what is owed: every unscoped buffer at the last valuation, the generator register at some state. -/
abbrev Tₙ (c : Dev nD) : sProp 𝕄 := iprop(StableHlo.held (c : Thread nD τ) (Pipeline.ucRefs τ sig) (X17 m c) ∗ ∃ r, prngReg c r)

set_option backward.isDefEq.respectTransparency.types false in
/-- THE RUN: from any memory with zero counters every weakly fair execution of the program terminates, nothing faulting, and
    every final state holds every unscoped buffer of every core at the last valuation. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = X17 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X17 m c) ∗ R c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X17 m c b)
    (hfin := fun c s' => by
      iintro ⟨⟨Hh, -⟩, HSI⟩
      unfold StableHlo.held
      imodintro
      iapply (pointsTo_read_all (Pipeline.ucRefs τ sig) (fun b => (((c : Thread nD τ)).1, b)) (X17 m c) s')
      isplitl [Hh] <;> iassumption)
    (hQ := fun s h => h)

/-- THE FRAME: the five argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (X17_main_arg0 m c),
      (h c _ (mem_uc main_arg1 (by decide))).trans (X17_main_arg1 m c),
      (h c _ (mem_uc main_arg2 (by decide))).trans (X17_main_arg2 m c),
      (h c _ (mem_uc main_arg3 (by decide))).trans (X17_main_arg3 m c),
      (h c _ (mem_uc main_arg4 (by decide))).trans (X17_main_arg4 m c)⟩) (run_all m ρ)

end Cert.KernelIdeal.Hand

end
-- ==== Proof.KI.ValMean.lean ====
/-
  What the mean region leaves in its result array: entry (i, j) is the sum over the eight channels c of H[c, i, j], divided by 8.
  The point that owns the 256 x 1024 block containing (i, j) stored exactly that, from its 8 x 256 x 1024 block of H; the
  16 blocks tile the 2048 x 2048 array.
-/
import proofs.«140696_j56040733278620_2_alg».proof.Proof.KI.Mean
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The channel mean at row `p`, column `q`. -/
def meanAt (H : S8x2048x2048.Idx → EReal) (p q : Fin 2048) : EReal :=
  Ideal.div (∑ ch : Fin 8, H (ix3 ch p q)) (Scalar.ofBits (F := Ideal) .f32 0x41000000#32)
/-- The channel mean of a stack of eight 2048 x 2048 matrices. -/
def meanG (H : S8x2048x2048.Idx → EReal) : S2048x2048.Idx → EReal := fun i => meanAt H (i 0) (i 1)

/-- The body's arithmetic at an entry of its block. -/
theorem pay6_apply (x0 : FVec Ideal S8x256x1024 .f32) (p : Fin 256) (q : Fin 1024) :
    k6_pay1 (F := Ideal) x0 (ix2 p q) = Ideal.div (∑ ch : Fin 8, x0 (ix3 ch p q)) (Scalar.ofBits (F := Ideal) .f32 0x41000000#32) := by
  unfold k6_pay1
  simp only [shapeCast_self]
  show Ideal.div _ _ = _
  refine congrArg (fun z => Ideal.div z (Scalar.ofBits (F := Ideal) .f32 0x41000000#32)) ?_
  refine (Ideal.multiReduction_add_single (φ := .f32) x0 0x00000000#32 reduces_S8x256x1024_S256x1024 (.inl rfl) rfl (ix2 p q)).trans ?_
  refine Finset.sum_congr rfl fun ch _ => congrArg x0 ?_
  funext a
  match a with
  | ⟨0, _⟩ => rfl
  | ⟨1, _⟩ => rfl
  | ⟨2, _⟩ => rfl

/-- How the two windows' blocks sit at a point. -/
theorem idx_facts6 : ∀ t : Fin cfg6.N, win6_0.index t (0 : Fin 3) = 0
    ∧ win6_0.index t (1 : Fin 3) = win6_1.index t (0 : Fin 2)
    ∧ win6_0.index t (2 : Fin 3) = win6_1.index t (1 : Fin 2)
    ∧ win6_1.index t (0 : Fin 2) ≤ 7 ∧ win6_1.index t (1 : Fin 2) ≤ 1 :=
  (by decide +kernel : ∀ t : Fin grid6.N, _)
/-- Every block of the result is some point's. -/
theorem idx_onto6 : ∀ (q0 : Fin 8) (q1 : Fin 2), ∃ t : Fin cfg6.N, win6_1.index t = ![q0.val, q1.val] :=
  (by decide +kernel : ∀ (q0 : Fin 8) (q1 : Fin 2), ∃ t : Fin grid6.N, win6_1.index t = ![q0.val, q1.val])

/-- What point `t` writes back is its block of the channel mean of the stack as the region finds it. -/
theorem flushed6_eq (c : Dev nD) (t : Fin cfg6.N) :
    (dat6 V c).flushed 1 t = ((cfg6.win 1).blk t).view.read (Elt Ideal) (meanG (V c main_v71)) := by
  show (cfg6.win 1).cut (grid6.coords t) ((dat6 V c).after 1 t) = _
  rw [after6_1]
  unfold out6_1
  rw [View.canon_unit_zero hz2]
  simp only [View.ld_unit_zero (S := S8x256x1024) hz3]
  obtain ⟨e0, e1, e2, e3, e4⟩ := idx_facts6 t
  funext j
  obtain ⟨p, q, rfl⟩ : ∃ (p : Fin 256) (q : Fin 1024), j = ix2 p q := ⟨j 0, j 1, eq_ix2 j⟩
  refine (pay6_apply _ p q).trans ?_
  show _ = meanAt (V c main_v71) _ _
  unfold meanAt
  refine congrArg (fun z => Ideal.div z (Scalar.ofBits (F := Ideal) .f32 0x41000000#32)) (Finset.sum_congr rfl fun ch _ => ?_)
  show V c main_v71 (((cfg6.win 0).blk t).view.emb (ix3 ch p q)) = V c main_v71 _
  refine congrArg (V c main_v71) ?_
  funext a; apply Fin.ext
  match a with
  | ⟨0, _⟩ => show win6_0.index t (0 : Fin 3) * 8 + 1 * ch.val = ch.val; omega
  | ⟨1, _⟩ => show win6_0.index t (1 : Fin 3) * 256 + 1 * p.val = win6_1.index t (0 : Fin 2) * 256 + 1 * p.val; omega
  | ⟨2, _⟩ => show win6_0.index t (2 : Fin 3) * 1024 + 1 * q.val = win6_1.index t (1 : Fin 2) * 1024 + 1 * q.val; omega

theorem mem_blk6 (t : Fin cfg6.N) (i : S2048x2048.Idx) :
    i ∈ ((cfg6.win 1).blk t).view.set ↔ ∀ a : Fin 2, win6_1.index t a * S256x1024.size a ≤ (i a).val ∧ (i a).val < win6_1.index t a * S256x1024.size a + S256x1024.size a := by
  show i ∈ ((View.whole main_v72).slice (win6_1.rect t)).set ↔ _
  rw [View.set_slice_whole, Rect.mem_set_unit]
  exact Iff.rfl

/-- THE RESULT ARRAY after the region: the channel mean of the stack as found. -/
theorem final6 (c : Dev nD) : (dat6 V c).arrAt 1 cfg6.N = meanG (V c main_v71) :=
  (dat6 V c).arrAt_eq_of_cover 1 _ (fun t _ => flushed6_eq V c t) fun i => by
    have hi0 : (i 0).val < 2048 := (i 0).isLt
    have hi1 : (i 1).val < 2048 := (i 1).isLt
    obtain ⟨t, ht⟩ := idx_onto6 ⟨(i 0).val / 256, by omega⟩ ⟨(i 1).val / 1024, by omega⟩
    have q0 : win6_1.index t (0 : Fin 2) = (i 0).val / 256 := congrFun ht 0
    have q1 : win6_1.index t (1 : Fin 2) = (i 1).val / 1024 := congrFun ht 1
    refine ⟨t, flush6_1 t, ?_⟩
    rw [mem_blk6]
    intro a
    match a with
    | ⟨0, _⟩ => show win6_1.index t (0 : Fin 2) * 256 ≤ (i 0).val ∧ (i 0).val < win6_1.index t (0 : Fin 2) * 256 + 256; omega
    | ⟨1, _⟩ => show win6_1.index t (1 : Fin 2) * 1024 ≤ (i 1).val ∧ (i 1).val < win6_1.index t (1 : Fin 2) * 1024 + 1024; omega

end Cert.KernelIdeal.Val

end
-- ==== Proof.KI.ValGtconv.lean ====
/-
  What the channel-mixing region leaves in each of its four result arrays: entry (c, i, j) is the sum over the eight edge types e of
  A[e, i, j] · w[c, e] for that array's 8 x 8 table w. A point stores, for each channel c, the 256 x 512 slice c of its block; the eight
  slices tile the block and the 32 blocks tile the array.
-/
import proofs.«140696_j56040733278620_2_alg».proof.Proof.KI.Gtconv
import proofs.«140696_j56040733278620_2_alg».proof.Proof.KI.ValMean
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The mix of the eight edge types at a position, with the weights of channel `ch`. -/
def gtSum {n1 n2 : ℕ} (A : (⟨3, ![8, n1, n2]⟩ : Shape).Idx → EReal) (w : S8x8.Idx → EReal) (ch : Fin 8) (p : Fin n1) (q : Fin n2) : EReal :=
  ∑ e : Fin 8, A (ix3 e p q) * w (ix2 ch e)
def gtG (A : S8x2048x2048.Idx → EReal) (w : S8x8.Idx → EReal) : S8x2048x2048.Idx → EReal := fun i => gtSum A w (i 0) (i 1) (i 2)
/-- The same on one block. -/
def gtB (A : S8x256x512.Idx → EReal) (w : S8x8.Idx → EReal) : S8x256x512.Idx → EReal := fun i => gtSum A w (i 0) (i 1) (i 2)

/-- One slice's arithmetic at an entry: row `ch` of the table is spread over the block, multiplied in, and the eight edge types are summed. -/
theorem slice_apply (A : FVec Ideal S8x256x512 .f32) (w : FVec Ideal S8x8 .f32) (off : Fin 2 → ℕ) (hs : S8x8.Slices off S1x8) (ch : Fin 8)
    (hoff0 : off 0 = ch.val) (hoff1 : off 1 = 0) (p : Fin 256) (q : Fin 512) :
    multiReduction (F := Ideal) .add [0] S256x512 (mulf A (broadcastTo S8x256x512 (shapeCast S8x1x1 (shapeCast S8 (extractStridedSlice S1x8 off w hs) shapeCasts_S1x8_S8) shapeCasts_S8_S8x1x1) broadcasts_S8x1x1_S8x256x512))
      0x00000000#32 reduces_S8x256x512_S256x512 (.inl rfl) rfl (ix2 p q) = gtSum A w ch p q := by
  refine (Ideal.multiReduction_add_single (φ := .f32) _ 0x00000000#32 reduces_S8x256x512_S256x512 (.inl rfl) rfl (ix2 p q)).trans ?_
  unfold gtSum
  refine Finset.sum_congr rfl fun e _ => ?_
  have hl : reduces_S8x256x512_S256x512.lift (ix2 p q) e = ix3 e p q := funext fun a => by
    match a with
    | ⟨0, _⟩ => rfl
    | ⟨1, _⟩ => rfl
    | ⟨2, _⟩ => rfl
  rw [hl]
  show A (ix3 e p q) * _ = _
  refine congrArg (fun z => A (ix3 e p q) * z) ?_
  refine (broadcastTo_apply _ broadcasts_S8x1x1_S8x256x512 (ix3 e p q) (ix3 e (0 : Fin 1) (0 : Fin 1)) (fun a => by
    match a with
    | ⟨0, _⟩ => rfl
    | ⟨1, _⟩ => rfl
    | ⟨2, _⟩ => rfl)).trans ?_
  refine (shapeCast_apply _ shapeCasts_S8_S8x1x1 (ix3 e (0 : Fin 1) (0 : Fin 1)) (ix1 e) (by
    rw [Shape.rowMajor_val_three, Shape.rowMajor_val_one]; show e.val = (e.val * 1 + 0) * 1 + 0; omega)).trans ?_
  refine (shapeCast_apply _ shapeCasts_S1x8_S8 (ix1 e) (ix2 (0 : Fin 1) e) (by
    rw [Shape.rowMajor_val_two, Shape.rowMajor_val_one]; show 0 * 8 + e.val = e.val; omega)).trans ?_
  exact extractStridedSlice_apply off w hs (ix2 (0 : Fin 1) e) (ix2 ch e) (fun a => by
    match a with
    | ⟨0, _⟩ => show ch.val = off 0 + 0; omega
    | ⟨1, _⟩ => show e.val = off 1 + e.val; omega)

/-- A stored slice, at an entry: the narrowing to the short format and the added unit axis change nothing. -/
theorem piece_apply (r : FVec Ideal S256x512 .f32) (u : Fin 1) (p : Fin 256) (q : Fin 512) :
    shapeCast S1x256x512 (truncf (F := Ideal) .bf16 r bitsLt_bf16_f32) shapeCasts_S256x512_S1x256x512 (ix3 u p q) = r (ix2 p q) :=
  shapeCast_ab_1ab_apply _ _ u p q

/-- An entry of slice `ch` of a block. -/
theorem emb_slice (ch : ℕ) (hinb : ∀ a, (![ch, 0, 0] : Fin 3 → ℕ) a + S1x256x512.size a ≤ S8x256x512.size a) (u : Fin 1) (p : Fin 256) (q : Fin 512) (ch' : Fin 8) (hch : ch'.val = ch) :
    (Rect.unit (s := S8x256x512) ![ch, 0, 0] S1x256x512.size hinb).emb (ix3 u p q) = ix3 ch' p q := by
  funext a; apply Fin.ext
  match a with
  | ⟨0, _⟩ => show ch + 1 * u.val = ch'.val; omega
  | ⟨1, _⟩ => show 0 + 1 * p.val = p.val; omega
  | ⟨2, _⟩ => show 0 + 1 * q.val = q.val; omega

set_option maxHeartbeats 4000000 in
/-- What the body leaves in result window 5's staging buffer is the mix of its block with the table loaded beside it. -/
theorem out0_5_eq (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec Ideal S8x256x512 .f32) (x1 : Vec Ideal S8x8 .f32) (x2 : Vec Ideal S8x8 .f32) (x3 : Vec Ideal S8x8 .f32) (x4 : Vec Ideal S8x8 .f32) :
    out0_5 (F := Ideal) c i arg2 harg2 arg3 harg3 arg4 harg4 arg5 harg5 arg6 harg6 arg7 harg7 arg8 harg8 arg9 harg9 arg10 harg10 x0 x1 x2 x3 x4 = gtB x0 x1 := by
  unfold out0_5
  rw [View.read_writes_eq_canon _ _ _ (cover0_5 c i arg2 harg2 arg3 harg3 arg4 harg4 arg5 harg5 arg6 harg6 arg7 harg7 arg8 harg8 arg9 harg9 arg10 harg10 x0 x1 x2 x3 x4)]
  funext y
  refine View.canon_apply_of_pieces (gtB x0 x1) _ ?_ y (cover0_5 c i arg2 harg2 arg3 harg3 arg4 harg4 arg5 harg5 arg6 harg6 arg7 harg7 arg8 harg8 arg9 harg9 arg10 harg10 x0 x1 x2 x3 x4 y)
  unfold kernelRun0
  dsimp only
  try sl_unfold_words
  intro pc hpc
  simp only [List.mem_cons, List.mem_nil_iff, or_false] at hpc
  rcases hpc with rfl | rfl | rfl | rfl | rfl | rfl | rfl | rfl <;>
  · intro (x : S1x256x512.Idx)
    obtain ⟨u, p, q, rfl⟩ : ∃ (u : Fin 1) (p : Fin 256) (q : Fin 512), x = ix3 u p q := ⟨x 0, x 1, x 2, eq_ix3 x⟩
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, shapeCast_self, View.readAt_eq_ld, harg2.read_unread, harg3.read_unread, harg4.read_unread, harg5.read_unread, harg6.read_unread,
      View.ld_unit_zero (S := S8x256x512) hz3, View.ld_unit_zero (S := S8x8) hz2]
    refine (piece_apply _ u p q).trans ?_
    first
      | (refine (slice_apply x0 x1 _ _ (0 : Fin 8) rfl rfl p q).trans ?_; unfold gtB; rw [emb_slice 0 _ u p q (0 : Fin 8) rfl])
      | (refine (slice_apply x0 x1 _ _ (1 : Fin 8) rfl rfl p q).trans ?_; unfold gtB; rw [emb_slice 1 _ u p q (1 : Fin 8) rfl])
      | (refine (slice_apply x0 x1 _ _ (2 : Fin 8) rfl rfl p q).trans ?_; unfold gtB; rw [emb_slice 2 _ u p q (2 : Fin 8) rfl])
      | (refine (slice_apply x0 x1 _ _ (3 : Fin 8) rfl rfl p q).trans ?_; unfold gtB; rw [emb_slice 3 _ u p q (3 : Fin 8) rfl])
      | (refine (slice_apply x0 x1 _ _ (4 : Fin 8) rfl rfl p q).trans ?_; unfold gtB; rw [emb_slice 4 _ u p q (4 : Fin 8) rfl])
      | (refine (slice_apply x0 x1 _ _ (5 : Fin 8) rfl rfl p q).trans ?_; unfold gtB; rw [emb_slice 5 _ u p q (5 : Fin 8) rfl])
      | (refine (slice_apply x0 x1 _ _ (6 : Fin 8) rfl rfl p q).trans ?_; unfold gtB; rw [emb_slice 6 _ u p q (6 : Fin 8) rfl])
      | (refine (slice_apply x0 x1 _ _ (7 : Fin 8) rfl rfl p q).trans ?_; unfold gtB; rw [emb_slice 7 _ u p q (7 : Fin 8) rfl])

set_option maxHeartbeats 4000000 in
/-- What the body leaves in result window 6's staging buffer is the mix of its block with the table loaded beside it. -/
theorem out0_6_eq (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec Ideal S8x256x512 .f32) (x1 : Vec Ideal S8x8 .f32) (x2 : Vec Ideal S8x8 .f32) (x3 : Vec Ideal S8x8 .f32) (x4 : Vec Ideal S8x8 .f32) :
    out0_6 (F := Ideal) c i arg2 harg2 arg3 harg3 arg4 harg4 arg5 harg5 arg6 harg6 arg7 harg7 arg8 harg8 arg9 harg9 arg10 harg10 x0 x1 x2 x3 x4 = gtB x0 x2 := by
  unfold out0_6
  rw [View.read_writes_eq_canon _ _ _ (cover0_6 c i arg2 harg2 arg3 harg3 arg4 harg4 arg5 harg5 arg6 harg6 arg7 harg7 arg8 harg8 arg9 harg9 arg10 harg10 x0 x1 x2 x3 x4)]
  funext y
  refine View.canon_apply_of_pieces (gtB x0 x2) _ ?_ y (cover0_6 c i arg2 harg2 arg3 harg3 arg4 harg4 arg5 harg5 arg6 harg6 arg7 harg7 arg8 harg8 arg9 harg9 arg10 harg10 x0 x1 x2 x3 x4 y)
  unfold kernelRun0
  dsimp only
  try sl_unfold_words
  intro pc hpc
  simp only [List.mem_cons, List.mem_nil_iff, or_false] at hpc
  rcases hpc with rfl | rfl | rfl | rfl | rfl | rfl | rfl | rfl <;>
  · intro (x : S1x256x512.Idx)
    obtain ⟨u, p, q, rfl⟩ : ∃ (u : Fin 1) (p : Fin 256) (q : Fin 512), x = ix3 u p q := ⟨x 0, x 1, x 2, eq_ix3 x⟩
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, shapeCast_self, View.readAt_eq_ld, harg2.read_unread, harg3.read_unread, harg4.read_unread, harg5.read_unread, harg6.read_unread,
      View.ld_unit_zero (S := S8x256x512) hz3, View.ld_unit_zero (S := S8x8) hz2]
    refine (piece_apply _ u p q).trans ?_
    first
      | (refine (slice_apply x0 x2 _ _ (0 : Fin 8) rfl rfl p q).trans ?_; unfold gtB; rw [emb_slice 0 _ u p q (0 : Fin 8) rfl])
      | (refine (slice_apply x0 x2 _ _ (1 : Fin 8) rfl rfl p q).trans ?_; unfold gtB; rw [emb_slice 1 _ u p q (1 : Fin 8) rfl])
      | (refine (slice_apply x0 x2 _ _ (2 : Fin 8) rfl rfl p q).trans ?_; unfold gtB; rw [emb_slice 2 _ u p q (2 : Fin 8) rfl])
      | (refine (slice_apply x0 x2 _ _ (3 : Fin 8) rfl rfl p q).trans ?_; unfold gtB; rw [emb_slice 3 _ u p q (3 : Fin 8) rfl])
      | (refine (slice_apply x0 x2 _ _ (4 : Fin 8) rfl rfl p q).trans ?_; unfold gtB; rw [emb_slice 4 _ u p q (4 : Fin 8) rfl])
      | (refine (slice_apply x0 x2 _ _ (5 : Fin 8) rfl rfl p q).trans ?_; unfold gtB; rw [emb_slice 5 _ u p q (5 : Fin 8) rfl])
      | (refine (slice_apply x0 x2 _ _ (6 : Fin 8) rfl rfl p q).trans ?_; unfold gtB; rw [emb_slice 6 _ u p q (6 : Fin 8) rfl])
      | (refine (slice_apply x0 x2 _ _ (7 : Fin 8) rfl rfl p q).trans ?_; unfold gtB; rw [emb_slice 7 _ u p q (7 : Fin 8) rfl])

set_option maxHeartbeats 4000000 in
/-- What the body leaves in result window 7's staging buffer is the mix of its block with the table loaded beside it. -/
theorem out0_7_eq (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec Ideal S8x256x512 .f32) (x1 : Vec Ideal S8x8 .f32) (x2 : Vec Ideal S8x8 .f32) (x3 : Vec Ideal S8x8 .f32) (x4 : Vec Ideal S8x8 .f32) :
    out0_7 (F := Ideal) c i arg2 harg2 arg3 harg3 arg4 harg4 arg5 harg5 arg6 harg6 arg7 harg7 arg8 harg8 arg9 harg9 arg10 harg10 x0 x1 x2 x3 x4 = gtB x0 x3 := by
  unfold out0_7
  rw [View.read_writes_eq_canon _ _ _ (cover0_7 c i arg2 harg2 arg3 harg3 arg4 harg4 arg5 harg5 arg6 harg6 arg7 harg7 arg8 harg8 arg9 harg9 arg10 harg10 x0 x1 x2 x3 x4)]
  funext y
  refine View.canon_apply_of_pieces (gtB x0 x3) _ ?_ y (cover0_7 c i arg2 harg2 arg3 harg3 arg4 harg4 arg5 harg5 arg6 harg6 arg7 harg7 arg8 harg8 arg9 harg9 arg10 harg10 x0 x1 x2 x3 x4 y)
  unfold kernelRun0
  dsimp only
  try sl_unfold_words
  intro pc hpc
  simp only [List.mem_cons, List.mem_nil_iff, or_false] at hpc
  rcases hpc with rfl | rfl | rfl | rfl | rfl | rfl | rfl | rfl <;>
  · intro (x : S1x256x512.Idx)
    obtain ⟨u, p, q, rfl⟩ : ∃ (u : Fin 1) (p : Fin 256) (q : Fin 512), x = ix3 u p q := ⟨x 0, x 1, x 2, eq_ix3 x⟩
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, shapeCast_self, View.readAt_eq_ld, harg2.read_unread, harg3.read_unread, harg4.read_unread, harg5.read_unread, harg6.read_unread,
      View.ld_unit_zero (S := S8x256x512) hz3, View.ld_unit_zero (S := S8x8) hz2]
    refine (piece_apply _ u p q).trans ?_
    first
      | (refine (slice_apply x0 x3 _ _ (0 : Fin 8) rfl rfl p q).trans ?_; unfold gtB; rw [emb_slice 0 _ u p q (0 : Fin 8) rfl])
      | (refine (slice_apply x0 x3 _ _ (1 : Fin 8) rfl rfl p q).trans ?_; unfold gtB; rw [emb_slice 1 _ u p q (1 : Fin 8) rfl])
      | (refine (slice_apply x0 x3 _ _ (2 : Fin 8) rfl rfl p q).trans ?_; unfold gtB; rw [emb_slice 2 _ u p q (2 : Fin 8) rfl])
      | (refine (slice_apply x0 x3 _ _ (3 : Fin 8) rfl rfl p q).trans ?_; unfold gtB; rw [emb_slice 3 _ u p q (3 : Fin 8) rfl])
      | (refine (slice_apply x0 x3 _ _ (4 : Fin 8) rfl rfl p q).trans ?_; unfold gtB; rw [emb_slice 4 _ u p q (4 : Fin 8) rfl])
      | (refine (slice_apply x0 x3 _ _ (5 : Fin 8) rfl rfl p q).trans ?_; unfold gtB; rw [emb_slice 5 _ u p q (5 : Fin 8) rfl])
      | (refine (slice_apply x0 x3 _ _ (6 : Fin 8) rfl rfl p q).trans ?_; unfold gtB; rw [emb_slice 6 _ u p q (6 : Fin 8) rfl])
      | (refine (slice_apply x0 x3 _ _ (7 : Fin 8) rfl rfl p q).trans ?_; unfold gtB; rw [emb_slice 7 _ u p q (7 : Fin 8) rfl])

set_option maxHeartbeats 4000000 in
/-- What the body leaves in result window 8's staging buffer is the mix of its block with the table loaded beside it. -/
theorem out0_8_eq (c : Dev nD) (i : grid0.Coords) (arg2 : Memref sig .tc .vmem S8x256x512 .f32) (harg2 : arg2.IsWhole) (arg3 : Memref sig .tc .vmem S8x8 .f32) (harg3 : arg3.IsWhole) (arg4 : Memref sig .tc .vmem S8x8 .f32) (harg4 : arg4.IsWhole) (arg5 : Memref sig .tc .vmem S8x8 .f32) (harg5 : arg5.IsWhole) (arg6 : Memref sig .tc .vmem S8x8 .f32) (harg6 : arg6.IsWhole) (arg7 : Memref sig .tc .vmem S8x256x512 .bf16) (harg7 : arg7.IsWhole) (arg8 : Memref sig .tc .vmem S8x256x512 .bf16) (harg8 : arg8.IsWhole) (arg9 : Memref sig .tc .vmem S8x256x512 .bf16) (harg9 : arg9.IsWhole) (arg10 : Memref sig .tc .vmem S8x256x512 .bf16) (harg10 : arg10.IsWhole) (x0 : Vec Ideal S8x256x512 .f32) (x1 : Vec Ideal S8x8 .f32) (x2 : Vec Ideal S8x8 .f32) (x3 : Vec Ideal S8x8 .f32) (x4 : Vec Ideal S8x8 .f32) :
    out0_8 (F := Ideal) c i arg2 harg2 arg3 harg3 arg4 harg4 arg5 harg5 arg6 harg6 arg7 harg7 arg8 harg8 arg9 harg9 arg10 harg10 x0 x1 x2 x3 x4 = gtB x0 x4 := by
  unfold out0_8
  rw [View.read_writes_eq_canon _ _ _ (cover0_8 c i arg2 harg2 arg3 harg3 arg4 harg4 arg5 harg5 arg6 harg6 arg7 harg7 arg8 harg8 arg9 harg9 arg10 harg10 x0 x1 x2 x3 x4)]
  funext y
  refine View.canon_apply_of_pieces (gtB x0 x4) _ ?_ y (cover0_8 c i arg2 harg2 arg3 harg3 arg4 harg4 arg5 harg5 arg6 harg6 arg7 harg7 arg8 harg8 arg9 harg9 arg10 harg10 x0 x1 x2 x3 x4 y)
  unfold kernelRun0
  dsimp only
  try sl_unfold_words
  intro pc hpc
  simp only [List.mem_cons, List.mem_nil_iff, or_false] at hpc
  rcases hpc with rfl | rfl | rfl | rfl | rfl | rfl | rfl | rfl <;>
  · intro (x : S1x256x512.Idx)
    obtain ⟨u, p, q, rfl⟩ : ∃ (u : Fin 1) (p : Fin 256) (q : Fin 512), x = ix3 u p q := ⟨x 0, x 1, x 2, eq_ix3 x⟩
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, shapeCast_self, View.readAt_eq_ld, harg2.read_unread, harg3.read_unread, harg4.read_unread, harg5.read_unread, harg6.read_unread,
      View.ld_unit_zero (S := S8x256x512) hz3, View.ld_unit_zero (S := S8x8) hz2]
    refine (piece_apply _ u p q).trans ?_
    first
      | (refine (slice_apply x0 x4 _ _ (0 : Fin 8) rfl rfl p q).trans ?_; unfold gtB; rw [emb_slice 0 _ u p q (0 : Fin 8) rfl])
      | (refine (slice_apply x0 x4 _ _ (1 : Fin 8) rfl rfl p q).trans ?_; unfold gtB; rw [emb_slice 1 _ u p q (1 : Fin 8) rfl])
      | (refine (slice_apply x0 x4 _ _ (2 : Fin 8) rfl rfl p q).trans ?_; unfold gtB; rw [emb_slice 2 _ u p q (2 : Fin 8) rfl])
      | (refine (slice_apply x0 x4 _ _ (3 : Fin 8) rfl rfl p q).trans ?_; unfold gtB; rw [emb_slice 3 _ u p q (3 : Fin 8) rfl])
      | (refine (slice_apply x0 x4 _ _ (4 : Fin 8) rfl rfl p q).trans ?_; unfold gtB; rw [emb_slice 4 _ u p q (4 : Fin 8) rfl])
      | (refine (slice_apply x0 x4 _ _ (5 : Fin 8) rfl rfl p q).trans ?_; unfold gtB; rw [emb_slice 5 _ u p q (5 : Fin 8) rfl])
      | (refine (slice_apply x0 x4 _ _ (6 : Fin 8) rfl rfl p q).trans ?_; unfold gtB; rw [emb_slice 6 _ u p q (6 : Fin 8) rfl])
      | (refine (slice_apply x0 x4 _ _ (7 : Fin 8) rfl rfl p q).trans ?_; unfold gtB; rw [emb_slice 7 _ u p q (7 : Fin 8) rfl])

/-- How the windows' blocks sit at a point: the stack's and the results' blocks move together; the tables stay. -/
theorem idx_facts0 : ∀ t : Fin cfg0.N, win0_0.index t (0 : Fin 3) = 0 ∧ win0_0.index t (1 : Fin 3) = win0_5.index t (1 : Fin 3) ∧ win0_0.index t (2 : Fin 3) = win0_5.index t (2 : Fin 3)
    ∧ win0_1.index t (0 : Fin 2) = 0 ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 3) = 0 ∧ win0_6.index t = win0_5.index t ∧ win0_7.index t = win0_5.index t ∧ win0_8.index t = win0_5.index t
    ∧ win0_5.index t (1 : Fin 3) ≤ 7 ∧ win0_5.index t (2 : Fin 3) ≤ 3 :=
  (by decide +kernel : ∀ t : Fin grid0.N, _)
theorem idx_onto0 : ∀ (q1 : Fin 8) (q2 : Fin 4), ∃ t : Fin cfg0.N, win0_5.index t = ![0, q1.val, q2.val] :=
  (by decide +kernel : ∀ (q1 : Fin 8) (q2 : Fin 4), ∃ t : Fin grid0.N, win0_5.index t = ![0, q1.val, q2.val])

/-- An entry of the stack's block, as an entry of the stack. -/
theorem iblk0_0_apply (c : Dev nD) (t : Fin cfg0.N) (e : Fin 8) (p : Fin 256) (q : Fin 512) (i : S8x2048x2048.Idx)
    (h0 : (i 0).val = e.val) (h1 : (i 1).val = win0_5.index t (1 : Fin 3) * 256 + p.val) (h2 : (i 2).val = win0_5.index t (2 : Fin 3) * 512 + q.val) :
    iblk0 V c 0 t (ix3 e p q) = V c main_v49 i := by
  obtain ⟨e0, e1, e2, -⟩ := idx_facts0 t
  show V c main_v49 (((cfg0.win 0).blk t).view.emb (ix3 e p q)) = V c main_v49 i
  refine congrArg (V c main_v49) ?_
  funext a; apply Fin.ext
  match a with
  | ⟨0, _⟩ => show win0_0.index t (0 : Fin 3) * 8 + 1 * e.val = (i 0).val; omega
  | ⟨1, _⟩ => show win0_0.index t (1 : Fin 3) * 256 + 1 * p.val = (i 1).val; omega
  | ⟨2, _⟩ => show win0_0.index t (2 : Fin 3) * 512 + 1 * q.val = (i 2).val; omega
theorem iblk0_1_apply (c : Dev nD) (t : Fin cfg0.N) (ch e : Fin 8) :
    iblk0 V c 1 t (ix2 ch e) = V c main_v11 (ix2 ch e) := by
  obtain ⟨-, -, -, a0, a1, b0, b1, c0, c1, d0, d1, -⟩ := idx_facts0 t
  show V c main_v11 (((cfg0.win 1).blk t).view.emb (ix2 ch e)) = V c main_v11 (ix2 ch e)
  refine congrArg (V c main_v11) ?_
  funext a; apply Fin.ext
  match a with
  | ⟨0, _⟩ => show win0_1.index t (0 : Fin 2) * 8 + 1 * ch.val = ch.val; omega
  | ⟨1, _⟩ => show win0_1.index t (1 : Fin 2) * 8 + 1 * e.val = e.val; omega
theorem iblk0_2_apply (c : Dev nD) (t : Fin cfg0.N) (ch e : Fin 8) :
    iblk0 V c 2 t (ix2 ch e) = V c main_v23 (ix2 ch e) := by
  obtain ⟨-, -, -, a0, a1, b0, b1, c0, c1, d0, d1, -⟩ := idx_facts0 t
  show V c main_v23 (((cfg0.win 2).blk t).view.emb (ix2 ch e)) = V c main_v23 (ix2 ch e)
  refine congrArg (V c main_v23) ?_
  funext a; apply Fin.ext
  match a with
  | ⟨0, _⟩ => show win0_2.index t (0 : Fin 2) * 8 + 1 * ch.val = ch.val; omega
  | ⟨1, _⟩ => show win0_2.index t (1 : Fin 2) * 8 + 1 * e.val = e.val; omega
theorem iblk0_3_apply (c : Dev nD) (t : Fin cfg0.N) (ch e : Fin 8) :
    iblk0 V c 3 t (ix2 ch e) = V c main_v35 (ix2 ch e) := by
  obtain ⟨-, -, -, a0, a1, b0, b1, c0, c1, d0, d1, -⟩ := idx_facts0 t
  show V c main_v35 (((cfg0.win 3).blk t).view.emb (ix2 ch e)) = V c main_v35 (ix2 ch e)
  refine congrArg (V c main_v35) ?_
  funext a; apply Fin.ext
  match a with
  | ⟨0, _⟩ => show win0_3.index t (0 : Fin 2) * 8 + 1 * ch.val = ch.val; omega
  | ⟨1, _⟩ => show win0_3.index t (1 : Fin 2) * 8 + 1 * e.val = e.val; omega
theorem iblk0_4_apply (c : Dev nD) (t : Fin cfg0.N) (ch e : Fin 8) :
    iblk0 V c 4 t (ix2 ch e) = V c main_v47 (ix2 ch e) := by
  obtain ⟨-, -, -, a0, a1, b0, b1, c0, c1, d0, d1, -⟩ := idx_facts0 t
  show V c main_v47 (((cfg0.win 4).blk t).view.emb (ix2 ch e)) = V c main_v47 (ix2 ch e)
  refine congrArg (V c main_v47) ?_
  funext a; apply Fin.ext
  match a with
  | ⟨0, _⟩ => show win0_4.index t (0 : Fin 2) * 8 + 1 * ch.val = ch.val; omega
  | ⟨1, _⟩ => show win0_4.index t (1 : Fin 2) * 8 + 1 * e.val = e.val; omega

/-- What a point writes back to result 0 is its block of the mix of the stack with that result's table, as the region finds them. -/
theorem flushed0_5_eq (c : Dev nD) (t : Fin cfg0.N) :
    (dat0 V c).flushed 5 t = ((cfg0.win 5).blk t).view.read (Elt Ideal) (gtG (V c main_v49) (V c main_v11)) := by
  show (cfg0.win 5).cut (grid0.coords t) ((dat0 V c).after 5 t) = _
  rw [after0_5, out0_5_eq]
  obtain ⟨-, -, -, -, -, -, -, -, -, -, -, z0, s6, s7, s8, b1, b2⟩ := idx_facts0 t
  funext y
  obtain ⟨ch, p, q, rfl⟩ : ∃ (ch : Fin 8) (p : Fin 256) (q : Fin 512), y = ix3 ch p q := ⟨y 0, y 1, y 2, eq_ix3 y⟩
  show gtSum (iblk0 V c 0 t) (iblk0 V c 1 t) ch p q = gtSum (V c main_v49) (V c main_v11) _ _ _
  unfold gtSum
  have hi0 : ((((cfg0.win 5).blk t).view.emb (ix3 ch p q)) 0).val = win0_5.index t (0 : Fin 3) * 8 + 1 * ch.val := rfl
  have hi1 : ((((cfg0.win 5).blk t).view.emb (ix3 ch p q)) 1).val = win0_5.index t (1 : Fin 3) * 256 + 1 * p.val := rfl
  have hi2 : ((((cfg0.win 5).blk t).view.emb (ix3 ch p q)) 2).val = win0_5.index t (2 : Fin 3) * 512 + 1 * q.val := rfl

  refine Finset.sum_congr rfl fun e _ => congrArg₂ (· * ·) ?_ ?_
  · exact iblk0_0_apply V c t e p q _ rfl (by rw [hi1]; omega) (by rw [hi2]; omega)
  · refine (iblk0_1_apply V c t ch e).trans (congrArg (V c main_v11) ?_)
    funext a; apply Fin.ext
    match a with
    | ⟨0, _⟩ => show ch.val = ((((cfg0.win 5).blk t).view.emb (ix3 ch p q)) 0).val; rw [hi0]; omega
    | ⟨1, _⟩ => rfl

theorem mem_blk0_5 (t : Fin cfg0.N) (i : S8x2048x2048.Idx) :
    i ∈ ((cfg0.win 5).blk t).view.set ↔ ∀ a : Fin 3, win0_5.index t a * S8x256x512.size a ≤ (i a).val ∧ (i a).val < win0_5.index t a * S8x256x512.size a + S8x256x512.size a := by
  show i ∈ ((View.whole main_v50_0).slice (win0_5.rect t)).set ↔ _
  rw [View.set_slice_whole, Rect.mem_set_unit]
  exact Iff.rfl

/-- RESULT ARRAY 0 after the region. -/
theorem final0_5 (c : Dev nD) : (dat0 V c).arrAt 5 cfg0.N = gtG (V c main_v49) (V c main_v11) :=
  (dat0 V c).arrAt_eq_of_cover 5 _ (fun t _ => flushed0_5_eq V c t) fun i => by
    have hi0 : (i 0).val < 8 := (i 0).isLt
    have hi1 : (i 1).val < 2048 := (i 1).isLt
    have hi2 : (i 2).val < 2048 := (i 2).isLt
    obtain ⟨t, ht⟩ := idx_onto0 ⟨(i 1).val / 256, by omega⟩ ⟨(i 2).val / 512, by omega⟩
    obtain ⟨-, -, -, -, -, -, -, -, -, -, -, z0, s6, s7, s8, b1, b2⟩ := idx_facts0 t
    have q0 : win0_5.index t (0 : Fin 3) = 0 := congrFun ht 0
    have q1 : win0_5.index t (1 : Fin 3) = (i 1).val / 256 := congrFun ht 1
    have q2 : win0_5.index t (2 : Fin 3) = (i 2).val / 512 := congrFun ht 2
    refine ⟨t, flush0_5 t, ?_⟩
    rw [mem_blk0_5]
    intro a
    match a with
    | ⟨0, _⟩ => show win0_5.index t (0 : Fin 3) * 8 ≤ (i 0).val ∧ (i 0).val < win0_5.index t (0 : Fin 3) * 8 + 8; omega
    | ⟨1, _⟩ => show win0_5.index t (1 : Fin 3) * 256 ≤ (i 1).val ∧ (i 1).val < win0_5.index t (1 : Fin 3) * 256 + 256; omega
    | ⟨2, _⟩ => show win0_5.index t (2 : Fin 3) * 512 ≤ (i 2).val ∧ (i 2).val < win0_5.index t (2 : Fin 3) * 512 + 512; omega

/-- What a point writes back to result 1 is its block of the mix of the stack with that result's table, as the region finds them. -/
theorem flushed0_6_eq (c : Dev nD) (t : Fin cfg0.N) :
    (dat0 V c).flushed 6 t = ((cfg0.win 6).blk t).view.read (Elt Ideal) (gtG (V c main_v49) (V c main_v23)) := by
  show (cfg0.win 6).cut (grid0.coords t) ((dat0 V c).after 6 t) = _
  rw [after0_6, out0_6_eq]
  obtain ⟨-, -, -, -, -, -, -, -, -, -, -, z0, s6, s7, s8, b1, b2⟩ := idx_facts0 t
  funext y
  obtain ⟨ch, p, q, rfl⟩ : ∃ (ch : Fin 8) (p : Fin 256) (q : Fin 512), y = ix3 ch p q := ⟨y 0, y 1, y 2, eq_ix3 y⟩
  show gtSum (iblk0 V c 0 t) (iblk0 V c 2 t) ch p q = gtSum (V c main_v49) (V c main_v23) _ _ _
  unfold gtSum
  have hi0 : ((((cfg0.win 6).blk t).view.emb (ix3 ch p q)) 0).val = win0_6.index t (0 : Fin 3) * 8 + 1 * ch.val := rfl
  have hi1 : ((((cfg0.win 6).blk t).view.emb (ix3 ch p q)) 1).val = win0_6.index t (1 : Fin 3) * 256 + 1 * p.val := rfl
  have hi2 : ((((cfg0.win 6).blk t).view.emb (ix3 ch p q)) 2).val = win0_6.index t (2 : Fin 3) * 512 + 1 * q.val := rfl
  rw [s6] at hi0 hi1 hi2
  refine Finset.sum_congr rfl fun e _ => congrArg₂ (· * ·) ?_ ?_
  · exact iblk0_0_apply V c t e p q _ rfl (by rw [hi1]; omega) (by rw [hi2]; omega)
  · refine (iblk0_2_apply V c t ch e).trans (congrArg (V c main_v23) ?_)
    funext a; apply Fin.ext
    match a with
    | ⟨0, _⟩ => show ch.val = ((((cfg0.win 6).blk t).view.emb (ix3 ch p q)) 0).val; rw [hi0]; omega
    | ⟨1, _⟩ => rfl

theorem mem_blk0_6 (t : Fin cfg0.N) (i : S8x2048x2048.Idx) :
    i ∈ ((cfg0.win 6).blk t).view.set ↔ ∀ a : Fin 3, win0_6.index t a * S8x256x512.size a ≤ (i a).val ∧ (i a).val < win0_6.index t a * S8x256x512.size a + S8x256x512.size a := by
  show i ∈ ((View.whole main_v50_1).slice (win0_6.rect t)).set ↔ _
  rw [View.set_slice_whole, Rect.mem_set_unit]
  exact Iff.rfl

/-- RESULT ARRAY 1 after the region. -/
theorem final0_6 (c : Dev nD) : (dat0 V c).arrAt 6 cfg0.N = gtG (V c main_v49) (V c main_v23) :=
  (dat0 V c).arrAt_eq_of_cover 6 _ (fun t _ => flushed0_6_eq V c t) fun i => by
    have hi0 : (i 0).val < 8 := (i 0).isLt
    have hi1 : (i 1).val < 2048 := (i 1).isLt
    have hi2 : (i 2).val < 2048 := (i 2).isLt
    obtain ⟨t, ht⟩ := idx_onto0 ⟨(i 1).val / 256, by omega⟩ ⟨(i 2).val / 512, by omega⟩
    obtain ⟨-, -, -, -, -, -, -, -, -, -, -, z0, s6, s7, s8, b1, b2⟩ := idx_facts0 t
    have q0 : win0_5.index t (0 : Fin 3) = 0 := congrFun ht 0
    have q1 : win0_5.index t (1 : Fin 3) = (i 1).val / 256 := congrFun ht 1
    have q2 : win0_5.index t (2 : Fin 3) = (i 2).val / 512 := congrFun ht 2
    refine ⟨t, flush0_6 t, ?_⟩
    rw [mem_blk0_6, s6]
    intro a
    match a with
    | ⟨0, _⟩ => show win0_5.index t (0 : Fin 3) * 8 ≤ (i 0).val ∧ (i 0).val < win0_5.index t (0 : Fin 3) * 8 + 8; omega
    | ⟨1, _⟩ => show win0_5.index t (1 : Fin 3) * 256 ≤ (i 1).val ∧ (i 1).val < win0_5.index t (1 : Fin 3) * 256 + 256; omega
    | ⟨2, _⟩ => show win0_5.index t (2 : Fin 3) * 512 ≤ (i 2).val ∧ (i 2).val < win0_5.index t (2 : Fin 3) * 512 + 512; omega

/-- What a point writes back to result 2 is its block of the mix of the stack with that result's table, as the region finds them. -/
theorem flushed0_7_eq (c : Dev nD) (t : Fin cfg0.N) :
    (dat0 V c).flushed 7 t = ((cfg0.win 7).blk t).view.read (Elt Ideal) (gtG (V c main_v49) (V c main_v35)) := by
  show (cfg0.win 7).cut (grid0.coords t) ((dat0 V c).after 7 t) = _
  rw [after0_7, out0_7_eq]
  obtain ⟨-, -, -, -, -, -, -, -, -, -, -, z0, s6, s7, s8, b1, b2⟩ := idx_facts0 t
  funext y
  obtain ⟨ch, p, q, rfl⟩ : ∃ (ch : Fin 8) (p : Fin 256) (q : Fin 512), y = ix3 ch p q := ⟨y 0, y 1, y 2, eq_ix3 y⟩
  show gtSum (iblk0 V c 0 t) (iblk0 V c 3 t) ch p q = gtSum (V c main_v49) (V c main_v35) _ _ _
  unfold gtSum
  have hi0 : ((((cfg0.win 7).blk t).view.emb (ix3 ch p q)) 0).val = win0_7.index t (0 : Fin 3) * 8 + 1 * ch.val := rfl
  have hi1 : ((((cfg0.win 7).blk t).view.emb (ix3 ch p q)) 1).val = win0_7.index t (1 : Fin 3) * 256 + 1 * p.val := rfl
  have hi2 : ((((cfg0.win 7).blk t).view.emb (ix3 ch p q)) 2).val = win0_7.index t (2 : Fin 3) * 512 + 1 * q.val := rfl
  rw [s7] at hi0 hi1 hi2
  refine Finset.sum_congr rfl fun e _ => congrArg₂ (· * ·) ?_ ?_
  · exact iblk0_0_apply V c t e p q _ rfl (by rw [hi1]; omega) (by rw [hi2]; omega)
  · refine (iblk0_3_apply V c t ch e).trans (congrArg (V c main_v35) ?_)
    funext a; apply Fin.ext
    match a with
    | ⟨0, _⟩ => show ch.val = ((((cfg0.win 7).blk t).view.emb (ix3 ch p q)) 0).val; rw [hi0]; omega
    | ⟨1, _⟩ => rfl

theorem mem_blk0_7 (t : Fin cfg0.N) (i : S8x2048x2048.Idx) :
    i ∈ ((cfg0.win 7).blk t).view.set ↔ ∀ a : Fin 3, win0_7.index t a * S8x256x512.size a ≤ (i a).val ∧ (i a).val < win0_7.index t a * S8x256x512.size a + S8x256x512.size a := by
  show i ∈ ((View.whole main_v50_2).slice (win0_7.rect t)).set ↔ _
  rw [View.set_slice_whole, Rect.mem_set_unit]
  exact Iff.rfl

/-- RESULT ARRAY 2 after the region. -/
theorem final0_7 (c : Dev nD) : (dat0 V c).arrAt 7 cfg0.N = gtG (V c main_v49) (V c main_v35) :=
  (dat0 V c).arrAt_eq_of_cover 7 _ (fun t _ => flushed0_7_eq V c t) fun i => by
    have hi0 : (i 0).val < 8 := (i 0).isLt
    have hi1 : (i 1).val < 2048 := (i 1).isLt
    have hi2 : (i 2).val < 2048 := (i 2).isLt
    obtain ⟨t, ht⟩ := idx_onto0 ⟨(i 1).val / 256, by omega⟩ ⟨(i 2).val / 512, by omega⟩
    obtain ⟨-, -, -, -, -, -, -, -, -, -, -, z0, s6, s7, s8, b1, b2⟩ := idx_facts0 t
    have q0 : win0_5.index t (0 : Fin 3) = 0 := congrFun ht 0
    have q1 : win0_5.index t (1 : Fin 3) = (i 1).val / 256 := congrFun ht 1
    have q2 : win0_5.index t (2 : Fin 3) = (i 2).val / 512 := congrFun ht 2
    refine ⟨t, flush0_7 t, ?_⟩
    rw [mem_blk0_7, s7]
    intro a
    match a with
    | ⟨0, _⟩ => show win0_5.index t (0 : Fin 3) * 8 ≤ (i 0).val ∧ (i 0).val < win0_5.index t (0 : Fin 3) * 8 + 8; omega
    | ⟨1, _⟩ => show win0_5.index t (1 : Fin 3) * 256 ≤ (i 1).val ∧ (i 1).val < win0_5.index t (1 : Fin 3) * 256 + 256; omega
    | ⟨2, _⟩ => show win0_5.index t (2 : Fin 3) * 512 ≤ (i 2).val ∧ (i 2).val < win0_5.index t (2 : Fin 3) * 512 + 512; omega

/-- What a point writes back to result 3 is its block of the mix of the stack with that result's table, as the region finds them. -/
theorem flushed0_8_eq (c : Dev nD) (t : Fin cfg0.N) :
    (dat0 V c).flushed 8 t = ((cfg0.win 8).blk t).view.read (Elt Ideal) (gtG (V c main_v49) (V c main_v47)) := by
  show (cfg0.win 8).cut (grid0.coords t) ((dat0 V c).after 8 t) = _
  rw [after0_8, out0_8_eq]
  obtain ⟨-, -, -, -, -, -, -, -, -, -, -, z0, s6, s7, s8, b1, b2⟩ := idx_facts0 t
  funext y
  obtain ⟨ch, p, q, rfl⟩ : ∃ (ch : Fin 8) (p : Fin 256) (q : Fin 512), y = ix3 ch p q := ⟨y 0, y 1, y 2, eq_ix3 y⟩
  show gtSum (iblk0 V c 0 t) (iblk0 V c 4 t) ch p q = gtSum (V c main_v49) (V c main_v47) _ _ _
  unfold gtSum
  have hi0 : ((((cfg0.win 8).blk t).view.emb (ix3 ch p q)) 0).val = win0_8.index t (0 : Fin 3) * 8 + 1 * ch.val := rfl
  have hi1 : ((((cfg0.win 8).blk t).view.emb (ix3 ch p q)) 1).val = win0_8.index t (1 : Fin 3) * 256 + 1 * p.val := rfl
  have hi2 : ((((cfg0.win 8).blk t).view.emb (ix3 ch p q)) 2).val = win0_8.index t (2 : Fin 3) * 512 + 1 * q.val := rfl
  rw [s8] at hi0 hi1 hi2
  refine Finset.sum_congr rfl fun e _ => congrArg₂ (· * ·) ?_ ?_
  · exact iblk0_0_apply V c t e p q _ rfl (by rw [hi1]; omega) (by rw [hi2]; omega)
  · refine (iblk0_4_apply V c t ch e).trans (congrArg (V c main_v47) ?_)
    funext a; apply Fin.ext
    match a with
    | ⟨0, _⟩ => show ch.val = ((((cfg0.win 8).blk t).view.emb (ix3 ch p q)) 0).val; rw [hi0]; omega
    | ⟨1, _⟩ => rfl

theorem mem_blk0_8 (t : Fin cfg0.N) (i : S8x2048x2048.Idx) :
    i ∈ ((cfg0.win 8).blk t).view.set ↔ ∀ a : Fin 3, win0_8.index t a * S8x256x512.size a ≤ (i a).val ∧ (i a).val < win0_8.index t a * S8x256x512.size a + S8x256x512.size a := by
  show i ∈ ((View.whole main_v50_3).slice (win0_8.rect t)).set ↔ _
  rw [View.set_slice_whole, Rect.mem_set_unit]
  exact Iff.rfl

/-- RESULT ARRAY 3 after the region. -/
theorem final0_8 (c : Dev nD) : (dat0 V c).arrAt 8 cfg0.N = gtG (V c main_v49) (V c main_v47) :=
  (dat0 V c).arrAt_eq_of_cover 8 _ (fun t _ => flushed0_8_eq V c t) fun i => by
    have hi0 : (i 0).val < 8 := (i 0).isLt
    have hi1 : (i 1).val < 2048 := (i 1).isLt
    have hi2 : (i 2).val < 2048 := (i 2).isLt
    obtain ⟨t, ht⟩ := idx_onto0 ⟨(i 1).val / 256, by omega⟩ ⟨(i 2).val / 512, by omega⟩
    obtain ⟨-, -, -, -, -, -, -, -, -, -, -, z0, s6, s7, s8, b1, b2⟩ := idx_facts0 t
    have q0 : win0_5.index t (0 : Fin 3) = 0 := congrFun ht 0
    have q1 : win0_5.index t (1 : Fin 3) = (i 1).val / 256 := congrFun ht 1
    have q2 : win0_5.index t (2 : Fin 3) = (i 2).val / 512 := congrFun ht 2
    refine ⟨t, flush0_8 t, ?_⟩
    rw [mem_blk0_8, s8]
    intro a
    match a with
    | ⟨0, _⟩ => show win0_5.index t (0 : Fin 3) * 8 ≤ (i 0).val ∧ (i 0).val < win0_5.index t (0 : Fin 3) * 8 + 8; omega
    | ⟨1, _⟩ => show win0_5.index t (1 : Fin 3) * 256 ≤ (i 1).val ∧ (i 1).val < win0_5.index t (1 : Fin 3) * 256 + 256; omega
    | ⟨2, _⟩ => show win0_5.index t (2 : Fin 3) * 512 ≤ (i 2).val ∧ (i 2).val < win0_5.index t (2 : Fin 3) * 512 + 512; omega

end Cert.KernelIdeal.Val

end
-- ==== Proof.LibWords.lean ====
/-
  Small facts about 32-bit words that count rows and columns: a word built from a natural number below 2^32 determines it, so an
  integer comparison of two such words is the comparison of the numbers; and block-row arithmetic t · s + q on words is the
  word of the number t · s + q.
-/
import Idealize.ShloMosaic.PureOps.Float
import Mathlib.Data.Fintype.BigOperators
import Mathlib.Algebra.BigOperators.Fin
import Mathlib.Logic.Equiv.Fin.Basic

namespace Cert.Lib

open Idealize.ShloMosaic

/-- A word of a number below 2^32 determines the number. -/
theorem ofNat32_inj {a b : ℕ} (ha : a < 2 ^ 32) (hb : b < 2 ^ 32) : BitVec.ofNat 32 a = BitVec.ofNat 32 b ↔ a = b := by
  constructor
  · intro e
    have h := congrArg BitVec.toNat e
    rw [BitVec.toNat_ofNat, BitVec.toNat_ofNat, Nat.mod_eq_of_lt ha, Nat.mod_eq_of_lt hb] at h
    exact h
  · intro e; rw [e]

/-- Block-row arithmetic on words: (t · s) + q. -/
theorem ofNat32_mul_add (t s q : ℕ) : BitVec.ofNat 32 t * BitVec.ofNat 32 s + BitVec.ofNat 32 q = BitVec.ofNat 32 (t * s + q) := by
  rw [BitVec.ofNat_add, BitVec.ofNat_mul]

/-- "Not equal" on two such words is "not equal" on the numbers. -/
theorem cmpi_ne_ofNat32 {a b : ℕ} (ha : a < 2 ^ 32) (hb : b < 2 ^ 32) :
    IntOp.cmpi .ne (BitVec.ofNat 32 a) (BitVec.ofNat 32 b) = if a ≠ b then 1#1 else 0#1 := by
  unfold IntOp.cmpi
  by_cases h : a = b
  · subst h; simp
  · have h' : BitVec.ofNat 32 a ≠ BitVec.ofNat 32 b := fun e => h ((ofNat32_inj ha hb).mp e)
    rw [if_pos h]
    show BitVec.ofBool (BitVec.ofNat 32 a != BitVec.ofNat 32 b) = 1#1
    rw [show (BitVec.ofNat 32 a != BitVec.ofNat 32 b) = true from bne_iff_ne.mpr h']
    rfl

/-- "Equal" on two such words is "equal" on the numbers. -/
theorem cmpi_eq_ofNat32 {a b : ℕ} (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have h' : BitVec.ofNat 32 a ≠ BitVec.ofNat 32 b := fun e => h ((ofNat32_inj ha hb).mp e)
    rw [if_neg h]
    show BitVec.ofBool (BitVec.ofNat 32 a == BitVec.ofNat 32 b) = 0#1
    rw [show (BitVec.ofNat 32 a == BitVec.ofNat 32 b) = false from beq_eq_false_iff_ne.mpr h']
    rfl

/-- A sum over a · b consecutive positions is the sum over a blocks of b positions. -/
theorem sum_fin_blocks {M : Type*} [AddCommMonoid M] (a b : ℕ) (f : Fin (a * b) → M) :
    ∑ i, f i = ∑ r : Fin a, ∑ q : Fin b, f (finProdFinEquiv (r, q)) :=
  (Fintype.sum_equiv finProdFinEquiv (fun p => f (finProdFinEquiv p)) f (fun _ => rfl)).symm.trans (Fintype.sum_prod_type _)

/-- The position of entry q of block r. -/
theorem finProdFinEquiv_val (a b : ℕ) (r : Fin a) (q : Fin b) : (finProdFinEquiv (r, q) : Fin (a * b)).val = q.val + b * r.val := rfl

end Cert.Lib
-- ==== Proof.KI.ValColsum2.lean ====
/-
  What a column-degree region leaves in its result array: deg[c, j] = the sum over rows i ≠ j of H[c, i, j]. The region's 16 points
  each add the masked column sums of their band of 128 rows to a running sum kept in the result's staging buffer, which is
  written back once, after the last point; the 16 bands are the 2048 rows.
-/
import proofs.«140696_j56040733278620_2_alg».proof.Proof.KI.Colsum2
import proofs.«140696_j56040733278620_2_alg».proof.Proof.KI.ValMean
import proofs.«140696_j56040733278620_2_alg».proof.Proof.LibWords
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt Ideal) ((c : Thread nD τ).loc b))

/-- The masked column sum of one band: rows 128 t … 128 t + 127, the row equal to the column left out. -/
def bandAt2 (x : FVec Ideal S8x128x2048 .f32) (t : ℕ) (ch : Fin 8) (j : Fin 2048) : EReal :=
  ∑ r : Fin 128, (if 128 * t + r.val ≠ j.val then x (ix3 ch r j) else (0 : EReal))

/-- The column degree: the sum over the rows other than the column's own. -/
def degAt (H : S8x2048x2048.Idx → EReal) (ch : Fin 8) (j : Fin 2048) : EReal :=
  ∑ i : Fin 2048, (if i.val ≠ j.val then H (ix3 ch i j) else (0 : EReal))
def degG2 (H : S8x2048x2048.Idx → EReal) : S8x2048.Idx → EReal := fun i => degAt H (i 0) (i 1)

theorem coord2_0 : ∀ t : Fin cfg2.N, ((grid2.coords t) 0).val = t.val :=
  (by decide +kernel : ∀ t : Fin grid2.N, ((grid2.coords t) 0).val = t.val)

/-- The body's arithmetic at an entry: the running sum plus the band's masked column sum. -/
theorem pay2_apply (i : grid2.Coords) (x : FVec Ideal S8x128x2048 .f32) (acc : FVec Ideal S8x2048 .f32) (ch : Fin 8) (j : Fin 2048) :
    k2_pay2 (F := Ideal) i x acc (ix2 ch j) = acc (ix2 ch j) + bandAt2 x (i 0).val ch j := by
  unfold k2_pay2
  simp only [shapeCast_self]
  show acc (ix2 ch j) + _ = _
  refine congrArg (fun z => acc (ix2 ch j) + z) ?_
  refine (Ideal.multiReduction_add_single (φ := .f32) _ 0x00000000#32 reduces_S8x128x2048_S8x2048 (.inl rfl) rfl (ix2 ch j)).trans ?_
  unfold bandAt2
  refine Finset.sum_congr rfl fun r _ => ?_
  have hl : reduces_S8x128x2048_S8x2048.lift (ix2 ch j) r = ix3 ch r j := funext fun a => by
    match a with
    | ⟨0, _⟩ => rfl
    | ⟨1, _⟩ => rfl
    | ⟨2, _⟩ => rfl
  rw [hl]
  have hi : (i 0).val < 16 := (i 0).isLt
  have hr : r.val < 128 := r.isLt
  have hj : j.val < 2048 := j.isLt
  show Scalar.select (IntOp.cmpi .ne (IntOp.addi (IntOp.muli (BitVec.ofNat 32 (i 0).val) (BitVec.ofNat 32 128)) (BitVec.ofNat 32 (0 * 128 + r.val))) (BitVec.ofNat 32 (0 * 2048 + j.val))) (x (ix3 ch r j)) (Scalar.ofBits (F := Ideal) .f32 0x00000000#32) = _
  have hw : IntOp.addi (IntOp.muli (BitVec.ofNat 32 (i 0).val) (BitVec.ofNat 32 128)) (BitVec.ofNat 32 (0 * 128 + r.val)) = BitVec.ofNat 32 ((i 0).val * 128 + (0 * 128 + r.val)) :=
    Cert.Lib.ofNat32_mul_add _ _ _
  rw [hw, Cert.Lib.cmpi_ne_ofNat32 (by omega) (by omega)]
  by_cases h : 128 * (i 0).val + r.val ≠ j.val
  · rw [if_pos h, if_pos (by omega), select_one]
  · rw [if_neg h, if_neg (by omega), select_zero]
    exact Ideal.ofBits_zero_f32

/-- A later band's point leaves the running sum plus its band's. -/
theorem outB2_eq (c : Dev nD) (i : grid2.Coords) (a1 : Memref sig .tc .vmem S8x128x2048 .f32) (h1 : a1.IsWhole)
    (a2 : Memref sig .tc .vmem S8x2048 .f32) (h2 : a2.IsWhole) (hc : ¬cond2_0 i) (x : Vec F S8x128x2048 .f32) (xo : Vec F S8x2048 .f32) :
    out2_B_1 c i a1 h1 a2 h2 hc x xo = k2_pay2 i x xo := by
  unfold out2_B_1
  rw [View.read_writes_eq_canon _ _ _ (cover2_B_1 c i a1 h1 a2 h2 hc x xo)]
  unfold kernelRun2_B
  dsimp only
  try sl_unfold_words
  rw [View.canon_unit_zero hz2]
  simp only [View.readAt_eq_ld, h1.read_unread, h2.read_unread, View.ld_unit_zero (S := S8x128x2048) hz3, View.ld_unit_zero (S := S8x2048) hz2]

/-- The first band's point stores zeros and leaves zero plus its band's. -/
theorem outA2_eq (c : Dev nD) (i : grid2.Coords) (a1 : Memref sig .tc .vmem S8x128x2048 .f32) (h1 : a1.IsWhole)
    (a2 : Memref sig .tc .vmem S8x2048 .f32) (h2 : a2.IsWhole) (hc : cond2_0 i) (x : Vec F S8x128x2048 .f32) :
    out2_A_1 c i a1 h1 a2 h2 hc x = k2_pay2 i x (k2_pay1 (F := F)) := by
  unfold out2_A_1
  rw [View.read_writes_eq_canon _ _ _ (cover2_A_1 c i a1 h1 a2 h2 hc x)]
  unfold kernelRun2_A
  dsimp only
  try sl_unfold_words
  rw [View.canon_cons_unit_zero (S := S8x2048) hz2, View.readCov_unit_zero (S := S8x2048) _ hz2]
  simp only [View.readAt_eq_ld, h1.read_unread, View.ld_unit_zero (S := S8x128x2048) hz3]

/-- The band a position contributes, or nothing past the grid. -/
def bandN2 (c : Dev nD) (ch : Fin 8) (j : Fin 2048) (r : ℕ) : EReal :=
  if h : r < cfg2.N then bandAt2 (iblk2 V c 0 ⟨r, h⟩) r ch j else 0

/-- The running sum after position `n` is the sum of the bands met so far. -/
theorem outsAt2_apply (c : Dev nD) (ch : Fin 8) (j : Fin 2048) : ∀ (n : ℕ) (h : n < cfg2.N),
    outsAt2 V c n h (ix2 ch j) = ∑ r ∈ Finset.range (n + 1), bandN2 V c ch j r
  | 0, h => by
    rw [outsAt2_A V c ⟨0, h⟩ rfl, outA2_eq, pay2_apply, Finset.sum_range_one]
    unfold bandN2; rw [dif_pos h, coord2_0]
    show Scalar.ofBits (F := Ideal) .f32 0x00000000#32 + _ = _
    rw [show Scalar.ofBits (F := Ideal) .f32 0x00000000#32 = (0 : EReal) from Ideal.ofBits_zero_f32, zero_add]
  | n + 1, h => by
    have hN : cfg2.N = 16 := N_2
    have hB : ¬(⟨n + 1, h⟩ : Fin cfg2.N).val % 16 = 0 := by dsimp only; omega
    rw [outsAt2_B V c ⟨n + 1, h⟩ hB, outB2_eq, pay2_apply, Finset.sum_range_succ _ (n + 1)]
    show outsAt2 V c n _ (ix2 ch j) + _ = _
    rw [outsAt2_apply c ch j n]
    refine congrArg (fun z => _ + z) ?_
    unfold bandN2; rw [dif_pos h, coord2_0]

/-- The input window's block at point `t` is rows 128 t … 128 t + 127 of every channel. -/
theorem idx_facts2 : ∀ t : Fin cfg2.N, win2_0.index t (0 : Fin 3) = 0 ∧ win2_0.index t (1 : Fin 3) = t.val ∧ win2_0.index t (2 : Fin 3) = 0
    ∧ win2_1.index t (0 : Fin 2) = 0 ∧ win2_1.index t (1 : Fin 2) = 0 :=
  (by decide +kernel : ∀ t : Fin grid2.N, _)

theorem iblk2_apply (c : Dev nD) (t : Fin cfg2.N) (ch : Fin 8) (r : Fin 128) (j : Fin 2048) (i : Fin 2048) (hi : i.val = 128 * t.val + r.val) :
    iblk2 V c 0 t (ix3 ch r j) = V c main_v51 (ix3 ch i j) := by
  obtain ⟨e0, e1, e2, -, -⟩ := idx_facts2 t
  show V c main_v51 (((cfg2.win 0).blk t).view.emb (ix3 ch r j)) = V c main_v51 _
  refine congrArg (V c main_v51) ?_
  funext a; apply Fin.ext
  match a with
  | ⟨0, _⟩ => show win2_0.index t (0 : Fin 3) * 8 + 1 * ch.val = ch.val; omega
  | ⟨1, _⟩ => show win2_0.index t (1 : Fin 3) * 128 + 1 * r.val = i.val; omega
  | ⟨2, _⟩ => show win2_0.index t (2 : Fin 3) * 2048 + 1 * j.val = j.val; omega

/-- The 16 bands' masked column sums are the column degree. -/
theorem bands2_eq (c : Dev nD) (ch : Fin 8) (j : Fin 2048) :
    ∑ r ∈ Finset.range 16, bandN2 V c ch j r = degAt (V c main_v51) ch j := by
  have hN : cfg2.N = 16 := N_2
  unfold degAt
  rw [Cert.Lib.sum_fin_blocks (M := EReal) 16 128 (fun i : Fin 2048 => if i.val ≠ j.val then (V c main_v51 : S8x2048x2048.Idx → EReal) (ix3 ch i j) else (0 : EReal)),
    ← Fin.sum_univ_eq_sum_range (fun r => bandN2 V c ch j r) 16]
  refine Finset.sum_congr rfl fun r' _ => ?_
  unfold bandN2
  rw [dif_pos (by rw [hN]; exact r'.isLt)]
  unfold bandAt2
  refine Finset.sum_congr rfl fun q _ => ?_
  have hv : (finProdFinEquiv (r', q) : Fin (16 * 128)).val = q.val + 128 * r'.val := rfl
  have hq : q.val < 128 := q.isLt
  have hr' : r'.val < 16 := r'.isLt
  by_cases h : 128 * r'.val + q.val ≠ j.val
  · rw [if_pos h, if_pos (by rw [hv]; omega)]
    exact iblk2_apply V c ⟨r'.val, by rw [hN]; exact r'.isLt⟩ ch q j _ (by rw [hv]; dsimp only; omega)
  · rw [if_neg h, if_neg (by rw [hv]; omega)]

/-- The one write-back, after the last point, writes the column degrees. -/
theorem flushed2_eq (c : Dev nD) (t : Fin cfg2.N) (hf : (cfg2.win 1).flush t = true) :
    (dat2 V c).flushed 1 t = ((cfg2.win 1).blk t).view.read (Elt Ideal) (degG2 (V c main_v51)) := by
  have hN : cfg2.N = 16 := N_2
  have h15 : t.val = 15 := by have := (flush2_1 t).mp hf; have := t.isLt; omega
  obtain ⟨-, -, -, e3, e4⟩ := idx_facts2 t
  show (cfg2.win 1).cut (grid2.coords t) ((dat2 V c).after 1 t) = _
  rw [after2_1]
  funext y
  obtain ⟨ch, j, rfl⟩ : ∃ (ch : Fin 8) (j : Fin 2048), y = ix2 ch j := ⟨y 0, y 1, eq_ix2 y⟩
  refine (outsAt2_apply V c ch j t.val t.isLt).trans ?_
  rw [h15]
  refine (bands2_eq V c ch j).trans ?_
  show degAt (V c main_v51) ch j = degAt (V c main_v51) _ _
  have h0 : (((cfg2.win 1).blk t).view.emb (ix2 ch j)) 0 = ch := Fin.ext (by
    show win2_1.index t (0 : Fin 2) * 8 + 1 * ch.val = ch.val; omega)
  have h1 : (((cfg2.win 1).blk t).view.emb (ix2 ch j)) 1 = j := Fin.ext (by
    show win2_1.index t (1 : Fin 2) * 2048 + 1 * j.val = j.val; omega)
  rw [h0, h1]

theorem mem_blk2 (t : Fin cfg2.N) (i : S8x2048.Idx) :
    i ∈ ((cfg2.win 1).blk t).view.set ↔ ∀ a : Fin 2, win2_1.index t a * S8x2048.size a ≤ (i a).val ∧ (i a).val < win2_1.index t a * S8x2048.size a + S8x2048.size a := by
  show i ∈ ((View.whole main_v52).slice (win2_1.rect t)).set ↔ _
  rw [View.set_slice_whole, Rect.mem_set_unit]
  exact Iff.rfl

/-- THE RESULT ARRAY after the region: the column degrees of the stack as found. -/
theorem final2 (c : Dev nD) : (dat2 V c).arrAt 1 cfg2.N = degG2 (V c main_v51) :=
  (dat2 V c).arrAt_eq_of_cover 1 _ (flushed2_eq V c) fun i => by
    have hN : cfg2.N = 16 := N_2
    have hi0 : (i 0).val < 8 := (i 0).isLt
    have hi1 : (i 1).val < 2048 := (i 1).isLt
    refine ⟨⟨15, by rw [hN]; decide⟩, (flush2_1 _).mpr rfl, ?_⟩
    obtain ⟨-, -, -, e3, e4⟩ := idx_facts2 ⟨15, by rw [hN]; decide⟩
    rw [mem_blk2]
    intro a
    match a with
    | ⟨0, _⟩ => show win2_1.index _ (0 : Fin 2) * 8 ≤ (i 0).val ∧ (i 0).val < win2_1.index _ (0 : Fin 2) * 8 + 8; omega
    | ⟨1, _⟩ => show win2_1.index _ (1 : Fin 2) * 2048 ≤ (i 1).val ∧ (i 1).val < win2_1.index _ (1 : Fin 2) * 2048 + 2048; omega

end Cert.KernelIdeal.Val

end
-- ==== Proof.KI.ValColsum4.lean ====
/-
  What a column-degree region leaves in its result array: deg[c, j] = the sum over rows i ≠ j of H[c, i, j]. The region's 16 points
  each add the masked column sums of their band of 128 rows to a running sum kept in the result's staging buffer, which is
  written back once, after the last point; the 16 bands are the 2048 rows.
-/
import proofs.«140696_j56040733278620_2_alg».proof.Proof.KI.Colsum4
import proofs.«140696_j56040733278620_2_alg».proof.Proof.KI.ValColsum2
import proofs.«140696_j56040733278620_2_alg».proof.Proof.LibWords
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt Ideal) ((c : Thread nD τ).loc b))

/-- The masked column sum of one band: rows 128 t … 128 t + 127, the row equal to the column left out. -/
def bandAt4 (x : FVec Ideal S8x128x2048 .f32) (t : ℕ) (ch : Fin 8) (j : Fin 2048) : EReal :=
  ∑ r : Fin 128, (if 128 * t + r.val ≠ j.val then x (ix3 ch r j) else (0 : EReal))

def degG4 (H : S8x2048x2048.Idx → EReal) : S8x2048.Idx → EReal := fun i => degAt H (i 0) (i 1)

theorem coord4_0 : ∀ t : Fin cfg4.N, ((grid4.coords t) 0).val = t.val :=
  (by decide +kernel : ∀ t : Fin grid4.N, ((grid4.coords t) 0).val = t.val)

/-- The body's arithmetic at an entry: the running sum plus the band's masked column sum. -/
theorem pay4_apply (i : grid4.Coords) (x : FVec Ideal S8x128x2048 .f32) (acc : FVec Ideal S8x2048 .f32) (ch : Fin 8) (j : Fin 2048) :
    k4_pay2 (F := Ideal) i x acc (ix2 ch j) = acc (ix2 ch j) + bandAt4 x (i 0).val ch j := by
  unfold k4_pay2
  simp only [shapeCast_self]
  show acc (ix2 ch j) + _ = _
  refine congrArg (fun z => acc (ix2 ch j) + z) ?_
  refine (Ideal.multiReduction_add_single (φ := .f32) _ 0x00000000#32 reduces_S8x128x2048_S8x2048 (.inl rfl) rfl (ix2 ch j)).trans ?_
  unfold bandAt4
  refine Finset.sum_congr rfl fun r _ => ?_
  have hl : reduces_S8x128x2048_S8x2048.lift (ix2 ch j) r = ix3 ch r j := funext fun a => by
    match a with
    | ⟨0, _⟩ => rfl
    | ⟨1, _⟩ => rfl
    | ⟨2, _⟩ => rfl
  rw [hl]
  have hi : (i 0).val < 16 := (i 0).isLt
  have hr : r.val < 128 := r.isLt
  have hj : j.val < 2048 := j.isLt
  show Scalar.select (IntOp.cmpi .ne (IntOp.addi (IntOp.muli (BitVec.ofNat 32 (i 0).val) (BitVec.ofNat 32 128)) (BitVec.ofNat 32 (0 * 128 + r.val))) (BitVec.ofNat 32 (0 * 2048 + j.val))) (x (ix3 ch r j)) (Scalar.ofBits (F := Ideal) .f32 0x00000000#32) = _
  have hw : IntOp.addi (IntOp.muli (BitVec.ofNat 32 (i 0).val) (BitVec.ofNat 32 128)) (BitVec.ofNat 32 (0 * 128 + r.val)) = BitVec.ofNat 32 ((i 0).val * 128 + (0 * 128 + r.val)) :=
    Cert.Lib.ofNat32_mul_add _ _ _
  rw [hw, Cert.Lib.cmpi_ne_ofNat32 (by omega) (by omega)]
  by_cases h : 128 * (i 0).val + r.val ≠ j.val
  · rw [if_pos h, if_pos (by omega), select_one]
  · rw [if_neg h, if_neg (by omega), select_zero]
    exact Ideal.ofBits_zero_f32

/-- A later band's point leaves the running sum plus its band's. -/
theorem outB4_eq (c : Dev nD) (i : grid4.Coords) (a1 : Memref sig .tc .vmem S8x128x2048 .f32) (h1 : a1.IsWhole)
    (a2 : Memref sig .tc .vmem S8x2048 .f32) (h2 : a2.IsWhole) (hc : ¬cond4_0 i) (x : Vec F S8x128x2048 .f32) (xo : Vec F S8x2048 .f32) :
    out4_B_1 c i a1 h1 a2 h2 hc x xo = k4_pay2 i x xo := by
  unfold out4_B_1
  rw [View.read_writes_eq_canon _ _ _ (cover4_B_1 c i a1 h1 a2 h2 hc x xo)]
  unfold kernelRun4_B
  dsimp only
  try sl_unfold_words
  rw [View.canon_unit_zero hz2]
  simp only [View.readAt_eq_ld, h1.read_unread, h2.read_unread, View.ld_unit_zero (S := S8x128x2048) hz3, View.ld_unit_zero (S := S8x2048) hz2]

/-- The first band's point stores zeros and leaves zero plus its band's. -/
theorem outA4_eq (c : Dev nD) (i : grid4.Coords) (a1 : Memref sig .tc .vmem S8x128x2048 .f32) (h1 : a1.IsWhole)
    (a2 : Memref sig .tc .vmem S8x2048 .f32) (h2 : a2.IsWhole) (hc : cond4_0 i) (x : Vec F S8x128x2048 .f32) :
    out4_A_1 c i a1 h1 a2 h2 hc x = k4_pay2 i x (k4_pay1 (F := F)) := by
  unfold out4_A_1
  rw [View.read_writes_eq_canon _ _ _ (cover4_A_1 c i a1 h1 a2 h2 hc x)]
  unfold kernelRun4_A
  dsimp only
  try sl_unfold_words
  rw [View.canon_cons_unit_zero (S := S8x2048) hz2, View.readCov_unit_zero (S := S8x2048) _ hz2]
  simp only [View.readAt_eq_ld, h1.read_unread, View.ld_unit_zero (S := S8x128x2048) hz3]

/-- The band a position contributes, or nothing past the grid. -/
def bandN4 (c : Dev nD) (ch : Fin 8) (j : Fin 2048) (r : ℕ) : EReal :=
  if h : r < cfg4.N then bandAt4 (iblk4 V c 0 ⟨r, h⟩) r ch j else 0

/-- The running sum after position `n` is the sum of the bands met so far. -/
theorem outsAt4_apply (c : Dev nD) (ch : Fin 8) (j : Fin 2048) : ∀ (n : ℕ) (h : n < cfg4.N),
    outsAt4 V c n h (ix2 ch j) = ∑ r ∈ Finset.range (n + 1), bandN4 V c ch j r
  | 0, h => by
    rw [outsAt4_A V c ⟨0, h⟩ rfl, outA4_eq, pay4_apply, Finset.sum_range_one]
    unfold bandN4; rw [dif_pos h, coord4_0]
    show Scalar.ofBits (F := Ideal) .f32 0x00000000#32 + _ = _
    rw [show Scalar.ofBits (F := Ideal) .f32 0x00000000#32 = (0 : EReal) from Ideal.ofBits_zero_f32, zero_add]
  | n + 1, h => by
    have hN : cfg4.N = 16 := N_4
    have hB : ¬(⟨n + 1, h⟩ : Fin cfg4.N).val % 16 = 0 := by dsimp only; omega
    rw [outsAt4_B V c ⟨n + 1, h⟩ hB, outB4_eq, pay4_apply, Finset.sum_range_succ _ (n + 1)]
    show outsAt4 V c n _ (ix2 ch j) + _ = _
    rw [outsAt4_apply c ch j n]
    refine congrArg (fun z => _ + z) ?_
    unfold bandN4; rw [dif_pos h, coord4_0]

/-- The input window's block at point `t` is rows 128 t … 128 t + 127 of every channel. -/
theorem idx_facts4 : ∀ t : Fin cfg4.N, win4_0.index t (0 : Fin 3) = 0 ∧ win4_0.index t (1 : Fin 3) = t.val ∧ win4_0.index t (2 : Fin 3) = 0
    ∧ win4_1.index t (0 : Fin 2) = 0 ∧ win4_1.index t (1 : Fin 2) = 0 :=
  (by decide +kernel : ∀ t : Fin grid4.N, _)

theorem iblk4_apply (c : Dev nD) (t : Fin cfg4.N) (ch : Fin 8) (r : Fin 128) (j : Fin 2048) (i : Fin 2048) (hi : i.val = 128 * t.val + r.val) :
    iblk4 V c 0 t (ix3 ch r j) = V c main_v61 (ix3 ch i j) := by
  obtain ⟨e0, e1, e2, -, -⟩ := idx_facts4 t
  show V c main_v61 (((cfg4.win 0).blk t).view.emb (ix3 ch r j)) = V c main_v61 _
  refine congrArg (V c main_v61) ?_
  funext a; apply Fin.ext
  match a with
  | ⟨0, _⟩ => show win4_0.index t (0 : Fin 3) * 8 + 1 * ch.val = ch.val; omega
  | ⟨1, _⟩ => show win4_0.index t (1 : Fin 3) * 128 + 1 * r.val = i.val; omega
  | ⟨2, _⟩ => show win4_0.index t (2 : Fin 3) * 2048 + 1 * j.val = j.val; omega

/-- The 16 bands' masked column sums are the column degree. -/
theorem bands4_eq (c : Dev nD) (ch : Fin 8) (j : Fin 2048) :
    ∑ r ∈ Finset.range 16, bandN4 V c ch j r = degAt (V c main_v61) ch j := by
  have hN : cfg4.N = 16 := N_4
  unfold degAt
  rw [Cert.Lib.sum_fin_blocks (M := EReal) 16 128 (fun i : Fin 2048 => if i.val ≠ j.val then (V c main_v61 : S8x2048x2048.Idx → EReal) (ix3 ch i j) else (0 : EReal)),
    ← Fin.sum_univ_eq_sum_range (fun r => bandN4 V c ch j r) 16]
  refine Finset.sum_congr rfl fun r' _ => ?_
  unfold bandN4
  rw [dif_pos (by rw [hN]; exact r'.isLt)]
  unfold bandAt4
  refine Finset.sum_congr rfl fun q _ => ?_
  have hv : (finProdFinEquiv (r', q) : Fin (16 * 128)).val = q.val + 128 * r'.val := rfl
  have hq : q.val < 128 := q.isLt
  have hr' : r'.val < 16 := r'.isLt
  by_cases h : 128 * r'.val + q.val ≠ j.val
  · rw [if_pos h, if_pos (by rw [hv]; omega)]
    exact iblk4_apply V c ⟨r'.val, by rw [hN]; exact r'.isLt⟩ ch q j _ (by rw [hv]; dsimp only; omega)
  · rw [if_neg h, if_neg (by rw [hv]; omega)]

/-- The one write-back, after the last point, writes the column degrees. -/
theorem flushed4_eq (c : Dev nD) (t : Fin cfg4.N) (hf : (cfg4.win 1).flush t = true) :
    (dat4 V c).flushed 1 t = ((cfg4.win 1).blk t).view.read (Elt Ideal) (degG4 (V c main_v61)) := by
  have hN : cfg4.N = 16 := N_4
  have h15 : t.val = 15 := by have := (flush4_1 t).mp hf; have := t.isLt; omega
  obtain ⟨-, -, -, e3, e4⟩ := idx_facts4 t
  show (cfg4.win 1).cut (grid4.coords t) ((dat4 V c).after 1 t) = _
  rw [after4_1]
  funext y
  obtain ⟨ch, j, rfl⟩ : ∃ (ch : Fin 8) (j : Fin 2048), y = ix2 ch j := ⟨y 0, y 1, eq_ix2 y⟩
  refine (outsAt4_apply V c ch j t.val t.isLt).trans ?_
  rw [h15]
  refine (bands4_eq V c ch j).trans ?_
  show degAt (V c main_v61) ch j = degAt (V c main_v61) _ _
  have h0 : (((cfg4.win 1).blk t).view.emb (ix2 ch j)) 0 = ch := Fin.ext (by
    show win4_1.index t (0 : Fin 2) * 8 + 1 * ch.val = ch.val; omega)
  have h1 : (((cfg4.win 1).blk t).view.emb (ix2 ch j)) 1 = j := Fin.ext (by
    show win4_1.index t (1 : Fin 2) * 2048 + 1 * j.val = j.val; omega)
  rw [h0, h1]

theorem mem_blk4 (t : Fin cfg4.N) (i : S8x2048.Idx) :
    i ∈ ((cfg4.win 1).blk t).view.set ↔ ∀ a : Fin 2, win4_1.index t a * S8x2048.size a ≤ (i a).val ∧ (i a).val < win4_1.index t a * S8x2048.size a + S8x2048.size a := by
  show i ∈ ((View.whole main_v62).slice (win4_1.rect t)).set ↔ _
  rw [View.set_slice_whole, Rect.mem_set_unit]
  exact Iff.rfl

/-- THE RESULT ARRAY after the region: the column degrees of the stack as found. -/
theorem final4 (c : Dev nD) : (dat4 V c).arrAt 1 cfg4.N = degG4 (V c main_v61) :=
  (dat4 V c).arrAt_eq_of_cover 1 _ (flushed4_eq V c) fun i => by
    have hN : cfg4.N = 16 := N_4
    have hi0 : (i 0).val < 8 := (i 0).isLt
    have hi1 : (i 1).val < 2048 := (i 1).isLt
    refine ⟨⟨15, by rw [hN]; decide⟩, (flush4_1 _).mpr rfl, ?_⟩
    obtain ⟨-, -, -, e3, e4⟩ := idx_facts4 ⟨15, by rw [hN]; decide⟩
    rw [mem_blk4]
    intro a
    match a with
    | ⟨0, _⟩ => show win4_1.index _ (0 : Fin 2) * 8 ≤ (i 0).val ∧ (i 0).val < win4_1.index _ (0 : Fin 2) * 8 + 8; omega
    | ⟨1, _⟩ => show win4_1.index _ (1 : Fin 2) * 2048 ≤ (i 1).val ∧ (i 1).val < win4_1.index _ (1 : Fin 2) * 2048 + 2048; omega

end Cert.KernelIdeal.Val

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.KI.ValBmm.lean ====
/-
  What the first product's region leaves in its result array: entry (c, i, j) is the sum over k of a[c, i, k] · b[c, k, j].
  The block of the result containing (c, i, j) is written back after the second of its two points; the accumulator then holds
  zero plus the partial sum over the first 1024 values of k (left by the first point) plus the partial sum over the last 1024.
-/
import proofs.«140696_j56040733278620_2_alg».proof.Proof.KI.Bmm
import proofs.«140696_j56040733278620_2_alg».proof.Proof.KI.ValMean
import proofs.«140696_j56040733278620_2_alg».proof.Proof.LibMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt Ideal) ((c : Thread nD τ).loc b))

/-- The batched product at channel `ch`, row `p`, column `q`. -/
def mmAt (A B : S8x2048x2048.Idx → EReal) (ch : Fin 8) (p q : Fin 2048) : EReal :=
  ∑ k : Fin 2048, A (ix3 ch p k) * B (ix3 ch k q)
def mmG (A B : S8x2048x2048.Idx → EReal) : S8x2048x2048.Idx → EReal := fun i => mmAt A B (i 0) (i 1) (i 2)

/-- A sum over 2048 positions is the sum over the first 1024 plus the sum over the last 1024. -/
theorem sum_halves (f : Fin 2048 → EReal) :
    ∑ k : Fin 2048, f k = ∑ k : Fin 1024, f ⟨k.val, by have := k.isLt; omega⟩ + ∑ k : Fin 1024, f ⟨1024 + k.val, by have := k.isLt; omega⟩ :=
  Fin.sum_univ_add (a := 1024) (b := 1024) f

/-- One accumulation step at an entry: the accumulator plus the product of the two loaded blocks. -/
theorem pay1_2_apply (acc : FVec Ideal S1024x1024 .f32) (a b : FVec Ideal S1x1024x1024 .bf16) (p q : Fin 1024) :
    k1_pay2 (F := Ideal) acc a b (ix2 p q) = acc (ix2 p q) + ∑ k : Fin 1024, a (ix3 (0 : Fin 1) p k) * b (ix3 (0 : Fin 1) k q) := by
  unfold k1_pay2
  simp only [shapeCast_self]
  show acc (ix2 p q) + _ = _
  refine congrArg (fun z => acc (ix2 p q) + z) ?_
  refine (Cert.MatmulAt.matmul_zero_plain_apply (M := 1024) (K := 1024) (N := 1024) Facts₀.dot_S1024x1024_S1024x1024_S1024x1024_1_0_0_1_n_n_wf none _ _ p q).trans ?_
  refine Finset.sum_congr rfl fun k _ => ?_
  rw [shapeCast_1ab_ab_apply, shapeCast_1ab_ab_apply]

theorem pay1_1_apply (p q : Fin 1024) : k1_pay1 (F := Ideal) (ix2 p q) = (0 : EReal) := by
  unfold k1_pay1
  simp only [shapeCast_self]
  exact Ideal.ofBits_zero_f32

theorem pay1_3_apply (x : FVec Ideal S1024x1024 .f32) (u : Fin 1) (p q : Fin 1024) : k1_pay3 (F := Ideal) x (ix3 u p q) = x (ix2 p q) := by
  unfold k1_pay3
  exact shapeCast_ab_1ab_apply _ _ u p q

/-- The point k = 0 leaves zero plus its product in the accumulator. -/
theorem soutA1_eq (c : Dev nD) (i : grid1.Coords) (a4 : Memref sig .tc .vmem S1x1024x1024 .bf16) (h4 : a4.IsWhole) (a5 : Memref sig .tc .vmem S1x1024x1024 .bf16) (h5 : a5.IsWhole) (a6 : Memref sig .tc .vmem S1x1024x1024 .f32) (h6 : a6.IsWhole) (a7 : Memref sig .tc .vmem S1024x1024 .f32) (h7 : a7.IsWhole) (hc0 : cond1_0 i) (hc1 : ¬cond1_1 i) (x0 x1 : Vec F S1x1024x1024 .bf16) :
    sout1_A c i a4 h4 a5 h5 a6 h6 a7 h7 hc0 hc1 x0 x1 = k1_pay2 (k1_pay1 (F := F)) x0 x1 := by
  unfold sout1_A
  rw [View.read_writes_eq_canon _ _ _ (scover1_A c i a4 h4 a5 h5 a6 h6 a7 h7 hc0 hc1 x0 x1)]
  unfold kernelRun1_A
  dsimp only
  try sl_unfold_words
  rw [View.canon_cons_unit_zero (S := S1024x1024) hz2, View.readCov_unit_zero (S := S1024x1024) _ hz2]
  simp only [View.readAt_eq_ld, h4.read_unread, h5.read_unread, View.ld_unit_zero (S := S1x1024x1024) hz3]

/-- The point k = 1 adds its product to the accumulator … -/
theorem soutB1_eq (c : Dev nD) (i : grid1.Coords) (a4 : Memref sig .tc .vmem S1x1024x1024 .bf16) (h4 : a4.IsWhole) (a5 : Memref sig .tc .vmem S1x1024x1024 .bf16) (h5 : a5.IsWhole) (a6 : Memref sig .tc .vmem S1x1024x1024 .f32) (h6 : a6.IsWhole) (a7 : Memref sig .tc .vmem S1024x1024 .f32) (h7 : a7.IsWhole) (hc0 : ¬cond1_0 i) (hc1 : cond1_1 i) (x0 x1 : Vec F S1x1024x1024 .bf16) (xs : Vec F S1024x1024 .f32) :
    sout1_B c i a4 h4 a5 h5 a6 h6 a7 h7 hc0 hc1 x0 x1 xs = k1_pay2 xs x0 x1 := by
  unfold sout1_B
  rw [View.read_writes_eq_canon _ _ _ (scover1_B c i a4 h4 a5 h5 a6 h6 a7 h7 hc0 hc1 x0 x1 xs)]
  unfold kernelRun1_B
  dsimp only
  try sl_unfold_words
  rw [View.canon_unit_zero hz2]
  simp only [View.readAt_eq_ld, h4.read_unread, h5.read_unread, h7.read_unread, View.ld_unit_zero (S := S1x1024x1024) hz3, View.ld_unit_zero (S := S1024x1024) hz2]

/-- … and copies it into the result's staging buffer. -/
theorem outB1_eq (c : Dev nD) (i : grid1.Coords) (a4 : Memref sig .tc .vmem S1x1024x1024 .bf16) (h4 : a4.IsWhole) (a5 : Memref sig .tc .vmem S1x1024x1024 .bf16) (h5 : a5.IsWhole) (a6 : Memref sig .tc .vmem S1x1024x1024 .f32) (h6 : a6.IsWhole) (a7 : Memref sig .tc .vmem S1024x1024 .f32) (h7 : a7.IsWhole) (hc0 : ¬cond1_0 i) (hc1 : cond1_1 i) (x0 x1 : Vec F S1x1024x1024 .bf16) (xs : Vec F S1024x1024 .f32) :
    out1_B_2 c i a4 h4 a5 h5 a6 h6 a7 h7 hc0 hc1 x0 x1 xs = k1_pay3 (k1_pay2 xs x0 x1) := by
  unfold out1_B_2
  rw [View.read_writes_eq_canon _ _ _ (cover1_B_2 c i a4 h4 a5 h5 a6 h6 a7 h7 hc0 hc1 x0 x1 xs)]
  unfold kernelRun1_B
  dsimp only
  try sl_unfold_words
  rw [View.canon_unit_zero hz3, View.readCov_unit_zero (S := S1024x1024) _ hz2]
  simp only [View.readAt_eq_ld, h4.read_unread, h5.read_unread, h7.read_unread, View.ld_unit_zero (S := S1x1024x1024) hz3, View.ld_unit_zero (S := S1024x1024) hz2]

/-- The point before an odd point, as a point. -/
abbrev prev1 (t : Fin cfg1.N) : Fin cfg1.N := ⟨(t.val - 1) % 64, lt_of_lt_of_eq (Nat.mod_lt _ (by decide)) N_1.symm⟩

/-- How the three windows' blocks sit at the second point of a block and at the point before it. -/
theorem idx_facts1 : ∀ t : Fin cfg1.N, t.val % 2 = 1 →
    win1_0.index t (0 : Fin 3) = win1_2.index t (0 : Fin 3) ∧ win1_0.index t (1 : Fin 3) = win1_2.index t (1 : Fin 3) ∧ win1_0.index t (2 : Fin 3) = 1
    ∧ win1_1.index t (0 : Fin 3) = win1_2.index t (0 : Fin 3) ∧ win1_1.index t (1 : Fin 3) = 1 ∧ win1_1.index t (2 : Fin 3) = win1_2.index t (2 : Fin 3)
    ∧ win1_0.index (prev1 t) (0 : Fin 3) = win1_2.index t (0 : Fin 3) ∧ win1_0.index (prev1 t) (1 : Fin 3) = win1_2.index t (1 : Fin 3) ∧ win1_0.index (prev1 t) (2 : Fin 3) = 0
    ∧ win1_1.index (prev1 t) (0 : Fin 3) = win1_2.index t (0 : Fin 3) ∧ win1_1.index (prev1 t) (1 : Fin 3) = 0 ∧ win1_1.index (prev1 t) (2 : Fin 3) = win1_2.index t (2 : Fin 3)
    ∧ win1_2.index t (0 : Fin 3) ≤ 7 ∧ win1_2.index t (1 : Fin 3) ≤ 1 ∧ win1_2.index t (2 : Fin 3) ≤ 1 :=
  (by decide +kernel : ∀ t : Fin grid1.N, _)
/-- Every block of the result is written back by some second point. -/
theorem idx_onto1 : ∀ (q0 : Fin 8) (q1 : Fin 2) (q2 : Fin 2), ∃ t : Fin cfg1.N, t.val % 2 = 1 ∧ win1_2.index t = ![q0.val, q1.val, q2.val] :=
  (by decide +kernel : ∀ (q0 : Fin 8) (q1 : Fin 2) (q2 : Fin 2), ∃ t : Fin grid1.N, t.val % 2 = 1 ∧ win1_2.index t = ![q0.val, q1.val, q2.val])

/-- An entry of an input block, as an entry of the array. -/
theorem iblk1_0_apply (c : Dev nD) (t : Fin cfg1.N) (p k : Fin 1024) (i : S8x2048x2048.Idx)
    (h0 : (i 0).val = win1_0.index t (0 : Fin 3)) (h1 : (i 1).val = win1_0.index t (1 : Fin 3) * 1024 + p.val) (h2 : (i 2).val = win1_0.index t (2 : Fin 3) * 1024 + k.val) :
    iblk1 V c 0 t (ix3 (0 : Fin 1) p k) = V c main_v50_0 i := by
  show V c main_v50_0 (((cfg1.win 0).blk t).view.emb (ix3 (0 : Fin 1) p k)) = V c main_v50_0 i
  refine congrArg (V c main_v50_0) ?_
  funext a; apply Fin.ext
  match a with
  | ⟨0, _⟩ => show win1_0.index t (0 : Fin 3) * 1 + 1 * 0 = (i 0).val; omega
  | ⟨1, _⟩ => show win1_0.index t (1 : Fin 3) * 1024 + 1 * p.val = (i 1).val; omega
  | ⟨2, _⟩ => show win1_0.index t (2 : Fin 3) * 1024 + 1 * k.val = (i 2).val; omega
theorem iblk1_1_apply (c : Dev nD) (t : Fin cfg1.N) (k q : Fin 1024) (i : S8x2048x2048.Idx)
    (h0 : (i 0).val = win1_1.index t (0 : Fin 3)) (h1 : (i 1).val = win1_1.index t (1 : Fin 3) * 1024 + k.val) (h2 : (i 2).val = win1_1.index t (2 : Fin 3) * 1024 + q.val) :
    iblk1 V c 1 t (ix3 (0 : Fin 1) k q) = V c main_v50_1 i := by
  show V c main_v50_1 (((cfg1.win 1).blk t).view.emb (ix3 (0 : Fin 1) k q)) = V c main_v50_1 i
  refine congrArg (V c main_v50_1) ?_
  funext a; apply Fin.ext
  match a with
  | ⟨0, _⟩ => show win1_1.index t (0 : Fin 3) * 1 + 1 * 0 = (i 0).val; omega
  | ⟨1, _⟩ => show win1_1.index t (1 : Fin 3) * 1024 + 1 * k.val = (i 1).val; omega
  | ⟨2, _⟩ => show win1_1.index t (2 : Fin 3) * 1024 + 1 * q.val = (i 2).val; omega

/-- What a second point writes back is its block of the batched product of the two stacks as the region finds them. -/
theorem flushed1_eq (c : Dev nD) (t : Fin cfg1.N) (hf : (cfg1.win 2).flush t = true) :
    (dat1 V c).flushed 2 t = ((cfg1.win 2).blk t).view.read (Elt Ideal) (mmG (V c main_v50_0) (V c main_v50_1)) := by
  have hN : cfg1.N = 64 := N_1
  have hodd : t.val % 2 = 1 := (flush1_2 t).mp hf
  have hlt : t.val < 64 := lt_of_lt_of_eq t.isLt hN
  have h0 : ¬t.val % 2 = 0 := by omega
  obtain ⟨e0, e1, e2, e3, e4, e5, f0, f1, f2, f3, f4, f5, b0, b1, b2⟩ := idx_facts1 t hodd
  have hprev : (⟨t.val - 1, Nat.lt_of_le_of_lt (Nat.sub_le _ _) t.isLt⟩ : Fin cfg1.N) = prev1 t := Fin.ext (by
    show t.val - 1 = (t.val - 1) % 64; omega)
  show (cfg1.win 2).cut (grid1.coords t) ((dat1 V c).after 2 t) = _
  rw [after1_2, outsAt1_B V c t h0]
  dsimp only
  rw [outB1_eq]
  have hA := outsAt1_A V c ⟨t.val - 1, Nat.lt_of_le_of_lt (Nat.sub_le _ _) t.isLt⟩ (by dsimp only; omega)
  rw [show (outsAt1 V c (t.val - 1) (Nat.lt_of_le_of_lt (Nat.sub_le _ _) t.isLt)).2 = _ from congrArg Prod.snd hA]
  dsimp only
  rw [soutA1_eq, hprev]
  funext y
  obtain ⟨u, p, q, rfl⟩ : ∃ (u : Fin 1) (p : Fin 1024) (q : Fin 1024), y = ix3 u p q := ⟨y 0, y 1, y 2, eq_ix3 y⟩
  refine (pay1_3_apply _ u p q).trans ?_
  rw [pay1_2_apply, pay1_2_apply, pay1_1_apply, zero_add]
  show _ = mmAt (V c main_v50_0) (V c main_v50_1) _ _ _
  unfold mmAt
  rw [sum_halves]
  have hu : u.val = 0 := by omega
  have hp : p.val < 1024 := p.isLt
  have hq : q.val < 1024 := q.isLt
  refine congrArg₂ (· + ·) (Finset.sum_congr rfl fun k _ => ?_) (Finset.sum_congr rfl fun k _ => ?_)
  · have hk : k.val < 1024 := k.isLt
    refine congrArg₂ (· * ·) ?_ ?_
    · refine iblk1_0_apply V c (prev1 t) p k _ ?_ ?_ ?_
      · show win1_2.index t (0 : Fin 3) * 1 + 1 * u.val = _; omega
      · show win1_2.index t (1 : Fin 3) * 1024 + 1 * p.val = _; omega
      · show k.val = _; omega
    · refine iblk1_1_apply V c (prev1 t) k q _ ?_ ?_ ?_
      · show win1_2.index t (0 : Fin 3) * 1 + 1 * u.val = _; omega
      · show k.val = _; omega
      · show win1_2.index t (2 : Fin 3) * 1024 + 1 * q.val = _; omega
  · have hk : k.val < 1024 := k.isLt
    refine congrArg₂ (· * ·) ?_ ?_
    · refine iblk1_0_apply V c t p k _ ?_ ?_ ?_
      · show win1_2.index t (0 : Fin 3) * 1 + 1 * u.val = _; omega
      · show win1_2.index t (1 : Fin 3) * 1024 + 1 * p.val = _; omega
      · show 1024 + k.val = _; omega
    · refine iblk1_1_apply V c t k q _ ?_ ?_ ?_
      · show win1_2.index t (0 : Fin 3) * 1 + 1 * u.val = _; omega
      · show 1024 + k.val = _; omega
      · show win1_2.index t (2 : Fin 3) * 1024 + 1 * q.val = _; omega

theorem mem_blk1 (t : Fin cfg1.N) (i : S8x2048x2048.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v51).slice (win1_2.rect t)).set ↔ _
  rw [View.set_slice_whole, Rect.mem_set_unit]
  exact Iff.rfl

/-- THE RESULT ARRAY after the region: the batched product of the two stacks as found. -/
theorem final1 (c : Dev nD) : (dat1 V c).arrAt 2 cfg1.N = mmG (V c main_v50_0) (V c main_v50_1) :=
  (dat1 V c).arrAt_eq_of_cover 2 _ (flushed1_eq V c) fun i => by
    have hi0 : (i 0).val < 8 := (i 0).isLt
    have hi1 : (i 1).val < 2048 := (i 1).isLt
    have hi2 : (i 2).val < 2048 := (i 2).isLt
    obtain ⟨t, hodd, ht⟩ := idx_onto1 ⟨(i 0).val, by omega⟩ ⟨(i 1).val / 1024, by omega⟩ ⟨(i 2).val / 1024, by omega⟩
    have q0 : win1_2.index t (0 : Fin 3) = (i 0).val := congrFun ht 0
    have q1 : win1_2.index t (1 : Fin 3) = (i 1).val / 1024 := congrFun ht 1
    have q2 : win1_2.index t (2 : Fin 3) = (i 2).val / 1024 := congrFun ht 2
    refine ⟨t, (flush1_2 t).mpr hodd, ?_⟩
    rw [mem_blk1]
    intro a
    match a with
    | ⟨0, _⟩ => show win1_2.index t (0 : Fin 3) * 1 ≤ (i 0).val ∧ (i 0).val < win1_2.index t (0 : Fin 3) * 1 + 1; omega
    | ⟨1, _⟩ => show win1_2.index t (1 : Fin 3) * 1024 ≤ (i 1).val ∧ (i 1).val < win1_2.index t (1 : Fin 3) * 1024 + 1024; omega
    | ⟨2, _⟩ => show win1_2.index t (2 : Fin 3) * 1024 ≤ (i 2).val ∧ (i 2).val < win1_2.index t (2 : Fin 3) * 1024 + 1024; omega

end Cert.KernelIdeal.Val

end
-- ==== Proof.KI.ValBmmNorm3.lean ====
/-
  What a normalised product's region leaves in its result array: entry (c, i, j) is the sum over k of N[c, i, k] · g[c, k, j], where
  N[c, i, k] is H[c, i, k] · dinv[c, k] off the diagonal and 0 on it. As in the plain product a block of the result is written
  back after the second of its two points, the accumulator then holding zero plus the two partial sums over the halves of k.
-/
import proofs.«140696_j56040733278620_2_alg».proof.Proof.KI.BmmNorm3
import proofs.«140696_j56040733278620_2_alg».proof.Proof.KI.ValBmm
import proofs.«140696_j56040733278620_2_alg».proof.Proof.LibMatmul
import proofs.«140696_j56040733278620_2_alg».proof.Proof.LibWords
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt Ideal) ((c : Thread nD τ).loc b))

/-- The normalised batched product at channel `ch`, row `p`, column `q`. -/
def nmmAt (H : S8x2048x2048.Idx → EReal) (D : S8x2048.Idx → EReal) (G : S8x2048x2048.Idx → EReal) (ch : Fin 8) (p q : Fin 2048) : EReal :=
  ∑ k : Fin 2048, (if p.val ≠ k.val then H (ix3 ch p k) * D (ix2 ch k) else (0 : EReal)) * G (ix3 ch k q)
def nmmG (H : S8x2048x2048.Idx → EReal) (D : S8x2048.Idx → EReal) (G : S8x2048x2048.Idx → EReal) : S8x2048x2048.Idx → EReal :=
  fun i => nmmAt H D G (i 0) (i 1) (i 2)

/-- One accumulation step at an entry: the accumulator plus the product of the masked, scaled block of H with the block of g. -/
theorem pay3_2_apply (i : grid3.Coords) (h : FVec Ideal S1x1024x1024 .f32) (d : FVec Ideal S1x1024 .f32) (acc : FVec Ideal S1024x1024 .f32)
    (g : FVec Ideal S1x1024x1024 .bf16) (p q : Fin 1024) :
    k3_pay2 (F := Ideal) i h d acc g (ix2 p q) = acc (ix2 p q)
      + ∑ k : Fin 1024, (if 1024 * (i 1).val + p.val ≠ 1024 * (i 3).val + k.val then h (ix3 (0 : Fin 1) p k) * d (ix2 (0 : Fin 1) k) else (0 : EReal)) * g (ix3 (0 : Fin 1) k q) := by
  unfold k3_pay2
  simp only [shapeCast_self]
  show acc (ix2 p q) + _ = _
  refine congrArg (fun z => acc (ix2 p q) + z) ?_
  refine (Cert.MatmulAt.matmul_zero_plain_apply (M := 1024) (K := 1024) (N := 1024) Facts₀.dot_S1024x1024_S1024x1024_S1024x1024_1_0_0_1_n_n_wf none _ _ p q).trans ?_
  refine Finset.sum_congr rfl fun k _ => ?_
  have hi1 : (i 1).val < 2 := (i 1).isLt
  have hi3 : (i 3).val < 2 := (i 3).isLt
  have hp : p.val < 1024 := p.isLt
  have hk : k.val < 1024 := k.isLt
  rw [shapeCast_1ab_ab_apply]
  refine congrArg (fun z => z * g (ix3 (0 : Fin 1) k q)) ?_
  show Scalar.select (IntOp.cmpi .ne (IntOp.addi (IntOp.muli (BitVec.ofNat 32 (i 1).val) (BitVec.ofNat 32 1024)) (BitVec.ofNat 32 (0 * 1024 + p.val)))
      (IntOp.addi (IntOp.muli (BitVec.ofNat 32 (i 3).val) (BitVec.ofNat 32 1024)) (BitVec.ofNat 32 (0 * 1024 + k.val))))
    (shapeCast S1024x1024 h shapeCasts_S1x1024x1024_S1024x1024 (ix2 p k)
      * broadcastTo S1024x1024 (shapeCast S1x1024 (shapeCast S1024 d shapeCasts_S1x1024_S1024) shapeCasts_S1024_S1x1024) broadcasts_S1x1024_S1024x1024 (ix2 p k))
    (Scalar.ofBits (F := Ideal) .f32 0x00000000#32) = _
  have hw1 : IntOp.addi (IntOp.muli (BitVec.ofNat 32 (i 1).val) (BitVec.ofNat 32 1024)) (BitVec.ofNat 32 (0 * 1024 + p.val)) = BitVec.ofNat 32 ((i 1).val * 1024 + (0 * 1024 + p.val)) :=
    Cert.Lib.ofNat32_mul_add _ _ _
  have hw3 : IntOp.addi (IntOp.muli (BitVec.ofNat 32 (i 3).val) (BitVec.ofNat 32 1024)) (BitVec.ofNat 32 (0 * 1024 + k.val)) = BitVec.ofNat 32 ((i 3).val * 1024 + (0 * 1024 + k.val)) :=
    Cert.Lib.ofNat32_mul_add _ _ _
  rw [hw1, hw3, Cert.Lib.cmpi_ne_ofNat32 (by omega) (by omega), shapeCast_1ab_ab_apply, broadcastTo_1b_ab_apply, shapeCast_a_1a_apply, shapeCast_1a_a_apply]
  by_cases hne : 1024 * (i 1).val + p.val ≠ 1024 * (i 3).val + k.val
  · rw [if_pos hne, if_pos (by omega), select_one]
  · rw [if_neg hne, if_neg (by omega), select_zero]
    exact Ideal.ofBits_zero_f32

theorem pay3_1_apply (p q : Fin 1024) : k3_pay1 (F := Ideal) (ix2 p q) = (0 : EReal) := by
  unfold k3_pay1
  simp only [shapeCast_self]
  exact Ideal.ofBits_zero_f32

theorem pay3_3_apply (x : FVec Ideal S1024x1024 .f32) (u : Fin 1) (p q : Fin 1024) : k3_pay3 (F := Ideal) x (ix3 u p q) = x (ix2 p q) := by
  unfold k3_pay3
  exact shapeCast_ab_1ab_apply _ _ u p q

theorem soutA3_eq (c : Dev nD) (i : grid3.Coords) (a4 : Memref sig .tc .vmem S1x1024x1024 .f32) (h4 : a4.IsWhole) (a5 : Memref sig .tc .vmem S8x1024 .f32) (h5 : a5.IsWhole) (a6 : Memref sig .tc .vmem S1x1024x1024 .bf16) (h6 : a6.IsWhole) (a7 : Memref sig .tc .vmem S1x1024x1024 .f32) (h7 : a7.IsWhole) (a8 : Memref sig .tc .vmem S1024x1024 .f32) (h8 : a8.IsWhole) (hc0 : cond3_0 i) (hc1 : ¬cond3_1 i) (x0 : Vec F S1x1024x1024 .f32) (x1 : Vec F S8x1024 .f32) (x2 : Vec F S1x1024x1024 .bf16) :
    sout3_A c i a4 h4 a5 h5 a6 h6 a7 h7 a8 h8 hc0 hc1 x0 x1 x2 = k3_pay2 i x0 (View.ld x1 (Rect.unit (s := S8x1024) (k3_off1 i) S1x1024.size (k3_off1_inb i))) (k3_pay1 (F := F)) x2 := by
  unfold sout3_A
  rw [View.read_writes_eq_canon _ _ _ (scover3_A c i a4 h4 a5 h5 a6 h6 a7 h7 a8 h8 hc0 hc1 x0 x1 x2)]
  unfold kernelRun3_A
  dsimp only
  try sl_unfold_words
  rw [View.canon_cons_unit_zero (S := S1024x1024) hz2, View.readCov_unit_zero (S := S1024x1024) _ hz2]
  simp only [View.readAt_eq_ld, h4.read_unread, h5.read_unread, h6.read_unread, View.ld_unit_zero (S := S1x1024x1024) hz3]

theorem soutB3_eq (c : Dev nD) (i : grid3.Coords) (a4 : Memref sig .tc .vmem S1x1024x1024 .f32) (h4 : a4.IsWhole) (a5 : Memref sig .tc .vmem S8x1024 .f32) (h5 : a5.IsWhole) (a6 : Memref sig .tc .vmem S1x1024x1024 .bf16) (h6 : a6.IsWhole) (a7 : Memref sig .tc .vmem S1x1024x1024 .f32) (h7 : a7.IsWhole) (a8 : Memref sig .tc .vmem S1024x1024 .f32) (h8 : a8.IsWhole) (hc0 : ¬cond3_0 i) (hc1 : cond3_1 i) (x0 : Vec F S1x1024x1024 .f32) (x1 : Vec F S8x1024 .f32) (x2 : Vec F S1x1024x1024 .bf16) (xs : Vec F S1024x1024 .f32) :
    sout3_B c i a4 h4 a5 h5 a6 h6 a7 h7 a8 h8 hc0 hc1 x0 x1 x2 xs = k3_pay2 i x0 (View.ld x1 (Rect.unit (s := S8x1024) (k3_off1 i) S1x1024.size (k3_off1_inb i))) xs x2 := by
  unfold sout3_B
  rw [View.read_writes_eq_canon _ _ _ (scover3_B c i a4 h4 a5 h5 a6 h6 a7 h7 a8 h8 hc0 hc1 x0 x1 x2 xs)]
  unfold kernelRun3_B
  dsimp only
  try sl_unfold_words
  rw [View.canon_unit_zero hz2]
  simp only [View.readAt_eq_ld, h4.read_unread, h5.read_unread, h6.read_unread, h8.read_unread, View.ld_unit_zero (S := S1x1024x1024) hz3, View.ld_unit_zero (S := S1024x1024) hz2]

theorem outB3_eq (c : Dev nD) (i : grid3.Coords) (a4 : Memref sig .tc .vmem S1x1024x1024 .f32) (h4 : a4.IsWhole) (a5 : Memref sig .tc .vmem S8x1024 .f32) (h5 : a5.IsWhole) (a6 : Memref sig .tc .vmem S1x1024x1024 .bf16) (h6 : a6.IsWhole) (a7 : Memref sig .tc .vmem S1x1024x1024 .f32) (h7 : a7.IsWhole) (a8 : Memref sig .tc .vmem S1024x1024 .f32) (h8 : a8.IsWhole) (hc0 : ¬cond3_0 i) (hc1 : cond3_1 i) (x0 : Vec F S1x1024x1024 .f32) (x1 : Vec F S8x1024 .f32) (x2 : Vec F S1x1024x1024 .bf16) (xs : Vec F S1024x1024 .f32) :
    out3_B_3 c i a4 h4 a5 h5 a6 h6 a7 h7 a8 h8 hc0 hc1 x0 x1 x2 xs = k3_pay3 (k3_pay2 i x0 (View.ld x1 (Rect.unit (s := S8x1024) (k3_off1 i) S1x1024.size (k3_off1_inb i))) xs x2) := by
  unfold out3_B_3
  rw [View.read_writes_eq_canon _ _ _ (cover3_B_3 c i a4 h4 a5 h5 a6 h6 a7 h7 a8 h8 hc0 hc1 x0 x1 x2 xs)]
  unfold kernelRun3_B
  dsimp only
  try sl_unfold_words
  rw [View.canon_unit_zero hz3, View.readCov_unit_zero (S := S1024x1024) _ hz2]
  simp only [View.readAt_eq_ld, h4.read_unread, h5.read_unread, h6.read_unread, h8.read_unread, View.ld_unit_zero (S := S1x1024x1024) hz3, View.ld_unit_zero (S := S1024x1024) hz2]

abbrev prev3 (t : Fin cfg3.N) : Fin cfg3.N := ⟨(t.val - 1) % 64, lt_of_lt_of_eq (Nat.mod_lt _ (by decide)) N_3.symm⟩

/-- How the four windows' blocks, the row offset and the grid coordinates sit at the second point of a block and at the point before it. -/
theorem idx_facts3 : ∀ t : Fin cfg3.N, t.val % 2 = 1 →
    win3_0.index t (0 : Fin 3) = win3_3.index t (0 : Fin 3) ∧ win3_0.index t (1 : Fin 3) = win3_3.index t (1 : Fin 3) ∧ win3_0.index t (2 : Fin 3) = 1
    ∧ win3_1.index t (0 : Fin 2) = 0 ∧ win3_1.index t (1 : Fin 2) = 1
    ∧ win3_2.index t (0 : Fin 3) = win3_3.index t (0 : Fin 3) ∧ win3_2.index t (1 : Fin 3) = 1 ∧ win3_2.index t (2 : Fin 3) = win3_3.index t (2 : Fin 3)
    ∧ win3_0.index (prev3 t) (0 : Fin 3) = win3_3.index t (0 : Fin 3) ∧ win3_0.index (prev3 t) (1 : Fin 3) = win3_3.index t (1 : Fin 3) ∧ win3_0.index (prev3 t) (2 : Fin 3) = 0
    ∧ win3_1.index (prev3 t) (0 : Fin 2) = 0 ∧ win3_1.index (prev3 t) (1 : Fin 2) = 0
    ∧ win3_2.index (prev3 t) (0 : Fin 3) = win3_3.index t (0 : Fin 3) ∧ win3_2.index (prev3 t) (1 : Fin 3) = 0 ∧ win3_2.index (prev3 t) (2 : Fin 3) = win3_3.index t (2 : Fin 3)
    ∧ k3_off1 (grid3.coords t) (0 : Fin 2) = win3_3.index t (0 : Fin 3) ∧ k3_off1 (grid3.coords t) (1 : Fin 2) = 0
    ∧ k3_off1 (grid3.coords (prev3 t)) (0 : Fin 2) = win3_3.index t (0 : Fin 3) ∧ k3_off1 (grid3.coords (prev3 t)) (1 : Fin 2) = 0
    ∧ ((grid3.coords t) 1).val = win3_3.index t (1 : Fin 3) ∧ ((grid3.coords t) 3).val = 1
    ∧ ((grid3.coords (prev3 t)) 1).val = win3_3.index t (1 : Fin 3) ∧ ((grid3.coords (prev3 t)) 3).val = 0
    ∧ win3_3.index t (0 : Fin 3) ≤ 7 ∧ win3_3.index t (1 : Fin 3) ≤ 1 ∧ win3_3.index t (2 : Fin 3) ≤ 1 :=
  (by decide +kernel : ∀ t : Fin grid3.N, _)
theorem idx_onto3 : ∀ (q0 : Fin 8) (q1 : Fin 2) (q2 : Fin 2), ∃ t : Fin cfg3.N, t.val % 2 = 1 ∧ win3_3.index t = ![q0.val, q1.val, q2.val] :=
  (by decide +kernel : ∀ (q0 : Fin 8) (q1 : Fin 2) (q2 : Fin 2), ∃ t : Fin grid3.N, t.val % 2 = 1 ∧ win3_3.index t = ![q0.val, q1.val, q2.val])

theorem iblk3_0_apply (c : Dev nD) (t : Fin cfg3.N) (p k : Fin 1024) (i : S8x2048x2048.Idx)
    (h0 : (i 0).val = win3_0.index t (0 : Fin 3)) (h1 : (i 1).val = win3_0.index t (1 : Fin 3) * 1024 + p.val) (h2 : (i 2).val = win3_0.index t (2 : Fin 3) * 1024 + k.val) :
    iblk3 V c 0 t (ix3 (0 : Fin 1) p k) = V c main_v51 i := by
  show V c main_v51 (((cfg3.win 0).blk t).view.emb (ix3 (0 : Fin 1) p k)) = V c main_v51 i
  refine congrArg (V c main_v51) ?_
  funext a; apply Fin.ext
  match a with
  | ⟨0, _⟩ => show win3_0.index t (0 : Fin 3) * 1 + 1 * 0 = (i 0).val; omega
  | ⟨1, _⟩ => show win3_0.index t (1 : Fin 3) * 1024 + 1 * p.val = (i 1).val; omega
  | ⟨2, _⟩ => show win3_0.index t (2 : Fin 3) * 1024 + 1 * k.val = (i 2).val; omega
theorem iblk3_2_apply (c : Dev nD) (t : Fin cfg3.N) (k q : Fin 1024) (i : S8x2048x2048.Idx)
    (h0 : (i 0).val = win3_2.index t (0 : Fin 3)) (h1 : (i 1).val = win3_2.index t (1 : Fin 3) * 1024 + k.val) (h2 : (i 2).val = win3_2.index t (2 : Fin 3) * 1024 + q.val) :
    iblk3 V c 2 t (ix3 (0 : Fin 1) k q) = V c main_v50_2 i := by
  show V c main_v50_2 (((cfg3.win 2).blk t).view.emb (ix3 (0 : Fin 1) k q)) = V c main_v50_2 i
  refine congrArg (V c main_v50_2) ?_
  funext a; apply Fin.ext
  match a with
  | ⟨0, _⟩ => show win3_2.index t (0 : Fin 3) * 1 + 1 * 0 = (i 0).val; omega
  | ⟨1, _⟩ => show win3_2.index t (1 : Fin 3) * 1024 + 1 * k.val = (i 1).val; omega
  | ⟨2, _⟩ => show win3_2.index t (2 : Fin 3) * 1024 + 1 * q.val = (i 2).val; omega
/-- The loaded row of reciprocal degrees, as entries of the array. -/
theorem row3_apply (c : Dev nD) (t : Fin cfg3.N) (k : Fin 1024) (i : S8x2048.Idx)
    (h0 : (i 0).val = k3_off1 (grid3.coords t) (0 : Fin 2) + win3_1.index t (0 : Fin 2) * 8)
    (h1 : (i 1).val = win3_1.index t (1 : Fin 2) * 1024 + k3_off1 (grid3.coords t) (1 : Fin 2) + k.val) :
    View.ld (iblk3 V c 1 t) (Rect.unit (s := S8x1024) (k3_off1 (grid3.coords t)) S1x1024.size (k3_off1_inb (grid3.coords t))) (ix2 (0 : Fin 1) k) = V c main_v60 i := by
  show V c main_v60 (((cfg3.win 1).blk t).view.emb ((Rect.unit (s := S8x1024) (k3_off1 (grid3.coords t)) S1x1024.size (k3_off1_inb (grid3.coords t))).emb (ix2 (0 : Fin 1) k))) = V c main_v60 i
  refine congrArg (V c main_v60) ?_
  funext a; apply Fin.ext
  match a with
  | ⟨0, _⟩ => show win3_1.index t (0 : Fin 2) * 8 + 1 * (k3_off1 (grid3.coords t) (0 : Fin 2) + 1 * 0) = (i 0).val; omega
  | ⟨1, _⟩ => show win3_1.index t (1 : Fin 2) * 1024 + 1 * (k3_off1 (grid3.coords t) (1 : Fin 2) + 1 * k.val) = (i 1).val; omega

set_option maxHeartbeats 2000000 in
/-- What a second point writes back is its block of the normalised product of the arrays as the region finds them. -/
theorem flushed3_eq (c : Dev nD) (t : Fin cfg3.N) (hf : (cfg3.win 3).flush t = true) :
    (dat3 V c).flushed 3 t = ((cfg3.win 3).blk t).view.read (Elt Ideal) (nmmG (V c main_v51) (V c main_v60) (V c main_v50_2)) := by
  have hN : cfg3.N = 64 := N_3
  have hodd : t.val % 2 = 1 := (flush3_3 t).mp hf
  have hlt : t.val < 64 := lt_of_lt_of_eq t.isLt hN
  have h0 : ¬t.val % 2 = 0 := by omega
  obtain ⟨e0, e1, e2, d0, d1, g0, g1, g2, f0, f1, f2, dd0, dd1, gg0, gg1, gg2, o0, o1, oo0, oo1, c1, c3, cc1, cc3, b0, b1, b2⟩ := idx_facts3 t hodd
  have hprev : (⟨t.val - 1, Nat.lt_of_le_of_lt (Nat.sub_le _ _) t.isLt⟩ : Fin cfg3.N) = prev3 t := Fin.ext (by
    show t.val - 1 = (t.val - 1) % 64; omega)
  show (cfg3.win 3).cut (grid3.coords t) ((dat3 V c).after 3 t) = _
  rw [after3_3, outsAt3_B V c t h0]
  dsimp only
  rw [outB3_eq]
  have hA := outsAt3_A V c ⟨t.val - 1, Nat.lt_of_le_of_lt (Nat.sub_le _ _) t.isLt⟩ (by dsimp only; omega)
  rw [show (outsAt3 V c (t.val - 1) (Nat.lt_of_le_of_lt (Nat.sub_le _ _) t.isLt)).2 = _ from congrArg Prod.snd hA]
  dsimp only
  rw [soutA3_eq, hprev]
  funext y
  obtain ⟨u, p, q, rfl⟩ : ∃ (u : Fin 1) (p : Fin 1024) (q : Fin 1024), y = ix3 u p q := ⟨y 0, y 1, y 2, eq_ix3 y⟩
  refine (pay3_3_apply _ u p q).trans ?_
  rw [pay3_2_apply, pay3_2_apply, pay3_1_apply, zero_add]
  show _ = nmmAt (V c main_v51) (V c main_v60) (V c main_v50_2) _ _ _
  unfold nmmAt
  rw [sum_halves]
  have hu : u.val = 0 := by omega
  have hp : p.val < 1024 := p.isLt
  have hq : q.val < 1024 := q.isLt
  have hP : ((((cfg3.win 3).blk t).view.emb (ix3 u p q)) 1).val = win3_3.index t (1 : Fin 3) * 1024 + 1 * p.val := rfl
  refine congrArg₂ (· + ·) (Finset.sum_congr rfl fun k _ => ?_) (Finset.sum_congr rfl fun k _ => ?_)
  · have hk : k.val < 1024 := k.isLt
    refine congrArg₂ (· * ·) ?_ ?_
    · by_cases hne : 1024 * ((grid3.coords (prev3 t)) 1).val + p.val ≠ 1024 * ((grid3.coords (prev3 t)) 3).val + k.val
      · rw [if_pos hne, if_pos (by rw [hP]; show win3_3.index t (1 : Fin 3) * 1024 + 1 * p.val ≠ k.val; omega)]
        refine congrArg₂ (· * ·) ?_ ?_
        · refine iblk3_0_apply V c (prev3 t) p k _ ?_ ?_ ?_
          · show win3_3.index t (0 : Fin 3) * 1 + 1 * u.val = _; omega
          · show win3_3.index t (1 : Fin 3) * 1024 + 1 * p.val = _; omega
          · show k.val = _; omega
        · refine row3_apply V c (prev3 t) k _ ?_ ?_
          · show win3_3.index t (0 : Fin 3) * 1 + 1 * u.val = _; omega
          · show k.val = _; omega
      · rw [if_neg hne, if_neg (by rw [hP]; show ¬(win3_3.index t (1 : Fin 3) * 1024 + 1 * p.val ≠ k.val); omega)]
    · refine iblk3_2_apply V c (prev3 t) k q _ ?_ ?_ ?_
      · show win3_3.index t (0 : Fin 3) * 1 + 1 * u.val = _; omega
      · show k.val = _; omega
      · show win3_3.index t (2 : Fin 3) * 1024 + 1 * q.val = _; omega
  · have hk : k.val < 1024 := k.isLt
    refine congrArg₂ (· * ·) ?_ ?_
    · by_cases hne : 1024 * ((grid3.coords t) 1).val + p.val ≠ 1024 * ((grid3.coords t) 3).val + k.val
      · rw [if_pos hne, if_pos (by rw [hP]; show win3_3.index t (1 : Fin 3) * 1024 + 1 * p.val ≠ 1024 + k.val; omega)]
        refine congrArg₂ (· * ·) ?_ ?_
        · refine iblk3_0_apply V c t p k _ ?_ ?_ ?_
          · show win3_3.index t (0 : Fin 3) * 1 + 1 * u.val = _; omega
          · show win3_3.index t (1 : Fin 3) * 1024 + 1 * p.val = _; omega
          · show 1024 + k.val = _; omega
        · refine row3_apply V c t k _ ?_ ?_
          · show win3_3.index t (0 : Fin 3) * 1 + 1 * u.val = _; omega
          · show 1024 + k.val = _; omega
      · rw [if_neg hne, if_neg (by rw [hP]; show ¬(win3_3.index t (1 : Fin 3) * 1024 + 1 * p.val ≠ 1024 + k.val); omega)]
    · refine iblk3_2_apply V c t k q _ ?_ ?_ ?_
      · show win3_3.index t (0 : Fin 3) * 1 + 1 * u.val = _; omega
      · show 1024 + k.val = _; omega
      · show win3_3.index t (2 : Fin 3) * 1024 + 1 * q.val = _; omega

theorem mem_blk3 (t : Fin cfg3.N) (i : S8x2048x2048.Idx) :
    i ∈ ((cfg3.win 3).blk t).view.set ↔ ∀ a : Fin 3, win3_3.index t a * S1x1024x1024.size a ≤ (i a).val ∧ (i a).val < win3_3.index t a * S1x1024x1024.size a + S1x1024x1024.size a := by
  show i ∈ ((View.whole main_v61).slice (win3_3.rect t)).set ↔ _
  rw [View.set_slice_whole, Rect.mem_set_unit]
  exact Iff.rfl

/-- THE RESULT ARRAY after the region: the normalised product of the arrays as found. -/
theorem final3 (c : Dev nD) : (dat3 V c).arrAt 3 cfg3.N = nmmG (V c main_v51) (V c main_v60) (V c main_v50_2) :=
  (dat3 V c).arrAt_eq_of_cover 3 _ (flushed3_eq V c) fun i => by
    have hi0 : (i 0).val < 8 := (i 0).isLt
    have hi1 : (i 1).val < 2048 := (i 1).isLt
    have hi2 : (i 2).val < 2048 := (i 2).isLt
    obtain ⟨t, hodd, ht⟩ := idx_onto3 ⟨(i 0).val, by omega⟩ ⟨(i 1).val / 1024, by omega⟩ ⟨(i 2).val / 1024, by omega⟩
    have q0 : win3_3.index t (0 : Fin 3) = (i 0).val := congrFun ht 0
    have q1 : win3_3.index t (1 : Fin 3) = (i 1).val / 1024 := congrFun ht 1
    have q2 : win3_3.index t (2 : Fin 3) = (i 2).val / 1024 := congrFun ht 2
    refine ⟨t, (flush3_3 t).mpr hodd, ?_⟩
    rw [mem_blk3]
    intro a
    match a with
    | ⟨0, _⟩ => show win3_3.index t (0 : Fin 3) * 1 ≤ (i 0).val ∧ (i 0).val < win3_3.index t (0 : Fin 3) * 1 + 1; omega
    | ⟨1, _⟩ => show win3_3.index t (1 : Fin 3) * 1024 ≤ (i 1).val ∧ (i 1).val < win3_3.index t (1 : Fin 3) * 1024 + 1024; omega
    | ⟨2, _⟩ => show win3_3.index t (2 : Fin 3) * 1024 ≤ (i 2).val ∧ (i 2).val < win3_3.index t (2 : Fin 3) * 1024 + 1024; omega

end Cert.KernelIdeal.Val

end
-- ==== Proof.KI.ValBmmNorm5.lean ====
/-
  What a normalised product's region leaves in its result array: entry (c, i, j) is the sum over k of N[c, i, k] · g[c, k, j], where
  N[c, i, k] is H[c, i, k] · dinv[c, k] off the diagonal and 0 on it. As in the plain product a block of the result is written
  back after the second of its two points, the accumulator then holding zero plus the two partial sums over the halves of k.
-/
import proofs.«140696_j56040733278620_2_alg».proof.Proof.KI.BmmNorm5
import proofs.«140696_j56040733278620_2_alg».proof.Proof.KI.ValBmmNorm3
import proofs.«140696_j56040733278620_2_alg».proof.Proof.LibMatmul
import proofs.«140696_j56040733278620_2_alg».proof.Proof.LibWords
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt Ideal) ((c : Thread nD τ).loc b))

/-- One accumulation step at an entry: the accumulator plus the product of the masked, scaled block of H with the block of g. -/
theorem pay5_2_apply (i : grid5.Coords) (h : FVec Ideal S1x1024x1024 .f32) (d : FVec Ideal S1x1024 .f32) (acc : FVec Ideal S1024x1024 .f32)
    (g : FVec Ideal S1x1024x1024 .bf16) (p q : Fin 1024) :
    k5_pay2 (F := Ideal) i h d acc g (ix2 p q) = acc (ix2 p q)
      + ∑ k : Fin 1024, (if 1024 * (i 1).val + p.val ≠ 1024 * (i 3).val + k.val then h (ix3 (0 : Fin 1) p k) * d (ix2 (0 : Fin 1) k) else (0 : EReal)) * g (ix3 (0 : Fin 1) k q) := by
  unfold k5_pay2
  simp only [shapeCast_self]
  show acc (ix2 p q) + _ = _
  refine congrArg (fun z => acc (ix2 p q) + z) ?_
  refine (Cert.MatmulAt.matmul_zero_plain_apply (M := 1024) (K := 1024) (N := 1024) Facts₀.dot_S1024x1024_S1024x1024_S1024x1024_1_0_0_1_n_n_wf none _ _ p q).trans ?_
  refine Finset.sum_congr rfl fun k _ => ?_
  have hi1 : (i 1).val < 2 := (i 1).isLt
  have hi3 : (i 3).val < 2 := (i 3).isLt
  have hp : p.val < 1024 := p.isLt
  have hk : k.val < 1024 := k.isLt
  rw [shapeCast_1ab_ab_apply]
  refine congrArg (fun z => z * g (ix3 (0 : Fin 1) k q)) ?_
  show Scalar.select (IntOp.cmpi .ne (IntOp.addi (IntOp.muli (BitVec.ofNat 32 (i 1).val) (BitVec.ofNat 32 1024)) (BitVec.ofNat 32 (0 * 1024 + p.val)))
      (IntOp.addi (IntOp.muli (BitVec.ofNat 32 (i 3).val) (BitVec.ofNat 32 1024)) (BitVec.ofNat 32 (0 * 1024 + k.val))))
    (shapeCast S1024x1024 h shapeCasts_S1x1024x1024_S1024x1024 (ix2 p k)
      * broadcastTo S1024x1024 (shapeCast S1x1024 (shapeCast S1024 d shapeCasts_S1x1024_S1024) shapeCasts_S1024_S1x1024) broadcasts_S1x1024_S1024x1024 (ix2 p k))
    (Scalar.ofBits (F := Ideal) .f32 0x00000000#32) = _
  have hw1 : IntOp.addi (IntOp.muli (BitVec.ofNat 32 (i 1).val) (BitVec.ofNat 32 1024)) (BitVec.ofNat 32 (0 * 1024 + p.val)) = BitVec.ofNat 32 ((i 1).val * 1024 + (0 * 1024 + p.val)) :=
    Cert.Lib.ofNat32_mul_add _ _ _
  have hw3 : IntOp.addi (IntOp.muli (BitVec.ofNat 32 (i 3).val) (BitVec.ofNat 32 1024)) (BitVec.ofNat 32 (0 * 1024 + k.val)) = BitVec.ofNat 32 ((i 3).val * 1024 + (0 * 1024 + k.val)) :=
    Cert.Lib.ofNat32_mul_add _ _ _
  rw [hw1, hw3, Cert.Lib.cmpi_ne_ofNat32 (by omega) (by omega), shapeCast_1ab_ab_apply, broadcastTo_1b_ab_apply, shapeCast_a_1a_apply, shapeCast_1a_a_apply]
  by_cases hne : 1024 * (i 1).val + p.val ≠ 1024 * (i 3).val + k.val
  · rw [if_pos hne, if_pos (by omega), select_one]
  · rw [if_neg hne, if_neg (by omega), select_zero]
    exact Ideal.ofBits_zero_f32

theorem pay5_1_apply (p q : Fin 1024) : k5_pay1 (F := Ideal) (ix2 p q) = (0 : EReal) := by
  unfold k5_pay1
  simp only [shapeCast_self]
  exact Ideal.ofBits_zero_f32

theorem pay5_3_apply (x : FVec Ideal S1024x1024 .f32) (u : Fin 1) (p q : Fin 1024) : k5_pay3 (F := Ideal) x (ix3 u p q) = x (ix2 p q) := by
  unfold k5_pay3
  exact shapeCast_ab_1ab_apply _ _ u p q

theorem soutA5_eq (c : Dev nD) (i : grid5.Coords) (a4 : Memref sig .tc .vmem S1x1024x1024 .f32) (h4 : a4.IsWhole) (a5 : Memref sig .tc .vmem S8x1024 .f32) (h5 : a5.IsWhole) (a6 : Memref sig .tc .vmem S1x1024x1024 .bf16) (h6 : a6.IsWhole) (a7 : Memref sig .tc .vmem S1x1024x1024 .f32) (h7 : a7.IsWhole) (a8 : Memref sig .tc .vmem S1024x1024 .f32) (h8 : a8.IsWhole) (hc0 : cond5_0 i) (hc1 : ¬cond5_1 i) (x0 : Vec F S1x1024x1024 .f32) (x1 : Vec F S8x1024 .f32) (x2 : Vec F S1x1024x1024 .bf16) :
    sout5_A c i a4 h4 a5 h5 a6 h6 a7 h7 a8 h8 hc0 hc1 x0 x1 x2 = k5_pay2 i x0 (View.ld x1 (Rect.unit (s := S8x1024) (k5_off1 i) S1x1024.size (k5_off1_inb i))) (k5_pay1 (F := F)) x2 := by
  unfold sout5_A
  rw [View.read_writes_eq_canon _ _ _ (scover5_A c i a4 h4 a5 h5 a6 h6 a7 h7 a8 h8 hc0 hc1 x0 x1 x2)]
  unfold kernelRun5_A
  dsimp only
  try sl_unfold_words
  rw [View.canon_cons_unit_zero (S := S1024x1024) hz2, View.readCov_unit_zero (S := S1024x1024) _ hz2]
  simp only [View.readAt_eq_ld, h4.read_unread, h5.read_unread, h6.read_unread, View.ld_unit_zero (S := S1x1024x1024) hz3]

theorem soutB5_eq (c : Dev nD) (i : grid5.Coords) (a4 : Memref sig .tc .vmem S1x1024x1024 .f32) (h4 : a4.IsWhole) (a5 : Memref sig .tc .vmem S8x1024 .f32) (h5 : a5.IsWhole) (a6 : Memref sig .tc .vmem S1x1024x1024 .bf16) (h6 : a6.IsWhole) (a7 : Memref sig .tc .vmem S1x1024x1024 .f32) (h7 : a7.IsWhole) (a8 : Memref sig .tc .vmem S1024x1024 .f32) (h8 : a8.IsWhole) (hc0 : ¬cond5_0 i) (hc1 : cond5_1 i) (x0 : Vec F S1x1024x1024 .f32) (x1 : Vec F S8x1024 .f32) (x2 : Vec F S1x1024x1024 .bf16) (xs : Vec F S1024x1024 .f32) :
    sout5_B c i a4 h4 a5 h5 a6 h6 a7 h7 a8 h8 hc0 hc1 x0 x1 x2 xs = k5_pay2 i x0 (View.ld x1 (Rect.unit (s := S8x1024) (k5_off1 i) S1x1024.size (k5_off1_inb i))) xs x2 := by
  unfold sout5_B
  rw [View.read_writes_eq_canon _ _ _ (scover5_B c i a4 h4 a5 h5 a6 h6 a7 h7 a8 h8 hc0 hc1 x0 x1 x2 xs)]
  unfold kernelRun5_B
  dsimp only
  try sl_unfold_words
  rw [View.canon_unit_zero hz2]
  simp only [View.readAt_eq_ld, h4.read_unread, h5.read_unread, h6.read_unread, h8.read_unread, View.ld_unit_zero (S := S1x1024x1024) hz3, View.ld_unit_zero (S := S1024x1024) hz2]

theorem outB5_eq (c : Dev nD) (i : grid5.Coords) (a4 : Memref sig .tc .vmem S1x1024x1024 .f32) (h4 : a4.IsWhole) (a5 : Memref sig .tc .vmem S8x1024 .f32) (h5 : a5.IsWhole) (a6 : Memref sig .tc .vmem S1x1024x1024 .bf16) (h6 : a6.IsWhole) (a7 : Memref sig .tc .vmem S1x1024x1024 .f32) (h7 : a7.IsWhole) (a8 : Memref sig .tc .vmem S1024x1024 .f32) (h8 : a8.IsWhole) (hc0 : ¬cond5_0 i) (hc1 : cond5_1 i) (x0 : Vec F S1x1024x1024 .f32) (x1 : Vec F S8x1024 .f32) (x2 : Vec F S1x1024x1024 .bf16) (xs : Vec F S1024x1024 .f32) :
    out5_B_3 c i a4 h4 a5 h5 a6 h6 a7 h7 a8 h8 hc0 hc1 x0 x1 x2 xs = k5_pay3 (k5_pay2 i x0 (View.ld x1 (Rect.unit (s := S8x1024) (k5_off1 i) S1x1024.size (k5_off1_inb i))) xs x2) := by
  unfold out5_B_3
  rw [View.read_writes_eq_canon _ _ _ (cover5_B_3 c i a4 h4 a5 h5 a6 h6 a7 h7 a8 h8 hc0 hc1 x0 x1 x2 xs)]
  unfold kernelRun5_B
  dsimp only
  try sl_unfold_words
  rw [View.canon_unit_zero hz3, View.readCov_unit_zero (S := S1024x1024) _ hz2]
  simp only [View.readAt_eq_ld, h4.read_unread, h5.read_unread, h6.read_unread, h8.read_unread, View.ld_unit_zero (S := S1x1024x1024) hz3, View.ld_unit_zero (S := S1024x1024) hz2]

abbrev prev5 (t : Fin cfg5.N) : Fin cfg5.N := ⟨(t.val - 1) % 64, lt_of_lt_of_eq (Nat.mod_lt _ (by decide)) N_5.symm⟩

/-- How the four windows' blocks, the row offset and the grid coordinates sit at the second point of a block and at the point before it. -/
theorem idx_facts5 : ∀ t : Fin cfg5.N, t.val % 2 = 1 →
    win5_0.index t (0 : Fin 3) = win5_3.index t (0 : Fin 3) ∧ win5_0.index t (1 : Fin 3) = win5_3.index t (1 : Fin 3) ∧ win5_0.index t (2 : Fin 3) = 1
    ∧ win5_1.index t (0 : Fin 2) = 0 ∧ win5_1.index t (1 : Fin 2) = 1
    ∧ win5_2.index t (0 : Fin 3) = win5_3.index t (0 : Fin 3) ∧ win5_2.index t (1 : Fin 3) = 1 ∧ win5_2.index t (2 : Fin 3) = win5_3.index t (2 : Fin 3)
    ∧ win5_0.index (prev5 t) (0 : Fin 3) = win5_3.index t (0 : Fin 3) ∧ win5_0.index (prev5 t) (1 : Fin 3) = win5_3.index t (1 : Fin 3) ∧ win5_0.index (prev5 t) (2 : Fin 3) = 0
    ∧ win5_1.index (prev5 t) (0 : Fin 2) = 0 ∧ win5_1.index (prev5 t) (1 : Fin 2) = 0
    ∧ win5_2.index (prev5 t) (0 : Fin 3) = win5_3.index t (0 : Fin 3) ∧ win5_2.index (prev5 t) (1 : Fin 3) = 0 ∧ win5_2.index (prev5 t) (2 : Fin 3) = win5_3.index t (2 : Fin 3)
    ∧ k5_off1 (grid5.coords t) (0 : Fin 2) = win5_3.index t (0 : Fin 3) ∧ k5_off1 (grid5.coords t) (1 : Fin 2) = 0
    ∧ k5_off1 (grid5.coords (prev5 t)) (0 : Fin 2) = win5_3.index t (0 : Fin 3) ∧ k5_off1 (grid5.coords (prev5 t)) (1 : Fin 2) = 0
    ∧ ((grid5.coords t) 1).val = win5_3.index t (1 : Fin 3) ∧ ((grid5.coords t) 3).val = 1
    ∧ ((grid5.coords (prev5 t)) 1).val = win5_3.index t (1 : Fin 3) ∧ ((grid5.coords (prev5 t)) 3).val = 0
    ∧ win5_3.index t (0 : Fin 3) ≤ 7 ∧ win5_3.index t (1 : Fin 3) ≤ 1 ∧ win5_3.index t (2 : Fin 3) ≤ 1 :=
  (by decide +kernel : ∀ t : Fin grid5.N, _)
theorem idx_onto5 : ∀ (q0 : Fin 8) (q1 : Fin 2) (q2 : Fin 2), ∃ t : Fin cfg5.N, t.val % 2 = 1 ∧ win5_3.index t = ![q0.val, q1.val, q2.val] :=
  (by decide +kernel : ∀ (q0 : Fin 8) (q1 : Fin 2) (q2 : Fin 2), ∃ t : Fin grid5.N, t.val % 2 = 1 ∧ win5_3.index t = ![q0.val, q1.val, q2.val])

theorem iblk5_0_apply (c : Dev nD) (t : Fin cfg5.N) (p k : Fin 1024) (i : S8x2048x2048.Idx)
    (h0 : (i 0).val = win5_0.index t (0 : Fin 3)) (h1 : (i 1).val = win5_0.index t (1 : Fin 3) * 1024 + p.val) (h2 : (i 2).val = win5_0.index t (2 : Fin 3) * 1024 + k.val) :
    iblk5 V c 0 t (ix3 (0 : Fin 1) p k) = V c main_v61 i := by
  show V c main_v61 (((cfg5.win 0).blk t).view.emb (ix3 (0 : Fin 1) p k)) = V c main_v61 i
  refine congrArg (V c main_v61) ?_
  funext a; apply Fin.ext
  match a with
  | ⟨0, _⟩ => show win5_0.index t (0 : Fin 3) * 1 + 1 * 0 = (i 0).val; omega
  | ⟨1, _⟩ => show win5_0.index t (1 : Fin 3) * 1024 + 1 * p.val = (i 1).val; omega
  | ⟨2, _⟩ => show win5_0.index t (2 : Fin 3) * 1024 + 1 * k.val = (i 2).val; omega
theorem iblk5_2_apply (c : Dev nD) (t : Fin cfg5.N) (k q : Fin 1024) (i : S8x2048x2048.Idx)
    (h0 : (i 0).val = win5_2.index t (0 : Fin 3)) (h1 : (i 1).val = win5_2.index t (1 : Fin 3) * 1024 + k.val) (h2 : (i 2).val = win5_2.index t (2 : Fin 3) * 1024 + q.val) :
    iblk5 V c 2 t (ix3 (0 : Fin 1) k q) = V c main_v50_3 i := by
  show V c main_v50_3 (((cfg5.win 2).blk t).view.emb (ix3 (0 : Fin 1) k q)) = V c main_v50_3 i
  refine congrArg (V c main_v50_3) ?_
  funext a; apply Fin.ext
  match a with
  | ⟨0, _⟩ => show win5_2.index t (0 : Fin 3) * 1 + 1 * 0 = (i 0).val; omega
  | ⟨1, _⟩ => show win5_2.index t (1 : Fin 3) * 1024 + 1 * k.val = (i 1).val; omega
  | ⟨2, _⟩ => show win5_2.index t (2 : Fin 3) * 1024 + 1 * q.val = (i 2).val; omega
/-- The loaded row of reciprocal degrees, as entries of the array. -/
theorem row5_apply (c : Dev nD) (t : Fin cfg5.N) (k : Fin 1024) (i : S8x2048.Idx)
    (h0 : (i 0).val = k5_off1 (grid5.coords t) (0 : Fin 2) + win5_1.index t (0 : Fin 2) * 8)
    (h1 : (i 1).val = win5_1.index t (1 : Fin 2) * 1024 + k5_off1 (grid5.coords t) (1 : Fin 2) + k.val) :
    View.ld (iblk5 V c 1 t) (Rect.unit (s := S8x1024) (k5_off1 (grid5.coords t)) S1x1024.size (k5_off1_inb (grid5.coords t))) (ix2 (0 : Fin 1) k) = V c main_v70 i := by
  show V c main_v70 (((cfg5.win 1).blk t).view.emb ((Rect.unit (s := S8x1024) (k5_off1 (grid5.coords t)) S1x1024.size (k5_off1_inb (grid5.coords t))).emb (ix2 (0 : Fin 1) k))) = V c main_v70 i
  refine congrArg (V c main_v70) ?_
  funext a; apply Fin.ext
  match a with
  | ⟨0, _⟩ => show win5_1.index t (0 : Fin 2) * 8 + 1 * (k5_off1 (grid5.coords t) (0 : Fin 2) + 1 * 0) = (i 0).val; omega
  | ⟨1, _⟩ => show win5_1.index t (1 : Fin 2) * 1024 + 1 * (k5_off1 (grid5.coords t) (1 : Fin 2) + 1 * k.val) = (i 1).val; omega

set_option maxHeartbeats 2000000 in
/-- What a second point writes back is its block of the normalised product of the arrays as the region finds them. -/
theorem flushed5_eq (c : Dev nD) (t : Fin cfg5.N) (hf : (cfg5.win 3).flush t = true) :
    (dat5 V c).flushed 3 t = ((cfg5.win 3).blk t).view.read (Elt Ideal) (nmmG (V c main_v61) (V c main_v70) (V c main_v50_3)) := by
  have hN : cfg5.N = 64 := N_5
  have hodd : t.val % 2 = 1 := (flush5_3 t).mp hf
  have hlt : t.val < 64 := lt_of_lt_of_eq t.isLt hN
  have h0 : ¬t.val % 2 = 0 := by omega
  obtain ⟨e0, e1, e2, d0, d1, g0, g1, g2, f0, f1, f2, dd0, dd1, gg0, gg1, gg2, o0, o1, oo0, oo1, c1, c3, cc1, cc3, b0, b1, b2⟩ := idx_facts5 t hodd
  have hprev : (⟨t.val - 1, Nat.lt_of_le_of_lt (Nat.sub_le _ _) t.isLt⟩ : Fin cfg5.N) = prev5 t := Fin.ext (by
    show t.val - 1 = (t.val - 1) % 64; omega)
  show (cfg5.win 3).cut (grid5.coords t) ((dat5 V c).after 3 t) = _
  rw [after5_3, outsAt5_B V c t h0]
  dsimp only
  rw [outB5_eq]
  have hA := outsAt5_A V c ⟨t.val - 1, Nat.lt_of_le_of_lt (Nat.sub_le _ _) t.isLt⟩ (by dsimp only; omega)
  rw [show (outsAt5 V c (t.val - 1) (Nat.lt_of_le_of_lt (Nat.sub_le _ _) t.isLt)).2 = _ from congrArg Prod.snd hA]
  dsimp only
  rw [soutA5_eq, hprev]
  funext y
  obtain ⟨u, p, q, rfl⟩ : ∃ (u : Fin 1) (p : Fin 1024) (q : Fin 1024), y = ix3 u p q := ⟨y 0, y 1, y 2, eq_ix3 y⟩
  refine (pay5_3_apply _ u p q).trans ?_
  rw [pay5_2_apply, pay5_2_apply, pay5_1_apply, zero_add]
  show _ = nmmAt (V c main_v61) (V c main_v70) (V c main_v50_3) _ _ _
  unfold nmmAt
  rw [sum_halves]
  have hu : u.val = 0 := by omega
  have hp : p.val < 1024 := p.isLt
  have hq : q.val < 1024 := q.isLt
  have hP : ((((cfg5.win 3).blk t).view.emb (ix3 u p q)) 1).val = win5_3.index t (1 : Fin 3) * 1024 + 1 * p.val := rfl
  refine congrArg₂ (· + ·) (Finset.sum_congr rfl fun k _ => ?_) (Finset.sum_congr rfl fun k _ => ?_)
  · have hk : k.val < 1024 := k.isLt
    refine congrArg₂ (· * ·) ?_ ?_
    · by_cases hne : 1024 * ((grid5.coords (prev5 t)) 1).val + p.val ≠ 1024 * ((grid5.coords (prev5 t)) 3).val + k.val
      · rw [if_pos hne, if_pos (by rw [hP]; show win5_3.index t (1 : Fin 3) * 1024 + 1 * p.val ≠ k.val; omega)]
        refine congrArg₂ (· * ·) ?_ ?_
        · refine iblk5_0_apply V c (prev5 t) p k _ ?_ ?_ ?_
          · show win5_3.index t (0 : Fin 3) * 1 + 1 * u.val = _; omega
          · show win5_3.index t (1 : Fin 3) * 1024 + 1 * p.val = _; omega
          · show k.val = _; omega
        · refine row5_apply V c (prev5 t) k _ ?_ ?_
          · show win5_3.index t (0 : Fin 3) * 1 + 1 * u.val = _; omega
          · show k.val = _; omega
      · rw [if_neg hne, if_neg (by rw [hP]; show ¬(win5_3.index t (1 : Fin 3) * 1024 + 1 * p.val ≠ k.val); omega)]
    · refine iblk5_2_apply V c (prev5 t) k q _ ?_ ?_ ?_
      · show win5_3.index t (0 : Fin 3) * 1 + 1 * u.val = _; omega
      · show k.val = _; omega
      · show win5_3.index t (2 : Fin 3) * 1024 + 1 * q.val = _; omega
  · have hk : k.val < 1024 := k.isLt
    refine congrArg₂ (· * ·) ?_ ?_
    · by_cases hne : 1024 * ((grid5.coords t) 1).val + p.val ≠ 1024 * ((grid5.coords t) 3).val + k.val
      · rw [if_pos hne, if_pos (by rw [hP]; show win5_3.index t (1 : Fin 3) * 1024 + 1 * p.val ≠ 1024 + k.val; omega)]
        refine congrArg₂ (· * ·) ?_ ?_
        · refine iblk5_0_apply V c t p k _ ?_ ?_ ?_
          · show win5_3.index t (0 : Fin 3) * 1 + 1 * u.val = _; omega
          · show win5_3.index t (1 : Fin 3) * 1024 + 1 * p.val = _; omega
          · show 1024 + k.val = _; omega
        · refine row5_apply V c t k _ ?_ ?_
          · show win5_3.index t (0 : Fin 3) * 1 + 1 * u.val = _; omega
          · show 1024 + k.val = _; omega
      · rw [if_neg hne, if_neg (by rw [hP]; show ¬(win5_3.index t (1 : Fin 3) * 1024 + 1 * p.val ≠ 1024 + k.val); omega)]
    · refine iblk5_2_apply V c t k q _ ?_ ?_ ?_
      · show win5_3.index t (0 : Fin 3) * 1 + 1 * u.val = _; omega
      · show 1024 + k.val = _; omega
      · show win5_3.index t (2 : Fin 3) * 1024 + 1 * q.val = _; omega

theorem mem_blk5 (t : Fin cfg5.N) (i : S8x2048x2048.Idx) :
    i ∈ ((cfg5.win 3).blk t).view.set ↔ ∀ a : Fin 3, win5_3.index t a * S1x1024x1024.size a ≤ (i a).val ∧ (i a).val < win5_3.index t a * S1x1024x1024.size a + S1x1024x1024.size a := by
  show i ∈ ((View.whole main_v71).slice (win5_3.rect t)).set ↔ _
  rw [View.set_slice_whole, Rect.mem_set_unit]
  exact Iff.rfl

/-- THE RESULT ARRAY after the region: the normalised product of the arrays as found. -/
theorem final5 (c : Dev nD) : (dat5 V c).arrAt 3 cfg5.N = nmmG (V c main_v61) (V c main_v70) (V c main_v50_3) :=
  (dat5 V c).arrAt_eq_of_cover 3 _ (flushed5_eq V c) fun i => by
    have hi0 : (i 0).val < 8 := (i 0).isLt
    have hi1 : (i 1).val < 2048 := (i 1).isLt
    have hi2 : (i 2).val < 2048 := (i 2).isLt
    obtain ⟨t, hodd, ht⟩ := idx_onto5 ⟨(i 0).val, by omega⟩ ⟨(i 1).val / 1024, by omega⟩ ⟨(i 2).val / 1024, by omega⟩
    have q0 : win5_3.index t (0 : Fin 3) = (i 0).val := congrFun ht 0
    have q1 : win5_3.index t (1 : Fin 3) = (i 1).val / 1024 := congrFun ht 1
    have q2 : win5_3.index t (2 : Fin 3) = (i 2).val / 1024 := congrFun ht 2
    refine ⟨t, (flush5_3 t).mpr hodd, ?_⟩
    rw [mem_blk5]
    intro a
    match a with
    | ⟨0, _⟩ => show win5_3.index t (0 : Fin 3) * 1 ≤ (i 0).val ∧ (i 0).val < win5_3.index t (0 : Fin 3) * 1 + 1; omega
    | ⟨1, _⟩ => show win5_3.index t (1 : Fin 3) * 1024 ≤ (i 1).val ∧ (i 1).val < win5_3.index t (1 : Fin 3) * 1024 + 1024; omega
    | ⟨2, _⟩ => show win5_3.index t (2 : Fin 3) * 1024 ≤ (i 2).val ∧ (i 2).val < win5_3.index t (2 : Fin 3) * 1024 + 1024; omega

end Cert.KernelIdeal.Val

end
-- ==== Proof.SpecHost.lean ====
/-
  The two short host computations both programs share, as functions of their one array operand: the safe reciprocal of the column
  degrees (0 where the degree is 0, else 1 / degree) and the symmetrisation (M + Mᵀ) · ½; and the softmax of an 8 x 8 table read at
  an entry.
-/
import Idealize.ShloMosaic.PureOps.Ideal.Laws
import Idealize.ShloMosaic.Lib.ValueIdx

noncomputable section

namespace Cert.SpecHost

open Idealize.ShloMosaic Idealize.ShloMosaic.ValueIdx

abbrev Sc : Shape := ⟨0, ![]⟩
abbrev Sd : Shape := ⟨2, ![8, 2048]⟩
abbrev Sm : Shape := ⟨2, ![2048, 2048]⟩

/-- 0 where the degree is 0, else 1 / degree. -/
def dinvF (hb : Sc.BroadcastsInDim Sd ![]) (d : FVec Ideal Sd .f32) : FVec Ideal Sd .f32 :=
  select (cmpf .oeq d (broadcastInDim Sd ![] hb (constant (F := Ideal) Sc .f32 0x00000000#32)))
    (broadcastInDim Sd ![] hb (constant (F := Ideal) Sc .f32 0x00000000#32))
    (Host.divf (broadcastInDim Sd ![] hb (constant (F := Ideal) Sc .f32 0x3F800000#32))
      (select (cmpf .oeq d (broadcastInDim Sd ![] hb (constant (F := Ideal) Sc .f32 0x00000000#32)))
        (broadcastInDim Sd ![] hb (constant (F := Ideal) Sc .f32 0x3F800000#32)) d))

/-- (M + Mᵀ) · ½. -/
def tailF (hb : Sc.BroadcastsInDim Sm ![]) (ht : Sm.Transposes [1, 0] Sm) (x : FVec Ideal Sm .f32) : FVec Ideal Sm .f32 :=
  mulf (addf x (transpose Sm [1, 0] x ht)) (broadcastInDim Sm ![] hb (constant (F := Ideal) Sc .f32 0x3F000000#32))

/-- The softmax of row `c` of a table at column `e`: exp (T c e − M) over the row's sum of such, M the row's maximum. -/
def smAt (T : Fin 8 → Fin 8 → EReal) (c e : Fin 8) : EReal :=
  Ideal.div
    (FloatOps.hostUnary (F := Ideal) (φ := .f32) .exp (T c e - FloatOps.maximumf (F := Ideal) (φ := .f32) (Ideal.ofBits .f32 0xFF800000#32)
      ((Finset.univ : Finset (Fin 8)).fold (FloatOps.maximumf (F := Ideal) (φ := .f32)) (Ideal.ofBits .f32 0xFF800000#32) (fun e' => T c e'))))
    (Ideal.ofBits .f32 0x00000000#32 + ∑ e'' : Fin 8,
      FloatOps.hostUnary (F := Ideal) (φ := .f32) .exp (T c e'' - FloatOps.maximumf (F := Ideal) (φ := .f32) (Ideal.ofBits .f32 0xFF800000#32)
        ((Finset.univ : Finset (Fin 8)).fold (FloatOps.maximumf (F := Ideal) (φ := .f32)) (Ideal.ofBits .f32 0xFF800000#32) (fun e' => T c e'))))

end Cert.SpecHost

end
-- ==== Proof.KI.SpecAll.lean ====
/-
  The whole computation as one function of the transposed edge-type stack and the four softmax tables: the four mixed stacks, the
  product of the first two, and twice: column degrees, their safe reciprocals, the normalised product with the next stack; then the
  channel mean and the symmetrisation.
-/
import proofs.«140696_j56040733278620_2_alg».proof.Proof.KI.ValGtconv
import proofs.«140696_j56040733278620_2_alg».proof.Proof.KI.ValColsum4
import proofs.«140696_j56040733278620_2_alg».proof.Proof.KI.ValBmmNorm5
import proofs.«140696_j56040733278620_2_alg».proof.Proof.SpecHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

open Cert.SpecHost

def specOut (hb : Sc.BroadcastsInDim Sd ![]) (hb' : Sc.BroadcastsInDim Sm ![]) (ht : Sm.Transposes [1, 0] Sm)
    (A3 : S8x2048x2048.Idx → EReal) (s1 s2 sA sB : S8x8.Idx → EReal) : S2048x2048.Idx → EReal :=
  tailF hb' ht (meanG (nmmG (nmmG (mmG (gtG A3 s1) (gtG A3 s2)) (dinvF hb (degG2 (mmG (gtG A3 s1) (gtG A3 s2)))) (gtG A3 sA))
    (dinvF hb (degG4 (nmmG (mmG (gtG A3 s1) (gtG A3 s2)) (dinvF hb (degG2 (mmG (gtG A3 s1) (gtG A3 s2)))) (gtG A3 sA)))) (gtG A3 sB)))

end Cert.KernelIdeal.Val

end
-- ==== Proof.KI.HostDefs.lean ====
/-
  The two host computations before the first region, as functions of the arguments, read at an entry: the edge-type stack with the
  edge type moved first, and the softmax over each row of a table of weights (its two unit axes dropped first).
-/
import proofs.«140696_j56040733278620_2_alg».proof.KernelIdeal
import proofs.«140696_j56040733278620_2_alg».proof.Proof.Gen.KernelIdeal
import proofs.«140696_j56040733278620_2_alg».proof.Proof.SpecHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

open Cert.SpecHost

/-- A table of weights with its two unit axes dropped. -/
def wK (w : FVec Ideal S8x8x1x1 .f32) : FVec Ideal S8x8 .f32 := fun i => shapeCast S8x8 w shapeCasts_S8x8x1x1_S8x8 i
/-- exp (w − the row's maximum), the maximum taken from −∞. -/
def expK (w : FVec Ideal S8x8x1x1 .f32) : FVec Ideal S8x8 .f32 :=
  Host.exp (subf (wK w) (broadcastInDim S8x8 ![0, 1] bcast_S8x1_S8x8_0_1 (broadcastInDim S8x1 ![0] bcast_S8_S8x1_0 (maximumf (broadcastInDim S8 ![] bcast_S_S8 (constant (F := Ideal) S_ .f32 0xFF800000#32)) (Host.reduce FloatOps.maximumf (wK w) (constant (F := Ideal) S_ .f32 0xFF800000#32) reducesTo_S8x8_S8_d1 h_S_)))))
/-- The softmax of a table of weights, as the host computes it before the first region. -/
def smK (w : FVec Ideal S8x8x1x1 .f32) : FVec Ideal S8x8 .f32 :=
  Host.divf (expK w) (broadcastInDim S8x8 ![0, 1] bcast_S8x1_S8x8_0_1 (broadcastInDim S8x1 ![0] bcast_S8_S8x1_0 (Host.reduceAdd (expK w) (constant (F := Ideal) S_ .f32 0x00000000#32) reducesTo_S8x8_S8_d1 h_S_)))

/-- The transposed edge-type stack, as the host computes it before the first region. -/
def a3K (x : FVec Ideal S1x2048x2048x8 .f32) : FVec Ideal S8x2048x2048 .f32 :=
  transpose S8x2048x2048 [2, 0, 1] (fun i => shapeCast S2048x2048x8 x shapeCasts_S1x2048x2048x8_S2048x2048x8 i) transposes_S2048x2048x8_S8x2048x2048_2_0_1

theorem a3K_apply (x : FVec Ideal S1x2048x2048x8 .f32) (e : Fin 8) (p q : Fin 2048) : a3K x (ix3 e p q) = x (ix4 (0 : Fin 1) p q e) := by
  unfold a3K
  refine (transpose_apply [2, 0, 1] _ transposes_S2048x2048x8_S8x2048x2048_2_0_1 (ix3 e p q) (ix3 p q e) (fun b => by
    match b with
    | ⟨0, _⟩ => rfl
    | ⟨1, _⟩ => rfl
    | ⟨2, _⟩ => rfl)).trans ?_
  exact shapeCast_1abc_abc_apply x shapeCasts_S1x2048x2048x8_S2048x2048x8 p q e

/-- A value per row spread over the row's columns. -/
theorem rows_apply (v : FVec Ideal S8 .f32) (c e : Fin 8) :
    broadcastInDim S8x8 ![0, 1] bcast_S8x1_S8x8_0_1 (broadcastInDim S8x1 ![0] bcast_S8_S8x1_0 v) (ix2 c e) = v (ix1 c) :=
  (broadcastInDim_apply _ bcast_S8x1_S8x8_0_1 _ (ix2 c e) (ix2 c (0 : Fin 1)) (fun a => by
    match a with
    | ⟨0, _⟩ => show c.val = if (8 : ℕ) = 1 then 0 else c.val; rw [if_neg (by decide)]
    | ⟨1, _⟩ => show 0 = if (1 : ℕ) = 1 then 0 else e.val; rw [if_pos rfl])).trans
  (broadcastInDim_apply _ bcast_S8_S8x1_0 v (ix2 c (0 : Fin 1)) (ix1 c) (fun a => by
    match a with
    | ⟨0, _⟩ => show c.val = if (8 : ℕ) = 1 then 0 else c.val; rw [if_neg (by decide)]))

theorem hred88 : S8x8.Reduces [1] S8 := by decide

theorem lift88 (c e : Fin 8) : hred88.lift (ix1 c) e = ix2 c e := funext fun a => by
  match a with
  | ⟨0, _⟩ => rfl
  | ⟨1, _⟩ => rfl

/-- A row's maximum, from −∞. -/
theorem rowmax_apply (x : FVec Ideal S8x8 .f32) (c : Fin 8) :
    Host.reduce FloatOps.maximumf x (constant (F := Ideal) S_ .f32 0xFF800000#32) reducesTo_S8x8_S8_d1 h_S_ (ix1 c)
      = (Finset.univ : Finset (Fin 8)).fold (FloatOps.maximumf (F := Ideal) (φ := .f32)) (Ideal.ofBits .f32 0xFF800000#32) (fun e => x (ix2 c e)) := by
  refine (Host.reduce_eq_fold_single (α := Ideal .f32) FloatOps.maximumf x _ reducesTo_S8x8_S8_d1 hred88 h_S_ (ix1 c)).trans ?_
  refine congrArg₂ (Finset.fold (FloatOps.maximumf (F := Ideal) (φ := .f32)) · · Finset.univ) rfl (funext fun e => ?_)
  exact congrArg x (lift88 c e)

/-- A row's sum, from 0. -/
theorem rowsum_apply (x : FVec Ideal S8x8 .f32) (c : Fin 8) :
    Host.reduceAdd x (constant (F := Ideal) S_ .f32 0x00000000#32) reducesTo_S8x8_S8_d1 h_S_ (ix1 c)
      = Ideal.ofBits .f32 0x00000000#32 + ∑ e : Fin 8, x (ix2 c e) := by
  rw [hostReduceAdd_apply, Ideal.hostReduceAdd_single reducesTo_S8x8_S8_d1 hred88]
  refine congrArg₂ (· + ·) rfl (Finset.sum_congr rfl fun e _ => ?_)
  exact congrArg x (lift88 c e)

theorem hexp_apply {s : Shape} {φ : FTy} (x : FVec Ideal s φ) (i : s.Idx) : Host.exp x i = FloatOps.hostUnary .exp (x i) := rfl
theorem maxf_apply {s : Shape} {φ : FTy} (a b : FVec Ideal s φ) (i : s.Idx) : maximumf a b i = FloatOps.maximumf (a i) (b i) := rfl
theorem subf_apply' {s : Shape} {φ : FTy} (a b : FVec Ideal s φ) (i : s.Idx) : subf a b i = a i - b i := rfl
theorem const_apply (b : BitVec 32) (i : S_.Idx) : constant (F := Ideal) S_ .f32 b i = Ideal.ofBits .f32 b := rfl

theorem wK_apply (w : FVec Ideal S8x8x1x1 .f32) (c e : Fin 8) : wK w (ix2 c e) = w (ix4 c e (0 : Fin 1) (0 : Fin 1)) :=
  shapeCast_apply w shapeCasts_S8x8x1x1_S8x8 (ix2 c e) (ix4 c e (0 : Fin 1) (0 : Fin 1)) (by
    rw [Shape.rowMajor_val_four, Shape.rowMajor_val_two]
    show ((c.val * 8 + e.val) * 1 + 0) * 1 + 0 = c.val * 8 + e.val; omega)

theorem expK_apply (w : FVec Ideal S8x8x1x1 .f32) (c e : Fin 8) :
    expK w (ix2 c e) = FloatOps.hostUnary (F := Ideal) (φ := .f32) .exp (w (ix4 c e (0 : Fin 1) (0 : Fin 1)) - FloatOps.maximumf (F := Ideal) (φ := .f32) (Ideal.ofBits .f32 0xFF800000#32)
      ((Finset.univ : Finset (Fin 8)).fold (FloatOps.maximumf (F := Ideal) (φ := .f32)) (Ideal.ofBits .f32 0xFF800000#32) (fun e' => w (ix4 c e' (0 : Fin 1) (0 : Fin 1))))) := by
  unfold expK
  rw [hexp_apply, subf_apply', rows_apply, maxf_apply, broadcastInDim_scalar_apply, rowmax_apply, wK_apply, const_apply]
  refine congrArg (fun z => FloatOps.hostUnary (F := Ideal) (φ := .f32) .exp (w (ix4 c e (0 : Fin 1) (0 : Fin 1)) - FloatOps.maximumf (F := Ideal) (φ := .f32) (Ideal.ofBits .f32 0xFF800000#32) z)) ?_
  refine congrArg₂ (Finset.fold (FloatOps.maximumf (F := Ideal) (φ := .f32)) · · Finset.univ) rfl (funext fun e' => wK_apply w c e')

/-- The host's softmax at an entry. -/
theorem smK_apply (w : FVec Ideal S8x8x1x1 .f32) (c e : Fin 8) :
    smK w (ix2 c e) = smAt (fun c e => w (ix4 c e (0 : Fin 1) (0 : Fin 1))) c e := by
  unfold smK smAt
  rw [hostDivf_apply, rows_apply, rowsum_apply]
  exact congrArg₂ Ideal.div (expK_apply w c e) (congrArg₂ (· + ·) rfl (Finset.sum_congr rfl fun e' _ => expK_apply w c e'))

end Cert.KernelIdeal.Val

end
-- ==== Proof.KI.ValHost.lean ====
/-
  The kernel program's result as one function of its arguments. The host stretches are read as functions of the arrays they use —
  the transposed edge-type stack and the four softmax tables before the first region, the safe reciprocal degrees between the
  degree regions and the normalised products, the symmetrisation at the end — and chained with what each region leaves in its
  result arrays; an array that no item in between writes is read where it was last written.
-/
import proofs.«140696_j56040733278620_2_alg».proof.Proof.KI.Regions
import proofs.«140696_j56040733278620_2_alg».proof.Proof.KI.SpecAll
import proofs.«140696_j56040733278620_2_alg».proof.Proof.KI.HostDefs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

open Cert.SpecHost Idealize.ShloMosaic.StableHlo

variable (m : (ℓ : Loc nD τ sig) → Buf (Elt Ideal) ℓ)

/-! ## Arrays read where they were last written -/

theorem keep_v51 (c : Dev nD) : X8 m c (Proc.devRef .tc main_v51) = X3 m c (Proc.devRef .tc main_v51) :=
  calc X8 m c (Proc.devRef .tc main_v51)
    _ = X7 m c (Proc.devRef .tc main_v51) := StableHlo.after_of_writes_sub hostOps3_3 _ Gen.hostOps3_3_writes (by decide)
    _ = X6 m c (Proc.devRef .tc main_v51) := StableHlo.after_of_writes_sub hostOps3_2 _ Gen.hostOps3_2_writes (by decide)
    _ = X5 m c (Proc.devRef .tc main_v51) := StableHlo.after_of_writes_sub hostOps3_1 _ Gen.hostOps3_1_writes (by decide)
    _ = X4 m c (Proc.devRef .tc main_v51) := StableHlo.after_of_writes_sub hostOps3 _ Gen.hostOps3_writes (by decide)
    _ = X3 m c (Proc.devRef .tc main_v51) := (X4_arr m c 0).trans ((dat2 (x3 m) c).arrAt_in 0 rfl _)

theorem keep_v50_2 (c : Dev nD) : X8 m c (Proc.devRef .tc main_v50_2) = X2 m c (Proc.devRef .tc main_v50_2) :=
  calc X8 m c (Proc.devRef .tc main_v50_2)
    _ = X7 m c (Proc.devRef .tc main_v50_2) := StableHlo.after_of_writes_sub hostOps3_3 _ Gen.hostOps3_3_writes (by decide)
    _ = X6 m c (Proc.devRef .tc main_v50_2) := StableHlo.after_of_writes_sub hostOps3_2 _ Gen.hostOps3_2_writes (by decide)
    _ = X5 m c (Proc.devRef .tc main_v50_2) := StableHlo.after_of_writes_sub hostOps3_1 _ Gen.hostOps3_1_writes (by decide)
    _ = X4 m c (Proc.devRef .tc main_v50_2) := StableHlo.after_of_writes_sub hostOps3 _ Gen.hostOps3_writes (by decide)
    _ = X3 m c (Proc.devRef .tc main_v50_2) := X4_of_ne m c main_v50_2 (by decide)
    _ = X2 m c (Proc.devRef .tc main_v50_2) := X3_of_ne m c main_v50_2 (by decide)

theorem keep_v61 (c : Dev nD) : X14 m c (Proc.devRef .tc main_v61) = X9 m c (Proc.devRef .tc main_v61) :=
  calc X14 m c (Proc.devRef .tc main_v61)
    _ = X13 m c (Proc.devRef .tc main_v61) := StableHlo.after_of_writes_sub hostOps5_3 _ Gen.hostOps5_3_writes (by decide)
    _ = X12 m c (Proc.devRef .tc main_v61) := StableHlo.after_of_writes_sub hostOps5_2 _ Gen.hostOps5_2_writes (by decide)
    _ = X11 m c (Proc.devRef .tc main_v61) := StableHlo.after_of_writes_sub hostOps5_1 _ Gen.hostOps5_1_writes (by decide)
    _ = X10 m c (Proc.devRef .tc main_v61) := StableHlo.after_of_writes_sub hostOps5 _ Gen.hostOps5_writes (by decide)
    _ = X9 m c (Proc.devRef .tc main_v61) := (X10_arr m c 0).trans ((dat4 (x9 m) c).arrAt_in 0 rfl _)

theorem keep_v50_3 (c : Dev nD) : X14 m c (Proc.devRef .tc main_v50_3) = X2 m c (Proc.devRef .tc main_v50_3) :=
  calc X14 m c (Proc.devRef .tc main_v50_3)
    _ = X13 m c (Proc.devRef .tc main_v50_3) := StableHlo.after_of_writes_sub hostOps5_3 _ Gen.hostOps5_3_writes (by decide)
    _ = X12 m c (Proc.devRef .tc main_v50_3) := StableHlo.after_of_writes_sub hostOps5_2 _ Gen.hostOps5_2_writes (by decide)
    _ = X11 m c (Proc.devRef .tc main_v50_3) := StableHlo.after_of_writes_sub hostOps5_1 _ Gen.hostOps5_1_writes (by decide)
    _ = X10 m c (Proc.devRef .tc main_v50_3) := StableHlo.after_of_writes_sub hostOps5 _ Gen.hostOps5_writes (by decide)
    _ = X9 m c (Proc.devRef .tc main_v50_3) := X10_of_ne m c main_v50_3 (by decide)
    _ = X8 m c (Proc.devRef .tc main_v50_3) := X9_of_ne m c main_v50_3 (by decide)
    _ = X7 m c (Proc.devRef .tc main_v50_3) := StableHlo.after_of_writes_sub hostOps3_3 _ Gen.hostOps3_3_writes (by decide)
    _ = X6 m c (Proc.devRef .tc main_v50_3) := StableHlo.after_of_writes_sub hostOps3_2 _ Gen.hostOps3_2_writes (by decide)
    _ = X5 m c (Proc.devRef .tc main_v50_3) := StableHlo.after_of_writes_sub hostOps3_1 _ Gen.hostOps3_1_writes (by decide)
    _ = X4 m c (Proc.devRef .tc main_v50_3) := StableHlo.after_of_writes_sub hostOps3 _ Gen.hostOps3_writes (by decide)
    _ = X3 m c (Proc.devRef .tc main_v50_3) := X4_of_ne m c main_v50_3 (by decide)
    _ = X2 m c (Proc.devRef .tc main_v50_3) := X3_of_ne m c main_v50_3 (by decide)

/-! ## The host stretches -/

set_option maxHeartbeats 4000000 in
/-- The safe reciprocal degrees before the first normalised product. -/
theorem X8_v60 (c : Dev nD) : X8 m c (Proc.devRef .tc main_v60) = dinvF bcast_S_S8x2048 (X4 m c (Proc.devRef .tc main_v52)) := by
  show StableHlo.after hostOps3_3 (StableHlo.after hostOps3_2 (StableHlo.after hostOps3_1 (StableHlo.after hostOps3 (X4 m c)))) (Proc.devRef .tc main_v60) = _
  dsimp only [hostOps3_3, hostOps3_2, hostOps3_1, hostOps3, StableHlo.TRef.ternary]
  after_results
  rfl

set_option maxHeartbeats 4000000 in
/-- The safe reciprocal degrees before the second normalised product. -/
theorem X14_v70 (c : Dev nD) : X14 m c (Proc.devRef .tc main_v70) = dinvF bcast_S_S8x2048 (X10 m c (Proc.devRef .tc main_v62)) := by
  show StableHlo.after hostOps5_3 (StableHlo.after hostOps5_2 (StableHlo.after hostOps5_1 (StableHlo.after hostOps5 (X10 m c)))) (Proc.devRef .tc main_v70) = _
  dsimp only [hostOps5_3, hostOps5_2, hostOps5_1, hostOps5, StableHlo.TRef.ternary]
  after_results
  rfl

set_option maxHeartbeats 4000000 in
/-- The symmetrisation at the end. -/
theorem X17_v76 (c : Dev nD) : X17 m c (Proc.devRef .tc main_v76) = tailF bcast_S_S2048x2048 transposes_S2048x2048_S2048x2048_1_0 (X16 m c (Proc.devRef .tc main_v72)) := by
  show StableHlo.after hostOps7 (X16 m c) (Proc.devRef .tc main_v76) = _
  dsimp only [hostOps7]
  after_results
  rfl

set_option maxHeartbeats 4000000 in
theorem X1_tables (c : Dev nD) :
    X1 m c (Proc.devRef .tc main_v11) = smK (m ((c : Thread nD τ).loc main_arg1))
    ∧ X1 m c (Proc.devRef .tc main_v23) = smK (m ((c : Thread nD τ).loc main_arg2))
    ∧ X1 m c (Proc.devRef .tc main_v35) = smK (m ((c : Thread nD τ).loc main_arg3))
    ∧ X1 m c (Proc.devRef .tc main_v47) = smK (m ((c : Thread nD τ).loc main_arg4))
    ∧ X1 m c (Proc.devRef .tc main_v49) = a3K (m ((c : Thread nD τ).loc main_arg0)) := by
  refine ⟨?_, ?_, ?_, ?_, ?_⟩ <;>
  · show StableHlo.after hostOps0 (X0 m c) _ = _
    dsimp only [hostOps0]
    after_results_simp
    rfl

/-! ## What each region leaves, chained -/

theorem e72 (c : Dev nD) : X16 m c (Proc.devRef .tc main_v72) = meanG (X15 m c (Proc.devRef .tc main_v71)) :=
  (X16_arr m c 1).trans (final6 (x15 m) c)
theorem e71 (c : Dev nD) : X15 m c (Proc.devRef .tc main_v71) = nmmG (X14 m c (Proc.devRef .tc main_v61)) (X14 m c (Proc.devRef .tc main_v70)) (X14 m c (Proc.devRef .tc main_v50_3)) :=
  (X15_arr m c 3).trans (final5 (x14 m) c)
theorem e62 (c : Dev nD) : X10 m c (Proc.devRef .tc main_v62) = degG4 (X9 m c (Proc.devRef .tc main_v61)) :=
  (X10_arr m c 1).trans (final4 (x9 m) c)
theorem e61 (c : Dev nD) : X9 m c (Proc.devRef .tc main_v61) = nmmG (X8 m c (Proc.devRef .tc main_v51)) (X8 m c (Proc.devRef .tc main_v60)) (X8 m c (Proc.devRef .tc main_v50_2)) :=
  (X9_arr m c 3).trans (final3 (x8 m) c)
theorem e52 (c : Dev nD) : X4 m c (Proc.devRef .tc main_v52) = degG2 (X3 m c (Proc.devRef .tc main_v51)) :=
  (X4_arr m c 1).trans (final2 (x3 m) c)
theorem e51 (c : Dev nD) : X3 m c (Proc.devRef .tc main_v51) = mmG (X2 m c (Proc.devRef .tc main_v50_0)) (X2 m c (Proc.devRef .tc main_v50_1)) :=
  (X3_arr m c 2).trans (final1 (x2 m) c)
theorem e50_0 (c : Dev nD) : X2 m c (Proc.devRef .tc main_v50_0) = gtG (X1 m c (Proc.devRef .tc main_v49)) (X1 m c (Proc.devRef .tc main_v11)) :=
  (X2_arr m c 5).trans (final0_5 (x1 m) c)
theorem e50_1 (c : Dev nD) : X2 m c (Proc.devRef .tc main_v50_1) = gtG (X1 m c (Proc.devRef .tc main_v49)) (X1 m c (Proc.devRef .tc main_v23)) :=
  (X2_arr m c 6).trans (final0_6 (x1 m) c)
theorem e50_2 (c : Dev nD) : X2 m c (Proc.devRef .tc main_v50_2) = gtG (X1 m c (Proc.devRef .tc main_v49)) (X1 m c (Proc.devRef .tc main_v35)) :=
  (X2_arr m c 7).trans (final0_7 (x1 m) c)
theorem e50_3 (c : Dev nD) : X2 m c (Proc.devRef .tc main_v50_3) = gtG (X1 m c (Proc.devRef .tc main_v49)) (X1 m c (Proc.devRef .tc main_v47)) :=
  (X2_arr m c 8).trans (final0_8 (x1 m) c)

/-- THE KERNEL'S RESULT: the whole computation applied to the transposed stack and the four softmax tables. -/
theorem kernel_value (c : Dev nD) :
    X17 m c (Proc.devRef .tc main_v76) = specOut bcast_S_S8x2048 bcast_S_S2048x2048 transposes_S2048x2048_S2048x2048_1_0
      (a3K (m ((c : Thread nD τ).loc main_arg0))) (smK (m ((c : Thread nD τ).loc main_arg1))) (smK (m ((c : Thread nD τ).loc main_arg2)))
      (smK (m ((c : Thread nD τ).loc main_arg3))) (smK (m ((c : Thread nD τ).loc main_arg4))) := by
  obtain ⟨t1, t2, t3, t4, t0⟩ := X1_tables m c
  have h51 : X3 m c (Proc.devRef .tc main_v51) = mmG (gtG (a3K (m ((c : Thread nD τ).loc main_arg0))) (smK (m ((c : Thread nD τ).loc main_arg1)))) (gtG (a3K (m ((c : Thread nD τ).loc main_arg0))) (smK (m ((c : Thread nD τ).loc main_arg2)))) := by
    rw [e51, e50_0, e50_1, t0, t1, t2]
  have h61 : X9 m c (Proc.devRef .tc main_v61) = nmmG (X3 m c (Proc.devRef .tc main_v51)) (dinvF bcast_S_S8x2048 (degG2 (X3 m c (Proc.devRef .tc main_v51)))) (gtG (a3K (m ((c : Thread nD τ).loc main_arg0))) (smK (m ((c : Thread nD τ).loc main_arg3)))) := by
    rw [e61, keep_v51, X8_v60, e52, keep_v50_2, e50_2, t0, t3]
  have h71 : X15 m c (Proc.devRef .tc main_v71) = nmmG (X9 m c (Proc.devRef .tc main_v61)) (dinvF bcast_S_S8x2048 (degG4 (X9 m c (Proc.devRef .tc main_v61)))) (gtG (a3K (m ((c : Thread nD τ).loc main_arg0))) (smK (m ((c : Thread nD τ).loc main_arg4)))) := by
    rw [e71, keep_v61, X14_v70, e62, keep_v50_3, e50_3, t0, t4]
  rw [X17_v76, e72, h71, h61, h51]
  rfl

end Cert.KernelIdeal.Val

end
-- ==== Proof.RefStages.lean ====
/-
  The reference program's stages, each as one of the shared functions of the stage before: the four mixed stacks, the batched product,
  the column degrees of the product with its diagonal zeroed, their safe reciprocals, the normalised product, the channel mean and the
  symmetrisation. The reference zeroes the diagonal by multiplying with 1 − I, which at an entry is a multiplication by 1 or by 0.
-/
import proofs.«140696_j56040733278620_2_alg».proof.Proof.Gen.ReferenceIdeal.Read
import proofs.«140696_j56040733278620_2_alg».proof.Proof.KI.SpecAll
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx
open Cert.KernelIdeal.Val Cert.SpecHost

/-- The reference's edge-type stack with the edge type first. -/
def a3R (x0 : (⟨S1x2048x2048x8, .f32⟩ : BufTy).Contents (Elt Ideal)) : Cert.KernelIdeal.S8x2048x2048.Idx → EReal := fun i => x0 (ix4 (0 : Fin 1) (i 1) (i 2) (i 0))
/-- A table of weights with its two unit axes dropped. -/
def swR (T : (⟨S8x8x1x1, .f32⟩ : BufTy).Contents (Elt Ideal)) : Cert.KernelIdeal.S8x8.Idx → EReal := fun i => T (ix4 (i 0) (i 1) (0 : Fin 1) (0 : Fin 1))

/-- The mixed stack for table x1. -/
theorem gt_v15 (x0 : (⟨S1x2048x2048x8, .f32⟩ : BufTy).Contents (Elt Ideal)) (x1 : (⟨S8x8x1x1, .f32⟩ : BufTy).Contents (Elt Ideal)) : val_main_v15 (F := Ideal) x0 x1 = gtG (a3R x0) (swR (val_main_v11 (F := Ideal) x1)) := by
  funext i
  obtain ⟨ch, p, q, rfl⟩ : ∃ (ch : Fin 8) (p : Fin 2048) (q : Fin 2048), i = ix3 ch p q := ⟨i 0, i 1, i 2, eq_ix3 i⟩
  rw [val_main_v15_apply, val_main_cst_2_apply]
  show Ideal.ofBits .f32 0x00000000#32 + _ = gtSum (a3R x0) (swR (val_main_v11 (F := Ideal) x1)) ch p q
  rw [Ideal.ofBits_zero_f32, zero_add]
  unfold gtSum
  refine Finset.sum_congr rfl fun e _ => ?_
  rw [val_main_v14_apply, val_main_v12_apply, val_main_v13_apply, val_main_v0_apply]
  show x0 _ * val_main_v11 (F := Ideal) x1 _ = x0 _ * val_main_v11 (F := Ideal) x1 _
  refine congrArg₂ (· * ·) (congrArg x0 ?_) (congrArg (val_main_v11 (F := Ideal) x1) ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The mixed stack for table x2. -/
theorem gt_v30 (x0 : (⟨S1x2048x2048x8, .f32⟩ : BufTy).Contents (Elt Ideal)) (x2 : (⟨S8x8x1x1, .f32⟩ : BufTy).Contents (Elt Ideal)) : val_main_v30 (F := Ideal) x0 x2 = gtG (a3R x0) (swR (val_main_v26 (F := Ideal) x2)) := by
  funext i
  obtain ⟨ch, p, q, rfl⟩ : ∃ (ch : Fin 8) (p : Fin 2048) (q : Fin 2048), i = ix3 ch p q := ⟨i 0, i 1, i 2, eq_ix3 i⟩
  rw [val_main_v30_apply, val_main_cst_6_apply]
  show Ideal.ofBits .f32 0x00000000#32 + _ = gtSum (a3R x0) (swR (val_main_v26 (F := Ideal) x2)) ch p q
  rw [Ideal.ofBits_zero_f32, zero_add]
  unfold gtSum
  refine Finset.sum_congr rfl fun e _ => ?_
  rw [val_main_v29_apply, val_main_v27_apply, val_main_v28_apply, val_main_v0_apply]
  show x0 _ * val_main_v26 (F := Ideal) x2 _ = x0 _ * val_main_v26 (F := Ideal) x2 _
  refine congrArg₂ (· * ·) (congrArg x0 ?_) (congrArg (val_main_v26 (F := Ideal) x2) ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The mixed stack for table x3. -/
theorem gt_v71 (x0 : (⟨S1x2048x2048x8, .f32⟩ : BufTy).Contents (Elt Ideal)) (x3 : (⟨S8x8x1x1, .f32⟩ : BufTy).Contents (Elt Ideal)) : val_main_v71 (F := Ideal) x0 x3 = gtG (a3R x0) (swR (val_main_v67 (F := Ideal) x3)) := by
  funext i
  obtain ⟨ch, p, q, rfl⟩ : ∃ (ch : Fin 8) (p : Fin 2048) (q : Fin 2048), i = ix3 ch p q := ⟨i 0, i 1, i 2, eq_ix3 i⟩
  rw [val_main_v71_apply, val_main_cst_17_apply]
  show Ideal.ofBits .f32 0x00000000#32 + _ = gtSum (a3R x0) (swR (val_main_v67 (F := Ideal) x3)) ch p q
  rw [Ideal.ofBits_zero_f32, zero_add]
  unfold gtSum
  refine Finset.sum_congr rfl fun e _ => ?_
  rw [val_main_v70_apply, val_main_v68_apply, val_main_v69_apply, val_main_v0_apply]
  show x0 _ * val_main_v67 (F := Ideal) x3 _ = x0 _ * val_main_v67 (F := Ideal) x3 _
  refine congrArg₂ (· * ·) (congrArg x0 ?_) (congrArg (val_main_v67 (F := Ideal) x3) ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The mixed stack for table x4. -/
theorem gt_v112 (x0 : (⟨S1x2048x2048x8, .f32⟩ : BufTy).Contents (Elt Ideal)) (x4 : (⟨S8x8x1x1, .f32⟩ : BufTy).Contents (Elt Ideal)) : val_main_v112 (F := Ideal) x0 x4 = gtG (a3R x0) (swR (val_main_v108 (F := Ideal) x4)) := by
  funext i
  obtain ⟨ch, p, q, rfl⟩ : ∃ (ch : Fin 8) (p : Fin 2048) (q : Fin 2048), i = ix3 ch p q := ⟨i 0, i 1, i 2, eq_ix3 i⟩
  rw [val_main_v112_apply, val_main_cst_29_apply]
  show Ideal.ofBits .f32 0x00000000#32 + _ = gtSum (a3R x0) (swR (val_main_v108 (F := Ideal) x4)) ch p q
  rw [Ideal.ofBits_zero_f32, zero_add]
  unfold gtSum
  refine Finset.sum_congr rfl fun e _ => ?_
  rw [val_main_v111_apply, val_main_v109_apply, val_main_v110_apply, val_main_v0_apply]
  show x0 _ * val_main_v108 (F := Ideal) x4 _ = x0 _ * val_main_v108 (F := Ideal) x4 _
  refine congrArg₂ (· * ·) (congrArg x0 ?_) (congrArg (val_main_v108 (F := Ideal) x4) ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The host's batched product is the batched product. -/
theorem dot_eq (l r : FVec Ideal S8x2048x2048 .f32) :
    Host.dotGeneral (F := Ideal) dot_S8x2048x2048_S8x2048x2048_S8x2048x2048_2_1_1_2_0_0 none l r = mmG l r := by
  funext i
  obtain ⟨ch, p, q, rfl⟩ : ∃ (ch : Fin 8) (p : Fin 2048) (q : Fin 2048), i = ix3 ch p q := ⟨i 0, i 1, i 2, eq_ix3 i⟩
  simp only [Host.dotGeneral]
  rw [Ideal.dotGeneral_apply, ← Equiv.sum_comp (ValueIdx.contrEquiv1 dot_S8x2048x2048_S8x2048x2048_S8x2048x2048_2_1_1_2_0_0 2048 rfl rfl).symm]
  show _ = mmAt l r ch p q
  unfold mmAt
  refine Finset.sum_congr rfl fun k _ => ?_
  have hk := ValueIdx.contrEquiv1_symm_val dot_S8x2048x2048_S8x2048x2048_S8x2048x2048_2_1_1_2_0_0 2048 rfl rfl k
  refine congrArg₂ (· * ·) (congrArg l ?_) (congrArg r ?_)
  · funext a; apply Fin.ext
    match a with
    | ⟨0, _⟩ => exact lhs_main_v31_0 _ _
    | ⟨1, _⟩ => exact lhs_main_v31_1 _ _
    | ⟨2, _⟩ => exact (lhs_main_v31_2 _ _).trans hk
  · funext a; apply Fin.ext
    match a with
    | ⟨0, _⟩ => exact rhs_main_v31_0 _ _
    | ⟨1, _⟩ => exact (rhs_main_v31_1 _ _).trans hk
    | ⟨2, _⟩ => exact rhs_main_v31_2 _ _

/-- 1 − I at an entry. -/
theorem mask_v41 (ch : Fin 8) (i j : Fin 2048) : val_main_v41 (F := Ideal) (ix3 ch i j) = if i.val ≠ j.val then (1 : EReal) else 0 := by
  rw [val_main_v41_apply, val_main_v40_apply, val_main_v39_apply, val_main_v38_apply, val_main_cst_7_apply, val_main_v37_apply, val_main_v36_apply,
    val_main_v35_apply, val_main_v34_apply, val_main_c_apply, val_main_v33_apply, val_main_v32_apply]
  have hi : i.val < 2048 := i.isLt
  have hj : j.val < 2048 := j.isLt
  show Ideal.ofBits .f32 0x3F800000#32 - (((IntOp.cmpi .eq (IntOp.addi (BitVec.ofNat 32 i.val) (BitVec.ofNat 32 0)) (BitVec.ofNat 32 j.val)).toNat : ℝ) : EReal) = _
  have hw : IntOp.addi (BitVec.ofNat 32 i.val) (BitVec.ofNat 32 0) = BitVec.ofNat 32 (i.val + 0) := (BitVec.ofNat_add ..).symm
  rw [hw, Cert.Lib.cmpi_eq_ofNat32 (by omega) (by omega), Ideal.ofBits_one_f32]
  by_cases h : i.val ≠ j.val
  · rw [if_pos h, if_neg (by omega)]
    show (1 : EReal) - (((0 : ℕ) : ℝ) : EReal) = 1
    simp
  · rw [if_neg h, if_pos (by omega)]
    show (1 : EReal) - (((1 : ℕ) : ℝ) : EReal) = 0
    have h1 : (1 : EReal) = ((1 : ℝ) : EReal) := rfl
    rw [Nat.cast_one, h1, ← EReal.coe_sub, sub_self]
    rfl

/-- 1 − I at an entry. -/
theorem mask_v82 (ch : Fin 8) (i j : Fin 2048) : val_main_v82 (F := Ideal) (ix3 ch i j) = if i.val ≠ j.val then (1 : EReal) else 0 := by
  rw [val_main_v82_apply, val_main_v81_apply, val_main_v80_apply, val_main_v79_apply, val_main_cst_19_apply, val_main_v78_apply, val_main_v77_apply,
    val_main_v76_apply, val_main_v75_apply, val_main_c_18_apply, val_main_v74_apply, val_main_v73_apply]
  have hi : i.val < 2048 := i.isLt
  have hj : j.val < 2048 := j.isLt
  show Ideal.ofBits .f32 0x3F800000#32 - (((IntOp.cmpi .eq (IntOp.addi (BitVec.ofNat 32 i.val) (BitVec.ofNat 32 0)) (BitVec.ofNat 32 j.val)).toNat : ℝ) : EReal) = _
  have hw : IntOp.addi (BitVec.ofNat 32 i.val) (BitVec.ofNat 32 0) = BitVec.ofNat 32 (i.val + 0) := (BitVec.ofNat_add ..).symm
  rw [hw, Cert.Lib.cmpi_eq_ofNat32 (by omega) (by omega), Ideal.ofBits_one_f32]
  by_cases h : i.val ≠ j.val
  · rw [if_pos h, if_neg (by omega)]
    show (1 : EReal) - (((0 : ℕ) : ℝ) : EReal) = 1
    simp
  · rw [if_neg h, if_pos (by omega)]
    show (1 : EReal) - (((1 : ℕ) : ℝ) : EReal) = 0
    have h1 : (1 : EReal) = ((1 : ℝ) : EReal) := rfl
    rw [Nat.cast_one, h1, ← EReal.coe_sub, sub_self]
    rfl

/-- A sum over the rows of a column with the diagonal zeroed by a 1-or-0 factor is the column degree. -/
theorem deg_of_mask (H : FVec Ideal S8x2048x2048 .f32) (M : FVec Ideal S8x2048x2048 .f32)
    (hM : ∀ (ch : Fin 8) (i j : Fin 2048), M (ix3 ch i j) = if i.val ≠ j.val then (1 : EReal) else 0) (ch : Fin 8) (j : Fin 2048) :
    ∑ k : Fin 2048, H (ix3 ch k j) * M (ix3 ch k j) = degAt H ch j := by
  unfold degAt
  refine Finset.sum_congr rfl fun k _ => ?_
  rw [hM]
  by_cases h : k.val ≠ j.val
  · rw [if_pos h, if_pos h, mul_one]
  · rw [if_neg h, if_neg h, mul_zero]

/-- The first column degrees. -/
theorem deg_v43 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) : val_main_v43 (F := Ideal) x0 x1 x2 = degG2 (val_main_v31 (F := Ideal) x0 x1 x2) := by
  funext i
  obtain ⟨ch, j, rfl⟩ : ∃ (ch : Fin 8) (j : Fin 2048), i = ix2 ch j := ⟨i 0, i 1, eq_ix2 i⟩
  rw [val_main_v43_apply, val_main_cst_8_apply]
  show Ideal.ofBits .f32 0x00000000#32 + _ = degAt (val_main_v31 (F := Ideal) x0 x1 x2) ch j
  rw [Ideal.ofBits_zero_f32, zero_add, ← deg_of_mask (val_main_v31 (F := Ideal) x0 x1 x2) (val_main_v41 (F := Ideal)) mask_v41 ch j]
  refine Finset.sum_congr rfl fun k _ => ?_
  rw [val_main_v42_apply]
  show val_main_v31 (F := Ideal) x0 x1 x2 _ * val_main_v41 (F := Ideal) _ = _
  refine congrArg₂ (· * ·) (congrArg _ ?_) (congrArg _ ?_) <;>
  · funext a; apply Fin.ext
    match a with
    | ⟨0, _⟩ => rfl
    | ⟨1, _⟩ => rfl
    | ⟨2, _⟩ => rfl

/-- The second column degrees. -/
theorem deg_v84 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) (x3 : (⟨S8x8x1x1, .f32⟩ : BufTy).Contents (Elt Ideal)) : val_main_v84 (F := Ideal) x0 x1 x2 x3 = degG4 (val_main_v72 (F := Ideal) x0 x1 x2 x3) := by
  funext i
  obtain ⟨ch, j, rfl⟩ : ∃ (ch : Fin 8) (j : Fin 2048), i = ix2 ch j := ⟨i 0, i 1, eq_ix2 i⟩
  rw [val_main_v84_apply, val_main_cst_20_apply]
  show Ideal.ofBits .f32 0x00000000#32 + _ = degAt (val_main_v72 (F := Ideal) x0 x1 x2 x3) ch j
  rw [Ideal.ofBits_zero_f32, zero_add, ← deg_of_mask (val_main_v72 (F := Ideal) x0 x1 x2 x3) (val_main_v82 (F := Ideal)) mask_v82 ch j]
  refine Finset.sum_congr rfl fun k _ => ?_
  rw [val_main_v83_apply]
  show val_main_v72 (F := Ideal) x0 x1 x2 x3 _ * val_main_v82 (F := Ideal) _ = _
  refine congrArg₂ (· * ·) (congrArg _ ?_) (congrArg _ ?_) <;>
  · funext a; apply Fin.ext
    match a with
    | ⟨0, _⟩ => rfl
    | ⟨1, _⟩ => rfl
    | ⟨2, _⟩ => rfl

/-- The safe reciprocals of the first column degrees. -/
theorem dinv_v53 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) : val_main_v53 (F := Ideal) x0 x1 x2 = dinvF bcast_S_S8x2048 (val_main_v43 (F := Ideal) x0 x1 x2) := by
  unfold val_main_v53 val_main_v52 val_main_v51 val_main_v50 val_main_v49 val_main_v48 val_main_v47 val_main_v46 val_main_v45 val_main_v44
    val_main_cst_9 val_main_cst_10 val_main_cst_11 val_main_cst_12 val_main_cst_13
  rfl
/-- The safe reciprocals of the second column degrees. -/
theorem dinv_v94 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) (x3 : (⟨S8x8x1x1, .f32⟩ : BufTy).Contents (Elt Ideal)) : val_main_v94 (F := Ideal) x0 x1 x2 x3 = dinvF bcast_S_S8x2048 (val_main_v84 (F := Ideal) x0 x1 x2 x3) := by
  unfold val_main_v94 val_main_v93 val_main_v92 val_main_v91 val_main_v90 val_main_v89 val_main_v88 val_main_v87 val_main_v86 val_main_v85
    val_main_cst_21 val_main_cst_22 val_main_cst_23 val_main_cst_24 val_main_cst_25
  rfl

/-- A product whose left factor is H times a 1-or-0 mask times a row of scales is the normalised product. -/
theorem nmm_of_mask (H M : FVec Ideal S8x2048x2048 .f32) (D : FVec Ideal S8x2048 .f32) (N G : FVec Ideal S8x2048x2048 .f32)
    (hM : ∀ (ch : Fin 8) (i j : Fin 2048), M (ix3 ch i j) = if i.val ≠ j.val then (1 : EReal) else 0)
    (hN : ∀ (ch : Fin 8) (i j : Fin 2048), N (ix3 ch i j) = (H (ix3 ch i j) * M (ix3 ch i j)) * D (ix2 ch j)) :
    mmG N G = nmmG H D G := by
  funext i
  obtain ⟨ch, p, q, rfl⟩ : ∃ (ch : Fin 8) (p : Fin 2048) (q : Fin 2048), i = ix3 ch p q := ⟨i 0, i 1, i 2, eq_ix3 i⟩
  show mmAt N G ch p q = nmmAt H D G ch p q
  unfold mmAt nmmAt
  refine Finset.sum_congr rfl fun k _ => ?_
  rw [hN, hM]
  by_cases h : p.val ≠ k.val
  · rw [if_pos h, if_pos h, mul_one]
  · rw [if_neg h, if_neg h, mul_zero, zero_mul]

/-- The first normalised product. -/
theorem nmm_v72 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) (x3 : (⟨S8x8x1x1, .f32⟩ : BufTy).Contents (Elt Ideal)) :
    val_main_v72 (F := Ideal) x0 x1 x2 x3 = nmmG (val_main_v31 (F := Ideal) x0 x1 x2) (val_main_v53 (F := Ideal) x0 x1 x2) (val_main_v71 (F := Ideal) x0 x3) := by
  unfold val_main_v72
  rw [dot_eq]
  refine nmm_of_mask _ (val_main_v41 (F := Ideal)) _ _ _ mask_v41 fun ch i j => ?_
  rw [val_main_v56_apply, val_main_v42_apply, val_main_v55_apply, val_main_v54_apply]
  refine congrArg (fun z : EReal => (val_main_v31 (F := Ideal) x0 x1 x2 (ix3 ch i j) * val_main_v41 (F := Ideal) (ix3 ch i j)) * z) (congrArg (val_main_v53 (F := Ideal) x0 x1 x2) ?_)
  funext a; apply Fin.ext
  match a with
  | ⟨0, _⟩ => rfl
  | ⟨1, _⟩ => rfl

/-- The second normalised product. -/
theorem nmm_v113 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) (x3 : (⟨S8x8x1x1, .f32⟩ : BufTy).Contents (Elt Ideal)) (x4 : (⟨S8x8x1x1, .f32⟩ : BufTy).Contents (Elt Ideal)) :
    val_main_v113 (F := Ideal) x0 x1 x2 x3 x4 = nmmG (val_main_v72 (F := Ideal) x0 x1 x2 x3) (val_main_v94 (F := Ideal) x0 x1 x2 x3) (val_main_v112 (F := Ideal) x0 x4) := by
  unfold val_main_v113
  rw [dot_eq]
  refine nmm_of_mask _ (val_main_v82 (F := Ideal)) _ _ _ mask_v82 fun ch i j => ?_
  rw [val_main_v97_apply, val_main_v83_apply, val_main_v96_apply, val_main_v95_apply]
  refine congrArg (fun z : EReal => (val_main_v72 (F := Ideal) x0 x1 x2 x3 (ix3 ch i j) * val_main_v82 (F := Ideal) (ix3 ch i j)) * z) (congrArg (val_main_v94 (F := Ideal) x0 x1 x2 x3) ?_)
  funext a; apply Fin.ext
  match a with
  | ⟨0, _⟩ => rfl
  | ⟨1, _⟩ => rfl

/-- The channel mean. -/
theorem mean_v116 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) (x3 : (⟨S8x8x1x1, .f32⟩ : BufTy).Contents (Elt Ideal)) (x4 : (⟨S8x8x1x1, .f32⟩ : BufTy).Contents (Elt Ideal)) :
    val_main_v116 (F := Ideal) x0 x1 x2 x3 x4 = meanG (val_main_v113 (F := Ideal) x0 x1 x2 x3 x4) := by
  funext i
  obtain ⟨p, q, rfl⟩ : ∃ (p : Fin 2048) (q : Fin 2048), i = ix2 p q := ⟨i 0, i 1, eq_ix2 i⟩
  rw [val_main_v116_apply, val_main_v114_apply, val_main_cst_30_apply, val_main_v115_apply, val_main_cst_31_apply]
  show Ideal.div (Ideal.ofBits .f32 0x00000000#32 + _) _ = meanAt (val_main_v113 (F := Ideal) x0 x1 x2 x3 x4) p q
  rw [Ideal.ofBits_zero_f32, zero_add]
  unfold meanAt
  refine congrArg₂ Ideal.div (Finset.sum_congr rfl fun k _ => congrArg _ ?_) rfl
  funext a; apply Fin.ext
  match a with
  | ⟨0, _⟩ => rfl
  | ⟨1, _⟩ => rfl
  | ⟨2, _⟩ => rfl

/-- The symmetrisation. -/
theorem tail_v120 (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) (x3 : (⟨S8x8x1x1, .f32⟩ : BufTy).Contents (Elt Ideal)) (x4 : (⟨S8x8x1x1, .f32⟩ : BufTy).Contents (Elt Ideal)) :
    val_main_v120 (F := Ideal) x0 x1 x2 x3 x4 = tailF bcast_S_S2048x2048 transposes_S2048x2048_S2048x2048_1_0 (val_main_v116 (F := Ideal) x0 x1 x2 x3 x4) := by
  unfold val_main_v120 val_main_v119 val_main_v118 val_main_v117 val_main_cst_32
  rfl

/-- THE REFERENCE'S RESULT: the whole computation applied to its stack and its four softmax tables. -/
theorem ref_value (x0 : (⟨S1x2048x2048x8, .f32⟩ : BufTy).Contents (Elt Ideal)) (x1 : (⟨S8x8x1x1, .f32⟩ : BufTy).Contents (Elt Ideal)) (x2 : (⟨S8x8x1x1, .f32⟩ : BufTy).Contents (Elt Ideal)) (x3 : (⟨S8x8x1x1, .f32⟩ : BufTy).Contents (Elt Ideal)) (x4 : (⟨S8x8x1x1, .f32⟩ : BufTy).Contents (Elt Ideal)) :
    val_main_v120 (F := Ideal) x0 x1 x2 x3 x4 = specOut bcast_S_S8x2048 bcast_S_S2048x2048 transposes_S2048x2048_S2048x2048_1_0
      (a3R x0) (swR (val_main_v11 (F := Ideal) x1)) (swR (val_main_v26 (F := Ideal) x2)) (swR (val_main_v67 (F := Ideal) x3)) (swR (val_main_v108 (F := Ideal) x4)) := by
  have h31 : val_main_v31 (F := Ideal) x0 x1 x2 = mmG (gtG (a3R x0) (swR (val_main_v11 (F := Ideal) x1))) (gtG (a3R x0) (swR (val_main_v26 (F := Ideal) x2))) := by
    unfold val_main_v31; rw [dot_eq, gt_v15, gt_v30]
  rw [tail_v120, mean_v116, nmm_v113, dinv_v94, deg_v84, nmm_v72, dinv_v53, deg_v43, h31, gt_v71, gt_v112]
  rfl

end Cert.ReferenceIdeal.RefVal

end
-- ==== Proof.RefSoftmax.lean ====
/-
  The reference's four softmax tables, each read at an entry: exp (w[c, e] − M[c]) over the sum of such along the row, M[c] the row's
  maximum (taken from −∞).
-/
import proofs.«140696_j56040733278620_2_alg».proof.Proof.Gen.ReferenceIdeal.Read
import proofs.«140696_j56040733278620_2_alg».proof.Proof.SpecHost
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx
open Cert.SpecHost

theorem sm_v11 (x1 : (⟨S8x8x1x1, .f32⟩ : BufTy).Contents (Elt Ideal)) (c e : Fin 8) :
    val_main_v11 (F := Ideal) x1 (ix4 c e (0 : Fin 1) (0 : Fin 1)) = smAt (fun c e => x1 (ix4 c e (0 : Fin 1) (0 : Fin 1))) c e := by
  have hM : ∀ j : S8x8x1x1.Idx, (j 0).val = c.val → val_main_v5 (F := Ideal) x1 j
      = FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x1 (ix4 c e' (0 : Fin 1) (0 : Fin 1)))) := by
    intro j hj
    rw [val_main_v5_apply, val_main_v4_apply, val_main_v3_apply, val_main_v2_apply, val_main_cst_0_apply]
    refine congrArg (FloatOps.maximumf (F := Ideal) (φ := .f32) (Ideal.ofBits .f32 0xFF800000#32)) ?_
    unfold val_main_v1
    refine (Host.reduce_eq_fold_single (α := Ideal .f32) FloatOps.maximumf (x1 : FVec Ideal S8x8x1x1 .f32) _ reducesTo_S8x8x1x1_S8x1x1_d1 (by decide : S8x8x1x1.Reduces [1] S8x1x1) h_S_ _).trans ?_
    refine congrArg₂ (Finset.fold (FloatOps.maximumf (F := Ideal) (φ := .f32)) · · Finset.univ) rfl (funext fun e' => ?_)
    show x1 _ = x1 _
    refine congrArg x1 (funext fun a => Fin.ext ?_)
    match a with
    | ⟨0, _⟩ => exact hj
    | ⟨1, _⟩ => rfl
    | ⟨2, _⟩ => rfl
    | ⟨3, _⟩ => rfl
  have hE : ∀ e' : Fin 8, val_main_v7 (F := Ideal) x1 (ix4 c e' (0 : Fin 1) (0 : Fin 1))
      = FloatOps.hostUnary (F := Ideal) (φ := .f32) .exp (x1 (ix4 c e' (0 : Fin 1) (0 : Fin 1)) - FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x1 (ix4 c e' (0 : Fin 1) (0 : Fin 1))))) := fun e' => by
    rw [val_main_v7_apply, val_main_v6_apply, hM _ rfl]
    rfl
  rw [val_main_v11_apply, val_main_v10_apply, val_main_v9_apply, val_main_v8_apply, val_main_cst_1_apply, hE]
  unfold smAt
  refine congrArg₂ Ideal.div rfl (congrArg₂ (· + ·) rfl (Finset.sum_congr rfl fun k _ => ?_))
  rw [show idx_main_v8 (idx_main_v9 (idx_main_v10 (ix4 c e (0 : Fin 1) (0 : Fin 1)))) k = ix4 c k (0 : Fin 1) (0 : Fin 1) from funext fun a => Fin.ext (by
    match a with
    | ⟨0, _⟩ => rfl
    | ⟨1, _⟩ => rfl
    | ⟨2, _⟩ => rfl
    | ⟨3, _⟩ => rfl)]
  exact hE k

theorem sm_v26 (x2 : (⟨S8x8x1x1, .f32⟩ : BufTy).Contents (Elt Ideal)) (c e : Fin 8) :
    val_main_v26 (F := Ideal) x2 (ix4 c e (0 : Fin 1) (0 : Fin 1)) = smAt (fun c e => x2 (ix4 c e (0 : Fin 1) (0 : Fin 1))) c e := by
  have hM : ∀ j : S8x8x1x1.Idx, (j 0).val = c.val → val_main_v20 (F := Ideal) x2 j
      = FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x2 (ix4 c e' (0 : Fin 1) (0 : Fin 1)))) := by
    intro j hj
    rw [val_main_v20_apply, val_main_v19_apply, val_main_v18_apply, val_main_v17_apply, val_main_cst_4_apply]
    refine congrArg (FloatOps.maximumf (F := Ideal) (φ := .f32) (Ideal.ofBits .f32 0xFF800000#32)) ?_
    unfold val_main_v16
    refine (Host.reduce_eq_fold_single (α := Ideal .f32) FloatOps.maximumf (x2 : FVec Ideal S8x8x1x1 .f32) _ reducesTo_S8x8x1x1_S8x1x1_d1 (by decide : S8x8x1x1.Reduces [1] S8x1x1) h_S_ _).trans ?_
    refine congrArg₂ (Finset.fold (FloatOps.maximumf (F := Ideal) (φ := .f32)) · · Finset.univ) rfl (funext fun e' => ?_)
    show x2 _ = x2 _
    refine congrArg x2 (funext fun a => Fin.ext ?_)
    match a with
    | ⟨0, _⟩ => exact hj
    | ⟨1, _⟩ => rfl
    | ⟨2, _⟩ => rfl
    | ⟨3, _⟩ => rfl
  have hE : ∀ e' : Fin 8, val_main_v22 (F := Ideal) x2 (ix4 c e' (0 : Fin 1) (0 : Fin 1))
      = FloatOps.hostUnary (F := Ideal) (φ := .f32) .exp (x2 (ix4 c e' (0 : Fin 1) (0 : Fin 1)) - FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x2 (ix4 c e' (0 : Fin 1) (0 : Fin 1))))) := fun e' => by
    rw [val_main_v22_apply, val_main_v21_apply, hM _ rfl]
    rfl
  rw [val_main_v26_apply, val_main_v25_apply, val_main_v24_apply, val_main_v23_apply, val_main_cst_5_apply, hE]
  unfold smAt
  refine congrArg₂ Ideal.div rfl (congrArg₂ (· + ·) rfl (Finset.sum_congr rfl fun k _ => ?_))
  rw [show idx_main_v23 (idx_main_v24 (idx_main_v25 (ix4 c e (0 : Fin 1) (0 : Fin 1)))) k = ix4 c k (0 : Fin 1) (0 : Fin 1) from funext fun a => Fin.ext (by
    match a with
    | ⟨0, _⟩ => rfl
    | ⟨1, _⟩ => rfl
    | ⟨2, _⟩ => rfl
    | ⟨3, _⟩ => rfl)]
  exact hE k

theorem sm_v67 (x3 : (⟨S8x8x1x1, .f32⟩ : BufTy).Contents (Elt Ideal)) (c e : Fin 8) :
    val_main_v67 (F := Ideal) x3 (ix4 c e (0 : Fin 1) (0 : Fin 1)) = smAt (fun c e => x3 (ix4 c e (0 : Fin 1) (0 : Fin 1))) c e := by
  have hM : ∀ j : S8x8x1x1.Idx, (j 0).val = c.val → val_main_v61 (F := Ideal) x3 j
      = FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x3 (ix4 c e' (0 : Fin 1) (0 : Fin 1)))) := by
    intro j hj
    rw [val_main_v61_apply, val_main_v60_apply, val_main_v59_apply, val_main_v58_apply, val_main_cst_15_apply]
    refine congrArg (FloatOps.maximumf (F := Ideal) (φ := .f32) (Ideal.ofBits .f32 0xFF800000#32)) ?_
    unfold val_main_v57
    refine (Host.reduce_eq_fold_single (α := Ideal .f32) FloatOps.maximumf (x3 : FVec Ideal S8x8x1x1 .f32) _ reducesTo_S8x8x1x1_S8x1x1_d1 (by decide : S8x8x1x1.Reduces [1] S8x1x1) h_S_ _).trans ?_
    refine congrArg₂ (Finset.fold (FloatOps.maximumf (F := Ideal) (φ := .f32)) · · Finset.univ) rfl (funext fun e' => ?_)
    show x3 _ = x3 _
    refine congrArg x3 (funext fun a => Fin.ext ?_)
    match a with
    | ⟨0, _⟩ => exact hj
    | ⟨1, _⟩ => rfl
    | ⟨2, _⟩ => rfl
    | ⟨3, _⟩ => rfl
  have hE : ∀ e' : Fin 8, val_main_v63 (F := Ideal) x3 (ix4 c e' (0 : Fin 1) (0 : Fin 1))
      = FloatOps.hostUnary (F := Ideal) (φ := .f32) .exp (x3 (ix4 c e' (0 : Fin 1) (0 : Fin 1)) - FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x3 (ix4 c e' (0 : Fin 1) (0 : Fin 1))))) := fun e' => by
    rw [val_main_v63_apply, val_main_v62_apply, hM _ rfl]
    rfl
  rw [val_main_v67_apply, val_main_v66_apply, val_main_v65_apply, val_main_v64_apply, val_main_cst_16_apply, hE]
  unfold smAt
  refine congrArg₂ Ideal.div rfl (congrArg₂ (· + ·) rfl (Finset.sum_congr rfl fun k _ => ?_))
  rw [show idx_main_v64 (idx_main_v65 (idx_main_v66 (ix4 c e (0 : Fin 1) (0 : Fin 1)))) k = ix4 c k (0 : Fin 1) (0 : Fin 1) from funext fun a => Fin.ext (by
    match a with
    | ⟨0, _⟩ => rfl
    | ⟨1, _⟩ => rfl
    | ⟨2, _⟩ => rfl
    | ⟨3, _⟩ => rfl)]
  exact hE k

theorem sm_v108 (x4 : (⟨S8x8x1x1, .f32⟩ : BufTy).Contents (Elt Ideal)) (c e : Fin 8) :
    val_main_v108 (F := Ideal) x4 (ix4 c e (0 : Fin 1) (0 : Fin 1)) = smAt (fun c e => x4 (ix4 c e (0 : Fin 1) (0 : Fin 1))) c e := by
  have hM : ∀ j : S8x8x1x1.Idx, (j 0).val = c.val → val_main_v102 (F := Ideal) x4 j
      = FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x4 (ix4 c e' (0 : Fin 1) (0 : Fin 1)))) := by
    intro j hj
    rw [val_main_v102_apply, val_main_v101_apply, val_main_v100_apply, val_main_v99_apply, val_main_cst_27_apply]
    refine congrArg (FloatOps.maximumf (F := Ideal) (φ := .f32) (Ideal.ofBits .f32 0xFF800000#32)) ?_
    unfold val_main_v98
    refine (Host.reduce_eq_fold_single (α := Ideal .f32) FloatOps.maximumf (x4 : FVec Ideal S8x8x1x1 .f32) _ reducesTo_S8x8x1x1_S8x1x1_d1 (by decide : S8x8x1x1.Reduces [1] S8x1x1) h_S_ _).trans ?_
    refine congrArg₂ (Finset.fold (FloatOps.maximumf (F := Ideal) (φ := .f32)) · · Finset.univ) rfl (funext fun e' => ?_)
    show x4 _ = x4 _
    refine congrArg x4 (funext fun a => Fin.ext ?_)
    match a with
    | ⟨0, _⟩ => exact hj
    | ⟨1, _⟩ => rfl
    | ⟨2, _⟩ => rfl
    | ⟨3, _⟩ => rfl
  have hE : ∀ e' : Fin 8, val_main_v104 (F := Ideal) x4 (ix4 c e' (0 : Fin 1) (0 : Fin 1))
      = FloatOps.hostUnary (F := Ideal) (φ := .f32) .exp (x4 (ix4 c e' (0 : Fin 1) (0 : Fin 1)) - FloatOps.maximumf (F := Ideal) (φ := .f32) (Ideal.ofBits .f32 0xFF800000#32)
          ((Finset.univ : Finset (Fin 8)).fold (FloatOps.maximumf (F := Ideal) (φ := .f32)) (Ideal.ofBits .f32 0xFF800000#32) (fun e' => x4 (ix4 c e' (0 : Fin 1) (0 : Fin 1))))) := fun e' => by
    rw [val_main_v104_apply, val_main_v103_apply, hM _ rfl]
    rfl
  rw [val_main_v108_apply, val_main_v107_apply, val_main_v106_apply, val_main_v105_apply, val_main_cst_28_apply, hE]
  unfold smAt
  refine congrArg₂ Ideal.div rfl (congrArg₂ (· + ·) rfl (Finset.sum_congr rfl fun k _ => ?_))
  rw [show idx_main_v105 (idx_main_v106 (idx_main_v107 (ix4 c e (0 : Fin 1) (0 : Fin 1)))) k = ix4 c k (0 : Fin 1) (0 : Fin 1) from funext fun a => Fin.ext (by
    match a with
    | ⟨0, _⟩ => rfl
    | ⟨1, _⟩ => rfl
    | ⟨2, _⟩ => rfl
    | ⟨3, _⟩ => rfl)]
  exact hE k

end Cert.ReferenceIdeal.RefVal

end
-- ==== Proof.Bridge.lean ====
/-
  The two programs compute the same function of the same arrays: the kernel program's transposed edge-type stack is the reference's
  stack with the edge type first, its softmax of a table with the unit axes dropped is the reference's softmax with the unit axes
  dropped afterwards, and from there on both results are the one shared function of the stack and the four tables.
-/
import proofs.«140696_j56040733278620_2_alg».proof.Proof.KI.ValHost
import proofs.«140696_j56040733278620_2_alg».proof.Proof.RefStages
import proofs.«140696_j56040733278620_2_alg».proof.Proof.RefSoftmax
import Idealize.ShloMosaic.Lib.ValueIdx

set_option maxRecDepth 16384

noncomputable section

namespace Cert.Bridge

open Idealize.ShloMosaic Idealize.ShloMosaic.TcCoe Idealize.ShloMosaic.ValueIdx Idealize.SL.Sem
open Cert.KernelIdeal.Val Cert.ReferenceIdeal.RefVal Cert.ReferenceIdeal.Read Cert.SpecHost

theorem a3_eq (x : FVec Ideal Cert.KernelIdeal.S1x2048x2048x8 .f32) : a3K x = a3R x := by
  funext i
  obtain ⟨e, p, q, rfl⟩ : ∃ (e : Fin 8) (p : Fin 2048) (q : Fin 2048), i = ix3 e p q := ⟨i 0, i 1, i 2, eq_ix3 i⟩
  exact a3K_apply x e p q

theorem sm_eq_v11 (w : FVec Ideal Cert.KernelIdeal.S8x8x1x1 .f32) : smK w = swR (val_main_v11 (F := Ideal) w) := by
  funext i
  obtain ⟨c, e, rfl⟩ : ∃ (c : Fin 8) (e : Fin 8), i = ix2 c e := ⟨i 0, i 1, eq_ix2 i⟩
  exact (smK_apply w c e).trans (sm_v11 w c e).symm

theorem sm_eq_v26 (w : FVec Ideal Cert.KernelIdeal.S8x8x1x1 .f32) : smK w = swR (val_main_v26 (F := Ideal) w) := by
  funext i
  obtain ⟨c, e, rfl⟩ : ∃ (c : Fin 8) (e : Fin 8), i = ix2 c e := ⟨i 0, i 1, eq_ix2 i⟩
  exact (smK_apply w c e).trans (sm_v26 w c e).symm

theorem sm_eq_v67 (w : FVec Ideal Cert.KernelIdeal.S8x8x1x1 .f32) : smK w = swR (val_main_v67 (F := Ideal) w) := by
  funext i
  obtain ⟨c, e, rfl⟩ : ∃ (c : Fin 8) (e : Fin 8), i = ix2 c e := ⟨i 0, i 1, eq_ix2 i⟩
  exact (smK_apply w c e).trans (sm_v67 w c e).symm

theorem sm_eq_v108 (w : FVec Ideal Cert.KernelIdeal.S8x8x1x1 .f32) : smK w = swR (val_main_v108 (F := Ideal) w) := by
  funext i
  obtain ⟨c, e, rfl⟩ : ∃ (c : Fin 8) (e : Fin 8), i = ix2 c e := ⟨i 0, i 1, eq_ix2 i⟩
  exact (smK_apply w c e).trans (sm_v108 w c e).symm

/-- Both results are the one shared function of the same arrays. -/
theorem results_eq (m : (ℓ : Loc Cert.KernelIdeal.nD Cert.KernelIdeal.τ Cert.KernelIdeal.sig) → Buf (Elt Ideal) ℓ) (c : Dev Cert.KernelIdeal.nD) :
    val_main_v120 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Hand.X17 m c (Proc.devRef .tc Cert.KernelIdeal.main_v76) := by
  rw [ref_value, kernel_value m c, a3_eq, sm_eq_v11, sm_eq_v26, sm_eq_v67, sm_eq_v108]

end Cert.Bridge

end
-- ==== Proof.lean ====
/-
  The five claims about the graph-transformer message-passing kernel and its reference.

  The kernel runs seven grid kernels among short host stretches: a channel-mixing pass that forms, for four 8 x 8 tables of
  softmax weights w, the stacks  sum over e of A[e] · w[c, e];  a batched product of two of the stacks; twice a column-degree
  pass (deg[c, j] = sum over i ≠ j of H[c, i, j]), the host's safe reciprocal of the degrees, and a batched product whose left factor
  is H with its diagonal zeroed and its columns scaled by those reciprocals; a mean over the channels; and the host's
  symmetrisation (M + Mᵀ) / 2. The frames follow from the chain of the seven regions' records between the host stretches; the
  ideal pass rewrote nothing, so the idealization statement is trivial.
-/
import proofs.«140696_j56040733278620_2_alg».proof.Defs
import proofs.«140696_j56040733278620_2_alg».proof.Proof.Gen.Kernel
import proofs.«140696_j56040733278620_2_alg».proof.Proof.Gen.KernelIdeal
import proofs.«140696_j56040733278620_2_alg».proof.Proof.Gen.ReferenceIdeal
import proofs.«140696_j56040733278620_2_alg».proof.Proof.Gen.Pre_finite_inputs
import proofs.«140696_j56040733278620_2_alg».proof.Proof.Gen.ReferenceIdeal.Read
import proofs.«140696_j56040733278620_2_alg».proof.Proof.K.Regions
import proofs.«140696_j56040733278620_2_alg».proof.Proof.KI.Regions
import proofs.«140696_j56040733278620_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end, at the exact instance, with the same result: the last valuation's result array on the kernel's side, which is the
    one shared function of the arguments that the reference's composed term is too. -/
theorem alg : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' _ hagree
  refine ⟨fun c => Cert.KernelIdeal.Hand.X17 m c (Proc.devRef .tc Cert.KernelIdeal.main_v76), ?_, ?_⟩
  · exact (θ_run Cert.KernelIdeal.defs _ _).mono (fun _ h c =>
      ⟨h c _ (Cert.KernelIdeal.Hand.mem_uc Cert.KernelIdeal.main_v76 (by decide)),
       (h c _ (Cert.KernelIdeal.Hand.mem_uc Cert.KernelIdeal.main_arg0 (by decide))).trans (Cert.KernelIdeal.Hand.X17_main_arg0 m c),
       (h c _ (Cert.KernelIdeal.Hand.mem_uc Cert.KernelIdeal.main_arg1 (by decide))).trans (Cert.KernelIdeal.Hand.X17_main_arg1 m c),
       (h c _ (Cert.KernelIdeal.Hand.mem_uc Cert.KernelIdeal.main_arg2 (by decide))).trans (Cert.KernelIdeal.Hand.X17_main_arg2 m c),
       (h c _ (Cert.KernelIdeal.Hand.mem_uc Cert.KernelIdeal.main_arg3 (by decide))).trans (Cert.KernelIdeal.Hand.X17_main_arg3 m c),
       (h c _ (Cert.KernelIdeal.Hand.mem_uc Cert.KernelIdeal.main_arg4 (by decide))).trans (Cert.KernelIdeal.Hand.X17_main_arg4 m c)⟩)
      (Cert.KernelIdeal.Hand.run_all (F := Ideal) m g)
  · refine (θ_run Cert.ReferenceIdeal.defs _ _).mono (fun _ h c => ⟨(h c).1.trans ?_, (h c).2⟩) (Cert.ReferenceIdeal.Value.run (F := Ideal) m' g')
    obtain ⟨a0, a1, a2, a3, a4⟩ := hagree c
    rw [Cert.ReferenceIdeal.Read.val_main_v120_eq, a0, a1, a2, a3, a4]
    exact Cert.Bridge.results_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, alg⟩

end Cert.Proof

end
